-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S200000x2 : Shape := ⟨2, ![200000, 2]⟩
abbrev S200000x32 : Shape := ⟨2, ![200000, 32]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S288x128 : Shape := ⟨2, ![288, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S200000x32 : S_.BroadcastsInDim S200000x32 (![] : Fin 0 → Fin S200000x32.rank)
  reducesTo_S200000x32_S_d0_1 : S200000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S288x128 : S_.BroadcastsInDim S288x128 (![] : Fin 0 → Fin S288x128.rank)
  reducesTo_S288x128_S_d0_1 : S288x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128x64 .f32) (main_arg15 : FVec F S64 .f32) (main_arg16 : FVec F S64x1 .f32) (main_arg17 : FVec F S1 .f32) (main_v48 : IVec S_ 1) (main_v49 : FVec F S288x128 .f32) (main_v50 : FVec F S288x128 .f32) : IVec S_ 1 :=
  let main_v51 : IVec S288x128 1 := cmpf .olt main_v49 main_v50
  let main_c_19 : IVec S_ 1 := constantI S_ 1 1#1
  let main_v52 : IVec S_ 1 := (fun x v => Host.reduce IntOp.andi x v reducesTo_S288x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S3x128 .f32) (main_arg10 : FVec F S3x128 .f32) (main_arg11 : FVec F S3x128 .f32) (main_arg12 : FVec F S288x128 .f32) (main_arg13 : FVec F S128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S288x128 .f32 := Host.absf main_arg12
  let main_cst_18 : FVec F S_ .f32 := constant S_ .f32 0x7F800000#32
  let main_v50 : FVec F S288x128 .f32 := broadcastInDim S288x128 ![] bcast_S_S288x128 main_cst_18
  fn_part3 (F := F) main_arg13 main_arg14 main_arg15 main_arg16 main_arg17 main_v48 main_v49 main_v50

def fn_part1 {F : FTy → Type} [FloatOps F] (main_arg6 : FVec F S3x128x128 .f32) (main_arg7 : FVec F S3x128 .f32) (main_arg8 : FVec F S3x128 .f32) (main_arg9 : FVec F S3x128 .f32) (main_arg10 : FVec F S3x128 .f32) (main_arg11 : FVec F S3x128 .f32) (main_arg12 : FVec F S288x128 .f32) (main_arg13 : FVec F S128 .f32) (main_arg14 : FVec F S128x64 .f32) (main_arg15 : FVec F S64 .f32) (main_arg16 : FVec F S64x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : IVec S2x600000 32) (main_arg2 : IVec S200000x2 32) (main_arg3 : FVec F S200000x32 .f32) (main_arg4 : FVec F S64x128 .f32) (main_arg5 : FVec F S128 .f32) (main_arg6 : FVec F S3x128x128 .f32) (main_arg7 : FVec F S3x128 .f32) (main_arg8 : FVec F S3x128 .f32) (main_arg9 : FVec F S3x128 .f32) (main_arg10 : FVec F S3x128 .f32) (main_arg11 : FVec F S3x128 .f32) (main_arg12 : FVec F S288x128 .f32) (main_arg13 : FVec F S128 .f32) (main_arg14 : FVec F S128x64 .f32) (main_arg15 : FVec F S64 .f32) (main_arg16 : FVec F S64x1 .f32) (main_arg17 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S200000x32 .f32 := Host.absf main_arg3
  let main_cst_0 : FVec F S_ .f32 := constant S_ .f32 0x7F800000#32
  let main_v5 : FVec F S200000x32 .f32 := broadcastInDim S200000x32 ![] bcast_S_S200000x32 main_cst_0
  let main_v6 : IVec S200000x32 1 := cmpf .olt main_v4 main_v5
  let main_c_1 : IVec S_ 1 := constantI S_ 1 1#1
  let main_v7 : IVec S_ 1 := (fun x v => Host.reduce IntOp.andi x v reducesTo_S200000x32_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x600000 : Shape := ⟨2, ![2, 600000]⟩
abbrev S200000x2 : Shape := ⟨2, ![200000, 2]⟩
abbrev S200000x32 : Shape := ⟨2, ![200000, 32]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S288x128 : Shape := ⟨2, ![288, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1x128x128 : Shape := ⟨3, ![1, 128, 128]⟩
abbrev S128x128 : Shape := ⟨2, ![128, 128]⟩
abbrev S650000x128 : Shape := ⟨2, ![650000, 128]⟩
abbrev S200000x1 : Shape := ⟨2, ![200000, 1]⟩
abbrev S200000 : Shape := ⟨1, ![200000]⟩
abbrev S200000x128 : Shape := ⟨2, ![200000, 128]⟩
abbrev S200000x288 : Shape := ⟨2, ![200000, 288]⟩
abbrev S1x64 : Shape := ⟨2, ![1, 64]⟩
abbrev S1x1 : Shape := ⟨2, ![1, 1]⟩
abbrev S4000x288 : Shape := ⟨2, ![4000, 288]⟩
abbrev S4000x1 : Shape := ⟨2, ![4000, 1]⟩
abbrev S4000x128 : Shape := ⟨2, ![4000, 128]⟩
abbrev S4000x64 : Shape := ⟨2, ![4000, 64]⟩

abbrev nBuf : Space → Nat
  | .hbm => 192
  | .vmem => 58
  | .smem => 0
  | _ => 0

abbrev hbmTy0_0 (i : Nat) : BufTy := match i % 128 with
  | 0 => ⟨S50000x64, .f32⟩
  | 1 => ⟨S2x600000, .i32⟩
  | 2 => ⟨S200000x2, .i32⟩
  | 3 => ⟨S200000x32, .f32⟩
  | 4 => ⟨S64x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S3x128, .f32⟩
  | 11 => ⟨S3x128, .f32⟩
  | 12 => ⟨S288x128, .f32⟩
  | 13 => ⟨S128, .f32⟩
  | 14 => ⟨S128x64, .f32⟩
  | 15 => ⟨S64, .f32⟩
  | 16 => ⟨S64x1, .f32⟩
  | 17 => ⟨S1, .f32⟩
  | 18 => ⟨S50000, .i32⟩
  | 19 => ⟨S1x600000, .i32⟩
  | 20 => ⟨S600000, .i32⟩
  | 21 => ⟨S650000, .i32⟩
  | 22 => ⟨S1x600000, .i32⟩
  | 23 => ⟨S600000, .i32⟩
  | 24 => ⟨S650000, .i32⟩
  | 25 => ⟨S_, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000, .f32⟩
  | 57 => ⟨S650000, .f32⟩
  | 58 => ⟨S1x128, .f32⟩
  | 59 => ⟨S50000x128, .f32⟩
  | 60 => ⟨S1x128x128, .f32⟩
  | 61 => ⟨S128x128, .f32⟩
  | 62 => ⟨S50000x128, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x1, .f32⟩
  | 73 => ⟨S650000x128, .f32⟩
  | 74 => ⟨S650000x128, .f32⟩
  | 75 => ⟨S_, .f32⟩
  | 76 => ⟨S50000x128, .f32⟩
  | 77 => ⟨S650000x1, .i32⟩
  | 78 => ⟨S50000x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S50000x128, .f32⟩
  | 95 => ⟨S1x128x128, .f32⟩
  | 96 => ⟨S128x128, .f32⟩
  | 97 => ⟨S50000x128, .f32⟩
  | 98 => ⟨S_, .i32⟩
  | 99 => ⟨S650000, .i32⟩
  | 100 => ⟨S650000, .i1⟩
  | 101 => ⟨S_, .i32⟩
  | 102 => ⟨S650000, .i32⟩
  | 103 => ⟨S650000, .i32⟩
  | 104 => ⟨S650000, .i32⟩
  | 105 => ⟨S650000x1, .i32⟩
  | 106 => ⟨S650000x128, .f32⟩
  | 107 => ⟨S650000x1, .f32⟩
  | 108 => ⟨S650000x128, .f32⟩
  | 109 => ⟨S650000x128, .f32⟩
  | 110 => ⟨S_, .f32⟩
  | 111 => ⟨S50000x128, .f32⟩
  | 112 => ⟨S650000x1, .i32⟩
  | 113 => ⟨S50000x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S50000x64, .f32⟩

abbrev hbmTy0_1 (i : Nat) : BufTy := match i % 128 with
  | 0 => ⟨S1x128, .f32⟩
  | 1 => ⟨S50000x128, .f32⟩
  | 2 => ⟨S1x128x128, .f32⟩
  | 3 => ⟨S128x128, .f32⟩
  | 4 => ⟨S50000x128, .f32⟩
  | 5 => ⟨S_, .i32⟩
  | 6 => ⟨S650000, .i32⟩
  | 7 => ⟨S650000, .i1⟩
  | 8 => ⟨S_, .i32⟩
  | 9 => ⟨S650000, .i32⟩
  | 10 => ⟨S650000, .i32⟩
  | 11 => ⟨S650000, .i32⟩
  | 12 => ⟨S650000x1, .i32⟩
  | 13 => ⟨S650000x128, .f32⟩
  | 14 => ⟨S650000x1, .f32⟩
  | 15 => ⟨S650000x128, .f32⟩
  | 16 => ⟨S650000x128, .f32⟩
  | 17 => ⟨S_, .f32⟩
  | 18 => ⟨S50000x128, .f32⟩
  | 19 => ⟨S650000x1, .i32⟩
  | 20 => ⟨S50000x128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S50000x128, .f32⟩
  | 37 => ⟨S200000x1, .i32⟩
  | 38 => ⟨S200000, .i32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x128, .f32⟩
  | 48 => ⟨S200000x1, .i32⟩
  | 49 => ⟨S200000, .i32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x128, .f32⟩
  | 59 => ⟨S200000x288, .f32⟩
  | 60 => ⟨S1x128, .f32⟩
  | 61 => ⟨S1x64, .f32⟩
  | 62 => ⟨S1x1, .f32⟩
  | 63 => ⟨S200000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S4000x288, .f32⟩
  | .local _ .vmem, ⟨49, _⟩ => ⟨S4000x288, .f32⟩
  | .local _ .vmem, ⟨50, _⟩ => ⟨S288x128, .f32⟩
  | .local _ .vmem, ⟨51, _⟩ => ⟨S1x128, .f32⟩
  | .local _ .vmem, ⟨52, _⟩ => ⟨S128x64, .f32⟩
  | .local _ .vmem, ⟨53, _⟩ => ⟨S1x64, .f32⟩
  | .local _ .vmem, ⟨54, _⟩ => ⟨S64x1, .f32⟩
  | .local _ .vmem, ⟨55, _⟩ => ⟨S1x1, .f32⟩
  | .local _ .vmem, ⟨56, _⟩ => ⟨S4000x1, .f32⟩
  | .local _ .vmem, ⟨57, _⟩ => ⟨S4000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_9 : Ref sig .tc := ⟨.hbm, 98, rfl⟩
abbrev main_v67 : Ref sig .tc := ⟨.hbm, 99, rfl⟩
abbrev main_v68 : Ref sig .tc := ⟨.hbm, 100, rfl⟩
abbrev main_c_10 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_12 : Ref sig .tc := ⟨.hbm, 133, rfl⟩
abbrev main_v99 : Ref sig .tc := ⟨.hbm, 134, rfl⟩
abbrev main_v100 : Ref sig .tc := ⟨.hbm, 135, rfl⟩
abbrev main_c_13 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_14 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_c_15 : Ref sig .tc := ⟨.hbm, 167, rfl⟩
abbrev main_v130 : Ref sig .tc := ⟨.hbm, 168, rfl⟩
abbrev main_v131 : Ref sig .tc := ⟨.hbm, 169, rfl⟩
abbrev main_c_16 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_c_17 : Ref sig .tc := ⟨.hbm, 178, rfl⟩
abbrev main_v139 : Ref sig .tc := ⟨.hbm, 179, rfl⟩
abbrev main_v140 : Ref sig .tc := ⟨.hbm, 180, rfl⟩
abbrev main_c_18 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg6_0 : Ref sig .tc := ⟨.vmem, 46, rfl⟩
abbrev cc6_stg6_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg6_0 : Ref sig .tc := ⟨.vmem, 55, rfl⟩
abbrev cc7_stg7_0 : Ref sig .tc := ⟨.vmem, 56, rfl⟩
abbrev cc7_stg7_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem6_0 : DmaSem sig := 46
abbrev cc6_sem6_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem6_0 : DmaSem sig := 55
abbrev cc7_sem7_0 : DmaSem sig := 56
abbrev cc7_sem7_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x288 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S288x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S4000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x128_S200000x128_S200000x32_S200000x288_d1 : Shape.Concatenates [S200000x128, S200000x128, S200000x32] S200000x288 1
  shapeCasts_S64_S1x64 : S64.ShapeCasts S1x64
  shapeCasts_S1_S1x1 : S1.ShapeCasts S1x1
  inb_S4000x288_S4000x288_0_0 : ∀ a, (![0, 0] : Fin 2 → Nat) a + S4000x288.size a ≤ S4000x288.size a
  h_S4000x288 : 0 < S4000x288.numel
  shapeCasts_S4000x288_S4000x288 : S4000x288.ShapeCasts S4000x288
  inb_S288x128_S288x128_0_0 : ∀ a, (![0, 0] : Fin 2 → Nat) a + S288x128.size a ≤ S288x128.size a
  h_S288x128 : 0 < S288x128.numel
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  gather_S50000x128_S200000x1_S200000x128_1_0_n_n_0_1_1128_wf : GatherDims.WF S50000x128 S200000x1 S200000x128 [1] [0] [] [0] [] 1 ![1, 128]
  dot_S4000x288_S288x128_S4000x128_1_0_0_1_n_n_wf : DotDims.WF S4000x288 S288x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x288.size a ≤ S200000x288.size a
  hwx7_0 : ∀ i : grid7.Coords, EltTy.bits .f32 = 32 ∨ (Rect.block (s := S200000x288) S4000x288.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S288x128.size a ≤ S288x128.size a
  hwx7_1 : ∀ i : grid7.Coords, EltTy.bits .f32 = 32 ∨ (Rect.block (s := S288x128) S288x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S4000x1.size a ≤ S200000x1.size a
  hwx7_7 : ∀ i : grid7.Coords, EltTy.bits .f32 = 32 ∨ (Rect.block (s := S200000x1) S4000x1.size (cc7_transform_7 i) (hinb7_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S4000x288_S288x128_S4000x128_1_0_0_1_n_n : DotDims S4000x288 S288x128 S4000x128 where
  lhsContracting := [1]
  rhsContracting := [0]
  lhsNonContracting := [0]
  rhsNonContracting := [1]
  lhsBatch := []
  rhsBatch := []
  wf := dot_S4000x288_S288x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v95) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v111) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v123) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v124) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v127) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v146) S4000x288.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S288x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v147) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg14) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v148) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg16) S64x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v149) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v150) S4000x1.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S200000x2 : Shape := ⟨2, ![200000, 2]⟩
abbrev S200000x32 : Shape := ⟨2, ![200000, 32]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S288x128 : Shape := ⟨2, ![288, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S650000x128 : Shape := ⟨2, ![650000, 128]⟩
abbrev S200000x1 : Shape := ⟨2, ![200000, 1]⟩
abbrev S200000 : Shape := ⟨1, ![200000]⟩
abbrev S200000x128 : Shape := ⟨2, ![200000, 128]⟩
abbrev S200000x288 : Shape := ⟨2, ![200000, 288]⟩
abbrev S200000x64 : Shape := ⟨2, ![200000, 64]⟩
abbrev S1x64 : Shape := ⟨2, ![1, 64]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S50000x64, .f32⟩
  | 1 => ⟨S2x600000, .i32⟩
  | 2 => ⟨S200000x2, .i32⟩
  | 3 => ⟨S200000x32, .f32⟩
  | 4 => ⟨S64x128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S3x128, .f32⟩
  | 11 => ⟨S3x128, .f32⟩
  | 12 => ⟨S288x128, .f32⟩
  | 13 => ⟨S128, .f32⟩
  | 14 => ⟨S128x64, .f32⟩
  | 15 => ⟨S64, .f32⟩
  | 16 => ⟨S64x1, .f32⟩
  | 17 => ⟨S1, .f32⟩
  | 18 => ⟨S50000, .i32⟩
  | 19 => ⟨S1x600000, .i32⟩
  | 20 => ⟨S600000, .i32⟩
  | 21 => ⟨S650000, .i32⟩
  | 22 => ⟨S1x600000, .i32⟩
  | 23 => ⟨S600000, .i32⟩
  | 24 => ⟨S650000, .i32⟩
  | 25 => ⟨S_, .f32⟩
  | 26 => ⟨S650000, .f32⟩
  | 27 => ⟨S_, .f32⟩
  | 28 => ⟨S50000, .f32⟩
  | 29 => ⟨S650000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S50000x128, .f32⟩
  | 40 => ⟨S1x128, .f32⟩
  | 41 => ⟨S50000x128, .f32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S50000x128, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000, .f32⟩
  | 66 => ⟨S650000, .f32⟩
  | 67 => ⟨S_, .i32⟩
  | 68 => ⟨S650000, .i32⟩
  | 69 => ⟨S650000, .i1⟩
  | 70 => ⟨S_, .i32⟩
  | 71 => ⟨S650000, .i32⟩
  | 72 => ⟨S650000, .i32⟩
  | 73 => ⟨S650000, .i32⟩
  | 74 => ⟨S650000x1, .i32⟩
  | 75 => ⟨S650000x128, .f32⟩
  | 76 => ⟨S650000x1, .f32⟩
  | 77 => ⟨S650000x128, .f32⟩
  | 78 => ⟨S650000x128, .f32⟩
  | 79 => ⟨S_, .f32⟩
  | 80 => ⟨S50000x128, .f32⟩
  | 81 => ⟨S650000x1, .i32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x128x128, .f32⟩
  | 114 => ⟨S128x128, .f32⟩
  | 115 => ⟨S1x128, .f32⟩
  | 116 => ⟨S128, .f32⟩
  | 117 => ⟨S50000x128, .f32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000, .f32⟩
  | 127 => ⟨S_, .i32⟩
  | _ => ⟨S50000x64, .f32⟩

abbrev hbmTy0_1 (i : Nat) : BufTy := match i % 128 with
  | 0 => ⟨S650000, .i32⟩
  | 1 => ⟨S650000, .i1⟩
  | 2 => ⟨S_, .i32⟩
  | 3 => ⟨S650000, .i32⟩
  | 4 => ⟨S650000, .i32⟩
  | 5 => ⟨S650000, .i32⟩
  | 6 => ⟨S650000x1, .i32⟩
  | 7 => ⟨S650000, .f32⟩
  | 8 => ⟨S650000, .f32⟩
  | 9 => ⟨S_, .i32⟩
  | 10 => ⟨S650000, .i32⟩
  | 11 => ⟨S650000, .i1⟩
  | 12 => ⟨S_, .i32⟩
  | 13 => ⟨S650000, .i32⟩
  | 14 => ⟨S650000, .i32⟩
  | 15 => ⟨S650000, .i32⟩
  | 16 => ⟨S650000x1, .i32⟩
  | 17 => ⟨S650000x128, .f32⟩
  | 18 => ⟨S650000x1, .f32⟩
  | 19 => ⟨S650000x128, .f32⟩
  | 20 => ⟨S650000x128, .f32⟩
  | 21 => ⟨S_, .f32⟩
  | 22 => ⟨S50000x128, .f32⟩
  | 23 => ⟨S650000x1, .i32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S1x128x128, .f32⟩
  | 56 => ⟨S128x128, .f32⟩
  | 57 => ⟨S1x128, .f32⟩
  | 58 => ⟨S128, .f32⟩
  | 59 => ⟨S50000x128, .f32⟩
  | 60 => ⟨S_, .i32⟩
  | 61 => ⟨S650000, .i32⟩
  | 62 => ⟨S650000, .i1⟩
  | 63 => ⟨S_, .i32⟩
  | 64 => ⟨S650000, .i32⟩
  | 65 => ⟨S650000, .i32⟩
  | 66 => ⟨S650000, .i32⟩
  | 67 => ⟨S650000x1, .i32⟩
  | 68 => ⟨S650000, .f32⟩
  | 69 => ⟨S_, .i32⟩
  | 70 => ⟨S650000, .i32⟩
  | 71 => ⟨S650000, .i1⟩
  | 72 => ⟨S_, .i32⟩
  | 73 => ⟨S650000, .i32⟩
  | 74 => ⟨S650000, .i32⟩
  | 75 => ⟨S650000, .i32⟩
  | 76 => ⟨S650000x1, .i32⟩
  | 77 => ⟨S650000, .f32⟩
  | 78 => ⟨S650000, .f32⟩
  | 79 => ⟨S_, .i32⟩
  | 80 => ⟨S650000, .i32⟩
  | 81 => ⟨S650000, .i1⟩
  | 82 => ⟨S_, .i32⟩
  | 83 => ⟨S650000, .i32⟩
  | 84 => ⟨S650000, .i32⟩
  | 85 => ⟨S650000, .i32⟩
  | 86 => ⟨S650000x1, .i32⟩
  | 87 => ⟨S650000x128, .f32⟩
  | 88 => ⟨S650000x1, .f32⟩
  | 89 => ⟨S650000x128, .f32⟩
  | 90 => ⟨S650000x128, .f32⟩
  | 91 => ⟨S_, .f32⟩
  | 92 => ⟨S50000x128, .f32⟩
  | 93 => ⟨S650000x1, .i32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S200000x1, .i32⟩
  | 126 => ⟨S200000, .i32⟩
  | 127 => ⟨S_, .i32⟩
  | _ => ⟨S50000x64, .f32⟩

abbrev hbmTy0_2 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x128, .f32⟩
  | 8 => ⟨S200000x1, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x128, .f32⟩
  | 19 => ⟨S200000x288, .f32⟩
  | 20 => ⟨S200000x128, .f32⟩
  | 21 => ⟨S1x128, .f32⟩
  | 22 => ⟨S200000x128, .f32⟩
  | 23 => ⟨S200000x128, .f32⟩
  | 24 => ⟨S_, .f32⟩
  | 25 => ⟨S200000x128, .f32⟩
  | 26 => ⟨S200000x128, .f32⟩
  | 27 => ⟨S200000x64, .f32⟩
  | 28 => ⟨S1x64, .f32⟩
  | 29 => ⟨S200000x64, .f32⟩
  | 30 => ⟨S200000x64, .f32⟩
  | 31 => ⟨S_, .f32⟩
  | 32 => ⟨S200000x64, .f32⟩
  | 33 => ⟨S200000x64, .f32⟩
  | 34 => ⟨S200000x1, .f32⟩
  | 35 => ⟨S1x1, .f32⟩
  | 36 => ⟨S200000x1, .f32⟩
  | 37 => ⟨S200000x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_6 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call1_cst : Ref sig .tc := ⟨.hbm, 110, rfl⟩
abbrev main_call1_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_10 : Ref sig .tc := ⟨.hbm, 118, rfl⟩
abbrev main_v84 : Ref sig .tc := ⟨.hbm, 119, rfl⟩
abbrev main_v85 : Ref sig .tc := ⟨.hbm, 120, rfl⟩
abbrev main_c_11 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_12 : Ref sig .tc := ⟨.hbm, 127, rfl⟩
abbrev main_v91 : Ref sig .tc := ⟨.hbm, 128, rfl⟩
abbrev main_v92 : Ref sig .tc := ⟨.hbm, 129, rfl⟩
abbrev main_c_13 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_14 : Ref sig .tc := ⟨.hbm, 137, rfl⟩
abbrev main_v99 : Ref sig .tc := ⟨.hbm, 138, rfl⟩
abbrev main_v100 : Ref sig .tc := ⟨.hbm, 139, rfl⟩
abbrev main_c_15 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_16 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_17 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_call2_cst : Ref sig .tc := ⟨.hbm, 180, rfl⟩
abbrev main_call2_v0 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_18 : Ref sig .tc := ⟨.hbm, 188, rfl⟩
abbrev main_v144 : Ref sig .tc := ⟨.hbm, 189, rfl⟩
abbrev main_v145 : Ref sig .tc := ⟨.hbm, 190, rfl⟩
abbrev main_c_19 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_c_20 : Ref sig .tc := ⟨.hbm, 197, rfl⟩
abbrev main_v151 : Ref sig .tc := ⟨.hbm, 198, rfl⟩
abbrev main_v152 : Ref sig .tc := ⟨.hbm, 199, rfl⟩
abbrev main_c_21 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_c_22 : Ref sig .tc := ⟨.hbm, 207, rfl⟩
abbrev main_v159 : Ref sig .tc := ⟨.hbm, 208, rfl⟩
abbrev main_v160 : Ref sig .tc := ⟨.hbm, 209, rfl⟩
abbrev main_c_23 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_24 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_25 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_call3_cst : Ref sig .tc := ⟨.hbm, 250, rfl⟩
abbrev main_call3_v0 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_c_26 : Ref sig .tc := ⟨.hbm, 255, rfl⟩
abbrev main_v201 : Ref sig .tc := ⟨.hbm, 256, rfl⟩
abbrev main_v202 : Ref sig .tc := ⟨.hbm, 257, rfl⟩
abbrev main_c_27 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_c_28 : Ref sig .tc := ⟨.hbm, 266, rfl⟩
abbrev main_v210 : Ref sig .tc := ⟨.hbm, 267, rfl⟩
abbrev main_v211 : Ref sig .tc := ⟨.hbm, 268, rfl⟩
abbrev main_c_29 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_call4_cst : Ref sig .tc := ⟨.hbm, 280, rfl⟩
abbrev main_call4_v0 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_call5_cst : Ref sig .tc := ⟨.hbm, 287, rfl⟩
abbrev main_call5_v0 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x128_S200000x128_S200000x32_S200000x288_d1 : Shape.Concatenates [S200000x128, S200000x128, S200000x32] S200000x288 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S50000_S650000x1_S650000_n_0_0_1_wf : ScatterDims.WF S50000 S650000x1 S650000 [] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  gather_S50000x128_S200000x1_S200000x128_1_0_n_n_0_1_1128_wf : GatherDims.WF S50000x128 S200000x1 S200000x128 [1] [0] [] [0] [] 1 ![1, 128]
  dot_S200000x288_S288x128_S200000x128_1_0_0_1_n_n_wf : DotDims.WF S200000x288 S288x128 S200000x128 [1] [0] [0] [1] [] []
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x288_S288x128_S200000x128_1_0_0_1_n_n : DotDims S200000x288 S288x128 S200000x128 where
  lhsContracting := [1]
  rhsContracting := [0]
  lhsNonContracting := [0]
  rhsNonContracting := [1]
  lhsBatch := []
  rhsBatch := []
  wf := dot_S200000x288_S288x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.K.Region0.lean ====
/-
  Region 0 (the embedding layer: a row block of the atom table times the embedding matrix, plus the bias row) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: each window's buffer is read, and the output's written, whole. -/
abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The output window's buffer after the body, from the input blocks: its one store. -/
def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

/-- The store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Region1.lean ====
/-
  Region 1 (the first layer's weight product: a row block of the node table times the layer's matrix) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: each window's buffer is read, and the output's written, whole. -/
abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S5000x128 := Rect.unit (s := S5000x128) ![0, 0] S5000x128.size inb_S5000x128_S5000x128_0_0

/-- The output window's buffer after the body, from the input blocks: its one store. -/
def out1_2 (x0 : Vec F S5000x128 .f32) (x1 : Vec F S128x128 .f32) : Vec F S5000x128 .f32 :=
  View.canon [⟨r1_2, k1_pay1 (View.ld x0 r1_0) (View.ld x1 r1_1)⟩]

/-- The store covers the buffer. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

set_option maxHeartbeats 1000000 in
/-- The body on whole staging memrefs, the inputs' at read contents and the output's at anything, runs to the
    continuation holding the inputs' as they were and the output's at `out1_2` of the inputs'. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body at point `t`
    each input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.Region2.lean ====
/-
  Region 2 (the first layer's normalisation: bias, running mean and variance, scale, shift, maximum with zero, entry by entry on a row block) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: each window's buffer is read, and the output's written, whole. -/
abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S1x128 := Rect.unit (s := S1x128) ![0, 0] S1x128.size inb_S1x128_S1x128_0_0
abbrev r2_6 : Rect S5000x128 := Rect.unit (s := S5000x128) ![0, 0] S5000x128.size inb_S5000x128_S5000x128_0_0

/-- The output window's buffer after the body, from the input blocks: its one store. -/
def out2_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r2_6, k2_pay1 (View.ld x0 r2_0) (View.ld x1 r2_1) (View.ld x5 r2_5) (View.ld x4 r2_4) (View.ld x2 r2_2) (View.ld x3 r2_3)⟩]

/-- The store covers the buffer. -/
theorem cover2_6 (p0 : Vec F S5000x128 .f32) (y : S5000x128.Idx) :
    ∃ pc ∈ ([⟨r2_6, p0⟩] : List (View.Piece (Elt F) S5000x128 .f32)), y ∈ pc.1.set :=
  View.cover_of_tiled [⟨r2_6, p0⟩] S5000x128.size (by rfl) y

set_option maxHeartbeats 1000000 in
/-- The body on whole staging memrefs, the inputs' at read contents and the output's at anything, runs to the
    continuation holding the inputs' as they were and the output's at `out2_6` of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_kernel i arg1 harg1 arg2 harg2 arg3 harg3 arg4 harg4 arg5 harg5 arg6 harg6 arg7 harg7) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the pipeline on core `c`: the arrays as the region finds them; after the body at point `t`
    each input's buffer at its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.Region3.lean ====
/-
  Region 3 (the second layer's weight product) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! The body's accesses: each window's buffer is read, and the output's written, whole. -/
abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

/-- The output window's buffer after the body, from the input blocks: its one store. -/
def out3_2 (x0 : Vec F S5000x128 .f32) (x1 : Vec F S128x128 .f32) : Vec F S5000x128 .f32 :=
  View.canon [⟨r3_2, k3_pay1 (View.ld x0 r3_0) (View.ld x1 r3_1)⟩]

/-- The store covers the buffer. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in
/-- The body on whole staging memrefs, the inputs' at read contents and the output's at anything, runs to the
    continuation holding the inputs' as they were and the output's at `out3_2` of the inputs'. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the pipeline on core `c`: the arrays as the region finds them; after the body at point `t`
    each input's buffer at its block and the output's at `out3_2` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.Region4.lean ====
/-
  Region 4 (the second layer's normalisation) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! The body's accesses: each window's buffer is read, and the output's written, whole. -/
abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0
abbrev r4_2 : Rect S1x128 := Rect.unit (s := S1x128) ![0, 0] S1x128.size inb_S1x128_S1x128_0_0
abbrev r4_3 : Rect S1x128 := Rect.unit (s := S1x128) ![0, 0] S1x128.size inb_S1x128_S1x128_0_0
abbrev r4_4 : Rect S1x128 := Rect.unit (s := S1x128) ![0, 0] S1x128.size inb_S1x128_S1x128_0_0
abbrev r4_5 : Rect S1x128 := Rect.unit (s := S1x128) ![0, 0] S1x128.size inb_S1x128_S1x128_0_0
abbrev r4_6 : Rect S5000x128 := Rect.unit (s := S5000x128) ![0, 0] S5000x128.size inb_S5000x128_S5000x128_0_0

/-- The output window's buffer after the body, from the input blocks: its one store. -/
def out4_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r4_6, k4_pay1 (View.ld x0 r4_0) (View.ld x1 r4_1) (View.ld x5 r4_5) (View.ld x4 r4_4) (View.ld x2 r4_2) (View.ld x3 r4_3)⟩]

/-- The store covers the buffer. -/
theorem cover4_6 (p0 : Vec F S5000x128 .f32) (y : S5000x128.Idx) :
    ∃ pc ∈ ([⟨r4_6, p0⟩] : List (View.Piece (Elt F) S5000x128 .f32)), y ∈ pc.1.set :=
  View.cover_of_tiled [⟨r4_6, p0⟩] S5000x128.size (by rfl) y

set_option maxHeartbeats 1000000 in
/-- The body on whole staging memrefs, the inputs' at read contents and the output's at anything, runs to the
    continuation holding the inputs' as they were and the output's at `out4_6` of the inputs'. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__bn_relu_kernel i arg1 harg1 arg2 harg2 arg3 harg3 arg4 harg4 arg5 harg5 arg6 harg6 arg7 harg7) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of the pipeline on core `c`: the arrays as the region finds them; after the body at point `t`
    each input's buffer at its block and the output's at `out4_6` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.K.Region5.lean ====
/-
  Region 5 (the third layer's weight product) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! The body's accesses: each window's buffer is read, and the output's written, whole. -/
abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S5000x128 := Rect.unit (s := S5000x128) ![0, 0] S5000x128.size inb_S5000x128_S5000x128_0_0

/-- The output window's buffer after the body, from the input blocks: its one store. -/
def out5_2 (x0 : Vec F S5000x128 .f32) (x1 : Vec F S128x128 .f32) : Vec F S5000x128 .f32 :=
  View.canon [⟨r5_2, k5_pay1 (View.ld x0 r5_0) (View.ld x1 r5_1)⟩]

/-- The store covers the buffer. -/
theorem cover5_2 (p0 : Vec F S5000x128 .f32) (y : S5000x128.Idx) :
    ∃ pc ∈ ([⟨r5_2, p0⟩] : List (View.Piece (Elt F) S5000x128 .f32)), y ∈ pc.1.set :=
  View.cover_of_tiled [⟨r5_2, p0⟩] S5000x128.size (by rfl) y

set_option maxHeartbeats 1000000 in
/-- The body on whole staging memrefs, the inputs' at read contents and the output's at anything, runs to the
    continuation holding the inputs' as they were and the output's at `out5_2` of the inputs'. -/
theorem sound_kernel5 (c : Dev nD) (E : Set ℕ) (i : grid5.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the pipeline on core `c`: the arrays as the region finds them; after the body at point `t`
    each input's buffer at its block and the output's at `out5_2` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.K.Region6.lean ====
/-
  Region 6 (the third layer's normalisation) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! The body's accesses: each window's buffer is read, and the output's written, whole. -/
abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0
abbrev r6_2 : Rect S1x128 := Rect.unit (s := S1x128) ![0, 0] S1x128.size inb_S1x128_S1x128_0_0
abbrev r6_3 : Rect S1x128 := Rect.unit (s := S1x128) ![0, 0] S1x128.size inb_S1x128_S1x128_0_0
abbrev r6_4 : Rect S1x128 := Rect.unit (s := S1x128) ![0, 0] S1x128.size inb_S1x128_S1x128_0_0
abbrev r6_5 : Rect S1x128 := Rect.unit (s := S1x128) ![0, 0] S1x128.size inb_S1x128_S1x128_0_0
abbrev r6_6 : Rect S5000x128 := Rect.unit (s := S5000x128) ![0, 0] S5000x128.size inb_S5000x128_S5000x128_0_0

/-- The output window's buffer after the body, from the input blocks: its one store. -/
def out6_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r6_6, k6_pay1 (View.ld x0 r6_0) (View.ld x1 r6_1) (View.ld x5 r6_5) (View.ld x4 r6_4) (View.ld x2 r6_2) (View.ld x3 r6_3)⟩]

/-- The store covers the buffer. -/
theorem cover6_6 (p0 : Vec F S5000x128 .f32) (y : S5000x128.Idx) :
    ∃ pc ∈ ([⟨r6_6, p0⟩] : List (View.Piece (Elt F) S5000x128 .f32)), y ∈ pc.1.set :=
  View.cover_of_tiled [⟨r6_6, p0⟩] S5000x128.size (by rfl) y

set_option maxHeartbeats 1000000 in
/-- The body on whole staging memrefs, the inputs' at read contents and the output's at anything, runs to the
    continuation holding the inputs' as they were and the output's at `out6_6` of the inputs'. -/
theorem sound_kernel6 (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__bn_relu_kernel i arg1 harg1 arg2 harg2 arg3 harg3 arg4 harg4 arg5 harg5 arg6 harg6 arg7 harg7) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of the pipeline on core `c`: the arrays as the region finds them; after the body at point `t`
    each input's buffer at its block and the output's at `out6_6` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.K.Region7.lean ====
/-
  Region 7 (the pair read-out: three dense layers on a row block of the joined pair table) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.Kernel.Launch
import proofs.«137698_j16329465660189_1_alg».proof.Proof.Gen.Kernel.Skeleton
import proofs.«137698_j16329465660189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! The body's accesses: each window's buffer is read, and the output's written, whole. -/
abbrev r7_0 : Rect S4000x288 := Rect.unit (s := S4000x288) ![0, 0] S4000x288.size inb_S4000x288_S4000x288_0_0
abbrev r7_1 : Rect S288x128 := Rect.unit (s := S288x128) ![0, 0] S288x128.size inb_S288x128_S288x128_0_0
abbrev r7_2 : Rect S1x128 := Rect.unit (s := S1x128) ![0, 0] S1x128.size inb_S1x128_S1x128_0_0
abbrev r7_3 : Rect S128x64 := Rect.unit (s := S128x64) ![0, 0] S128x64.size inb_S128x64_S128x64_0_0
abbrev r7_4 : Rect S1x64 := Rect.unit (s := S1x64) ![0, 0] S1x64.size inb_S1x64_S1x64_0_0
abbrev r7_5 : Rect S64x1 := Rect.unit (s := S64x1) ![0, 0] S64x1.size inb_S64x1_S64x1_0_0
abbrev r7_6 : Rect S1x1 := Rect.unit (s := S1x1) ![0, 0] S1x1.size inb_S1x1_S1x1_0_0
abbrev r7_7 : Rect S4000x1 := Rect.unit (s := S4000x1) ![0, 0] S4000x1.size inb_S4000x1_S4000x1_0_0

/-- The output window's buffer after the body, from the input blocks: its one store. -/
def out7_7 (x0 : Vec F S4000x288 .f32) (x1 : Vec F S288x128 .f32) (x2 : Vec F S1x128 .f32) (x3 : Vec F S128x64 .f32) (x4 : Vec F S1x64 .f32) (x5 : Vec F S64x1 .f32) (x6 : Vec F S1x1 .f32) : Vec F S4000x1 .f32 :=
  View.canon [⟨r7_7, k7_pay1 (View.ld x0 r7_0) (View.ld x1 r7_1) (View.ld x2 r7_2) (View.ld x3 r7_3) (View.ld x4 r7_4) (View.ld x5 r7_5) (View.ld x6 r7_6)⟩]

/-- The store covers the buffer. -/
theorem cover7_7 (p0 : Vec F S4000x1 .f32) (y : S4000x1.Idx) :
    ∃ pc ∈ ([⟨r7_7, p0⟩] : List (View.Piece (Elt F) S4000x1 .f32)), y ∈ pc.1.set :=
  View.cover_of_tiled [⟨r7_7, p0⟩] S4000x1.size (by rfl) y

set_option maxHeartbeats 1000000 in
/-- The body on whole staging memrefs, the inputs' at read contents and the output's at anything, runs to the
    continuation holding the inputs' as they were and the output's at `out7_7` of the inputs'. -/
theorem sound_kernel7 (c : Dev nD) (E : Set ℕ) (i : grid7.Coords) (arg1 : Memref sig .tc .vmem S4000x288 .f32) (harg1 : arg1.IsWhole) (arg2 : Memref sig .tc .vmem S288x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S4000x1 .f32) (harg8 : arg8.IsWhole)
    (x0 : Vec F S4000x288 .f32) (x1 : Vec F S288x128 .f32) (x2 : Vec F S1x128 .f32) (x3 : Vec F S128x64 .f32) (x4 : Vec F S1x64 .f32) (x5 : Vec F S64x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__pair_mlp_kernel i arg1 harg1 arg2 harg2 arg3 harg3 arg4 harg4 arg5 harg5 arg6 harg6 arg7 harg7 arg8 harg8) K := by
  simp only [cc7__pair_mlp_kernel_eq_skeleton]; unfold cc7__pair_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-- The proof data of the pipeline on core `c`: the arrays as the region finds them; after the body at point `t`
    each input's buffer at its block and the output's at `out7_7` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.K.Walk.lean ====
/-
  The contents of core `c`'s unscoped buffers at each of the 19 boundaries between @main's items, as a fold from the
  launch memory: a host stretch applies its operations; a region leaves each of its arrays at what its write-backs
  leave and every other buffer as it found it. An input window's array is never written back, so across a region
  every buffer but its one output array keeps its contents; across a stretch every buffer the stretch does not write
  does. Hence each of the 18 argument arrays is, at the last boundary, what the launch memory held.
-/
import proofs.«137698_j16329465660189_1_alg».proof.Proof.K.Region0
import proofs.«137698_j16329465660189_1_alg».proof.Proof.K.Region1
import proofs.«137698_j16329465660189_1_alg».proof.Proof.K.Region2
import proofs.«137698_j16329465660189_1_alg».proof.Proof.K.Region3
import proofs.«137698_j16329465660189_1_alg».proof.Proof.K.Region4
import proofs.«137698_j16329465660189_1_alg».proof.Proof.K.Region5
import proofs.«137698_j16329465660189_1_alg».proof.Proof.K.Region6
import proofs.«137698_j16329465660189_1_alg».proof.Proof.K.Region7
import proofs.«137698_j16329465660189_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev Bd0 (c : Dev nD) : Valuation τ sig (Elt F) := fun b => m (c, b)

/-- After the stretch `hostOps0`. -/
abbrev Bd1 (c : Dev nD) : Valuation τ sig (Elt F) := StableHlo.after hostOps0 (Bd0 m c)
/-- A buffer the stretch does not write keeps its contents. -/
theorem Bd1_keep (c : Dev nD) (r : Ref sig .tc) (hr : r ∉ hostOps0_W) : Bd1 m c (Proc.devRef .tc r) = Bd0 m c (Proc.devRef .tc r) :=
  StableHlo.after_of_writes_sub _ _ hostOps0_writes hr

/-- After the stretch `hostOps0_1`. -/
abbrev Bd2 (c : Dev nD) : Valuation τ sig (Elt F) := StableHlo.after hostOps0_1 (Bd1 m c)
/-- A buffer the stretch does not write keeps its contents. -/
theorem Bd2_keep (c : Dev nD) (r : Ref sig .tc) (hr : r ∉ hostOps0_1_W) : Bd2 m c (Proc.devRef .tc r) = Bd1 m c (Proc.devRef .tc r) :=
  StableHlo.after_of_writes_sub _ _ hostOps0_1_writes hr

/-- After the stretch `hostOps0_2`. -/
abbrev Bd3 (c : Dev nD) : Valuation τ sig (Elt F) := StableHlo.after hostOps0_2 (Bd2 m c)
/-- A buffer the stretch does not write keeps its contents. -/
theorem Bd3_keep (c : Dev nD) (r : Ref sig .tc) (hr : r ∉ hostOps0_2_W) : Bd3 m c (Proc.devRef .tc r) = Bd2 m c (Proc.devRef .tc r) :=
  StableHlo.after_of_writes_sub _ _ hostOps0_2_writes hr

/-- Region 0's entry contents read at the TensorCore's references. -/
abbrev Bv3 : (c : Dev nD) → (b : Ref sig .tc) → Buf (Elt F) ((c : Thread nD τ).loc b) := fun c b => Bd3 m c b
/-- At region 0's exit: its arrays at what the pipeline leaves, every other buffer as entered. -/
def Bd4 (c : Dev nD) : Valuation τ sig (Elt F) :=
  Pipeline.withArrays spec0 c (Bd3 m c) fun w => (dat0 (Bv3 m) c).arrAt w cfg0.N
theorem Bd4_arr (c : Dev nD) (w : Fin cfg0.W) :
    Bd4 m c (Proc.devRef .tc (Pipeline.arrRef spec0 w)) = (dat0 (Bv3 m) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m c (Proc.devRef .tc b) = Bd3 m c (Proc.devRef .tc b) := by
  unfold Bd4; exact Pipeline.withArrays_of_ne spec0 c _ _ b hb
abbrev Bv4 : (c : Dev nD) → (b : Ref sig .tc) → Buf (Elt F) ((c : Thread nD τ).loc b) := fun c b => Bd4 m c b
theorem hF0 (c : Dev nD) (w : Fin cfg0.W) : (dat0 (Bv3 m) c).arrAt w cfg0.N = Bv4 m c (Pipeline.arrRef spec0 w) :=
  (Bd4_arr m c w).symm
theorem hrest0 (c : Dev nD) : ∀ b, b ∉ Finset.univ.image (Pipeline.arrRef spec0) → Bv4 m c b = Bv3 m c b :=
  fun b hb => Bd4_of_ne m c b fun w e => hb (Finset.mem_image.mpr ⟨w, Finset.mem_univ _, e⟩)
/-- Input window 0's array is as the region found it. -/
theorem Bd4_in0 (c : Dev nD) : Bd4 m c (Proc.devRef .tc (Pipeline.arrRef spec0 0)) = Bd3 m c (Proc.devRef .tc (Pipeline.arrRef spec0 0)) :=
  (Bd4_arr m c 0).trans (((dat0 (Bv3 m) c).arrAt_in 0 rfl _).trans (A_eq0 (Bv3 m) c 0))
/-- Input window 1's array is as the region found it. -/
theorem Bd4_in1 (c : Dev nD) : Bd4 m c (Proc.devRef .tc (Pipeline.arrRef spec0 1)) = Bd3 m c (Proc.devRef .tc (Pipeline.arrRef spec0 1)) :=
  (Bd4_arr m c 1).trans (((dat0 (Bv3 m) c).arrAt_in 1 rfl _).trans (A_eq0 (Bv3 m) c 1))
/-- Input window 2's array is as the region found it. -/
theorem Bd4_in2 (c : Dev nD) : Bd4 m c (Proc.devRef .tc (Pipeline.arrRef spec0 2)) = Bd3 m c (Proc.devRef .tc (Pipeline.arrRef spec0 2)) :=
  (Bd4_arr m c 2).trans (((dat0 (Bv3 m) c).arrAt_in 2 rfl _).trans (A_eq0 (Bv3 m) c 2))

/-- After the stretch `hostOps1`. -/
abbrev Bd5 (c : Dev nD) : Valuation τ sig (Elt F) := StableHlo.after hostOps1 (Bd4 m c)
/-- A buffer the stretch does not write keeps its contents. -/
theorem Bd5_keep (c : Dev nD) (r : Ref sig .tc) (hr : r ∉ hostOps1_W) : Bd5 m c (Proc.devRef .tc r) = Bd4 m c (Proc.devRef .tc r) :=
  StableHlo.after_of_writes_sub _ _ hostOps1_writes hr

/-- Region 1's entry contents read at the TensorCore's references. -/
abbrev Bv5 : (c : Dev nD) → (b : Ref sig .tc) → Buf (Elt F) ((c : Thread nD τ).loc b) := fun c b => Bd5 m c b
/-- At region 1's exit: its arrays at what the pipeline leaves, every other buffer as entered. -/
def Bd6 (c : Dev nD) : Valuation τ sig (Elt F) :=
  Pipeline.withArrays spec1 c (Bd5 m c) fun w => (dat1 (Bv5 m) c).arrAt w cfg1.N
theorem Bd6_arr (c : Dev nD) (w : Fin cfg1.W) :
    Bd6 m c (Proc.devRef .tc (Pipeline.arrRef spec1 w)) = (dat1 (Bv5 m) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m c (Proc.devRef .tc b) = Bd5 m c (Proc.devRef .tc b) := by
  unfold Bd6; exact Pipeline.withArrays_of_ne spec1 c _ _ b hb
abbrev Bv6 : (c : Dev nD) → (b : Ref sig .tc) → Buf (Elt F) ((c : Thread nD τ).loc b) := fun c b => Bd6 m c b
theorem hF1 (c : Dev nD) (w : Fin cfg1.W) : (dat1 (Bv5 m) c).arrAt w cfg1.N = Bv6 m c (Pipeline.arrRef spec1 w) :=
  (Bd6_arr m c w).symm
theorem hrest1 (c : Dev nD) : ∀ b, b ∉ Finset.univ.image (Pipeline.arrRef spec1) → Bv6 m c b = Bv5 m c b :=
  fun b hb => Bd6_of_ne m c b fun w e => hb (Finset.mem_image.mpr ⟨w, Finset.mem_univ _, e⟩)
/-- Input window 0's array is as the region found it. -/
theorem Bd6_in0 (c : Dev nD) : Bd6 m c (Proc.devRef .tc (Pipeline.arrRef spec1 0)) = Bd5 m c (Proc.devRef .tc (Pipeline.arrRef spec1 0)) :=
  (Bd6_arr m c 0).trans (((dat1 (Bv5 m) c).arrAt_in 0 rfl _).trans (A_eq1 (Bv5 m) c 0))
/-- Input window 1's array is as the region found it. -/
theorem Bd6_in1 (c : Dev nD) : Bd6 m c (Proc.devRef .tc (Pipeline.arrRef spec1 1)) = Bd5 m c (Proc.devRef .tc (Pipeline.arrRef spec1 1)) :=
  (Bd6_arr m c 1).trans (((dat1 (Bv5 m) c).arrAt_in 1 rfl _).trans (A_eq1 (Bv5 m) c 1))

/-- After the stretch `hostOps2`. -/
abbrev Bd7 (c : Dev nD) : Valuation τ sig (Elt F) := StableHlo.after hostOps2 (Bd6 m c)
/-- A buffer the stretch does not write keeps its contents. -/
theorem Bd7_keep (c : Dev nD) (r : Ref sig .tc) (hr : r ∉ hostOps2_W) : Bd7 m c (Proc.devRef .tc r) = Bd6 m c (Proc.devRef .tc r) :=
  StableHlo.after_of_writes_sub _ _ hostOps2_writes hr

/-- Region 2's entry contents read at the TensorCore's references. -/
abbrev Bv7 : (c : Dev nD) → (b : Ref sig .tc) → Buf (Elt F) ((c : Thread nD τ).loc b) := fun c b => Bd7 m c b
/-- At region 2's exit: its arrays at what the pipeline leaves, every other buffer as entered. -/
def Bd8 (c : Dev nD) : Valuation τ sig (Elt F) :=
  Pipeline.withArrays spec2 c (Bd7 m c) fun w => (dat2 (Bv7 m) c).arrAt w cfg2.N
theorem Bd8_arr (c : Dev nD) (w : Fin cfg2.W) :
    Bd8 m c (Proc.devRef .tc (Pipeline.arrRef spec2 w)) = (dat2 (Bv7 m) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m c (Proc.devRef .tc b) = Bd7 m c (Proc.devRef .tc b) := by
  unfold Bd8; exact Pipeline.withArrays_of_ne spec2 c _ _ b hb
abbrev Bv8 : (c : Dev nD) → (b : Ref sig .tc) → Buf (Elt F) ((c : Thread nD τ).loc b) := fun c b => Bd8 m c b
theorem hF2 (c : Dev nD) (w : Fin cfg2.W) : (dat2 (Bv7 m) c).arrAt w cfg2.N = Bv8 m c (Pipeline.arrRef spec2 w) :=
  (Bd8_arr m c w).symm
theorem hrest2 (c : Dev nD) : ∀ b, b ∉ Finset.univ.image (Pipeline.arrRef spec2) → Bv8 m c b = Bv7 m c b :=
  fun b hb => Bd8_of_ne m c b fun w e => hb (Finset.mem_image.mpr ⟨w, Finset.mem_univ _, e⟩)
/-- Input window 0's array is as the region found it. -/
theorem Bd8_in0 (c : Dev nD) : Bd8 m c (Proc.devRef .tc (Pipeline.arrRef spec2 0)) = Bd7 m c (Proc.devRef .tc (Pipeline.arrRef spec2 0)) :=
  (Bd8_arr m c 0).trans (((dat2 (Bv7 m) c).arrAt_in 0 rfl _).trans (A_eq2 (Bv7 m) c 0))
/-- Input window 1's array is as the region found it. -/
theorem Bd8_in1 (c : Dev nD) : Bd8 m c (Proc.devRef .tc (Pipeline.arrRef spec2 1)) = Bd7 m c (Proc.devRef .tc (Pipeline.arrRef spec2 1)) :=
  (Bd8_arr m c 1).trans (((dat2 (Bv7 m) c).arrAt_in 1 rfl _).trans (A_eq2 (Bv7 m) c 1))
/-- Input window 2's array is as the region found it. -/
theorem Bd8_in2 (c : Dev nD) : Bd8 m c (Proc.devRef .tc (Pipeline.arrRef spec2 2)) = Bd7 m c (Proc.devRef .tc (Pipeline.arrRef spec2 2)) :=
  (Bd8_arr m c 2).trans (((dat2 (Bv7 m) c).arrAt_in 2 rfl _).trans (A_eq2 (Bv7 m) c 2))
/-- Input window 3's array is as the region found it. -/
theorem Bd8_in3 (c : Dev nD) : Bd8 m c (Proc.devRef .tc (Pipeline.arrRef spec2 3)) = Bd7 m c (Proc.devRef .tc (Pipeline.arrRef spec2 3)) :=
  (Bd8_arr m c 3).trans (((dat2 (Bv7 m) c).arrAt_in 3 rfl _).trans (A_eq2 (Bv7 m) c 3))
/-- Input window 4's array is as the region found it. -/
theorem Bd8_in4 (c : Dev nD) : Bd8 m c (Proc.devRef .tc (Pipeline.arrRef spec2 4)) = Bd7 m c (Proc.devRef .tc (Pipeline.arrRef spec2 4)) :=
  (Bd8_arr m c 4).trans (((dat2 (Bv7 m) c).arrAt_in 4 rfl _).trans (A_eq2 (Bv7 m) c 4))
/-- Input window 5's array is as the region found it. -/
theorem Bd8_in5 (c : Dev nD) : Bd8 m c (Proc.devRef .tc (Pipeline.arrRef spec2 5)) = Bd7 m c (Proc.devRef .tc (Pipeline.arrRef spec2 5)) :=
  (Bd8_arr m c 5).trans (((dat2 (Bv7 m) c).arrAt_in 5 rfl _).trans (A_eq2 (Bv7 m) c 5))

/-- After the stretch `hostOps3`. -/
abbrev Bd9 (c : Dev nD) : Valuation τ sig (Elt F) := StableHlo.after hostOps3 (Bd8 m c)
/-- A buffer the stretch does not write keeps its contents. -/
theorem Bd9_keep (c : Dev nD) (r : Ref sig .tc) (hr : r ∉ hostOps3_W) : Bd9 m c (Proc.devRef .tc r) = Bd8 m c (Proc.devRef .tc r) :=
  StableHlo.after_of_writes_sub _ _ hostOps3_writes hr

/-- Region 3's entry contents read at the TensorCore's references. -/
abbrev Bv9 : (c : Dev nD) → (b : Ref sig .tc) → Buf (Elt F) ((c : Thread nD τ).loc b) := fun c b => Bd9 m c b
/-- At region 3's exit: its arrays at what the pipeline leaves, every other buffer as entered. -/
def Bd10 (c : Dev nD) : Valuation τ sig (Elt F) :=
  Pipeline.withArrays spec3 c (Bd9 m c) fun w => (dat3 (Bv9 m) c).arrAt w cfg3.N
theorem Bd10_arr (c : Dev nD) (w : Fin cfg3.W) :
    Bd10 m c (Proc.devRef .tc (Pipeline.arrRef spec3 w)) = (dat3 (Bv9 m) c).arrAt w cfg3.N := by
  unfold Bd10; exact Pipeline.withArrays_arr spec3 launch3.win.arr_inj c _ _ w
theorem Bd10_of_ne (c : Dev nD) (b : Ref sig .tc) (hb : ∀ w, Pipeline.arrRef spec3 w ≠ b) :
    Bd10 m c (Proc.devRef .tc b) = Bd9 m c (Proc.devRef .tc b) := by
  unfold Bd10; exact Pipeline.withArrays_of_ne spec3 c _ _ b hb
abbrev Bv10 : (c : Dev nD) → (b : Ref sig .tc) → Buf (Elt F) ((c : Thread nD τ).loc b) := fun c b => Bd10 m c b
theorem hF3 (c : Dev nD) (w : Fin cfg3.W) : (dat3 (Bv9 m) c).arrAt w cfg3.N = Bv10 m c (Pipeline.arrRef spec3 w) :=
  (Bd10_arr m c w).symm
theorem hrest3 (c : Dev nD) : ∀ b, b ∉ Finset.univ.image (Pipeline.arrRef spec3) → Bv10 m c b = Bv9 m c b :=
  fun b hb => Bd10_of_ne m c b fun w e => hb (Finset.mem_image.mpr ⟨w, Finset.mem_univ _, e⟩)
/-- Input window 0's array is as the region found it. -/
theorem Bd10_in0 (c : Dev nD) : Bd10 m c (Proc.devRef .tc (Pipeline.arrRef spec3 0)) = Bd9 m c (Proc.devRef .tc (Pipeline.arrRef spec3 0)) :=
  (Bd10_arr m c 0).trans (((dat3 (Bv9 m) c).arrAt_in 0 rfl _).trans (A_eq3 (Bv9 m) c 0))
/-- Input window 1's array is as the region found it. -/
theorem Bd10_in1 (c : Dev nD) : Bd10 m c (Proc.devRef .tc (Pipeline.arrRef spec3 1)) = Bd9 m c (Proc.devRef .tc (Pipeline.arrRef spec3 1)) :=
  (Bd10_arr m c 1).trans (((dat3 (Bv9 m) c).arrAt_in 1 rfl _).trans (A_eq3 (Bv9 m) c 1))

/-- After the stretch `hostOps4`. -/
abbrev Bd11 (c : Dev nD) : Valuation τ sig (Elt F) := StableHlo.after hostOps4 (Bd10 m c)
/-- A buffer the stretch does not write keeps its contents. -/
theorem Bd11_keep (c : Dev nD) (r : Ref sig .tc) (hr : r ∉ hostOps4_W) : Bd11 m c (Proc.devRef .tc r) = Bd10 m c (Proc.devRef .tc r) :=
  StableHlo.after_of_writes_sub _ _ hostOps4_writes hr

/-- Region 4's entry contents read at the TensorCore's references. -/
abbrev Bv11 : (c : Dev nD) → (b : Ref sig .tc) → Buf (Elt F) ((c : Thread nD τ).loc b) := fun c b => Bd11 m c b
/-- At region 4's exit: its arrays at what the pipeline leaves, every other buffer as entered. -/
def Bd12 (c : Dev nD) : Valuation τ sig (Elt F) :=
  Pipeline.withArrays spec4 c (Bd11 m c) fun w => (dat4 (Bv11 m) c).arrAt w cfg4.N
theorem Bd12_arr (c : Dev nD) (w : Fin cfg4.W) :
    Bd12 m c (Proc.devRef .tc (Pipeline.arrRef spec4 w)) = (dat4 (Bv11 m) c).arrAt w cfg4.N := by
  unfold Bd12; exact Pipeline.withArrays_arr spec4 launch4.win.arr_inj c _ _ w
theorem Bd12_of_ne (c : Dev nD) (b : Ref sig .tc) (hb : ∀ w, Pipeline.arrRef spec4 w ≠ b) :
    Bd12 m c (Proc.devRef .tc b) = Bd11 m c (Proc.devRef .tc b) := by
  unfold Bd12; exact Pipeline.withArrays_of_ne spec4 c _ _ b hb
abbrev Bv12 : (c : Dev nD) → (b : Ref sig .tc) → Buf (Elt F) ((c : Thread nD τ).loc b) := fun c b => Bd12 m c b
theorem hF4 (c : Dev nD) (w : Fin cfg4.W) : (dat4 (Bv11 m) c).arrAt w cfg4.N = Bv12 m c (Pipeline.arrRef spec4 w) :=
  (Bd12_arr m c w).symm
theorem hrest4 (c : Dev nD) : ∀ b, b ∉ Finset.univ.image (Pipeline.arrRef spec4) → Bv12 m c b = Bv11 m c b :=
  fun b hb => Bd12_of_ne m c b fun w e => hb (Finset.mem_image.mpr ⟨w, Finset.mem_univ _, e⟩)
/-- Input window 0's array is as the region found it. -/
theorem Bd12_in0 (c : Dev nD) : Bd12 m c (Proc.devRef .tc (Pipeline.arrRef spec4 0)) = Bd11 m c (Proc.devRef .tc (Pipeline.arrRef spec4 0)) :=
  (Bd12_arr m c 0).trans (((dat4 (Bv11 m) c).arrAt_in 0 rfl _).trans (A_eq4 (Bv11 m) c 0))
/-- Input window 1's array is as the region found it. -/
theorem Bd12_in1 (c : Dev nD) : Bd12 m c (Proc.devRef .tc (Pipeline.arrRef spec4 1)) = Bd11 m c (Proc.devRef .tc (Pipeline.arrRef spec4 1)) :=
  (Bd12_arr m c 1).trans (((dat4 (Bv11 m) c).arrAt_in 1 rfl _).trans (A_eq4 (Bv11 m) c 1))
/-- Input window 2's array is as the region found it. -/
theorem Bd12_in2 (c : Dev nD) : Bd12 m c (Proc.devRef .tc (Pipeline.arrRef spec4 2)) = Bd11 m c (Proc.devRef .tc (Pipeline.arrRef spec4 2)) :=
  (Bd12_arr m c 2).trans (((dat4 (Bv11 m) c).arrAt_in 2 rfl _).trans (A_eq4 (Bv11 m) c 2))
/-- Input window 3's array is as the region found it. -/
theorem Bd12_in3 (c : Dev nD) : Bd12 m c (Proc.devRef .tc (Pipeline.arrRef spec4 3)) = Bd11 m c (Proc.devRef .tc (Pipeline.arrRef spec4 3)) :=
  (Bd12_arr m c 3).trans (((dat4 (Bv11 m) c).arrAt_in 3 rfl _).trans (A_eq4 (Bv11 m) c 3))
/-- Input window 4's array is as the region found it. -/
theorem Bd12_in4 (c : Dev nD) : Bd12 m c (Proc.devRef .tc (Pipeline.arrRef spec4 4)) = Bd11 m c (Proc.devRef .tc (Pipeline.arrRef spec4 4)) :=
  (Bd12_arr m c 4).trans (((dat4 (Bv11 m) c).arrAt_in 4 rfl _).trans (A_eq4 (Bv11 m) c 4))
/-- Input window 5's array is as the region found it. -/
theorem Bd12_in5 (c : Dev nD) : Bd12 m c (Proc.devRef .tc (Pipeline.arrRef spec4 5)) = Bd11 m c (Proc.devRef .tc (Pipeline.arrRef spec4 5)) :=
  (Bd12_arr m c 5).trans (((dat4 (Bv11 m) c).arrAt_in 5 rfl _).trans (A_eq4 (Bv11 m) c 5))

/-- After the stretch `hostOps5`. -/
abbrev Bd13 (c : Dev nD) : Valuation τ sig (Elt F) := StableHlo.after hostOps5 (Bd12 m c)
/-- A buffer the stretch does not write keeps its contents. -/
theorem Bd13_keep (c : Dev nD) (r : Ref sig .tc) (hr : r ∉ hostOps5_W) : Bd13 m c (Proc.devRef .tc r) = Bd12 m c (Proc.devRef .tc r) :=
  StableHlo.after_of_writes_sub _ _ hostOps5_writes hr

/-- Region 5's entry contents read at the TensorCore's references. -/
abbrev Bv13 : (c : Dev nD) → (b : Ref sig .tc) → Buf (Elt F) ((c : Thread nD τ).loc b) := fun c b => Bd13 m c b
/-- At region 5's exit: its arrays at what the pipeline leaves, every other buffer as entered. -/
def Bd14 (c : Dev nD) : Valuation τ sig (Elt F) :=
  Pipeline.withArrays spec5 c (Bd13 m c) fun w => (dat5 (Bv13 m) c).arrAt w cfg5.N
theorem Bd14_arr (c : Dev nD) (w : Fin cfg5.W) :
    Bd14 m c (Proc.devRef .tc (Pipeline.arrRef spec5 w)) = (dat5 (Bv13 m) c).arrAt w cfg5.N := by
  unfold Bd14; exact Pipeline.withArrays_arr spec5 launch5.win.arr_inj c _ _ w
theorem Bd14_of_ne (c : Dev nD) (b : Ref sig .tc) (hb : ∀ w, Pipeline.arrRef spec5 w ≠ b) :
    Bd14 m c (Proc.devRef .tc b) = Bd13 m c (Proc.devRef .tc b) := by
  unfold Bd14; exact Pipeline.withArrays_of_ne spec5 c _ _ b hb
abbrev Bv14 : (c : Dev nD) → (b : Ref sig .tc) → Buf (Elt F) ((c : Thread nD τ).loc b) := fun c b => Bd14 m c b
theorem hF5 (c : Dev nD) (w : Fin cfg5.W) : (dat5 (Bv13 m) c).arrAt w cfg5.N = Bv14 m c (Pipeline.arrRef spec5 w) :=
  (Bd14_arr m c w).symm
theorem hrest5 (c : Dev nD) : ∀ b, b ∉ Finset.univ.image (Pipeline.arrRef spec5) → Bv14 m c b = Bv13 m c b :=
  fun b hb => Bd14_of_ne m c b fun w e => hb (Finset.mem_image.mpr ⟨w, Finset.mem_univ _, e⟩)
/-- Input window 0's array is as the region found it. -/
theorem Bd14_in0 (c : Dev nD) : Bd14 m c (Proc.devRef .tc (Pipeline.arrRef spec5 0)) = Bd13 m c (Proc.devRef .tc (Pipeline.arrRef spec5 0)) :=
  (Bd14_arr m c 0).trans (((dat5 (Bv13 m) c).arrAt_in 0 rfl _).trans (A_eq5 (Bv13 m) c 0))
/-- Input window 1's array is as the region found it. -/
theorem Bd14_in1 (c : Dev nD) : Bd14 m c (Proc.devRef .tc (Pipeline.arrRef spec5 1)) = Bd13 m c (Proc.devRef .tc (Pipeline.arrRef spec5 1)) :=
  (Bd14_arr m c 1).trans (((dat5 (Bv13 m) c).arrAt_in 1 rfl _).trans (A_eq5 (Bv13 m) c 1))

/-- After the stretch `hostOps6`. -/
abbrev Bd15 (c : Dev nD) : Valuation τ sig (Elt F) := StableHlo.after hostOps6 (Bd14 m c)
/-- A buffer the stretch does not write keeps its contents. -/
theorem Bd15_keep (c : Dev nD) (r : Ref sig .tc) (hr : r ∉ hostOps6_W) : Bd15 m c (Proc.devRef .tc r) = Bd14 m c (Proc.devRef .tc r) :=
  StableHlo.after_of_writes_sub _ _ hostOps6_writes hr

/-- Region 6's entry contents read at the TensorCore's references. -/
abbrev Bv15 : (c : Dev nD) → (b : Ref sig .tc) → Buf (Elt F) ((c : Thread nD τ).loc b) := fun c b => Bd15 m c b
/-- At region 6's exit: its arrays at what the pipeline leaves, every other buffer as entered. -/
def Bd16 (c : Dev nD) : Valuation τ sig (Elt F) :=
  Pipeline.withArrays spec6 c (Bd15 m c) fun w => (dat6 (Bv15 m) c).arrAt w cfg6.N
theorem Bd16_arr (c : Dev nD) (w : Fin cfg6.W) :
    Bd16 m c (Proc.devRef .tc (Pipeline.arrRef spec6 w)) = (dat6 (Bv15 m) c).arrAt w cfg6.N := by
  unfold Bd16; exact Pipeline.withArrays_arr spec6 launch6.win.arr_inj c _ _ w
theorem Bd16_of_ne (c : Dev nD) (b : Ref sig .tc) (hb : ∀ w, Pipeline.arrRef spec6 w ≠ b) :
    Bd16 m c (Proc.devRef .tc b) = Bd15 m c (Proc.devRef .tc b) := by
  unfold Bd16; exact Pipeline.withArrays_of_ne spec6 c _ _ b hb
abbrev Bv16 : (c : Dev nD) → (b : Ref sig .tc) → Buf (Elt F) ((c : Thread nD τ).loc b) := fun c b => Bd16 m c b
theorem hF6 (c : Dev nD) (w : Fin cfg6.W) : (dat6 (Bv15 m) c).arrAt w cfg6.N = Bv16 m c (Pipeline.arrRef spec6 w) :=
  (Bd16_arr m c w).symm
theorem hrest6 (c : Dev nD) : ∀ b, b ∉ Finset.univ.image (Pipeline.arrRef spec6) → Bv16 m c b = Bv15 m c b :=
  fun b hb => Bd16_of_ne m c b fun w e => hb (Finset.mem_image.mpr ⟨w, Finset.mem_univ _, e⟩)
/-- Input window 0's array is as the region found it. -/
theorem Bd16_in0 (c : Dev nD) : Bd16 m c (Proc.devRef .tc (Pipeline.arrRef spec6 0)) = Bd15 m c (Proc.devRef .tc (Pipeline.arrRef spec6 0)) :=
  (Bd16_arr m c 0).trans (((dat6 (Bv15 m) c).arrAt_in 0 rfl _).trans (A_eq6 (Bv15 m) c 0))
/-- Input window 1's array is as the region found it. -/
theorem Bd16_in1 (c : Dev nD) : Bd16 m c (Proc.devRef .tc (Pipeline.arrRef spec6 1)) = Bd15 m c (Proc.devRef .tc (Pipeline.arrRef spec6 1)) :=
  (Bd16_arr m c 1).trans (((dat6 (Bv15 m) c).arrAt_in 1 rfl _).trans (A_eq6 (Bv15 m) c 1))
/-- Input window 2's array is as the region found it. -/
theorem Bd16_in2 (c : Dev nD) : Bd16 m c (Proc.devRef .tc (Pipeline.arrRef spec6 2)) = Bd15 m c (Proc.devRef .tc (Pipeline.arrRef spec6 2)) :=
  (Bd16_arr m c 2).trans (((dat6 (Bv15 m) c).arrAt_in 2 rfl _).trans (A_eq6 (Bv15 m) c 2))
/-- Input window 3's array is as the region found it. -/
theorem Bd16_in3 (c : Dev nD) : Bd16 m c (Proc.devRef .tc (Pipeline.arrRef spec6 3)) = Bd15 m c (Proc.devRef .tc (Pipeline.arrRef spec6 3)) :=
  (Bd16_arr m c 3).trans (((dat6 (Bv15 m) c).arrAt_in 3 rfl _).trans (A_eq6 (Bv15 m) c 3))
/-- Input window 4's array is as the region found it. -/
theorem Bd16_in4 (c : Dev nD) : Bd16 m c (Proc.devRef .tc (Pipeline.arrRef spec6 4)) = Bd15 m c (Proc.devRef .tc (Pipeline.arrRef spec6 4)) :=
  (Bd16_arr m c 4).trans (((dat6 (Bv15 m) c).arrAt_in 4 rfl _).trans (A_eq6 (Bv15 m) c 4))
/-- Input window 5's array is as the region found it. -/
theorem Bd16_in5 (c : Dev nD) : Bd16 m c (Proc.devRef .tc (Pipeline.arrRef spec6 5)) = Bd15 m c (Proc.devRef .tc (Pipeline.arrRef spec6 5)) :=
  (Bd16_arr m c 5).trans (((dat6 (Bv15 m) c).arrAt_in 5 rfl _).trans (A_eq6 (Bv15 m) c 5))

/-- After the stretch `hostOps7`. -/
abbrev Bd17 (c : Dev nD) : Valuation τ sig (Elt F) := StableHlo.after hostOps7 (Bd16 m c)
/-- A buffer the stretch does not write keeps its contents. -/
theorem Bd17_keep (c : Dev nD) (r : Ref sig .tc) (hr : r ∉ hostOps7_W) : Bd17 m c (Proc.devRef .tc r) = Bd16 m c (Proc.devRef .tc r) :=
  StableHlo.after_of_writes_sub _ _ hostOps7_writes hr

/-- Region 7's entry contents read at the TensorCore's references. -/
abbrev Bv17 : (c : Dev nD) → (b : Ref sig .tc) → Buf (Elt F) ((c : Thread nD τ).loc b) := fun c b => Bd17 m c b
/-- At region 7's exit: its arrays at what the pipeline leaves, every other buffer as entered. -/
def Bd18 (c : Dev nD) : Valuation τ sig (Elt F) :=
  Pipeline.withArrays spec7 c (Bd17 m c) fun w => (dat7 (Bv17 m) c).arrAt w cfg7.N
theorem Bd18_arr (c : Dev nD) (w : Fin cfg7.W) :
    Bd18 m c (Proc.devRef .tc (Pipeline.arrRef spec7 w)) = (dat7 (Bv17 m) c).arrAt w cfg7.N := by
  unfold Bd18; exact Pipeline.withArrays_arr spec7 launch7.win.arr_inj c _ _ w
theorem Bd18_of_ne (c : Dev nD) (b : Ref sig .tc) (hb : ∀ w, Pipeline.arrRef spec7 w ≠ b) :
    Bd18 m c (Proc.devRef .tc b) = Bd17 m c (Proc.devRef .tc b) := by
  unfold Bd18; exact Pipeline.withArrays_of_ne spec7 c _ _ b hb
abbrev Bv18 : (c : Dev nD) → (b : Ref sig .tc) → Buf (Elt F) ((c : Thread nD τ).loc b) := fun c b => Bd18 m c b
theorem hF7 (c : Dev nD) (w : Fin cfg7.W) : (dat7 (Bv17 m) c).arrAt w cfg7.N = Bv18 m c (Pipeline.arrRef spec7 w) :=
  (Bd18_arr m c w).symm
theorem hrest7 (c : Dev nD) : ∀ b, b ∉ Finset.univ.image (Pipeline.arrRef spec7) → Bv18 m c b = Bv17 m c b :=
  fun b hb => Bd18_of_ne m c b fun w e => hb (Finset.mem_image.mpr ⟨w, Finset.mem_univ _, e⟩)
/-- Input window 0's array is as the region found it. -/
theorem Bd18_in0 (c : Dev nD) : Bd18 m c (Proc.devRef .tc (Pipeline.arrRef spec7 0)) = Bd17 m c (Proc.devRef .tc (Pipeline.arrRef spec7 0)) :=
  (Bd18_arr m c 0).trans (((dat7 (Bv17 m) c).arrAt_in 0 rfl _).trans (A_eq7 (Bv17 m) c 0))
/-- Input window 1's array is as the region found it. -/
theorem Bd18_in1 (c : Dev nD) : Bd18 m c (Proc.devRef .tc (Pipeline.arrRef spec7 1)) = Bd17 m c (Proc.devRef .tc (Pipeline.arrRef spec7 1)) :=
  (Bd18_arr m c 1).trans (((dat7 (Bv17 m) c).arrAt_in 1 rfl _).trans (A_eq7 (Bv17 m) c 1))
/-- Input window 2's array is as the region found it. -/
theorem Bd18_in2 (c : Dev nD) : Bd18 m c (Proc.devRef .tc (Pipeline.arrRef spec7 2)) = Bd17 m c (Proc.devRef .tc (Pipeline.arrRef spec7 2)) :=
  (Bd18_arr m c 2).trans (((dat7 (Bv17 m) c).arrAt_in 2 rfl _).trans (A_eq7 (Bv17 m) c 2))
/-- Input window 3's array is as the region found it. -/
theorem Bd18_in3 (c : Dev nD) : Bd18 m c (Proc.devRef .tc (Pipeline.arrRef spec7 3)) = Bd17 m c (Proc.devRef .tc (Pipeline.arrRef spec7 3)) :=
  (Bd18_arr m c 3).trans (((dat7 (Bv17 m) c).arrAt_in 3 rfl _).trans (A_eq7 (Bv17 m) c 3))
/-- Input window 4's array is as the region found it. -/
theorem Bd18_in4 (c : Dev nD) : Bd18 m c (Proc.devRef .tc (Pipeline.arrRef spec7 4)) = Bd17 m c (Proc.devRef .tc (Pipeline.arrRef spec7 4)) :=
  (Bd18_arr m c 4).trans (((dat7 (Bv17 m) c).arrAt_in 4 rfl _).trans (A_eq7 (Bv17 m) c 4))
/-- Input window 5's array is as the region found it. -/
theorem Bd18_in5 (c : Dev nD) : Bd18 m c (Proc.devRef .tc (Pipeline.arrRef spec7 5)) = Bd17 m c (Proc.devRef .tc (Pipeline.arrRef spec7 5)) :=
  (Bd18_arr m c 5).trans (((dat7 (Bv17 m) c).arrAt_in 5 rfl _).trans (A_eq7 (Bv17 m) c 5))
/-- Input window 6's array is as the region found it. -/
theorem Bd18_in6 (c : Dev nD) : Bd18 m c (Proc.devRef .tc (Pipeline.arrRef spec7 6)) = Bd17 m c (Proc.devRef .tc (Pipeline.arrRef spec7 6)) :=
  (Bd18_arr m c 6).trans (((dat7 (Bv17 m) c).arrAt_in 6 rfl _).trans (A_eq7 (Bv17 m) c 6))

/-! Every argument array, at every boundary, is what the launch memory held: no stretch writes one, and a region reads
    one through an input window or not at all. -/

theorem Bd0_main_arg0 (c : Dev nD) : Bd0 m c (Proc.devRef .tc main_arg0) = m ((c : Thread nD τ).loc main_arg0) := rfl
theorem Bd1_main_arg0 (c : Dev nD) : Bd1 m c (Proc.devRef .tc main_arg0) = m ((c : Thread nD τ).loc main_arg0) := (Bd1_keep m c main_arg0 (by decide)).trans (Bd0_main_arg0 m c)
theorem Bd2_main_arg0 (c : Dev nD) : Bd2 m c (Proc.devRef .tc main_arg0) = m ((c : Thread nD τ).loc main_arg0) := (Bd2_keep m c main_arg0 (by decide)).trans (Bd1_main_arg0 m c)
theorem Bd3_main_arg0 (c : Dev nD) : Bd3 m c (Proc.devRef .tc main_arg0) = m ((c : Thread nD τ).loc main_arg0) := (Bd3_keep m c main_arg0 (by decide)).trans (Bd2_main_arg0 m c)
theorem Bd4_main_arg0 (c : Dev nD) : Bd4 m c (Proc.devRef .tc main_arg0) = m ((c : Thread nD τ).loc main_arg0) := (Bd4_in0 m c).trans (Bd3_main_arg0 m c)
theorem Bd5_main_arg0 (c : Dev nD) : Bd5 m c (Proc.devRef .tc main_arg0) = m ((c : Thread nD τ).loc main_arg0) := (Bd5_keep m c main_arg0 (by decide)).trans (Bd4_main_arg0 m c)
theorem Bd6_main_arg0 (c : Dev nD) : Bd6 m c (Proc.devRef .tc main_arg0) = m ((c : Thread nD τ).loc main_arg0) := (Bd6_of_ne m c main_arg0 (by decide)).trans (Bd5_main_arg0 m c)
theorem Bd7_main_arg0 (c : Dev nD) : Bd7 m c (Proc.devRef .tc main_arg0) = m ((c : Thread nD τ).loc main_arg0) := (Bd7_keep m c main_arg0 (by decide)).trans (Bd6_main_arg0 m c)
theorem Bd8_main_arg0 (c : Dev nD) : Bd8 m c (Proc.devRef .tc main_arg0) = m ((c : Thread nD τ).loc main_arg0) := (Bd8_of_ne m c main_arg0 (by decide)).trans (Bd7_main_arg0 m c)
theorem Bd9_main_arg0 (c : Dev nD) : Bd9 m c (Proc.devRef .tc main_arg0) = m ((c : Thread nD τ).loc main_arg0) := (Bd9_keep m c main_arg0 (by decide)).trans (Bd8_main_arg0 m c)
theorem Bd10_main_arg0 (c : Dev nD) : Bd10 m c (Proc.devRef .tc main_arg0) = m ((c : Thread nD τ).loc main_arg0) := (Bd10_of_ne m c main_arg0 (by decide)).trans (Bd9_main_arg0 m c)
theorem Bd11_main_arg0 (c : Dev nD) : Bd11 m c (Proc.devRef .tc main_arg0) = m ((c : Thread nD τ).loc main_arg0) := (Bd11_keep m c main_arg0 (by decide)).trans (Bd10_main_arg0 m c)
theorem Bd12_main_arg0 (c : Dev nD) : Bd12 m c (Proc.devRef .tc main_arg0) = m ((c : Thread nD τ).loc main_arg0) := (Bd12_of_ne m c main_arg0 (by decide)).trans (Bd11_main_arg0 m c)
theorem Bd13_main_arg0 (c : Dev nD) : Bd13 m c (Proc.devRef .tc main_arg0) = m ((c : Thread nD τ).loc main_arg0) := (Bd13_keep m c main_arg0 (by decide)).trans (Bd12_main_arg0 m c)
theorem Bd14_main_arg0 (c : Dev nD) : Bd14 m c (Proc.devRef .tc main_arg0) = m ((c : Thread nD τ).loc main_arg0) := (Bd14_of_ne m c main_arg0 (by decide)).trans (Bd13_main_arg0 m c)
theorem Bd15_main_arg0 (c : Dev nD) : Bd15 m c (Proc.devRef .tc main_arg0) = m ((c : Thread nD τ).loc main_arg0) := (Bd15_keep m c main_arg0 (by decide)).trans (Bd14_main_arg0 m c)
theorem Bd16_main_arg0 (c : Dev nD) : Bd16 m c (Proc.devRef .tc main_arg0) = m ((c : Thread nD τ).loc main_arg0) := (Bd16_of_ne m c main_arg0 (by decide)).trans (Bd15_main_arg0 m c)
theorem Bd17_main_arg0 (c : Dev nD) : Bd17 m c (Proc.devRef .tc main_arg0) = m ((c : Thread nD τ).loc main_arg0) := (Bd17_keep m c main_arg0 (by decide)).trans (Bd16_main_arg0 m c)
theorem Bd18_main_arg0 (c : Dev nD) : Bd18 m c (Proc.devRef .tc main_arg0) = m ((c : Thread nD τ).loc main_arg0) := (Bd18_of_ne m c main_arg0 (by decide)).trans (Bd17_main_arg0 m c)

theorem Bd0_main_arg1 (c : Dev nD) : Bd0 m c (Proc.devRef .tc main_arg1) = m ((c : Thread nD τ).loc main_arg1) := rfl
theorem Bd1_main_arg1 (c : Dev nD) : Bd1 m c (Proc.devRef .tc main_arg1) = m ((c : Thread nD τ).loc main_arg1) := (Bd1_keep m c main_arg1 (by decide)).trans (Bd0_main_arg1 m c)
theorem Bd2_main_arg1 (c : Dev nD) : Bd2 m c (Proc.devRef .tc main_arg1) = m ((c : Thread nD τ).loc main_arg1) := (Bd2_keep m c main_arg1 (by decide)).trans (Bd1_main_arg1 m c)
theorem Bd3_main_arg1 (c : Dev nD) : Bd3 m c (Proc.devRef .tc main_arg1) = m ((c : Thread nD τ).loc main_arg1) := (Bd3_keep m c main_arg1 (by decide)).trans (Bd2_main_arg1 m c)
theorem Bd4_main_arg1 (c : Dev nD) : Bd4 m c (Proc.devRef .tc main_arg1) = m ((c : Thread nD τ).loc main_arg1) := (Bd4_of_ne m c main_arg1 (by decide)).trans (Bd3_main_arg1 m c)
theorem Bd5_main_arg1 (c : Dev nD) : Bd5 m c (Proc.devRef .tc main_arg1) = m ((c : Thread nD τ).loc main_arg1) := (Bd5_keep m c main_arg1 (by decide)).trans (Bd4_main_arg1 m c)
theorem Bd6_main_arg1 (c : Dev nD) : Bd6 m c (Proc.devRef .tc main_arg1) = m ((c : Thread nD τ).loc main_arg1) := (Bd6_of_ne m c main_arg1 (by decide)).trans (Bd5_main_arg1 m c)
theorem Bd7_main_arg1 (c : Dev nD) : Bd7 m c (Proc.devRef .tc main_arg1) = m ((c : Thread nD τ).loc main_arg1) := (Bd7_keep m c main_arg1 (by decide)).trans (Bd6_main_arg1 m c)
theorem Bd8_main_arg1 (c : Dev nD) : Bd8 m c (Proc.devRef .tc main_arg1) = m ((c : Thread nD τ).loc main_arg1) := (Bd8_of_ne m c main_arg1 (by decide)).trans (Bd7_main_arg1 m c)
theorem Bd9_main_arg1 (c : Dev nD) : Bd9 m c (Proc.devRef .tc main_arg1) = m ((c : Thread nD τ).loc main_arg1) := (Bd9_keep m c main_arg1 (by decide)).trans (Bd8_main_arg1 m c)
theorem Bd10_main_arg1 (c : Dev nD) : Bd10 m c (Proc.devRef .tc main_arg1) = m ((c : Thread nD τ).loc main_arg1) := (Bd10_of_ne m c main_arg1 (by decide)).trans (Bd9_main_arg1 m c)
theorem Bd11_main_arg1 (c : Dev nD) : Bd11 m c (Proc.devRef .tc main_arg1) = m ((c : Thread nD τ).loc main_arg1) := (Bd11_keep m c main_arg1 (by decide)).trans (Bd10_main_arg1 m c)
theorem Bd12_main_arg1 (c : Dev nD) : Bd12 m c (Proc.devRef .tc main_arg1) = m ((c : Thread nD τ).loc main_arg1) := (Bd12_of_ne m c main_arg1 (by decide)).trans (Bd11_main_arg1 m c)
theorem Bd13_main_arg1 (c : Dev nD) : Bd13 m c (Proc.devRef .tc main_arg1) = m ((c : Thread nD τ).loc main_arg1) := (Bd13_keep m c main_arg1 (by decide)).trans (Bd12_main_arg1 m c)
theorem Bd14_main_arg1 (c : Dev nD) : Bd14 m c (Proc.devRef .tc main_arg1) = m ((c : Thread nD τ).loc main_arg1) := (Bd14_of_ne m c main_arg1 (by decide)).trans (Bd13_main_arg1 m c)
theorem Bd15_main_arg1 (c : Dev nD) : Bd15 m c (Proc.devRef .tc main_arg1) = m ((c : Thread nD τ).loc main_arg1) := (Bd15_keep m c main_arg1 (by decide)).trans (Bd14_main_arg1 m c)
theorem Bd16_main_arg1 (c : Dev nD) : Bd16 m c (Proc.devRef .tc main_arg1) = m ((c : Thread nD τ).loc main_arg1) := (Bd16_of_ne m c main_arg1 (by decide)).trans (Bd15_main_arg1 m c)
theorem Bd17_main_arg1 (c : Dev nD) : Bd17 m c (Proc.devRef .tc main_arg1) = m ((c : Thread nD τ).loc main_arg1) := (Bd17_keep m c main_arg1 (by decide)).trans (Bd16_main_arg1 m c)
theorem Bd18_main_arg1 (c : Dev nD) : Bd18 m c (Proc.devRef .tc main_arg1) = m ((c : Thread nD τ).loc main_arg1) := (Bd18_of_ne m c main_arg1 (by decide)).trans (Bd17_main_arg1 m c)

theorem Bd0_main_arg2 (c : Dev nD) : Bd0 m c (Proc.devRef .tc main_arg2) = m ((c : Thread nD τ).loc main_arg2) := rfl
theorem Bd1_main_arg2 (c : Dev nD) : Bd1 m c (Proc.devRef .tc main_arg2) = m ((c : Thread nD τ).loc main_arg2) := (Bd1_keep m c main_arg2 (by decide)).trans (Bd0_main_arg2 m c)
theorem Bd2_main_arg2 (c : Dev nD) : Bd2 m c (Proc.devRef .tc main_arg2) = m ((c : Thread nD τ).loc main_arg2) := (Bd2_keep m c main_arg2 (by decide)).trans (Bd1_main_arg2 m c)
theorem Bd3_main_arg2 (c : Dev nD) : Bd3 m c (Proc.devRef .tc main_arg2) = m ((c : Thread nD τ).loc main_arg2) := (Bd3_keep m c main_arg2 (by decide)).trans (Bd2_main_arg2 m c)
theorem Bd4_main_arg2 (c : Dev nD) : Bd4 m c (Proc.devRef .tc main_arg2) = m ((c : Thread nD τ).loc main_arg2) := (Bd4_of_ne m c main_arg2 (by decide)).trans (Bd3_main_arg2 m c)
theorem Bd5_main_arg2 (c : Dev nD) : Bd5 m c (Proc.devRef .tc main_arg2) = m ((c : Thread nD τ).loc main_arg2) := (Bd5_keep m c main_arg2 (by decide)).trans (Bd4_main_arg2 m c)
theorem Bd6_main_arg2 (c : Dev nD) : Bd6 m c (Proc.devRef .tc main_arg2) = m ((c : Thread nD τ).loc main_arg2) := (Bd6_of_ne m c main_arg2 (by decide)).trans (Bd5_main_arg2 m c)
theorem Bd7_main_arg2 (c : Dev nD) : Bd7 m c (Proc.devRef .tc main_arg2) = m ((c : Thread nD τ).loc main_arg2) := (Bd7_keep m c main_arg2 (by decide)).trans (Bd6_main_arg2 m c)
theorem Bd8_main_arg2 (c : Dev nD) : Bd8 m c (Proc.devRef .tc main_arg2) = m ((c : Thread nD τ).loc main_arg2) := (Bd8_of_ne m c main_arg2 (by decide)).trans (Bd7_main_arg2 m c)
theorem Bd9_main_arg2 (c : Dev nD) : Bd9 m c (Proc.devRef .tc main_arg2) = m ((c : Thread nD τ).loc main_arg2) := (Bd9_keep m c main_arg2 (by decide)).trans (Bd8_main_arg2 m c)
theorem Bd10_main_arg2 (c : Dev nD) : Bd10 m c (Proc.devRef .tc main_arg2) = m ((c : Thread nD τ).loc main_arg2) := (Bd10_of_ne m c main_arg2 (by decide)).trans (Bd9_main_arg2 m c)
theorem Bd11_main_arg2 (c : Dev nD) : Bd11 m c (Proc.devRef .tc main_arg2) = m ((c : Thread nD τ).loc main_arg2) := (Bd11_keep m c main_arg2 (by decide)).trans (Bd10_main_arg2 m c)
theorem Bd12_main_arg2 (c : Dev nD) : Bd12 m c (Proc.devRef .tc main_arg2) = m ((c : Thread nD τ).loc main_arg2) := (Bd12_of_ne m c main_arg2 (by decide)).trans (Bd11_main_arg2 m c)
theorem Bd13_main_arg2 (c : Dev nD) : Bd13 m c (Proc.devRef .tc main_arg2) = m ((c : Thread nD τ).loc main_arg2) := (Bd13_keep m c main_arg2 (by decide)).trans (Bd12_main_arg2 m c)
theorem Bd14_main_arg2 (c : Dev nD) : Bd14 m c (Proc.devRef .tc main_arg2) = m ((c : Thread nD τ).loc main_arg2) := (Bd14_of_ne m c main_arg2 (by decide)).trans (Bd13_main_arg2 m c)
theorem Bd15_main_arg2 (c : Dev nD) : Bd15 m c (Proc.devRef .tc main_arg2) = m ((c : Thread nD τ).loc main_arg2) := (Bd15_keep m c main_arg2 (by decide)).trans (Bd14_main_arg2 m c)
theorem Bd16_main_arg2 (c : Dev nD) : Bd16 m c (Proc.devRef .tc main_arg2) = m ((c : Thread nD τ).loc main_arg2) := (Bd16_of_ne m c main_arg2 (by decide)).trans (Bd15_main_arg2 m c)
theorem Bd17_main_arg2 (c : Dev nD) : Bd17 m c (Proc.devRef .tc main_arg2) = m ((c : Thread nD τ).loc main_arg2) := (Bd17_keep m c main_arg2 (by decide)).trans (Bd16_main_arg2 m c)
theorem Bd18_main_arg2 (c : Dev nD) : Bd18 m c (Proc.devRef .tc main_arg2) = m ((c : Thread nD τ).loc main_arg2) := (Bd18_of_ne m c main_arg2 (by decide)).trans (Bd17_main_arg2 m c)

theorem Bd0_main_arg3 (c : Dev nD) : Bd0 m c (Proc.devRef .tc main_arg3) = m ((c : Thread nD τ).loc main_arg3) := rfl
theorem Bd1_main_arg3 (c : Dev nD) : Bd1 m c (Proc.devRef .tc main_arg3) = m ((c : Thread nD τ).loc main_arg3) := (Bd1_keep m c main_arg3 (by decide)).trans (Bd0_main_arg3 m c)
theorem Bd2_main_arg3 (c : Dev nD) : Bd2 m c (Proc.devRef .tc main_arg3) = m ((c : Thread nD τ).loc main_arg3) := (Bd2_keep m c main_arg3 (by decide)).trans (Bd1_main_arg3 m c)
theorem Bd3_main_arg3 (c : Dev nD) : Bd3 m c (Proc.devRef .tc main_arg3) = m ((c : Thread nD τ).loc main_arg3) := (Bd3_keep m c main_arg3 (by decide)).trans (Bd2_main_arg3 m c)
theorem Bd4_main_arg3 (c : Dev nD) : Bd4 m c (Proc.devRef .tc main_arg3) = m ((c : Thread nD τ).loc main_arg3) := (Bd4_of_ne m c main_arg3 (by decide)).trans (Bd3_main_arg3 m c)
theorem Bd5_main_arg3 (c : Dev nD) : Bd5 m c (Proc.devRef .tc main_arg3) = m ((c : Thread nD τ).loc main_arg3) := (Bd5_keep m c main_arg3 (by decide)).trans (Bd4_main_arg3 m c)
theorem Bd6_main_arg3 (c : Dev nD) : Bd6 m c (Proc.devRef .tc main_arg3) = m ((c : Thread nD τ).loc main_arg3) := (Bd6_of_ne m c main_arg3 (by decide)).trans (Bd5_main_arg3 m c)
theorem Bd7_main_arg3 (c : Dev nD) : Bd7 m c (Proc.devRef .tc main_arg3) = m ((c : Thread nD τ).loc main_arg3) := (Bd7_keep m c main_arg3 (by decide)).trans (Bd6_main_arg3 m c)
theorem Bd8_main_arg3 (c : Dev nD) : Bd8 m c (Proc.devRef .tc main_arg3) = m ((c : Thread nD τ).loc main_arg3) := (Bd8_of_ne m c main_arg3 (by decide)).trans (Bd7_main_arg3 m c)
theorem Bd9_main_arg3 (c : Dev nD) : Bd9 m c (Proc.devRef .tc main_arg3) = m ((c : Thread nD τ).loc main_arg3) := (Bd9_keep m c main_arg3 (by decide)).trans (Bd8_main_arg3 m c)
theorem Bd10_main_arg3 (c : Dev nD) : Bd10 m c (Proc.devRef .tc main_arg3) = m ((c : Thread nD τ).loc main_arg3) := (Bd10_of_ne m c main_arg3 (by decide)).trans (Bd9_main_arg3 m c)
theorem Bd11_main_arg3 (c : Dev nD) : Bd11 m c (Proc.devRef .tc main_arg3) = m ((c : Thread nD τ).loc main_arg3) := (Bd11_keep m c main_arg3 (by decide)).trans (Bd10_main_arg3 m c)
theorem Bd12_main_arg3 (c : Dev nD) : Bd12 m c (Proc.devRef .tc main_arg3) = m ((c : Thread nD τ).loc main_arg3) := (Bd12_of_ne m c main_arg3 (by decide)).trans (Bd11_main_arg3 m c)
theorem Bd13_main_arg3 (c : Dev nD) : Bd13 m c (Proc.devRef .tc main_arg3) = m ((c : Thread nD τ).loc main_arg3) := (Bd13_keep m c main_arg3 (by decide)).trans (Bd12_main_arg3 m c)
theorem Bd14_main_arg3 (c : Dev nD) : Bd14 m c (Proc.devRef .tc main_arg3) = m ((c : Thread nD τ).loc main_arg3) := (Bd14_of_ne m c main_arg3 (by decide)).trans (Bd13_main_arg3 m c)
theorem Bd15_main_arg3 (c : Dev nD) : Bd15 m c (Proc.devRef .tc main_arg3) = m ((c : Thread nD τ).loc main_arg3) := (Bd15_keep m c main_arg3 (by decide)).trans (Bd14_main_arg3 m c)
theorem Bd16_main_arg3 (c : Dev nD) : Bd16 m c (Proc.devRef .tc main_arg3) = m ((c : Thread nD τ).loc main_arg3) := (Bd16_of_ne m c main_arg3 (by decide)).trans (Bd15_main_arg3 m c)
theorem Bd17_main_arg3 (c : Dev nD) : Bd17 m c (Proc.devRef .tc main_arg3) = m ((c : Thread nD τ).loc main_arg3) := (Bd17_keep m c main_arg3 (by decide)).trans (Bd16_main_arg3 m c)
theorem Bd18_main_arg3 (c : Dev nD) : Bd18 m c (Proc.devRef .tc main_arg3) = m ((c : Thread nD τ).loc main_arg3) := (Bd18_of_ne m c main_arg3 (by decide)).trans (Bd17_main_arg3 m c)

theorem Bd0_main_arg4 (c : Dev nD) : Bd0 m c (Proc.devRef .tc main_arg4) = m ((c : Thread nD τ).loc main_arg4) := rfl
theorem Bd1_main_arg4 (c : Dev nD) : Bd1 m c (Proc.devRef .tc main_arg4) = m ((c : Thread nD τ).loc main_arg4) := (Bd1_keep m c main_arg4 (by decide)).trans (Bd0_main_arg4 m c)
theorem Bd2_main_arg4 (c : Dev nD) : Bd2 m c (Proc.devRef .tc main_arg4) = m ((c : Thread nD τ).loc main_arg4) := (Bd2_keep m c main_arg4 (by decide)).trans (Bd1_main_arg4 m c)
theorem Bd3_main_arg4 (c : Dev nD) : Bd3 m c (Proc.devRef .tc main_arg4) = m ((c : Thread nD τ).loc main_arg4) := (Bd3_keep m c main_arg4 (by decide)).trans (Bd2_main_arg4 m c)
theorem Bd4_main_arg4 (c : Dev nD) : Bd4 m c (Proc.devRef .tc main_arg4) = m ((c : Thread nD τ).loc main_arg4) := (Bd4_in1 m c).trans (Bd3_main_arg4 m c)
theorem Bd5_main_arg4 (c : Dev nD) : Bd5 m c (Proc.devRef .tc main_arg4) = m ((c : Thread nD τ).loc main_arg4) := (Bd5_keep m c main_arg4 (by decide)).trans (Bd4_main_arg4 m c)
theorem Bd6_main_arg4 (c : Dev nD) : Bd6 m c (Proc.devRef .tc main_arg4) = m ((c : Thread nD τ).loc main_arg4) := (Bd6_of_ne m c main_arg4 (by decide)).trans (Bd5_main_arg4 m c)
theorem Bd7_main_arg4 (c : Dev nD) : Bd7 m c (Proc.devRef .tc main_arg4) = m ((c : Thread nD τ).loc main_arg4) := (Bd7_keep m c main_arg4 (by decide)).trans (Bd6_main_arg4 m c)
theorem Bd8_main_arg4 (c : Dev nD) : Bd8 m c (Proc.devRef .tc main_arg4) = m ((c : Thread nD τ).loc main_arg4) := (Bd8_of_ne m c main_arg4 (by decide)).trans (Bd7_main_arg4 m c)
theorem Bd9_main_arg4 (c : Dev nD) : Bd9 m c (Proc.devRef .tc main_arg4) = m ((c : Thread nD τ).loc main_arg4) := (Bd9_keep m c main_arg4 (by decide)).trans (Bd8_main_arg4 m c)
theorem Bd10_main_arg4 (c : Dev nD) : Bd10 m c (Proc.devRef .tc main_arg4) = m ((c : Thread nD τ).loc main_arg4) := (Bd10_of_ne m c main_arg4 (by decide)).trans (Bd9_main_arg4 m c)
theorem Bd11_main_arg4 (c : Dev nD) : Bd11 m c (Proc.devRef .tc main_arg4) = m ((c : Thread nD τ).loc main_arg4) := (Bd11_keep m c main_arg4 (by decide)).trans (Bd10_main_arg4 m c)
theorem Bd12_main_arg4 (c : Dev nD) : Bd12 m c (Proc.devRef .tc main_arg4) = m ((c : Thread nD τ).loc main_arg4) := (Bd12_of_ne m c main_arg4 (by decide)).trans (Bd11_main_arg4 m c)
theorem Bd13_main_arg4 (c : Dev nD) : Bd13 m c (Proc.devRef .tc main_arg4) = m ((c : Thread nD τ).loc main_arg4) := (Bd13_keep m c main_arg4 (by decide)).trans (Bd12_main_arg4 m c)
theorem Bd14_main_arg4 (c : Dev nD) : Bd14 m c (Proc.devRef .tc main_arg4) = m ((c : Thread nD τ).loc main_arg4) := (Bd14_of_ne m c main_arg4 (by decide)).trans (Bd13_main_arg4 m c)
theorem Bd15_main_arg4 (c : Dev nD) : Bd15 m c (Proc.devRef .tc main_arg4) = m ((c : Thread nD τ).loc main_arg4) := (Bd15_keep m c main_arg4 (by decide)).trans (Bd14_main_arg4 m c)
theorem Bd16_main_arg4 (c : Dev nD) : Bd16 m c (Proc.devRef .tc main_arg4) = m ((c : Thread nD τ).loc main_arg4) := (Bd16_of_ne m c main_arg4 (by decide)).trans (Bd15_main_arg4 m c)
theorem Bd17_main_arg4 (c : Dev nD) : Bd17 m c (Proc.devRef .tc main_arg4) = m ((c : Thread nD τ).loc main_arg4) := (Bd17_keep m c main_arg4 (by decide)).trans (Bd16_main_arg4 m c)
theorem Bd18_main_arg4 (c : Dev nD) : Bd18 m c (Proc.devRef .tc main_arg4) = m ((c : Thread nD τ).loc main_arg4) := (Bd18_of_ne m c main_arg4 (by decide)).trans (Bd17_main_arg4 m c)

theorem Bd0_main_arg5 (c : Dev nD) : Bd0 m c (Proc.devRef .tc main_arg5) = m ((c : Thread nD τ).loc main_arg5) := rfl
theorem Bd1_main_arg5 (c : Dev nD) : Bd1 m c (Proc.devRef .tc main_arg5) = m ((c : Thread nD τ).loc main_arg5) := (Bd1_keep m c main_arg5 (by decide)).trans (Bd0_main_arg5 m c)
theorem Bd2_main_arg5 (c : Dev nD) : Bd2 m c (Proc.devRef .tc main_arg5) = m ((c : Thread nD τ).loc main_arg5) := (Bd2_keep m c main_arg5 (by decide)).trans (Bd1_main_arg5 m c)
theorem Bd3_main_arg5 (c : Dev nD) : Bd3 m c (Proc.devRef .tc main_arg5) = m ((c : Thread nD τ).loc main_arg5) := (Bd3_keep m c main_arg5 (by decide)).trans (Bd2_main_arg5 m c)
theorem Bd4_main_arg5 (c : Dev nD) : Bd4 m c (Proc.devRef .tc main_arg5) = m ((c : Thread nD τ).loc main_arg5) := (Bd4_of_ne m c main_arg5 (by decide)).trans (Bd3_main_arg5 m c)
theorem Bd5_main_arg5 (c : Dev nD) : Bd5 m c (Proc.devRef .tc main_arg5) = m ((c : Thread nD τ).loc main_arg5) := (Bd5_keep m c main_arg5 (by decide)).trans (Bd4_main_arg5 m c)
theorem Bd6_main_arg5 (c : Dev nD) : Bd6 m c (Proc.devRef .tc main_arg5) = m ((c : Thread nD τ).loc main_arg5) := (Bd6_of_ne m c main_arg5 (by decide)).trans (Bd5_main_arg5 m c)
theorem Bd7_main_arg5 (c : Dev nD) : Bd7 m c (Proc.devRef .tc main_arg5) = m ((c : Thread nD τ).loc main_arg5) := (Bd7_keep m c main_arg5 (by decide)).trans (Bd6_main_arg5 m c)
theorem Bd8_main_arg5 (c : Dev nD) : Bd8 m c (Proc.devRef .tc main_arg5) = m ((c : Thread nD τ).loc main_arg5) := (Bd8_of_ne m c main_arg5 (by decide)).trans (Bd7_main_arg5 m c)
theorem Bd9_main_arg5 (c : Dev nD) : Bd9 m c (Proc.devRef .tc main_arg5) = m ((c : Thread nD τ).loc main_arg5) := (Bd9_keep m c main_arg5 (by decide)).trans (Bd8_main_arg5 m c)
theorem Bd10_main_arg5 (c : Dev nD) : Bd10 m c (Proc.devRef .tc main_arg5) = m ((c : Thread nD τ).loc main_arg5) := (Bd10_of_ne m c main_arg5 (by decide)).trans (Bd9_main_arg5 m c)
theorem Bd11_main_arg5 (c : Dev nD) : Bd11 m c (Proc.devRef .tc main_arg5) = m ((c : Thread nD τ).loc main_arg5) := (Bd11_keep m c main_arg5 (by decide)).trans (Bd10_main_arg5 m c)
theorem Bd12_main_arg5 (c : Dev nD) : Bd12 m c (Proc.devRef .tc main_arg5) = m ((c : Thread nD τ).loc main_arg5) := (Bd12_of_ne m c main_arg5 (by decide)).trans (Bd11_main_arg5 m c)
theorem Bd13_main_arg5 (c : Dev nD) : Bd13 m c (Proc.devRef .tc main_arg5) = m ((c : Thread nD τ).loc main_arg5) := (Bd13_keep m c main_arg5 (by decide)).trans (Bd12_main_arg5 m c)
theorem Bd14_main_arg5 (c : Dev nD) : Bd14 m c (Proc.devRef .tc main_arg5) = m ((c : Thread nD τ).loc main_arg5) := (Bd14_of_ne m c main_arg5 (by decide)).trans (Bd13_main_arg5 m c)
theorem Bd15_main_arg5 (c : Dev nD) : Bd15 m c (Proc.devRef .tc main_arg5) = m ((c : Thread nD τ).loc main_arg5) := (Bd15_keep m c main_arg5 (by decide)).trans (Bd14_main_arg5 m c)
theorem Bd16_main_arg5 (c : Dev nD) : Bd16 m c (Proc.devRef .tc main_arg5) = m ((c : Thread nD τ).loc main_arg5) := (Bd16_of_ne m c main_arg5 (by decide)).trans (Bd15_main_arg5 m c)
theorem Bd17_main_arg5 (c : Dev nD) : Bd17 m c (Proc.devRef .tc main_arg5) = m ((c : Thread nD τ).loc main_arg5) := (Bd17_keep m c main_arg5 (by decide)).trans (Bd16_main_arg5 m c)
theorem Bd18_main_arg5 (c : Dev nD) : Bd18 m c (Proc.devRef .tc main_arg5) = m ((c : Thread nD τ).loc main_arg5) := (Bd18_of_ne m c main_arg5 (by decide)).trans (Bd17_main_arg5 m c)

theorem Bd0_main_arg6 (c : Dev nD) : Bd0 m c (Proc.devRef .tc main_arg6) = m ((c : Thread nD τ).loc main_arg6) := rfl
theorem Bd1_main_arg6 (c : Dev nD) : Bd1 m c (Proc.devRef .tc main_arg6) = m ((c : Thread nD τ).loc main_arg6) := (Bd1_keep m c main_arg6 (by decide)).trans (Bd0_main_arg6 m c)
theorem Bd2_main_arg6 (c : Dev nD) : Bd2 m c (Proc.devRef .tc main_arg6) = m ((c : Thread nD τ).loc main_arg6) := (Bd2_keep m c main_arg6 (by decide)).trans (Bd1_main_arg6 m c)
theorem Bd3_main_arg6 (c : Dev nD) : Bd3 m c (Proc.devRef .tc main_arg6) = m ((c : Thread nD τ).loc main_arg6) := (Bd3_keep m c main_arg6 (by decide)).trans (Bd2_main_arg6 m c)
theorem Bd4_main_arg6 (c : Dev nD) : Bd4 m c (Proc.devRef .tc main_arg6) = m ((c : Thread nD τ).loc main_arg6) := (Bd4_of_ne m c main_arg6 (by decide)).trans (Bd3_main_arg6 m c)
theorem Bd5_main_arg6 (c : Dev nD) : Bd5 m c (Proc.devRef .tc main_arg6) = m ((c : Thread nD τ).loc main_arg6) := (Bd5_keep m c main_arg6 (by decide)).trans (Bd4_main_arg6 m c)
theorem Bd6_main_arg6 (c : Dev nD) : Bd6 m c (Proc.devRef .tc main_arg6) = m ((c : Thread nD τ).loc main_arg6) := (Bd6_of_ne m c main_arg6 (by decide)).trans (Bd5_main_arg6 m c)
theorem Bd7_main_arg6 (c : Dev nD) : Bd7 m c (Proc.devRef .tc main_arg6) = m ((c : Thread nD τ).loc main_arg6) := (Bd7_keep m c main_arg6 (by decide)).trans (Bd6_main_arg6 m c)
theorem Bd8_main_arg6 (c : Dev nD) : Bd8 m c (Proc.devRef .tc main_arg6) = m ((c : Thread nD τ).loc main_arg6) := (Bd8_of_ne m c main_arg6 (by decide)).trans (Bd7_main_arg6 m c)
theorem Bd9_main_arg6 (c : Dev nD) : Bd9 m c (Proc.devRef .tc main_arg6) = m ((c : Thread nD τ).loc main_arg6) := (Bd9_keep m c main_arg6 (by decide)).trans (Bd8_main_arg6 m c)
theorem Bd10_main_arg6 (c : Dev nD) : Bd10 m c (Proc.devRef .tc main_arg6) = m ((c : Thread nD τ).loc main_arg6) := (Bd10_of_ne m c main_arg6 (by decide)).trans (Bd9_main_arg6 m c)
theorem Bd11_main_arg6 (c : Dev nD) : Bd11 m c (Proc.devRef .tc main_arg6) = m ((c : Thread nD τ).loc main_arg6) := (Bd11_keep m c main_arg6 (by decide)).trans (Bd10_main_arg6 m c)
theorem Bd12_main_arg6 (c : Dev nD) : Bd12 m c (Proc.devRef .tc main_arg6) = m ((c : Thread nD τ).loc main_arg6) := (Bd12_of_ne m c main_arg6 (by decide)).trans (Bd11_main_arg6 m c)
theorem Bd13_main_arg6 (c : Dev nD) : Bd13 m c (Proc.devRef .tc main_arg6) = m ((c : Thread nD τ).loc main_arg6) := (Bd13_keep m c main_arg6 (by decide)).trans (Bd12_main_arg6 m c)
theorem Bd14_main_arg6 (c : Dev nD) : Bd14 m c (Proc.devRef .tc main_arg6) = m ((c : Thread nD τ).loc main_arg6) := (Bd14_of_ne m c main_arg6 (by decide)).trans (Bd13_main_arg6 m c)
theorem Bd15_main_arg6 (c : Dev nD) : Bd15 m c (Proc.devRef .tc main_arg6) = m ((c : Thread nD τ).loc main_arg6) := (Bd15_keep m c main_arg6 (by decide)).trans (Bd14_main_arg6 m c)
theorem Bd16_main_arg6 (c : Dev nD) : Bd16 m c (Proc.devRef .tc main_arg6) = m ((c : Thread nD τ).loc main_arg6) := (Bd16_of_ne m c main_arg6 (by decide)).trans (Bd15_main_arg6 m c)
theorem Bd17_main_arg6 (c : Dev nD) : Bd17 m c (Proc.devRef .tc main_arg6) = m ((c : Thread nD τ).loc main_arg6) := (Bd17_keep m c main_arg6 (by decide)).trans (Bd16_main_arg6 m c)
theorem Bd18_main_arg6 (c : Dev nD) : Bd18 m c (Proc.devRef .tc main_arg6) = m ((c : Thread nD τ).loc main_arg6) := (Bd18_of_ne m c main_arg6 (by decide)).trans (Bd17_main_arg6 m c)

theorem Bd0_main_arg7 (c : Dev nD) : Bd0 m c (Proc.devRef .tc main_arg7) = m ((c : Thread nD τ).loc main_arg7) := rfl
theorem Bd1_main_arg7 (c : Dev nD) : Bd1 m c (Proc.devRef .tc main_arg7) = m ((c : Thread nD τ).loc main_arg7) := (Bd1_keep m c main_arg7 (by decide)).trans (Bd0_main_arg7 m c)
theorem Bd2_main_arg7 (c : Dev nD) : Bd2 m c (Proc.devRef .tc main_arg7) = m ((c : Thread nD τ).loc main_arg7) := (Bd2_keep m c main_arg7 (by decide)).trans (Bd1_main_arg7 m c)
theorem Bd3_main_arg7 (c : Dev nD) : Bd3 m c (Proc.devRef .tc main_arg7) = m ((c : Thread nD τ).loc main_arg7) := (Bd3_keep m c main_arg7 (by decide)).trans (Bd2_main_arg7 m c)
theorem Bd4_main_arg7 (c : Dev nD) : Bd4 m c (Proc.devRef .tc main_arg7) = m ((c : Thread nD τ).loc main_arg7) := (Bd4_of_ne m c main_arg7 (by decide)).trans (Bd3_main_arg7 m c)
theorem Bd5_main_arg7 (c : Dev nD) : Bd5 m c (Proc.devRef .tc main_arg7) = m ((c : Thread nD τ).loc main_arg7) := (Bd5_keep m c main_arg7 (by decide)).trans (Bd4_main_arg7 m c)
theorem Bd6_main_arg7 (c : Dev nD) : Bd6 m c (Proc.devRef .tc main_arg7) = m ((c : Thread nD τ).loc main_arg7) := (Bd6_of_ne m c main_arg7 (by decide)).trans (Bd5_main_arg7 m c)
theorem Bd7_main_arg7 (c : Dev nD) : Bd7 m c (Proc.devRef .tc main_arg7) = m ((c : Thread nD τ).loc main_arg7) := (Bd7_keep m c main_arg7 (by decide)).trans (Bd6_main_arg7 m c)
theorem Bd8_main_arg7 (c : Dev nD) : Bd8 m c (Proc.devRef .tc main_arg7) = m ((c : Thread nD τ).loc main_arg7) := (Bd8_of_ne m c main_arg7 (by decide)).trans (Bd7_main_arg7 m c)
theorem Bd9_main_arg7 (c : Dev nD) : Bd9 m c (Proc.devRef .tc main_arg7) = m ((c : Thread nD τ).loc main_arg7) := (Bd9_keep m c main_arg7 (by decide)).trans (Bd8_main_arg7 m c)
theorem Bd10_main_arg7 (c : Dev nD) : Bd10 m c (Proc.devRef .tc main_arg7) = m ((c : Thread nD τ).loc main_arg7) := (Bd10_of_ne m c main_arg7 (by decide)).trans (Bd9_main_arg7 m c)
theorem Bd11_main_arg7 (c : Dev nD) : Bd11 m c (Proc.devRef .tc main_arg7) = m ((c : Thread nD τ).loc main_arg7) := (Bd11_keep m c main_arg7 (by decide)).trans (Bd10_main_arg7 m c)
theorem Bd12_main_arg7 (c : Dev nD) : Bd12 m c (Proc.devRef .tc main_arg7) = m ((c : Thread nD τ).loc main_arg7) := (Bd12_of_ne m c main_arg7 (by decide)).trans (Bd11_main_arg7 m c)
theorem Bd13_main_arg7 (c : Dev nD) : Bd13 m c (Proc.devRef .tc main_arg7) = m ((c : Thread nD τ).loc main_arg7) := (Bd13_keep m c main_arg7 (by decide)).trans (Bd12_main_arg7 m c)
theorem Bd14_main_arg7 (c : Dev nD) : Bd14 m c (Proc.devRef .tc main_arg7) = m ((c : Thread nD τ).loc main_arg7) := (Bd14_of_ne m c main_arg7 (by decide)).trans (Bd13_main_arg7 m c)
theorem Bd15_main_arg7 (c : Dev nD) : Bd15 m c (Proc.devRef .tc main_arg7) = m ((c : Thread nD τ).loc main_arg7) := (Bd15_keep m c main_arg7 (by decide)).trans (Bd14_main_arg7 m c)
theorem Bd16_main_arg7 (c : Dev nD) : Bd16 m c (Proc.devRef .tc main_arg7) = m ((c : Thread nD τ).loc main_arg7) := (Bd16_of_ne m c main_arg7 (by decide)).trans (Bd15_main_arg7 m c)
theorem Bd17_main_arg7 (c : Dev nD) : Bd17 m c (Proc.devRef .tc main_arg7) = m ((c : Thread nD τ).loc main_arg7) := (Bd17_keep m c main_arg7 (by decide)).trans (Bd16_main_arg7 m c)
theorem Bd18_main_arg7 (c : Dev nD) : Bd18 m c (Proc.devRef .tc main_arg7) = m ((c : Thread nD τ).loc main_arg7) := (Bd18_of_ne m c main_arg7 (by decide)).trans (Bd17_main_arg7 m c)

theorem Bd0_main_arg8 (c : Dev nD) : Bd0 m c (Proc.devRef .tc main_arg8) = m ((c : Thread nD τ).loc main_arg8) := rfl
theorem Bd1_main_arg8 (c : Dev nD) : Bd1 m c (Proc.devRef .tc main_arg8) = m ((c : Thread nD τ).loc main_arg8) := (Bd1_keep m c main_arg8 (by decide)).trans (Bd0_main_arg8 m c)
theorem Bd2_main_arg8 (c : Dev nD) : Bd2 m c (Proc.devRef .tc main_arg8) = m ((c : Thread nD τ).loc main_arg8) := (Bd2_keep m c main_arg8 (by decide)).trans (Bd1_main_arg8 m c)
theorem Bd3_main_arg8 (c : Dev nD) : Bd3 m c (Proc.devRef .tc main_arg8) = m ((c : Thread nD τ).loc main_arg8) := (Bd3_keep m c main_arg8 (by decide)).trans (Bd2_main_arg8 m c)
theorem Bd4_main_arg8 (c : Dev nD) : Bd4 m c (Proc.devRef .tc main_arg8) = m ((c : Thread nD τ).loc main_arg8) := (Bd4_of_ne m c main_arg8 (by decide)).trans (Bd3_main_arg8 m c)
theorem Bd5_main_arg8 (c : Dev nD) : Bd5 m c (Proc.devRef .tc main_arg8) = m ((c : Thread nD τ).loc main_arg8) := (Bd5_keep m c main_arg8 (by decide)).trans (Bd4_main_arg8 m c)
theorem Bd6_main_arg8 (c : Dev nD) : Bd6 m c (Proc.devRef .tc main_arg8) = m ((c : Thread nD τ).loc main_arg8) := (Bd6_of_ne m c main_arg8 (by decide)).trans (Bd5_main_arg8 m c)
theorem Bd7_main_arg8 (c : Dev nD) : Bd7 m c (Proc.devRef .tc main_arg8) = m ((c : Thread nD τ).loc main_arg8) := (Bd7_keep m c main_arg8 (by decide)).trans (Bd6_main_arg8 m c)
theorem Bd8_main_arg8 (c : Dev nD) : Bd8 m c (Proc.devRef .tc main_arg8) = m ((c : Thread nD τ).loc main_arg8) := (Bd8_of_ne m c main_arg8 (by decide)).trans (Bd7_main_arg8 m c)
theorem Bd9_main_arg8 (c : Dev nD) : Bd9 m c (Proc.devRef .tc main_arg8) = m ((c : Thread nD τ).loc main_arg8) := (Bd9_keep m c main_arg8 (by decide)).trans (Bd8_main_arg8 m c)
theorem Bd10_main_arg8 (c : Dev nD) : Bd10 m c (Proc.devRef .tc main_arg8) = m ((c : Thread nD τ).loc main_arg8) := (Bd10_of_ne m c main_arg8 (by decide)).trans (Bd9_main_arg8 m c)
theorem Bd11_main_arg8 (c : Dev nD) : Bd11 m c (Proc.devRef .tc main_arg8) = m ((c : Thread nD τ).loc main_arg8) := (Bd11_keep m c main_arg8 (by decide)).trans (Bd10_main_arg8 m c)
theorem Bd12_main_arg8 (c : Dev nD) : Bd12 m c (Proc.devRef .tc main_arg8) = m ((c : Thread nD τ).loc main_arg8) := (Bd12_of_ne m c main_arg8 (by decide)).trans (Bd11_main_arg8 m c)
theorem Bd13_main_arg8 (c : Dev nD) : Bd13 m c (Proc.devRef .tc main_arg8) = m ((c : Thread nD τ).loc main_arg8) := (Bd13_keep m c main_arg8 (by decide)).trans (Bd12_main_arg8 m c)
theorem Bd14_main_arg8 (c : Dev nD) : Bd14 m c (Proc.devRef .tc main_arg8) = m ((c : Thread nD τ).loc main_arg8) := (Bd14_of_ne m c main_arg8 (by decide)).trans (Bd13_main_arg8 m c)
theorem Bd15_main_arg8 (c : Dev nD) : Bd15 m c (Proc.devRef .tc main_arg8) = m ((c : Thread nD τ).loc main_arg8) := (Bd15_keep m c main_arg8 (by decide)).trans (Bd14_main_arg8 m c)
theorem Bd16_main_arg8 (c : Dev nD) : Bd16 m c (Proc.devRef .tc main_arg8) = m ((c : Thread nD τ).loc main_arg8) := (Bd16_of_ne m c main_arg8 (by decide)).trans (Bd15_main_arg8 m c)
theorem Bd17_main_arg8 (c : Dev nD) : Bd17 m c (Proc.devRef .tc main_arg8) = m ((c : Thread nD τ).loc main_arg8) := (Bd17_keep m c main_arg8 (by decide)).trans (Bd16_main_arg8 m c)
theorem Bd18_main_arg8 (c : Dev nD) : Bd18 m c (Proc.devRef .tc main_arg8) = m ((c : Thread nD τ).loc main_arg8) := (Bd18_of_ne m c main_arg8 (by decide)).trans (Bd17_main_arg8 m c)

theorem Bd0_main_arg9 (c : Dev nD) : Bd0 m c (Proc.devRef .tc main_arg9) = m ((c : Thread nD τ).loc main_arg9) := rfl
theorem Bd1_main_arg9 (c : Dev nD) : Bd1 m c (Proc.devRef .tc main_arg9) = m ((c : Thread nD τ).loc main_arg9) := (Bd1_keep m c main_arg9 (by decide)).trans (Bd0_main_arg9 m c)
theorem Bd2_main_arg9 (c : Dev nD) : Bd2 m c (Proc.devRef .tc main_arg9) = m ((c : Thread nD τ).loc main_arg9) := (Bd2_keep m c main_arg9 (by decide)).trans (Bd1_main_arg9 m c)
theorem Bd3_main_arg9 (c : Dev nD) : Bd3 m c (Proc.devRef .tc main_arg9) = m ((c : Thread nD τ).loc main_arg9) := (Bd3_keep m c main_arg9 (by decide)).trans (Bd2_main_arg9 m c)
theorem Bd4_main_arg9 (c : Dev nD) : Bd4 m c (Proc.devRef .tc main_arg9) = m ((c : Thread nD τ).loc main_arg9) := (Bd4_of_ne m c main_arg9 (by decide)).trans (Bd3_main_arg9 m c)
theorem Bd5_main_arg9 (c : Dev nD) : Bd5 m c (Proc.devRef .tc main_arg9) = m ((c : Thread nD τ).loc main_arg9) := (Bd5_keep m c main_arg9 (by decide)).trans (Bd4_main_arg9 m c)
theorem Bd6_main_arg9 (c : Dev nD) : Bd6 m c (Proc.devRef .tc main_arg9) = m ((c : Thread nD τ).loc main_arg9) := (Bd6_of_ne m c main_arg9 (by decide)).trans (Bd5_main_arg9 m c)
theorem Bd7_main_arg9 (c : Dev nD) : Bd7 m c (Proc.devRef .tc main_arg9) = m ((c : Thread nD τ).loc main_arg9) := (Bd7_keep m c main_arg9 (by decide)).trans (Bd6_main_arg9 m c)
theorem Bd8_main_arg9 (c : Dev nD) : Bd8 m c (Proc.devRef .tc main_arg9) = m ((c : Thread nD τ).loc main_arg9) := (Bd8_of_ne m c main_arg9 (by decide)).trans (Bd7_main_arg9 m c)
theorem Bd9_main_arg9 (c : Dev nD) : Bd9 m c (Proc.devRef .tc main_arg9) = m ((c : Thread nD τ).loc main_arg9) := (Bd9_keep m c main_arg9 (by decide)).trans (Bd8_main_arg9 m c)
theorem Bd10_main_arg9 (c : Dev nD) : Bd10 m c (Proc.devRef .tc main_arg9) = m ((c : Thread nD τ).loc main_arg9) := (Bd10_of_ne m c main_arg9 (by decide)).trans (Bd9_main_arg9 m c)
theorem Bd11_main_arg9 (c : Dev nD) : Bd11 m c (Proc.devRef .tc main_arg9) = m ((c : Thread nD τ).loc main_arg9) := (Bd11_keep m c main_arg9 (by decide)).trans (Bd10_main_arg9 m c)
theorem Bd12_main_arg9 (c : Dev nD) : Bd12 m c (Proc.devRef .tc main_arg9) = m ((c : Thread nD τ).loc main_arg9) := (Bd12_of_ne m c main_arg9 (by decide)).trans (Bd11_main_arg9 m c)
theorem Bd13_main_arg9 (c : Dev nD) : Bd13 m c (Proc.devRef .tc main_arg9) = m ((c : Thread nD τ).loc main_arg9) := (Bd13_keep m c main_arg9 (by decide)).trans (Bd12_main_arg9 m c)
theorem Bd14_main_arg9 (c : Dev nD) : Bd14 m c (Proc.devRef .tc main_arg9) = m ((c : Thread nD τ).loc main_arg9) := (Bd14_of_ne m c main_arg9 (by decide)).trans (Bd13_main_arg9 m c)
theorem Bd15_main_arg9 (c : Dev nD) : Bd15 m c (Proc.devRef .tc main_arg9) = m ((c : Thread nD τ).loc main_arg9) := (Bd15_keep m c main_arg9 (by decide)).trans (Bd14_main_arg9 m c)
theorem Bd16_main_arg9 (c : Dev nD) : Bd16 m c (Proc.devRef .tc main_arg9) = m ((c : Thread nD τ).loc main_arg9) := (Bd16_of_ne m c main_arg9 (by decide)).trans (Bd15_main_arg9 m c)
theorem Bd17_main_arg9 (c : Dev nD) : Bd17 m c (Proc.devRef .tc main_arg9) = m ((c : Thread nD τ).loc main_arg9) := (Bd17_keep m c main_arg9 (by decide)).trans (Bd16_main_arg9 m c)
theorem Bd18_main_arg9 (c : Dev nD) : Bd18 m c (Proc.devRef .tc main_arg9) = m ((c : Thread nD τ).loc main_arg9) := (Bd18_of_ne m c main_arg9 (by decide)).trans (Bd17_main_arg9 m c)

theorem Bd0_main_arg10 (c : Dev nD) : Bd0 m c (Proc.devRef .tc main_arg10) = m ((c : Thread nD τ).loc main_arg10) := rfl
theorem Bd1_main_arg10 (c : Dev nD) : Bd1 m c (Proc.devRef .tc main_arg10) = m ((c : Thread nD τ).loc main_arg10) := (Bd1_keep m c main_arg10 (by decide)).trans (Bd0_main_arg10 m c)
theorem Bd2_main_arg10 (c : Dev nD) : Bd2 m c (Proc.devRef .tc main_arg10) = m ((c : Thread nD τ).loc main_arg10) := (Bd2_keep m c main_arg10 (by decide)).trans (Bd1_main_arg10 m c)
theorem Bd3_main_arg10 (c : Dev nD) : Bd3 m c (Proc.devRef .tc main_arg10) = m ((c : Thread nD τ).loc main_arg10) := (Bd3_keep m c main_arg10 (by decide)).trans (Bd2_main_arg10 m c)
theorem Bd4_main_arg10 (c : Dev nD) : Bd4 m c (Proc.devRef .tc main_arg10) = m ((c : Thread nD τ).loc main_arg10) := (Bd4_of_ne m c main_arg10 (by decide)).trans (Bd3_main_arg10 m c)
theorem Bd5_main_arg10 (c : Dev nD) : Bd5 m c (Proc.devRef .tc main_arg10) = m ((c : Thread nD τ).loc main_arg10) := (Bd5_keep m c main_arg10 (by decide)).trans (Bd4_main_arg10 m c)
theorem Bd6_main_arg10 (c : Dev nD) : Bd6 m c (Proc.devRef .tc main_arg10) = m ((c : Thread nD τ).loc main_arg10) := (Bd6_of_ne m c main_arg10 (by decide)).trans (Bd5_main_arg10 m c)
theorem Bd7_main_arg10 (c : Dev nD) : Bd7 m c (Proc.devRef .tc main_arg10) = m ((c : Thread nD τ).loc main_arg10) := (Bd7_keep m c main_arg10 (by decide)).trans (Bd6_main_arg10 m c)
theorem Bd8_main_arg10 (c : Dev nD) : Bd8 m c (Proc.devRef .tc main_arg10) = m ((c : Thread nD τ).loc main_arg10) := (Bd8_of_ne m c main_arg10 (by decide)).trans (Bd7_main_arg10 m c)
theorem Bd9_main_arg10 (c : Dev nD) : Bd9 m c (Proc.devRef .tc main_arg10) = m ((c : Thread nD τ).loc main_arg10) := (Bd9_keep m c main_arg10 (by decide)).trans (Bd8_main_arg10 m c)
theorem Bd10_main_arg10 (c : Dev nD) : Bd10 m c (Proc.devRef .tc main_arg10) = m ((c : Thread nD τ).loc main_arg10) := (Bd10_of_ne m c main_arg10 (by decide)).trans (Bd9_main_arg10 m c)
theorem Bd11_main_arg10 (c : Dev nD) : Bd11 m c (Proc.devRef .tc main_arg10) = m ((c : Thread nD τ).loc main_arg10) := (Bd11_keep m c main_arg10 (by decide)).trans (Bd10_main_arg10 m c)
theorem Bd12_main_arg10 (c : Dev nD) : Bd12 m c (Proc.devRef .tc main_arg10) = m ((c : Thread nD τ).loc main_arg10) := (Bd12_of_ne m c main_arg10 (by decide)).trans (Bd11_main_arg10 m c)
theorem Bd13_main_arg10 (c : Dev nD) : Bd13 m c (Proc.devRef .tc main_arg10) = m ((c : Thread nD τ).loc main_arg10) := (Bd13_keep m c main_arg10 (by decide)).trans (Bd12_main_arg10 m c)
theorem Bd14_main_arg10 (c : Dev nD) : Bd14 m c (Proc.devRef .tc main_arg10) = m ((c : Thread nD τ).loc main_arg10) := (Bd14_of_ne m c main_arg10 (by decide)).trans (Bd13_main_arg10 m c)
theorem Bd15_main_arg10 (c : Dev nD) : Bd15 m c (Proc.devRef .tc main_arg10) = m ((c : Thread nD τ).loc main_arg10) := (Bd15_keep m c main_arg10 (by decide)).trans (Bd14_main_arg10 m c)
theorem Bd16_main_arg10 (c : Dev nD) : Bd16 m c (Proc.devRef .tc main_arg10) = m ((c : Thread nD τ).loc main_arg10) := (Bd16_of_ne m c main_arg10 (by decide)).trans (Bd15_main_arg10 m c)
theorem Bd17_main_arg10 (c : Dev nD) : Bd17 m c (Proc.devRef .tc main_arg10) = m ((c : Thread nD τ).loc main_arg10) := (Bd17_keep m c main_arg10 (by decide)).trans (Bd16_main_arg10 m c)
theorem Bd18_main_arg10 (c : Dev nD) : Bd18 m c (Proc.devRef .tc main_arg10) = m ((c : Thread nD τ).loc main_arg10) := (Bd18_of_ne m c main_arg10 (by decide)).trans (Bd17_main_arg10 m c)

theorem Bd0_main_arg11 (c : Dev nD) : Bd0 m c (Proc.devRef .tc main_arg11) = m ((c : Thread nD τ).loc main_arg11) := rfl
theorem Bd1_main_arg11 (c : Dev nD) : Bd1 m c (Proc.devRef .tc main_arg11) = m ((c : Thread nD τ).loc main_arg11) := (Bd1_keep m c main_arg11 (by decide)).trans (Bd0_main_arg11 m c)
theorem Bd2_main_arg11 (c : Dev nD) : Bd2 m c (Proc.devRef .tc main_arg11) = m ((c : Thread nD τ).loc main_arg11) := (Bd2_keep m c main_arg11 (by decide)).trans (Bd1_main_arg11 m c)
theorem Bd3_main_arg11 (c : Dev nD) : Bd3 m c (Proc.devRef .tc main_arg11) = m ((c : Thread nD τ).loc main_arg11) := (Bd3_keep m c main_arg11 (by decide)).trans (Bd2_main_arg11 m c)
theorem Bd4_main_arg11 (c : Dev nD) : Bd4 m c (Proc.devRef .tc main_arg11) = m ((c : Thread nD τ).loc main_arg11) := (Bd4_of_ne m c main_arg11 (by decide)).trans (Bd3_main_arg11 m c)
theorem Bd5_main_arg11 (c : Dev nD) : Bd5 m c (Proc.devRef .tc main_arg11) = m ((c : Thread nD τ).loc main_arg11) := (Bd5_keep m c main_arg11 (by decide)).trans (Bd4_main_arg11 m c)
theorem Bd6_main_arg11 (c : Dev nD) : Bd6 m c (Proc.devRef .tc main_arg11) = m ((c : Thread nD τ).loc main_arg11) := (Bd6_of_ne m c main_arg11 (by decide)).trans (Bd5_main_arg11 m c)
theorem Bd7_main_arg11 (c : Dev nD) : Bd7 m c (Proc.devRef .tc main_arg11) = m ((c : Thread nD τ).loc main_arg11) := (Bd7_keep m c main_arg11 (by decide)).trans (Bd6_main_arg11 m c)
theorem Bd8_main_arg11 (c : Dev nD) : Bd8 m c (Proc.devRef .tc main_arg11) = m ((c : Thread nD τ).loc main_arg11) := (Bd8_of_ne m c main_arg11 (by decide)).trans (Bd7_main_arg11 m c)
theorem Bd9_main_arg11 (c : Dev nD) : Bd9 m c (Proc.devRef .tc main_arg11) = m ((c : Thread nD τ).loc main_arg11) := (Bd9_keep m c main_arg11 (by decide)).trans (Bd8_main_arg11 m c)
theorem Bd10_main_arg11 (c : Dev nD) : Bd10 m c (Proc.devRef .tc main_arg11) = m ((c : Thread nD τ).loc main_arg11) := (Bd10_of_ne m c main_arg11 (by decide)).trans (Bd9_main_arg11 m c)
theorem Bd11_main_arg11 (c : Dev nD) : Bd11 m c (Proc.devRef .tc main_arg11) = m ((c : Thread nD τ).loc main_arg11) := (Bd11_keep m c main_arg11 (by decide)).trans (Bd10_main_arg11 m c)
theorem Bd12_main_arg11 (c : Dev nD) : Bd12 m c (Proc.devRef .tc main_arg11) = m ((c : Thread nD τ).loc main_arg11) := (Bd12_of_ne m c main_arg11 (by decide)).trans (Bd11_main_arg11 m c)
theorem Bd13_main_arg11 (c : Dev nD) : Bd13 m c (Proc.devRef .tc main_arg11) = m ((c : Thread nD τ).loc main_arg11) := (Bd13_keep m c main_arg11 (by decide)).trans (Bd12_main_arg11 m c)
theorem Bd14_main_arg11 (c : Dev nD) : Bd14 m c (Proc.devRef .tc main_arg11) = m ((c : Thread nD τ).loc main_arg11) := (Bd14_of_ne m c main_arg11 (by decide)).trans (Bd13_main_arg11 m c)
theorem Bd15_main_arg11 (c : Dev nD) : Bd15 m c (Proc.devRef .tc main_arg11) = m ((c : Thread nD τ).loc main_arg11) := (Bd15_keep m c main_arg11 (by decide)).trans (Bd14_main_arg11 m c)
theorem Bd16_main_arg11 (c : Dev nD) : Bd16 m c (Proc.devRef .tc main_arg11) = m ((c : Thread nD τ).loc main_arg11) := (Bd16_of_ne m c main_arg11 (by decide)).trans (Bd15_main_arg11 m c)
theorem Bd17_main_arg11 (c : Dev nD) : Bd17 m c (Proc.devRef .tc main_arg11) = m ((c : Thread nD τ).loc main_arg11) := (Bd17_keep m c main_arg11 (by decide)).trans (Bd16_main_arg11 m c)
theorem Bd18_main_arg11 (c : Dev nD) : Bd18 m c (Proc.devRef .tc main_arg11) = m ((c : Thread nD τ).loc main_arg11) := (Bd18_of_ne m c main_arg11 (by decide)).trans (Bd17_main_arg11 m c)

theorem Bd0_main_arg12 (c : Dev nD) : Bd0 m c (Proc.devRef .tc main_arg12) = m ((c : Thread nD τ).loc main_arg12) := rfl
theorem Bd1_main_arg12 (c : Dev nD) : Bd1 m c (Proc.devRef .tc main_arg12) = m ((c : Thread nD τ).loc main_arg12) := (Bd1_keep m c main_arg12 (by decide)).trans (Bd0_main_arg12 m c)
theorem Bd2_main_arg12 (c : Dev nD) : Bd2 m c (Proc.devRef .tc main_arg12) = m ((c : Thread nD τ).loc main_arg12) := (Bd2_keep m c main_arg12 (by decide)).trans (Bd1_main_arg12 m c)
theorem Bd3_main_arg12 (c : Dev nD) : Bd3 m c (Proc.devRef .tc main_arg12) = m ((c : Thread nD τ).loc main_arg12) := (Bd3_keep m c main_arg12 (by decide)).trans (Bd2_main_arg12 m c)
theorem Bd4_main_arg12 (c : Dev nD) : Bd4 m c (Proc.devRef .tc main_arg12) = m ((c : Thread nD τ).loc main_arg12) := (Bd4_of_ne m c main_arg12 (by decide)).trans (Bd3_main_arg12 m c)
theorem Bd5_main_arg12 (c : Dev nD) : Bd5 m c (Proc.devRef .tc main_arg12) = m ((c : Thread nD τ).loc main_arg12) := (Bd5_keep m c main_arg12 (by decide)).trans (Bd4_main_arg12 m c)
theorem Bd6_main_arg12 (c : Dev nD) : Bd6 m c (Proc.devRef .tc main_arg12) = m ((c : Thread nD τ).loc main_arg12) := (Bd6_of_ne m c main_arg12 (by decide)).trans (Bd5_main_arg12 m c)
theorem Bd7_main_arg12 (c : Dev nD) : Bd7 m c (Proc.devRef .tc main_arg12) = m ((c : Thread nD τ).loc main_arg12) := (Bd7_keep m c main_arg12 (by decide)).trans (Bd6_main_arg12 m c)
theorem Bd8_main_arg12 (c : Dev nD) : Bd8 m c (Proc.devRef .tc main_arg12) = m ((c : Thread nD τ).loc main_arg12) := (Bd8_of_ne m c main_arg12 (by decide)).trans (Bd7_main_arg12 m c)
theorem Bd9_main_arg12 (c : Dev nD) : Bd9 m c (Proc.devRef .tc main_arg12) = m ((c : Thread nD τ).loc main_arg12) := (Bd9_keep m c main_arg12 (by decide)).trans (Bd8_main_arg12 m c)
theorem Bd10_main_arg12 (c : Dev nD) : Bd10 m c (Proc.devRef .tc main_arg12) = m ((c : Thread nD τ).loc main_arg12) := (Bd10_of_ne m c main_arg12 (by decide)).trans (Bd9_main_arg12 m c)
theorem Bd11_main_arg12 (c : Dev nD) : Bd11 m c (Proc.devRef .tc main_arg12) = m ((c : Thread nD τ).loc main_arg12) := (Bd11_keep m c main_arg12 (by decide)).trans (Bd10_main_arg12 m c)
theorem Bd12_main_arg12 (c : Dev nD) : Bd12 m c (Proc.devRef .tc main_arg12) = m ((c : Thread nD τ).loc main_arg12) := (Bd12_of_ne m c main_arg12 (by decide)).trans (Bd11_main_arg12 m c)
theorem Bd13_main_arg12 (c : Dev nD) : Bd13 m c (Proc.devRef .tc main_arg12) = m ((c : Thread nD τ).loc main_arg12) := (Bd13_keep m c main_arg12 (by decide)).trans (Bd12_main_arg12 m c)
theorem Bd14_main_arg12 (c : Dev nD) : Bd14 m c (Proc.devRef .tc main_arg12) = m ((c : Thread nD τ).loc main_arg12) := (Bd14_of_ne m c main_arg12 (by decide)).trans (Bd13_main_arg12 m c)
theorem Bd15_main_arg12 (c : Dev nD) : Bd15 m c (Proc.devRef .tc main_arg12) = m ((c : Thread nD τ).loc main_arg12) := (Bd15_keep m c main_arg12 (by decide)).trans (Bd14_main_arg12 m c)
theorem Bd16_main_arg12 (c : Dev nD) : Bd16 m c (Proc.devRef .tc main_arg12) = m ((c : Thread nD τ).loc main_arg12) := (Bd16_of_ne m c main_arg12 (by decide)).trans (Bd15_main_arg12 m c)
theorem Bd17_main_arg12 (c : Dev nD) : Bd17 m c (Proc.devRef .tc main_arg12) = m ((c : Thread nD τ).loc main_arg12) := (Bd17_keep m c main_arg12 (by decide)).trans (Bd16_main_arg12 m c)
theorem Bd18_main_arg12 (c : Dev nD) : Bd18 m c (Proc.devRef .tc main_arg12) = m ((c : Thread nD τ).loc main_arg12) := (Bd18_in1 m c).trans (Bd17_main_arg12 m c)

theorem Bd0_main_arg13 (c : Dev nD) : Bd0 m c (Proc.devRef .tc main_arg13) = m ((c : Thread nD τ).loc main_arg13) := rfl
theorem Bd1_main_arg13 (c : Dev nD) : Bd1 m c (Proc.devRef .tc main_arg13) = m ((c : Thread nD τ).loc main_arg13) := (Bd1_keep m c main_arg13 (by decide)).trans (Bd0_main_arg13 m c)
theorem Bd2_main_arg13 (c : Dev nD) : Bd2 m c (Proc.devRef .tc main_arg13) = m ((c : Thread nD τ).loc main_arg13) := (Bd2_keep m c main_arg13 (by decide)).trans (Bd1_main_arg13 m c)
theorem Bd3_main_arg13 (c : Dev nD) : Bd3 m c (Proc.devRef .tc main_arg13) = m ((c : Thread nD τ).loc main_arg13) := (Bd3_keep m c main_arg13 (by decide)).trans (Bd2_main_arg13 m c)
theorem Bd4_main_arg13 (c : Dev nD) : Bd4 m c (Proc.devRef .tc main_arg13) = m ((c : Thread nD τ).loc main_arg13) := (Bd4_of_ne m c main_arg13 (by decide)).trans (Bd3_main_arg13 m c)
theorem Bd5_main_arg13 (c : Dev nD) : Bd5 m c (Proc.devRef .tc main_arg13) = m ((c : Thread nD τ).loc main_arg13) := (Bd5_keep m c main_arg13 (by decide)).trans (Bd4_main_arg13 m c)
theorem Bd6_main_arg13 (c : Dev nD) : Bd6 m c (Proc.devRef .tc main_arg13) = m ((c : Thread nD τ).loc main_arg13) := (Bd6_of_ne m c main_arg13 (by decide)).trans (Bd5_main_arg13 m c)
theorem Bd7_main_arg13 (c : Dev nD) : Bd7 m c (Proc.devRef .tc main_arg13) = m ((c : Thread nD τ).loc main_arg13) := (Bd7_keep m c main_arg13 (by decide)).trans (Bd6_main_arg13 m c)
theorem Bd8_main_arg13 (c : Dev nD) : Bd8 m c (Proc.devRef .tc main_arg13) = m ((c : Thread nD τ).loc main_arg13) := (Bd8_of_ne m c main_arg13 (by decide)).trans (Bd7_main_arg13 m c)
theorem Bd9_main_arg13 (c : Dev nD) : Bd9 m c (Proc.devRef .tc main_arg13) = m ((c : Thread nD τ).loc main_arg13) := (Bd9_keep m c main_arg13 (by decide)).trans (Bd8_main_arg13 m c)
theorem Bd10_main_arg13 (c : Dev nD) : Bd10 m c (Proc.devRef .tc main_arg13) = m ((c : Thread nD τ).loc main_arg13) := (Bd10_of_ne m c main_arg13 (by decide)).trans (Bd9_main_arg13 m c)
theorem Bd11_main_arg13 (c : Dev nD) : Bd11 m c (Proc.devRef .tc main_arg13) = m ((c : Thread nD τ).loc main_arg13) := (Bd11_keep m c main_arg13 (by decide)).trans (Bd10_main_arg13 m c)
theorem Bd12_main_arg13 (c : Dev nD) : Bd12 m c (Proc.devRef .tc main_arg13) = m ((c : Thread nD τ).loc main_arg13) := (Bd12_of_ne m c main_arg13 (by decide)).trans (Bd11_main_arg13 m c)
theorem Bd13_main_arg13 (c : Dev nD) : Bd13 m c (Proc.devRef .tc main_arg13) = m ((c : Thread nD τ).loc main_arg13) := (Bd13_keep m c main_arg13 (by decide)).trans (Bd12_main_arg13 m c)
theorem Bd14_main_arg13 (c : Dev nD) : Bd14 m c (Proc.devRef .tc main_arg13) = m ((c : Thread nD τ).loc main_arg13) := (Bd14_of_ne m c main_arg13 (by decide)).trans (Bd13_main_arg13 m c)
theorem Bd15_main_arg13 (c : Dev nD) : Bd15 m c (Proc.devRef .tc main_arg13) = m ((c : Thread nD τ).loc main_arg13) := (Bd15_keep m c main_arg13 (by decide)).trans (Bd14_main_arg13 m c)
theorem Bd16_main_arg13 (c : Dev nD) : Bd16 m c (Proc.devRef .tc main_arg13) = m ((c : Thread nD τ).loc main_arg13) := (Bd16_of_ne m c main_arg13 (by decide)).trans (Bd15_main_arg13 m c)
theorem Bd17_main_arg13 (c : Dev nD) : Bd17 m c (Proc.devRef .tc main_arg13) = m ((c : Thread nD τ).loc main_arg13) := (Bd17_keep m c main_arg13 (by decide)).trans (Bd16_main_arg13 m c)
theorem Bd18_main_arg13 (c : Dev nD) : Bd18 m c (Proc.devRef .tc main_arg13) = m ((c : Thread nD τ).loc main_arg13) := (Bd18_of_ne m c main_arg13 (by decide)).trans (Bd17_main_arg13 m c)

theorem Bd0_main_arg14 (c : Dev nD) : Bd0 m c (Proc.devRef .tc main_arg14) = m ((c : Thread nD τ).loc main_arg14) := rfl
theorem Bd1_main_arg14 (c : Dev nD) : Bd1 m c (Proc.devRef .tc main_arg14) = m ((c : Thread nD τ).loc main_arg14) := (Bd1_keep m c main_arg14 (by decide)).trans (Bd0_main_arg14 m c)
theorem Bd2_main_arg14 (c : Dev nD) : Bd2 m c (Proc.devRef .tc main_arg14) = m ((c : Thread nD τ).loc main_arg14) := (Bd2_keep m c main_arg14 (by decide)).trans (Bd1_main_arg14 m c)
theorem Bd3_main_arg14 (c : Dev nD) : Bd3 m c (Proc.devRef .tc main_arg14) = m ((c : Thread nD τ).loc main_arg14) := (Bd3_keep m c main_arg14 (by decide)).trans (Bd2_main_arg14 m c)
theorem Bd4_main_arg14 (c : Dev nD) : Bd4 m c (Proc.devRef .tc main_arg14) = m ((c : Thread nD τ).loc main_arg14) := (Bd4_of_ne m c main_arg14 (by decide)).trans (Bd3_main_arg14 m c)
theorem Bd5_main_arg14 (c : Dev nD) : Bd5 m c (Proc.devRef .tc main_arg14) = m ((c : Thread nD τ).loc main_arg14) := (Bd5_keep m c main_arg14 (by decide)).trans (Bd4_main_arg14 m c)
theorem Bd6_main_arg14 (c : Dev nD) : Bd6 m c (Proc.devRef .tc main_arg14) = m ((c : Thread nD τ).loc main_arg14) := (Bd6_of_ne m c main_arg14 (by decide)).trans (Bd5_main_arg14 m c)
theorem Bd7_main_arg14 (c : Dev nD) : Bd7 m c (Proc.devRef .tc main_arg14) = m ((c : Thread nD τ).loc main_arg14) := (Bd7_keep m c main_arg14 (by decide)).trans (Bd6_main_arg14 m c)
theorem Bd8_main_arg14 (c : Dev nD) : Bd8 m c (Proc.devRef .tc main_arg14) = m ((c : Thread nD τ).loc main_arg14) := (Bd8_of_ne m c main_arg14 (by decide)).trans (Bd7_main_arg14 m c)
theorem Bd9_main_arg14 (c : Dev nD) : Bd9 m c (Proc.devRef .tc main_arg14) = m ((c : Thread nD τ).loc main_arg14) := (Bd9_keep m c main_arg14 (by decide)).trans (Bd8_main_arg14 m c)
theorem Bd10_main_arg14 (c : Dev nD) : Bd10 m c (Proc.devRef .tc main_arg14) = m ((c : Thread nD τ).loc main_arg14) := (Bd10_of_ne m c main_arg14 (by decide)).trans (Bd9_main_arg14 m c)
theorem Bd11_main_arg14 (c : Dev nD) : Bd11 m c (Proc.devRef .tc main_arg14) = m ((c : Thread nD τ).loc main_arg14) := (Bd11_keep m c main_arg14 (by decide)).trans (Bd10_main_arg14 m c)
theorem Bd12_main_arg14 (c : Dev nD) : Bd12 m c (Proc.devRef .tc main_arg14) = m ((c : Thread nD τ).loc main_arg14) := (Bd12_of_ne m c main_arg14 (by decide)).trans (Bd11_main_arg14 m c)
theorem Bd13_main_arg14 (c : Dev nD) : Bd13 m c (Proc.devRef .tc main_arg14) = m ((c : Thread nD τ).loc main_arg14) := (Bd13_keep m c main_arg14 (by decide)).trans (Bd12_main_arg14 m c)
theorem Bd14_main_arg14 (c : Dev nD) : Bd14 m c (Proc.devRef .tc main_arg14) = m ((c : Thread nD τ).loc main_arg14) := (Bd14_of_ne m c main_arg14 (by decide)).trans (Bd13_main_arg14 m c)
theorem Bd15_main_arg14 (c : Dev nD) : Bd15 m c (Proc.devRef .tc main_arg14) = m ((c : Thread nD τ).loc main_arg14) := (Bd15_keep m c main_arg14 (by decide)).trans (Bd14_main_arg14 m c)
theorem Bd16_main_arg14 (c : Dev nD) : Bd16 m c (Proc.devRef .tc main_arg14) = m ((c : Thread nD τ).loc main_arg14) := (Bd16_of_ne m c main_arg14 (by decide)).trans (Bd15_main_arg14 m c)
theorem Bd17_main_arg14 (c : Dev nD) : Bd17 m c (Proc.devRef .tc main_arg14) = m ((c : Thread nD τ).loc main_arg14) := (Bd17_keep m c main_arg14 (by decide)).trans (Bd16_main_arg14 m c)
theorem Bd18_main_arg14 (c : Dev nD) : Bd18 m c (Proc.devRef .tc main_arg14) = m ((c : Thread nD τ).loc main_arg14) := (Bd18_in3 m c).trans (Bd17_main_arg14 m c)

theorem Bd0_main_arg15 (c : Dev nD) : Bd0 m c (Proc.devRef .tc main_arg15) = m ((c : Thread nD τ).loc main_arg15) := rfl
theorem Bd1_main_arg15 (c : Dev nD) : Bd1 m c (Proc.devRef .tc main_arg15) = m ((c : Thread nD τ).loc main_arg15) := (Bd1_keep m c main_arg15 (by decide)).trans (Bd0_main_arg15 m c)
theorem Bd2_main_arg15 (c : Dev nD) : Bd2 m c (Proc.devRef .tc main_arg15) = m ((c : Thread nD τ).loc main_arg15) := (Bd2_keep m c main_arg15 (by decide)).trans (Bd1_main_arg15 m c)
theorem Bd3_main_arg15 (c : Dev nD) : Bd3 m c (Proc.devRef .tc main_arg15) = m ((c : Thread nD τ).loc main_arg15) := (Bd3_keep m c main_arg15 (by decide)).trans (Bd2_main_arg15 m c)
theorem Bd4_main_arg15 (c : Dev nD) : Bd4 m c (Proc.devRef .tc main_arg15) = m ((c : Thread nD τ).loc main_arg15) := (Bd4_of_ne m c main_arg15 (by decide)).trans (Bd3_main_arg15 m c)
theorem Bd5_main_arg15 (c : Dev nD) : Bd5 m c (Proc.devRef .tc main_arg15) = m ((c : Thread nD τ).loc main_arg15) := (Bd5_keep m c main_arg15 (by decide)).trans (Bd4_main_arg15 m c)
theorem Bd6_main_arg15 (c : Dev nD) : Bd6 m c (Proc.devRef .tc main_arg15) = m ((c : Thread nD τ).loc main_arg15) := (Bd6_of_ne m c main_arg15 (by decide)).trans (Bd5_main_arg15 m c)
theorem Bd7_main_arg15 (c : Dev nD) : Bd7 m c (Proc.devRef .tc main_arg15) = m ((c : Thread nD τ).loc main_arg15) := (Bd7_keep m c main_arg15 (by decide)).trans (Bd6_main_arg15 m c)
theorem Bd8_main_arg15 (c : Dev nD) : Bd8 m c (Proc.devRef .tc main_arg15) = m ((c : Thread nD τ).loc main_arg15) := (Bd8_of_ne m c main_arg15 (by decide)).trans (Bd7_main_arg15 m c)
theorem Bd9_main_arg15 (c : Dev nD) : Bd9 m c (Proc.devRef .tc main_arg15) = m ((c : Thread nD τ).loc main_arg15) := (Bd9_keep m c main_arg15 (by decide)).trans (Bd8_main_arg15 m c)
theorem Bd10_main_arg15 (c : Dev nD) : Bd10 m c (Proc.devRef .tc main_arg15) = m ((c : Thread nD τ).loc main_arg15) := (Bd10_of_ne m c main_arg15 (by decide)).trans (Bd9_main_arg15 m c)
theorem Bd11_main_arg15 (c : Dev nD) : Bd11 m c (Proc.devRef .tc main_arg15) = m ((c : Thread nD τ).loc main_arg15) := (Bd11_keep m c main_arg15 (by decide)).trans (Bd10_main_arg15 m c)
theorem Bd12_main_arg15 (c : Dev nD) : Bd12 m c (Proc.devRef .tc main_arg15) = m ((c : Thread nD τ).loc main_arg15) := (Bd12_of_ne m c main_arg15 (by decide)).trans (Bd11_main_arg15 m c)
theorem Bd13_main_arg15 (c : Dev nD) : Bd13 m c (Proc.devRef .tc main_arg15) = m ((c : Thread nD τ).loc main_arg15) := (Bd13_keep m c main_arg15 (by decide)).trans (Bd12_main_arg15 m c)
theorem Bd14_main_arg15 (c : Dev nD) : Bd14 m c (Proc.devRef .tc main_arg15) = m ((c : Thread nD τ).loc main_arg15) := (Bd14_of_ne m c main_arg15 (by decide)).trans (Bd13_main_arg15 m c)
theorem Bd15_main_arg15 (c : Dev nD) : Bd15 m c (Proc.devRef .tc main_arg15) = m ((c : Thread nD τ).loc main_arg15) := (Bd15_keep m c main_arg15 (by decide)).trans (Bd14_main_arg15 m c)
theorem Bd16_main_arg15 (c : Dev nD) : Bd16 m c (Proc.devRef .tc main_arg15) = m ((c : Thread nD τ).loc main_arg15) := (Bd16_of_ne m c main_arg15 (by decide)).trans (Bd15_main_arg15 m c)
theorem Bd17_main_arg15 (c : Dev nD) : Bd17 m c (Proc.devRef .tc main_arg15) = m ((c : Thread nD τ).loc main_arg15) := (Bd17_keep m c main_arg15 (by decide)).trans (Bd16_main_arg15 m c)
theorem Bd18_main_arg15 (c : Dev nD) : Bd18 m c (Proc.devRef .tc main_arg15) = m ((c : Thread nD τ).loc main_arg15) := (Bd18_of_ne m c main_arg15 (by decide)).trans (Bd17_main_arg15 m c)

theorem Bd0_main_arg16 (c : Dev nD) : Bd0 m c (Proc.devRef .tc main_arg16) = m ((c : Thread nD τ).loc main_arg16) := rfl
theorem Bd1_main_arg16 (c : Dev nD) : Bd1 m c (Proc.devRef .tc main_arg16) = m ((c : Thread nD τ).loc main_arg16) := (Bd1_keep m c main_arg16 (by decide)).trans (Bd0_main_arg16 m c)
theorem Bd2_main_arg16 (c : Dev nD) : Bd2 m c (Proc.devRef .tc main_arg16) = m ((c : Thread nD τ).loc main_arg16) := (Bd2_keep m c main_arg16 (by decide)).trans (Bd1_main_arg16 m c)
theorem Bd3_main_arg16 (c : Dev nD) : Bd3 m c (Proc.devRef .tc main_arg16) = m ((c : Thread nD τ).loc main_arg16) := (Bd3_keep m c main_arg16 (by decide)).trans (Bd2_main_arg16 m c)
theorem Bd4_main_arg16 (c : Dev nD) : Bd4 m c (Proc.devRef .tc main_arg16) = m ((c : Thread nD τ).loc main_arg16) := (Bd4_of_ne m c main_arg16 (by decide)).trans (Bd3_main_arg16 m c)
theorem Bd5_main_arg16 (c : Dev nD) : Bd5 m c (Proc.devRef .tc main_arg16) = m ((c : Thread nD τ).loc main_arg16) := (Bd5_keep m c main_arg16 (by decide)).trans (Bd4_main_arg16 m c)
theorem Bd6_main_arg16 (c : Dev nD) : Bd6 m c (Proc.devRef .tc main_arg16) = m ((c : Thread nD τ).loc main_arg16) := (Bd6_of_ne m c main_arg16 (by decide)).trans (Bd5_main_arg16 m c)
theorem Bd7_main_arg16 (c : Dev nD) : Bd7 m c (Proc.devRef .tc main_arg16) = m ((c : Thread nD τ).loc main_arg16) := (Bd7_keep m c main_arg16 (by decide)).trans (Bd6_main_arg16 m c)
theorem Bd8_main_arg16 (c : Dev nD) : Bd8 m c (Proc.devRef .tc main_arg16) = m ((c : Thread nD τ).loc main_arg16) := (Bd8_of_ne m c main_arg16 (by decide)).trans (Bd7_main_arg16 m c)
theorem Bd9_main_arg16 (c : Dev nD) : Bd9 m c (Proc.devRef .tc main_arg16) = m ((c : Thread nD τ).loc main_arg16) := (Bd9_keep m c main_arg16 (by decide)).trans (Bd8_main_arg16 m c)
theorem Bd10_main_arg16 (c : Dev nD) : Bd10 m c (Proc.devRef .tc main_arg16) = m ((c : Thread nD τ).loc main_arg16) := (Bd10_of_ne m c main_arg16 (by decide)).trans (Bd9_main_arg16 m c)
theorem Bd11_main_arg16 (c : Dev nD) : Bd11 m c (Proc.devRef .tc main_arg16) = m ((c : Thread nD τ).loc main_arg16) := (Bd11_keep m c main_arg16 (by decide)).trans (Bd10_main_arg16 m c)
theorem Bd12_main_arg16 (c : Dev nD) : Bd12 m c (Proc.devRef .tc main_arg16) = m ((c : Thread nD τ).loc main_arg16) := (Bd12_of_ne m c main_arg16 (by decide)).trans (Bd11_main_arg16 m c)
theorem Bd13_main_arg16 (c : Dev nD) : Bd13 m c (Proc.devRef .tc main_arg16) = m ((c : Thread nD τ).loc main_arg16) := (Bd13_keep m c main_arg16 (by decide)).trans (Bd12_main_arg16 m c)
theorem Bd14_main_arg16 (c : Dev nD) : Bd14 m c (Proc.devRef .tc main_arg16) = m ((c : Thread nD τ).loc main_arg16) := (Bd14_of_ne m c main_arg16 (by decide)).trans (Bd13_main_arg16 m c)
theorem Bd15_main_arg16 (c : Dev nD) : Bd15 m c (Proc.devRef .tc main_arg16) = m ((c : Thread nD τ).loc main_arg16) := (Bd15_keep m c main_arg16 (by decide)).trans (Bd14_main_arg16 m c)
theorem Bd16_main_arg16 (c : Dev nD) : Bd16 m c (Proc.devRef .tc main_arg16) = m ((c : Thread nD τ).loc main_arg16) := (Bd16_of_ne m c main_arg16 (by decide)).trans (Bd15_main_arg16 m c)
theorem Bd17_main_arg16 (c : Dev nD) : Bd17 m c (Proc.devRef .tc main_arg16) = m ((c : Thread nD τ).loc main_arg16) := (Bd17_keep m c main_arg16 (by decide)).trans (Bd16_main_arg16 m c)
theorem Bd18_main_arg16 (c : Dev nD) : Bd18 m c (Proc.devRef .tc main_arg16) = m ((c : Thread nD τ).loc main_arg16) := (Bd18_in5 m c).trans (Bd17_main_arg16 m c)

theorem Bd0_main_arg17 (c : Dev nD) : Bd0 m c (Proc.devRef .tc main_arg17) = m ((c : Thread nD τ).loc main_arg17) := rfl
theorem Bd1_main_arg17 (c : Dev nD) : Bd1 m c (Proc.devRef .tc main_arg17) = m ((c : Thread nD τ).loc main_arg17) := (Bd1_keep m c main_arg17 (by decide)).trans (Bd0_main_arg17 m c)
theorem Bd2_main_arg17 (c : Dev nD) : Bd2 m c (Proc.devRef .tc main_arg17) = m ((c : Thread nD τ).loc main_arg17) := (Bd2_keep m c main_arg17 (by decide)).trans (Bd1_main_arg17 m c)
theorem Bd3_main_arg17 (c : Dev nD) : Bd3 m c (Proc.devRef .tc main_arg17) = m ((c : Thread nD τ).loc main_arg17) := (Bd3_keep m c main_arg17 (by decide)).trans (Bd2_main_arg17 m c)
theorem Bd4_main_arg17 (c : Dev nD) : Bd4 m c (Proc.devRef .tc main_arg17) = m ((c : Thread nD τ).loc main_arg17) := (Bd4_of_ne m c main_arg17 (by decide)).trans (Bd3_main_arg17 m c)
theorem Bd5_main_arg17 (c : Dev nD) : Bd5 m c (Proc.devRef .tc main_arg17) = m ((c : Thread nD τ).loc main_arg17) := (Bd5_keep m c main_arg17 (by decide)).trans (Bd4_main_arg17 m c)
theorem Bd6_main_arg17 (c : Dev nD) : Bd6 m c (Proc.devRef .tc main_arg17) = m ((c : Thread nD τ).loc main_arg17) := (Bd6_of_ne m c main_arg17 (by decide)).trans (Bd5_main_arg17 m c)
theorem Bd7_main_arg17 (c : Dev nD) : Bd7 m c (Proc.devRef .tc main_arg17) = m ((c : Thread nD τ).loc main_arg17) := (Bd7_keep m c main_arg17 (by decide)).trans (Bd6_main_arg17 m c)
theorem Bd8_main_arg17 (c : Dev nD) : Bd8 m c (Proc.devRef .tc main_arg17) = m ((c : Thread nD τ).loc main_arg17) := (Bd8_of_ne m c main_arg17 (by decide)).trans (Bd7_main_arg17 m c)
theorem Bd9_main_arg17 (c : Dev nD) : Bd9 m c (Proc.devRef .tc main_arg17) = m ((c : Thread nD τ).loc main_arg17) := (Bd9_keep m c main_arg17 (by decide)).trans (Bd8_main_arg17 m c)
theorem Bd10_main_arg17 (c : Dev nD) : Bd10 m c (Proc.devRef .tc main_arg17) = m ((c : Thread nD τ).loc main_arg17) := (Bd10_of_ne m c main_arg17 (by decide)).trans (Bd9_main_arg17 m c)
theorem Bd11_main_arg17 (c : Dev nD) : Bd11 m c (Proc.devRef .tc main_arg17) = m ((c : Thread nD τ).loc main_arg17) := (Bd11_keep m c main_arg17 (by decide)).trans (Bd10_main_arg17 m c)
theorem Bd12_main_arg17 (c : Dev nD) : Bd12 m c (Proc.devRef .tc main_arg17) = m ((c : Thread nD τ).loc main_arg17) := (Bd12_of_ne m c main_arg17 (by decide)).trans (Bd11_main_arg17 m c)
theorem Bd13_main_arg17 (c : Dev nD) : Bd13 m c (Proc.devRef .tc main_arg17) = m ((c : Thread nD τ).loc main_arg17) := (Bd13_keep m c main_arg17 (by decide)).trans (Bd12_main_arg17 m c)
theorem Bd14_main_arg17 (c : Dev nD) : Bd14 m c (Proc.devRef .tc main_arg17) = m ((c : Thread nD τ).loc main_arg17) := (Bd14_of_ne m c main_arg17 (by decide)).trans (Bd13_main_arg17 m c)
theorem Bd15_main_arg17 (c : Dev nD) : Bd15 m c (Proc.devRef .tc main_arg17) = m ((c : Thread nD τ).loc main_arg17) := (Bd15_keep m c main_arg17 (by decide)).trans (Bd14_main_arg17 m c)
theorem Bd16_main_arg17 (c : Dev nD) : Bd16 m c (Proc.devRef .tc main_arg17) = m ((c : Thread nD τ).loc main_arg17) := (Bd16_of_ne m c main_arg17 (by decide)).trans (Bd15_main_arg17 m c)
theorem Bd17_main_arg17 (c : Dev nD) : Bd17 m c (Proc.devRef .tc main_arg17) = m ((c : Thread nD τ).loc main_arg17) := (Bd17_keep m c main_arg17 (by decide)).trans (Bd16_main_arg17 m c)
theorem Bd18_main_arg17 (c : Dev nD) : Bd18 m c (Proc.devRef .tc main_arg17) = m ((c : Thread nD τ).loc main_arg17) := (Bd18_of_ne m c main_arg17 (by decide)).trans (Bd17_main_arg17 m c)

/-! The edge lists with self loops (written by the first stretch) and the per-edge weights (written by the third) keep
    their contents up to the last aggregation: no later item writes them. -/
theorem Bd2_main_v3 (c : Dev nD) : Bd2 m c (Proc.devRef .tc main_v3) = Bd1 m c (Proc.devRef .tc main_v3) := Bd2_keep m c main_v3 (by decide)
theorem Bd3_main_v3 (c : Dev nD) : Bd3 m c (Proc.devRef .tc main_v3) = Bd1 m c (Proc.devRef .tc main_v3) := (Bd3_keep m c main_v3 (by decide)).trans (Bd2_main_v3 m c)
theorem Bd4_main_v3 (c : Dev nD) : Bd4 m c (Proc.devRef .tc main_v3) = Bd1 m c (Proc.devRef .tc main_v3) := (Bd4_of_ne m c main_v3 (by decide)).trans (Bd3_main_v3 m c)
theorem Bd5_main_v3 (c : Dev nD) : Bd5 m c (Proc.devRef .tc main_v3) = Bd1 m c (Proc.devRef .tc main_v3) := (Bd5_keep m c main_v3 (by decide)).trans (Bd4_main_v3 m c)
theorem Bd6_main_v3 (c : Dev nD) : Bd6 m c (Proc.devRef .tc main_v3) = Bd1 m c (Proc.devRef .tc main_v3) := (Bd6_of_ne m c main_v3 (by decide)).trans (Bd5_main_v3 m c)
theorem Bd7_main_v3 (c : Dev nD) : Bd7 m c (Proc.devRef .tc main_v3) = Bd1 m c (Proc.devRef .tc main_v3) := (Bd7_keep m c main_v3 (by decide)).trans (Bd6_main_v3 m c)
theorem Bd8_main_v3 (c : Dev nD) : Bd8 m c (Proc.devRef .tc main_v3) = Bd1 m c (Proc.devRef .tc main_v3) := (Bd8_of_ne m c main_v3 (by decide)).trans (Bd7_main_v3 m c)
theorem Bd9_main_v3 (c : Dev nD) : Bd9 m c (Proc.devRef .tc main_v3) = Bd1 m c (Proc.devRef .tc main_v3) := (Bd9_keep m c main_v3 (by decide)).trans (Bd8_main_v3 m c)
theorem Bd10_main_v3 (c : Dev nD) : Bd10 m c (Proc.devRef .tc main_v3) = Bd1 m c (Proc.devRef .tc main_v3) := (Bd10_of_ne m c main_v3 (by decide)).trans (Bd9_main_v3 m c)
theorem Bd11_main_v3 (c : Dev nD) : Bd11 m c (Proc.devRef .tc main_v3) = Bd1 m c (Proc.devRef .tc main_v3) := (Bd11_keep m c main_v3 (by decide)).trans (Bd10_main_v3 m c)
theorem Bd12_main_v3 (c : Dev nD) : Bd12 m c (Proc.devRef .tc main_v3) = Bd1 m c (Proc.devRef .tc main_v3) := (Bd12_of_ne m c main_v3 (by decide)).trans (Bd11_main_v3 m c)
theorem Bd13_main_v3 (c : Dev nD) : Bd13 m c (Proc.devRef .tc main_v3) = Bd1 m c (Proc.devRef .tc main_v3) := (Bd13_keep m c main_v3 (by decide)).trans (Bd12_main_v3 m c)
theorem Bd14_main_v3 (c : Dev nD) : Bd14 m c (Proc.devRef .tc main_v3) = Bd1 m c (Proc.devRef .tc main_v3) := (Bd14_of_ne m c main_v3 (by decide)).trans (Bd13_main_v3 m c)
theorem Bd2_main_v6 (c : Dev nD) : Bd2 m c (Proc.devRef .tc main_v6) = Bd1 m c (Proc.devRef .tc main_v6) := Bd2_keep m c main_v6 (by decide)
theorem Bd3_main_v6 (c : Dev nD) : Bd3 m c (Proc.devRef .tc main_v6) = Bd1 m c (Proc.devRef .tc main_v6) := (Bd3_keep m c main_v6 (by decide)).trans (Bd2_main_v6 m c)
theorem Bd4_main_v6 (c : Dev nD) : Bd4 m c (Proc.devRef .tc main_v6) = Bd1 m c (Proc.devRef .tc main_v6) := (Bd4_of_ne m c main_v6 (by decide)).trans (Bd3_main_v6 m c)
theorem Bd5_main_v6 (c : Dev nD) : Bd5 m c (Proc.devRef .tc main_v6) = Bd1 m c (Proc.devRef .tc main_v6) := (Bd5_keep m c main_v6 (by decide)).trans (Bd4_main_v6 m c)
theorem Bd6_main_v6 (c : Dev nD) : Bd6 m c (Proc.devRef .tc main_v6) = Bd1 m c (Proc.devRef .tc main_v6) := (Bd6_of_ne m c main_v6 (by decide)).trans (Bd5_main_v6 m c)
theorem Bd7_main_v6 (c : Dev nD) : Bd7 m c (Proc.devRef .tc main_v6) = Bd1 m c (Proc.devRef .tc main_v6) := (Bd7_keep m c main_v6 (by decide)).trans (Bd6_main_v6 m c)
theorem Bd8_main_v6 (c : Dev nD) : Bd8 m c (Proc.devRef .tc main_v6) = Bd1 m c (Proc.devRef .tc main_v6) := (Bd8_of_ne m c main_v6 (by decide)).trans (Bd7_main_v6 m c)
theorem Bd9_main_v6 (c : Dev nD) : Bd9 m c (Proc.devRef .tc main_v6) = Bd1 m c (Proc.devRef .tc main_v6) := (Bd9_keep m c main_v6 (by decide)).trans (Bd8_main_v6 m c)
theorem Bd10_main_v6 (c : Dev nD) : Bd10 m c (Proc.devRef .tc main_v6) = Bd1 m c (Proc.devRef .tc main_v6) := (Bd10_of_ne m c main_v6 (by decide)).trans (Bd9_main_v6 m c)
theorem Bd11_main_v6 (c : Dev nD) : Bd11 m c (Proc.devRef .tc main_v6) = Bd1 m c (Proc.devRef .tc main_v6) := (Bd11_keep m c main_v6 (by decide)).trans (Bd10_main_v6 m c)
theorem Bd12_main_v6 (c : Dev nD) : Bd12 m c (Proc.devRef .tc main_v6) = Bd1 m c (Proc.devRef .tc main_v6) := (Bd12_of_ne m c main_v6 (by decide)).trans (Bd11_main_v6 m c)
theorem Bd13_main_v6 (c : Dev nD) : Bd13 m c (Proc.devRef .tc main_v6) = Bd1 m c (Proc.devRef .tc main_v6) := (Bd13_keep m c main_v6 (by decide)).trans (Bd12_main_v6 m c)
theorem Bd14_main_v6 (c : Dev nD) : Bd14 m c (Proc.devRef .tc main_v6) = Bd1 m c (Proc.devRef .tc main_v6) := (Bd14_of_ne m c main_v6 (by decide)).trans (Bd13_main_v6 m c)
theorem Bd4_main_v29 (c : Dev nD) : Bd4 m c (Proc.devRef .tc main_v29) = Bd3 m c (Proc.devRef .tc main_v29) := Bd4_of_ne m c main_v29 (by decide)
theorem Bd5_main_v29 (c : Dev nD) : Bd5 m c (Proc.devRef .tc main_v29) = Bd3 m c (Proc.devRef .tc main_v29) := (Bd5_keep m c main_v29 (by decide)).trans (Bd4_main_v29 m c)
theorem Bd6_main_v29 (c : Dev nD) : Bd6 m c (Proc.devRef .tc main_v29) = Bd3 m c (Proc.devRef .tc main_v29) := (Bd6_of_ne m c main_v29 (by decide)).trans (Bd5_main_v29 m c)
theorem Bd7_main_v29 (c : Dev nD) : Bd7 m c (Proc.devRef .tc main_v29) = Bd3 m c (Proc.devRef .tc main_v29) := (Bd7_keep m c main_v29 (by decide)).trans (Bd6_main_v29 m c)
theorem Bd8_main_v29 (c : Dev nD) : Bd8 m c (Proc.devRef .tc main_v29) = Bd3 m c (Proc.devRef .tc main_v29) := (Bd8_of_ne m c main_v29 (by decide)).trans (Bd7_main_v29 m c)
theorem Bd9_main_v29 (c : Dev nD) : Bd9 m c (Proc.devRef .tc main_v29) = Bd3 m c (Proc.devRef .tc main_v29) := (Bd9_keep m c main_v29 (by decide)).trans (Bd8_main_v29 m c)
theorem Bd10_main_v29 (c : Dev nD) : Bd10 m c (Proc.devRef .tc main_v29) = Bd3 m c (Proc.devRef .tc main_v29) := (Bd10_of_ne m c main_v29 (by decide)).trans (Bd9_main_v29 m c)
theorem Bd11_main_v29 (c : Dev nD) : Bd11 m c (Proc.devRef .tc main_v29) = Bd3 m c (Proc.devRef .tc main_v29) := (Bd11_keep m c main_v29 (by decide)).trans (Bd10_main_v29 m c)
theorem Bd12_main_v29 (c : Dev nD) : Bd12 m c (Proc.devRef .tc main_v29) = Bd3 m c (Proc.devRef .tc main_v29) := (Bd12_of_ne m c main_v29 (by decide)).trans (Bd11_main_v29 m c)
theorem Bd13_main_v29 (c : Dev nD) : Bd13 m c (Proc.devRef .tc main_v29) = Bd3 m c (Proc.devRef .tc main_v29) := (Bd13_keep m c main_v29 (by decide)).trans (Bd12_main_v29 m c)
theorem Bd14_main_v29 (c : Dev nD) : Bd14 m c (Proc.devRef .tc main_v29) = Bd3 m c (Proc.devRef .tc main_v29) := (Bd14_of_ne m c main_v29 (by decide)).trans (Bd13_main_v29 m c)

end Cert.Kernel.Frm

end
-- ==== Proof.K.Run.lean ====
/-
  The launch of @main as 18 items — ten stretches of host operations and the eight regions — over the thread state
  "every unscoped buffer at the boundary's contents, the generator register at some state, nothing owed". Each region's
  arrays are split out of the unscoped buffers at its entry and put back at its exit contents; its body obligation is
  the region module's. The run ends with every unscoped buffer at the last boundary's contents, from which the frame
  (the arguments as launched) and the result array are read.
-/
import proofs.«137698_j16329465660189_1_alg».proof.Proof.K.Walk

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No pipeline has a prefetched table. -/
abbrev admF : (p : Fin 8) → (pcfgs (F := F) p).Adm := fun p => (cfgs p).toPCfg_adm
/-- Every pipeline's proof data, each at its region's entry contents. -/
def pdatsF : (p : Fin 8) → (c : Dev nD) → Dat τ (Elt F) Unit ℕ (UR sig nD τ) ℕ (Pipeline.pin (pcfgs (F := F)) admF p) c
  | ⟨0, _⟩ => fun c => dat0 (Bv3 m) c
  | ⟨1, _⟩ => fun c => dat1 (Bv5 m) c
  | ⟨2, _⟩ => fun c => dat2 (Bv7 m) c
  | ⟨3, _⟩ => fun c => dat3 (Bv9 m) c
  | ⟨4, _⟩ => fun c => dat4 (Bv11 m) c
  | ⟨5, _⟩ => fun c => dat5 (Bv13 m) c
  | ⟨6, _⟩ => fun c => dat6 (Bv15 m) c
  | ⟨7, _⟩ => fun c => dat7 (Bv17 m) c
abbrev 𝒱F : Variants := Variants.none
abbrev LF : GSem nD τ sig → Finset Unit := fun _ => ∅
abbrev lvF : GSem nD τ sig → Unit → ℕ := fun _ _ => 0
/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)
/-- A host stretch as an item over the unscoped references from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TnF (c : Dev nD) : sProp 𝕄 := iprop(StableHlo.held (c : Thread nD τ) (Pipeline.ucRefs τ sig) (Bd18 m c) ∗ ∃ r, prngReg c r)

set_option backward.isDefEq.respectTransparency.types false in
/-- Region 0 over the thread state: entered from every unscoped buffer at boundary 3's contents, left at boundary 4's. -/
def reg0 : Pipeline.RegionSeg (pcfgs (F := F)) admF (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Bv3 m) c).loose
  hwaits := Pipeline.hwaits_of_owed_zero _ _ _ _ LF lvF 0 fun _ _ => rfl
  pre c := iprop(StableHlo.held (c : Thread nD τ) (Pipeline.ucRefs τ sig) (Bd3 m c) ∗ Rst c)
  post c := iprop(StableHlo.held (c : Thread nD τ) (Pipeline.ucRefs τ sig) (Bd4 m c) ∗ Rst c)
  X c := iprop(∃ r, prngReg c r)
  Y c := iprop(∃ r, prngReg c r)
  Z c := Pipeline.unscopedRest (Ix := Unit) (Name := ℕ) (U := UR sig nD τ) (Lvl := ℕ) spec0 c (Bv3 m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (Bv3 m c) (Bv4 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 5's contents, left at boundary 6's. -/
def reg1 : Pipeline.RegionSeg (pcfgs (F := F)) admF (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Bv5 m) c).loose
  hwaits := Pipeline.hwaits_of_owed_zero _ _ _ _ LF lvF 1 fun _ _ => rfl
  pre c := iprop(StableHlo.held (c : Thread nD τ) (Pipeline.ucRefs τ sig) (Bd5 m c) ∗ Rst c)
  post c := iprop(StableHlo.held (c : Thread nD τ) (Pipeline.ucRefs τ sig) (Bd6 m c) ∗ Rst c)
  X c := iprop(∃ r, prngReg c r)
  Y c := iprop(∃ r, prngReg c r)
  Z c := Pipeline.unscopedRest (Ix := Unit) (Name := ℕ) (U := UR sig nD τ) (Lvl := ℕ) spec1 c (Bv5 m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (Bv5 m c) (Bv6 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 7's contents, left at boundary 8's. -/
def reg2 : Pipeline.RegionSeg (pcfgs (F := F)) admF (pdatsF m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (Bv7 m) c).loose
  hwaits := Pipeline.hwaits_of_owed_zero _ _ _ _ LF lvF 2 fun _ _ => rfl
  pre c := iprop(StableHlo.held (c : Thread nD τ) (Pipeline.ucRefs τ sig) (Bd7 m c) ∗ Rst c)
  post c := iprop(StableHlo.held (c : Thread nD τ) (Pipeline.ucRefs τ sig) (Bd8 m c) ∗ Rst c)
  X c := iprop(∃ r, prngReg c r)
  Y c := iprop(∃ r, prngReg c r)
  Z c := Pipeline.unscopedRest (Ix := Unit) (Name := ℕ) (U := UR sig nD τ) (Lvl := ℕ) spec2 c (Bv7 m c)
  hentry c := by
    rw [Pipeline.ownSems0_none]
    have hsplit := Pipeline.arrays_of_unscopedBufs (p := 2) (pcfgs (F := F)) admF (pdatsF m) launch2.win launch2.arr_whole c
      ((pdatsF m 2 c).share_full fun _ => rfl) (Bv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m) ((pdatsF m 2 c).share_full fun _ => rfl)
      (Bv7 m c) (Bv8 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 9's contents, left at boundary 10's. -/
def reg3 : Pipeline.RegionSeg (pcfgs (F := F)) admF (pdatsF m) () defs₀ 𝒱F LF lvF 3 where
  win := launch3.win.to₀
  block_pos := launch3.block_pos
  stage_whole := launch3.stage_whole
  K := PEmpty
  osem k := k.elim
  ho := Pipeline.OwnSemFacts.none _
  hbody c := (body_obligation3 (Bv9 m) c).loose
  hwaits := Pipeline.hwaits_of_owed_zero _ _ _ _ LF lvF 3 fun _ _ => rfl
  pre c := iprop(StableHlo.held (c : Thread nD τ) (Pipeline.ucRefs τ sig) (Bd9 m c) ∗ Rst c)
  post c := iprop(StableHlo.held (c : Thread nD τ) (Pipeline.ucRefs τ sig) (Bd10 m c) ∗ Rst c)
  X c := iprop(∃ r, prngReg c r)
  Y c := iprop(∃ r, prngReg c r)
  Z c := Pipeline.unscopedRest (Ix := Unit) (Name := ℕ) (U := UR sig nD τ) (Lvl := ℕ) spec3 c (Bv9 m c)
  hentry c := by
    rw [Pipeline.ownSems0_none]
    have hsplit := Pipeline.arrays_of_unscopedBufs (p := 3) (pcfgs (F := F)) admF (pdatsF m) launch3.win launch3.arr_whole c
      ((pdatsF m 3 c).share_full fun _ => rfl) (Bv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m) ((pdatsF m 3 c).share_full fun _ => rfl)
      (Bv9 m c) (Bv10 m c) ((pdatsF m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 11's contents, left at boundary 12's. -/
def reg4 : Pipeline.RegionSeg (pcfgs (F := F)) admF (pdatsF m) () defs₀ 𝒱F LF lvF 4 where
  win := launch4.win.to₀
  block_pos := launch4.block_pos
  stage_whole := launch4.stage_whole
  K := PEmpty
  osem k := k.elim
  ho := Pipeline.OwnSemFacts.none _
  hbody c := (body_obligation4 (Bv11 m) c).loose
  hwaits := Pipeline.hwaits_of_owed_zero _ _ _ _ LF lvF 4 fun _ _ => rfl
  pre c := iprop(StableHlo.held (c : Thread nD τ) (Pipeline.ucRefs τ sig) (Bd11 m c) ∗ Rst c)
  post c := iprop(StableHlo.held (c : Thread nD τ) (Pipeline.ucRefs τ sig) (Bd12 m c) ∗ Rst c)
  X c := iprop(∃ r, prngReg c r)
  Y c := iprop(∃ r, prngReg c r)
  Z c := Pipeline.unscopedRest (Ix := Unit) (Name := ℕ) (U := UR sig nD τ) (Lvl := ℕ) spec4 c (Bv11 m c)
  hentry c := by
    rw [Pipeline.ownSems0_none]
    have hsplit := Pipeline.arrays_of_unscopedBufs (p := 4) (pcfgs (F := F)) admF (pdatsF m) launch4.win launch4.arr_whole c
      ((pdatsF m 4 c).share_full fun _ => rfl) (Bv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdatsF m) ((pdatsF m 4 c).share_full fun _ => rfl)
      (Bv11 m c) (Bv12 m c) ((pdatsF m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 13's contents, left at boundary 14's. -/
def reg5 : Pipeline.RegionSeg (pcfgs (F := F)) admF (pdatsF m) () defs₀ 𝒱F LF lvF 5 where
  win := launch5.win.to₀
  block_pos := launch5.block_pos
  stage_whole := launch5.stage_whole
  K := PEmpty
  osem k := k.elim
  ho := Pipeline.OwnSemFacts.none _
  hbody c := (body_obligation5 (Bv13 m) c).loose
  hwaits := Pipeline.hwaits_of_owed_zero _ _ _ _ LF lvF 5 fun _ _ => rfl
  pre c := iprop(StableHlo.held (c : Thread nD τ) (Pipeline.ucRefs τ sig) (Bd13 m c) ∗ Rst c)
  post c := iprop(StableHlo.held (c : Thread nD τ) (Pipeline.ucRefs τ sig) (Bd14 m c) ∗ Rst c)
  X c := iprop(∃ r, prngReg c r)
  Y c := iprop(∃ r, prngReg c r)
  Z c := Pipeline.unscopedRest (Ix := Unit) (Name := ℕ) (U := UR sig nD τ) (Lvl := ℕ) spec5 c (Bv13 m c)
  hentry c := by
    rw [Pipeline.ownSems0_none]
    have hsplit := Pipeline.arrays_of_unscopedBufs (p := 5) (pcfgs (F := F)) admF (pdatsF m) launch5.win launch5.arr_whole c
      ((pdatsF m 5 c).share_full fun _ => rfl) (Bv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m) ((pdatsF m 5 c).share_full fun _ => rfl)
      (Bv13 m c) (Bv14 m c) ((pdatsF m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 15's contents, left at boundary 16's. -/
def reg6 : Pipeline.RegionSeg (pcfgs (F := F)) admF (pdatsF m) () defs₀ 𝒱F LF lvF 6 where
  win := launch6.win.to₀
  block_pos := launch6.block_pos
  stage_whole := launch6.stage_whole
  K := PEmpty
  osem k := k.elim
  ho := Pipeline.OwnSemFacts.none _
  hbody c := (body_obligation6 (Bv15 m) c).loose
  hwaits := Pipeline.hwaits_of_owed_zero _ _ _ _ LF lvF 6 fun _ _ => rfl
  pre c := iprop(StableHlo.held (c : Thread nD τ) (Pipeline.ucRefs τ sig) (Bd15 m c) ∗ Rst c)
  post c := iprop(StableHlo.held (c : Thread nD τ) (Pipeline.ucRefs τ sig) (Bd16 m c) ∗ Rst c)
  X c := iprop(∃ r, prngReg c r)
  Y c := iprop(∃ r, prngReg c r)
  Z c := Pipeline.unscopedRest (Ix := Unit) (Name := ℕ) (U := UR sig nD τ) (Lvl := ℕ) spec6 c (Bv15 m c)
  hentry c := by
    rw [Pipeline.ownSems0_none]
    have hsplit := Pipeline.arrays_of_unscopedBufs (p := 6) (pcfgs (F := F)) admF (pdatsF m) launch6.win launch6.arr_whole c
      ((pdatsF m 6 c).share_full fun _ => rfl) (Bv15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m) ((pdatsF m 6 c).share_full fun _ => rfl)
      (Bv15 m c) (Bv16 m c) ((pdatsF m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at boundary 17's contents, left at boundary 18's. -/
def reg7 : Pipeline.RegionSeg (pcfgs (F := F)) admF (pdatsF m) () defs₀ 𝒱F LF lvF 7 where
  win := launch7.win.to₀
  block_pos := launch7.block_pos
  stage_whole := launch7.stage_whole
  K := PEmpty
  osem k := k.elim
  ho := Pipeline.OwnSemFacts.none _
  hbody c := (body_obligation7 (Bv17 m) c).loose
  hwaits := Pipeline.hwaits_of_owed_zero _ _ _ _ LF lvF 7 fun _ _ => rfl
  pre c := iprop(StableHlo.held (c : Thread nD τ) (Pipeline.ucRefs τ sig) (Bd17 m c) ∗ Rst c)
  post c := iprop(TnF m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (Bv17 m c)
  hentry c := by
    rw [Pipeline.ownSems0_none]
    have hsplit := Pipeline.arrays_of_unscopedBufs (p := 7) (pcfgs (F := F)) admF (pdatsF m) launch7.win launch7.arr_whole c
      ((pdatsF m 7 c).share_full fun _ => rfl) (Bv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsF m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdatsF m) ((pdatsF m 7 c).share_full fun _ => rfl)
      (Bv17 m c) (Bv18 m c) ((pdatsF m 7 c).arrAt · cfg7.N) (hF7 m c) (hrest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 18 items in order. -/
abbrev segsF : List (Pipeline.Seg (pcfgs (F := F)) admF (pdatsF m) () defs₀ 𝒱F LF lvF) :=
  [ .host (hsegF hostOps0 hostOps0_sub hostOps0_fresh (Bd0 m)),
    .host (hsegF hostOps0_1 hostOps0_1_sub hostOps0_1_fresh (Bd1 m)),
    .host (hsegF hostOps0_2 hostOps0_2_sub hostOps0_2_fresh (Bd2 m)),
    .region (reg0 m),
    .host (hsegF hostOps1 hostOps1_sub hostOps1_fresh (Bd4 m)),
    .region (reg1 m),
    .host (hsegF hostOps2 hostOps2_sub hostOps2_fresh (Bd6 m)),
    .region (reg2 m),
    .host (hsegF hostOps3 hostOps3_sub hostOps3_fresh (Bd8 m)),
    .region (reg3 m),
    .host (hsegF hostOps4 hostOps4_sub hostOps4_fresh (Bd10 m)),
    .region (reg4 m),
    .host (hsegF hostOps5 hostOps5_sub hostOps5_fresh (Bd12 m)),
    .region (reg5 m),
    .host (hsegF hostOps6 hostOps6_sub hostOps6_fresh (Bd14 m)),
    .region (reg6 m),
    .host (hsegF hostOps7 hostOps7_sub hostOps7_fresh (Bd16 m)),
    .region (reg7 m) ]
/-- @main is the run of the items. -/
theorem main_run (c : Dev nD) : main (F := F) c = Pipeline.Seg.run (segsF m) := (main_chain c).trans (by chain_rfl)

set_option backward.isDefEq.respectTransparency.types false in
/-- From any memory with zero counters every weakly fair execution of @main on the TensorCores terminates, nothing
    faulting, and the final state holds every unscoped buffer at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd18 m c b) :=
  Pipeline.θ_run_regions_kit (pcfgs (F := F)) admF (pdatsF m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rst c)) (Tₙ := TnF m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd18 m c b)
    (hfin := fun c s' => by
      iintro ⟨⟨Hh, -⟩, HSI⟩
      unfold StableHlo.held
      imodintro
      iapply (pointsTo_read_all (Pipeline.ucRefs τ sig) (fun b => (((c : Thread nD τ)).1, b)) (Bd18 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (Bd18_main_arg0 m c),
    (h c _ (mem_uc main_arg1 (by decide))).trans (Bd18_main_arg1 m c),
    (h c _ (mem_uc main_arg2 (by decide))).trans (Bd18_main_arg2 m c),
    (h c _ (mem_uc main_arg3 (by decide))).trans (Bd18_main_arg3 m c),
    (h c _ (mem_uc main_arg4 (by decide))).trans (Bd18_main_arg4 m c),
    (h c _ (mem_uc main_arg5 (by decide))).trans (Bd18_main_arg5 m c),
    (h c _ (mem_uc main_arg6 (by decide))).trans (Bd18_main_arg6 m c),
    (h c _ (mem_uc main_arg7 (by decide))).trans (Bd18_main_arg7 m c),
    (h c _ (mem_uc main_arg8 (by decide))).trans (Bd18_main_arg8 m c),
    (h c _ (mem_uc main_arg9 (by decide))).trans (Bd18_main_arg9 m c),
    (h c _ (mem_uc main_arg10 (by decide))).trans (Bd18_main_arg10 m c),
    (h c _ (mem_uc main_arg11 (by decide))).trans (Bd18_main_arg11 m c),
    (h c _ (mem_uc main_arg12 (by decide))).trans (Bd18_main_arg12 m c),
    (h c _ (mem_uc main_arg13 (by decide))).trans (Bd18_main_arg13 m c),
    (h c _ (mem_uc main_arg14 (by decide))).trans (Bd18_main_arg14 m c),
    (h c _ (mem_uc main_arg15 (by decide))).trans (Bd18_main_arg15 m c),
    (h c _ (mem_uc main_arg16 (by decide))).trans (Bd18_main_arg16 m c),
    (h c _ (mem_uc main_arg17 (by decide))).trans (Bd18_main_arg17 m c)⟩) (run m ρ)

end Cert.Kernel.Frm

end
-- ==== Proof.KI.Region0.lean ====
/-
  Region 0 (the embedding layer: a row block of the atom table times the embedding matrix, plus the bias row) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: each window's buffer is read, and the output's written, whole. -/
abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The output window's buffer after the body, from the input blocks: its one store. -/
def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

/-- The store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1.lean ====
/-
  Region 1 (the first layer's weight product: a row block of the node table times the layer's matrix) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: each window's buffer is read, and the output's written, whole. -/
abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S5000x128 := Rect.unit (s := S5000x128) ![0, 0] S5000x128.size inb_S5000x128_S5000x128_0_0

/-- The output window's buffer after the body, from the input blocks: its one store. -/
def out1_2 (x0 : Vec F S5000x128 .f32) (x1 : Vec F S128x128 .f32) : Vec F S5000x128 .f32 :=
  View.canon [⟨r1_2, k1_pay1 (View.ld x0 r1_0) (View.ld x1 r1_1)⟩]

/-- The store covers the buffer. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

set_option maxHeartbeats 1000000 in
/-- The body on whole staging memrefs, the inputs' at read contents and the output's at anything, runs to the
    continuation holding the inputs' as they were and the output's at `out1_2` of the inputs'. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body at point `t`
    each input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Region2.lean ====
/-
  Region 2 (the first layer's normalisation: bias, running mean and variance, scale, shift, maximum with zero, entry by entry on a row block) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: each window's buffer is read, and the output's written, whole. -/
abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S1x128 := Rect.unit (s := S1x128) ![0, 0] S1x128.size inb_S1x128_S1x128_0_0
abbrev r2_6 : Rect S5000x128 := Rect.unit (s := S5000x128) ![0, 0] S5000x128.size inb_S5000x128_S5000x128_0_0

/-- The output window's buffer after the body, from the input blocks: its one store. -/
def out2_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r2_6, k2_pay1 (View.ld x0 r2_0) (View.ld x1 r2_1) (View.ld x5 r2_5) (View.ld x4 r2_4) (View.ld x2 r2_2) (View.ld x3 r2_3)⟩]

/-- The store covers the buffer. -/
theorem cover2_6 (p0 : Vec F S5000x128 .f32) (y : S5000x128.Idx) :
    ∃ pc ∈ ([⟨r2_6, p0⟩] : List (View.Piece (Elt F) S5000x128 .f32)), y ∈ pc.1.set :=
  View.cover_of_tiled [⟨r2_6, p0⟩] S5000x128.size (by rfl) y

set_option maxHeartbeats 1000000 in
/-- The body on whole staging memrefs, the inputs' at read contents and the output's at anything, runs to the
    continuation holding the inputs' as they were and the output's at `out2_6` of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_kernel i arg1 harg1 arg2 harg2 arg3 harg3 arg4 harg4 arg5 harg5 arg6 harg6 arg7 harg7) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the pipeline on core `c`: the arrays as the region finds them; after the body at point `t`
    each input's buffer at its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Region3.lean ====
/-
  Region 3 (the second layer's weight product) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! The body's accesses: each window's buffer is read, and the output's written, whole. -/
abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

/-- The output window's buffer after the body, from the input blocks: its one store. -/
def out3_2 (x0 : Vec F S5000x128 .f32) (x1 : Vec F S128x128 .f32) : Vec F S5000x128 .f32 :=
  View.canon [⟨r3_2, k3_pay1 (View.ld x0 r3_0) (View.ld x1 r3_1)⟩]

/-- The store covers the buffer. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in
/-- The body on whole staging memrefs, the inputs' at read contents and the output's at anything, runs to the
    continuation holding the inputs' as they were and the output's at `out3_2` of the inputs'. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the pipeline on core `c`: the arrays as the region finds them; after the body at point `t`
    each input's buffer at its block and the output's at `out3_2` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Region4.lean ====
/-
  Region 4 (the second layer's normalisation) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! The body's accesses: each window's buffer is read, and the output's written, whole. -/
abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0
abbrev r4_2 : Rect S1x128 := Rect.unit (s := S1x128) ![0, 0] S1x128.size inb_S1x128_S1x128_0_0
abbrev r4_3 : Rect S1x128 := Rect.unit (s := S1x128) ![0, 0] S1x128.size inb_S1x128_S1x128_0_0
abbrev r4_4 : Rect S1x128 := Rect.unit (s := S1x128) ![0, 0] S1x128.size inb_S1x128_S1x128_0_0
abbrev r4_5 : Rect S1x128 := Rect.unit (s := S1x128) ![0, 0] S1x128.size inb_S1x128_S1x128_0_0
abbrev r4_6 : Rect S5000x128 := Rect.unit (s := S5000x128) ![0, 0] S5000x128.size inb_S5000x128_S5000x128_0_0

/-- The output window's buffer after the body, from the input blocks: its one store. -/
def out4_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r4_6, k4_pay1 (View.ld x0 r4_0) (View.ld x1 r4_1) (View.ld x5 r4_5) (View.ld x4 r4_4) (View.ld x2 r4_2) (View.ld x3 r4_3)⟩]

/-- The store covers the buffer. -/
theorem cover4_6 (p0 : Vec F S5000x128 .f32) (y : S5000x128.Idx) :
    ∃ pc ∈ ([⟨r4_6, p0⟩] : List (View.Piece (Elt F) S5000x128 .f32)), y ∈ pc.1.set :=
  View.cover_of_tiled [⟨r4_6, p0⟩] S5000x128.size (by rfl) y

set_option maxHeartbeats 1000000 in
/-- The body on whole staging memrefs, the inputs' at read contents and the output's at anything, runs to the
    continuation holding the inputs' as they were and the output's at `out4_6` of the inputs'. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__bn_relu_kernel i arg1 harg1 arg2 harg2 arg3 harg3 arg4 harg4 arg5 harg5 arg6 harg6 arg7 harg7) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of the pipeline on core `c`: the arrays as the region finds them; after the body at point `t`
    each input's buffer at its block and the output's at `out4_6` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Region5.lean ====
/-
  Region 5 (the third layer's weight product) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! The body's accesses: each window's buffer is read, and the output's written, whole. -/
abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S5000x128 := Rect.unit (s := S5000x128) ![0, 0] S5000x128.size inb_S5000x128_S5000x128_0_0

/-- The output window's buffer after the body, from the input blocks: its one store. -/
def out5_2 (x0 : Vec F S5000x128 .f32) (x1 : Vec F S128x128 .f32) : Vec F S5000x128 .f32 :=
  View.canon [⟨r5_2, k5_pay1 (View.ld x0 r5_0) (View.ld x1 r5_1)⟩]

/-- The store covers the buffer. -/
theorem cover5_2 (p0 : Vec F S5000x128 .f32) (y : S5000x128.Idx) :
    ∃ pc ∈ ([⟨r5_2, p0⟩] : List (View.Piece (Elt F) S5000x128 .f32)), y ∈ pc.1.set :=
  View.cover_of_tiled [⟨r5_2, p0⟩] S5000x128.size (by rfl) y

set_option maxHeartbeats 1000000 in
/-- The body on whole staging memrefs, the inputs' at read contents and the output's at anything, runs to the
    continuation holding the inputs' as they were and the output's at `out5_2` of the inputs'. -/
theorem sound_kernel5 (c : Dev nD) (E : Set ℕ) (i : grid5.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the pipeline on core `c`: the arrays as the region finds them; after the body at point `t`
    each input's buffer at its block and the output's at `out5_2` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Region6.lean ====
/-
  Region 6 (the third layer's normalisation) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! The body's accesses: each window's buffer is read, and the output's written, whole. -/
abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0
abbrev r6_2 : Rect S1x128 := Rect.unit (s := S1x128) ![0, 0] S1x128.size inb_S1x128_S1x128_0_0
abbrev r6_3 : Rect S1x128 := Rect.unit (s := S1x128) ![0, 0] S1x128.size inb_S1x128_S1x128_0_0
abbrev r6_4 : Rect S1x128 := Rect.unit (s := S1x128) ![0, 0] S1x128.size inb_S1x128_S1x128_0_0
abbrev r6_5 : Rect S1x128 := Rect.unit (s := S1x128) ![0, 0] S1x128.size inb_S1x128_S1x128_0_0
abbrev r6_6 : Rect S5000x128 := Rect.unit (s := S5000x128) ![0, 0] S5000x128.size inb_S5000x128_S5000x128_0_0

/-- The output window's buffer after the body, from the input blocks: its one store. -/
def out6_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r6_6, k6_pay1 (View.ld x0 r6_0) (View.ld x1 r6_1) (View.ld x5 r6_5) (View.ld x4 r6_4) (View.ld x2 r6_2) (View.ld x3 r6_3)⟩]

/-- The store covers the buffer. -/
theorem cover6_6 (p0 : Vec F S5000x128 .f32) (y : S5000x128.Idx) :
    ∃ pc ∈ ([⟨r6_6, p0⟩] : List (View.Piece (Elt F) S5000x128 .f32)), y ∈ pc.1.set :=
  View.cover_of_tiled [⟨r6_6, p0⟩] S5000x128.size (by rfl) y

set_option maxHeartbeats 1000000 in
/-- The body on whole staging memrefs, the inputs' at read contents and the output's at anything, runs to the
    continuation holding the inputs' as they were and the output's at `out6_6` of the inputs'. -/
theorem sound_kernel6 (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__bn_relu_kernel i arg1 harg1 arg2 harg2 arg3 harg3 arg4 harg4 arg5 harg5 arg6 harg6 arg7 harg7) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of the pipeline on core `c`: the arrays as the region finds them; after the body at point `t`
    each input's buffer at its block and the output's at `out6_6` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KI.Region7.lean ====
/-
  Region 7 (the pair read-out: three dense layers on a row block of the joined pair table) of the program, read at any float instance: the blocks its windows hold at a grid point, what its
  body leaves in the output window's buffer (one whole-block store of the body's arithmetic applied to the loaded
  input blocks), the body's triple, the pipeline's proof data at the contents `V` the region is entered with, and
  the body obligation at every grid point. Every input window's buffer holds its block of the array at every
  point (a window with a constant index is fetched once and never moves); the output block is written whole.
-/
import proofs.«137698_j16329465660189_1_alg».proof.Proof.Gen.KernelIdeal.Launch
import proofs.«137698_j16329465660189_1_alg».proof.Proof.Gen.KernelIdeal.Skeleton
import proofs.«137698_j16329465660189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! The body's accesses: each window's buffer is read, and the output's written, whole. -/
abbrev r7_0 : Rect S4000x288 := Rect.unit (s := S4000x288) ![0, 0] S4000x288.size inb_S4000x288_S4000x288_0_0
abbrev r7_1 : Rect S288x128 := Rect.unit (s := S288x128) ![0, 0] S288x128.size inb_S288x128_S288x128_0_0
abbrev r7_2 : Rect S1x128 := Rect.unit (s := S1x128) ![0, 0] S1x128.size inb_S1x128_S1x128_0_0
abbrev r7_3 : Rect S128x64 := Rect.unit (s := S128x64) ![0, 0] S128x64.size inb_S128x64_S128x64_0_0
abbrev r7_4 : Rect S1x64 := Rect.unit (s := S1x64) ![0, 0] S1x64.size inb_S1x64_S1x64_0_0
abbrev r7_5 : Rect S64x1 := Rect.unit (s := S64x1) ![0, 0] S64x1.size inb_S64x1_S64x1_0_0
abbrev r7_6 : Rect S1x1 := Rect.unit (s := S1x1) ![0, 0] S1x1.size inb_S1x1_S1x1_0_0
abbrev r7_7 : Rect S4000x1 := Rect.unit (s := S4000x1) ![0, 0] S4000x1.size inb_S4000x1_S4000x1_0_0

/-- The output window's buffer after the body, from the input blocks: its one store. -/
def out7_7 (x0 : Vec F S4000x288 .f32) (x1 : Vec F S288x128 .f32) (x2 : Vec F S1x128 .f32) (x3 : Vec F S128x64 .f32) (x4 : Vec F S1x64 .f32) (x5 : Vec F S64x1 .f32) (x6 : Vec F S1x1 .f32) : Vec F S4000x1 .f32 :=
  View.canon [⟨r7_7, k7_pay1 (View.ld x0 r7_0) (View.ld x1 r7_1) (View.ld x2 r7_2) (View.ld x3 r7_3) (View.ld x4 r7_4) (View.ld x5 r7_5) (View.ld x6 r7_6)⟩]

/-- The store covers the buffer. -/
theorem cover7_7 (p0 : Vec F S4000x1 .f32) (y : S4000x1.Idx) :
    ∃ pc ∈ ([⟨r7_7, p0⟩] : List (View.Piece (Elt F) S4000x1 .f32)), y ∈ pc.1.set :=
  View.cover_of_tiled [⟨r7_7, p0⟩] S4000x1.size (by rfl) y

set_option maxHeartbeats 1000000 in
/-- The body on whole staging memrefs, the inputs' at read contents and the output's at anything, runs to the
    continuation holding the inputs' as they were and the output's at `out7_7` of the inputs'. -/
theorem sound_kernel7 (c : Dev nD) (E : Set ℕ) (i : grid7.Coords) (arg1 : Memref sig .tc .vmem S4000x288 .f32) (harg1 : arg1.IsWhole) (arg2 : Memref sig .tc .vmem S288x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S4000x1 .f32) (harg8 : arg8.IsWhole)
    (x0 : Vec F S4000x288 .f32) (x1 : Vec F S288x128 .f32) (x2 : Vec F S1x128 .f32) (x3 : Vec F S128x64 .f32) (x4 : Vec F S1x64 .f32) (x5 : Vec F S64x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__pair_mlp_kernel i arg1 harg1 arg2 harg2 arg3 harg3 arg4 harg4 arg5 harg5 arg6 harg6 arg7 harg7 arg8 harg8) K := by
  simp only [cc7__pair_mlp_kernel_eq_skeleton]; unfold cc7__pair_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-- The proof data of the pipeline on core `c`: the arrays as the region finds them; after the body at point `t`
    each input's buffer at its block and the output's at `out7_7` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.KI.Walk.lean ====
/-
  The contents of core `c`'s unscoped buffers at each of the 19 boundaries between @main's items, as a fold from the
  launch memory: a host stretch applies its operations; a region leaves each of its arrays at what its write-backs
  leave and every other buffer as it found it. An input window's array is never written back, so across a region
  every buffer but its one output array keeps its contents; across a stretch every buffer the stretch does not write
  does. Hence each of the 18 argument arrays is, at the last boundary, what the launch memory held.
-/
import proofs.«137698_j16329465660189_1_alg».proof.Proof.KI.Region0
import proofs.«137698_j16329465660189_1_alg».proof.Proof.KI.Region1
import proofs.«137698_j16329465660189_1_alg».proof.Proof.KI.Region2
import proofs.«137698_j16329465660189_1_alg».proof.Proof.KI.Region3
import proofs.«137698_j16329465660189_1_alg».proof.Proof.KI.Region4
import proofs.«137698_j16329465660189_1_alg».proof.Proof.KI.Region5
import proofs.«137698_j16329465660189_1_alg».proof.Proof.KI.Region6
import proofs.«137698_j16329465660189_1_alg».proof.Proof.KI.Region7
import proofs.«137698_j16329465660189_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev Bd0 (c : Dev nD) : Valuation τ sig (Elt F) := fun b => m (c, b)

/-- After the stretch `hostOps0`. -/
abbrev Bd1 (c : Dev nD) : Valuation τ sig (Elt F) := StableHlo.after hostOps0 (Bd0 m c)
/-- A buffer the stretch does not write keeps its contents. -/
theorem Bd1_keep (c : Dev nD) (r : Ref sig .tc) (hr : r ∉ hostOps0_W) : Bd1 m c (Proc.devRef .tc r) = Bd0 m c (Proc.devRef .tc r) :=
  StableHlo.after_of_writes_sub _ _ hostOps0_writes hr

/-- After the stretch `hostOps0_1`. -/
abbrev Bd2 (c : Dev nD) : Valuation τ sig (Elt F) := StableHlo.after hostOps0_1 (Bd1 m c)
/-- A buffer the stretch does not write keeps its contents. -/
theorem Bd2_keep (c : Dev nD) (r : Ref sig .tc) (hr : r ∉ hostOps0_1_W) : Bd2 m c (Proc.devRef .tc r) = Bd1 m c (Proc.devRef .tc r) :=
  StableHlo.after_of_writes_sub _ _ hostOps0_1_writes hr

/-- After the stretch `hostOps0_2`. -/
abbrev Bd3 (c : Dev nD) : Valuation τ sig (Elt F) := StableHlo.after hostOps0_2 (Bd2 m c)
/-- A buffer the stretch does not write keeps its contents. -/
theorem Bd3_keep (c : Dev nD) (r : Ref sig .tc) (hr : r ∉ hostOps0_2_W) : Bd3 m c (Proc.devRef .tc r) = Bd2 m c (Proc.devRef .tc r) :=
  StableHlo.after_of_writes_sub _ _ hostOps0_2_writes hr

/-- Region 0's entry contents read at the TensorCore's references. -/
abbrev Bv3 : (c : Dev nD) → (b : Ref sig .tc) → Buf (Elt F) ((c : Thread nD τ).loc b) := fun c b => Bd3 m c b
/-- At region 0's exit: its arrays at what the pipeline leaves, every other buffer as entered. -/
def Bd4 (c : Dev nD) : Valuation τ sig (Elt F) :=
  Pipeline.withArrays spec0 c (Bd3 m c) fun w => (dat0 (Bv3 m) c).arrAt w cfg0.N
theorem Bd4_arr (c : Dev nD) (w : Fin cfg0.W) :
    Bd4 m c (Proc.devRef .tc (Pipeline.arrRef spec0 w)) = (dat0 (Bv3 m) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m c (Proc.devRef .tc b) = Bd3 m c (Proc.devRef .tc b) := by
  unfold Bd4; exact Pipeline.withArrays_of_ne spec0 c _ _ b hb
abbrev Bv4 : (c : Dev nD) → (b : Ref sig .tc) → Buf (Elt F) ((c : Thread nD τ).loc b) := fun c b => Bd4 m c b
theorem hF0 (c : Dev nD) (w : Fin cfg0.W) : (dat0 (Bv3 m) c).arrAt w cfg0.N = Bv4 m c (Pipeline.arrRef spec0 w) :=
  (Bd4_arr m c w).symm
theorem hrest0 (c : Dev nD) : ∀ b, b ∉ Finset.univ.image (Pipeline.arrRef spec0) → Bv4 m c b = Bv3 m c b :=
  fun b hb => Bd4_of_ne m c b fun w e => hb (Finset.mem_image.mpr ⟨w, Finset.mem_univ _, e⟩)
/-- Input window 0's array is as the region found it. -/
theorem Bd4_in0 (c : Dev nD) : Bd4 m c (Proc.devRef .tc (Pipeline.arrRef spec0 0)) = Bd3 m c (Proc.devRef .tc (Pipeline.arrRef spec0 0)) :=
  (Bd4_arr m c 0).trans (((dat0 (Bv3 m) c).arrAt_in 0 rfl _).trans (A_eq0 (Bv3 m) c 0))
/-- Input window 1's array is as the region found it. -/
theorem Bd4_in1 (c : Dev nD) : Bd4 m c (Proc.devRef .tc (Pipeline.arrRef spec0 1)) = Bd3 m c (Proc.devRef .tc (Pipeline.arrRef spec0 1)) :=
  (Bd4_arr m c 1).trans (((dat0 (Bv3 m) c).arrAt_in 1 rfl _).trans (A_eq0 (Bv3 m) c 1))
/-- Input window 2's array is as the region found it. -/
theorem Bd4_in2 (c : Dev nD) : Bd4 m c (Proc.devRef .tc (Pipeline.arrRef spec0 2)) = Bd3 m c (Proc.devRef .tc (Pipeline.arrRef spec0 2)) :=
  (Bd4_arr m c 2).trans (((dat0 (Bv3 m) c).arrAt_in 2 rfl _).trans (A_eq0 (Bv3 m) c 2))

/-- After the stretch `hostOps1`. -/
abbrev Bd5 (c : Dev nD) : Valuation τ sig (Elt F) := StableHlo.after hostOps1 (Bd4 m c)
/-- A buffer the stretch does not write keeps its contents. -/
theorem Bd5_keep (c : Dev nD) (r : Ref sig .tc) (hr : r ∉ hostOps1_W) : Bd5 m c (Proc.devRef .tc r) = Bd4 m c (Proc.devRef .tc r) :=
  StableHlo.after_of_writes_sub _ _ hostOps1_writes hr

/-- Region 1's entry contents read at the TensorCore's references. -/
abbrev Bv5 : (c : Dev nD) → (b : Ref sig .tc) → Buf (Elt F) ((c : Thread nD τ).loc b) := fun c b => Bd5 m c b
/-- At region 1's exit: its arrays at what the pipeline leaves, every other buffer as entered. -/
def Bd6 (c : Dev nD) : Valuation τ sig (Elt F) :=
  Pipeline.withArrays spec1 c (Bd5 m c) fun w => (dat1 (Bv5 m) c).arrAt w cfg1.N
theorem Bd6_arr (c : Dev nD) (w : Fin cfg1.W) :
    Bd6 m c (Proc.devRef .tc (Pipeline.arrRef spec1 w)) = (dat1 (Bv5 m) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m c (Proc.devRef .tc b) = Bd5 m c (Proc.devRef .tc b) := by
  unfold Bd6; exact Pipeline.withArrays_of_ne spec1 c _ _ b hb
abbrev Bv6 : (c : Dev nD) → (b : Ref sig .tc) → Buf (Elt F) ((c : Thread nD τ).loc b) := fun c b => Bd6 m c b
theorem hF1 (c : Dev nD) (w : Fin cfg1.W) : (dat1 (Bv5 m) c).arrAt w cfg1.N = Bv6 m c (Pipeline.arrRef spec1 w) :=
  (Bd6_arr m c w).symm
theorem hrest1 (c : Dev nD) : ∀ b, b ∉ Finset.univ.image (Pipeline.arrRef spec1) → Bv6 m c b = Bv5 m c b :=
  fun b hb => Bd6_of_ne m c b fun w e => hb (Finset.mem_image.mpr ⟨w, Finset.mem_univ _, e⟩)
/-- Input window 0's array is as the region found it. -/
theorem Bd6_in0 (c : Dev nD) : Bd6 m c (Proc.devRef .tc (Pipeline.arrRef spec1 0)) = Bd5 m c (Proc.devRef .tc (Pipeline.arrRef spec1 0)) :=
  (Bd6_arr m c 0).trans (((dat1 (Bv5 m) c).arrAt_in 0 rfl _).trans (A_eq1 (Bv5 m) c 0))
/-- Input window 1's array is as the region found it. -/
theorem Bd6_in1 (c : Dev nD) : Bd6 m c (Proc.devRef .tc (Pipeline.arrRef spec1 1)) = Bd5 m c (Proc.devRef .tc (Pipeline.arrRef spec1 1)) :=
  (Bd6_arr m c 1).trans (((dat1 (Bv5 m) c).arrAt_in 1 rfl _).trans (A_eq1 (Bv5 m) c 1))

/-- After the stretch `hostOps2`. -/
abbrev Bd7 (c : Dev nD) : Valuation τ sig (Elt F) := StableHlo.after hostOps2 (Bd6 m c)
/-- A buffer the stretch does not write keeps its contents. -/
theorem Bd7_keep (c : Dev nD) (r : Ref sig .tc) (hr : r ∉ hostOps2_W) : Bd7 m c (Proc.devRef .tc r) = Bd6 m c (Proc.devRef .tc r) :=
  StableHlo.after_of_writes_sub _ _ hostOps2_writes hr

/-- Region 2's entry contents read at the TensorCore's references. -/
abbrev Bv7 : (c : Dev nD) → (b : Ref sig .tc) → Buf (Elt F) ((c : Thread nD τ).loc b) := fun c b => Bd7 m c b
/-- At region 2's exit: its arrays at what the pipeline leaves, every other buffer as entered. -/
def Bd8 (c : Dev nD) : Valuation τ sig (Elt F) :=
  Pipeline.withArrays spec2 c (Bd7 m c) fun w => (dat2 (Bv7 m) c).arrAt w cfg2.N
theorem Bd8_arr (c : Dev nD) (w : Fin cfg2.W) :
    Bd8 m c (Proc.devRef .tc (Pipeline.arrRef spec2 w)) = (dat2 (Bv7 m) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m c (Proc.devRef .tc b) = Bd7 m c (Proc.devRef .tc b) := by
  unfold Bd8; exact Pipeline.withArrays_of_ne spec2 c _ _ b hb
abbrev Bv8 : (c : Dev nD) → (b : Ref sig .tc) → Buf (Elt F) ((c : Thread nD τ).loc b) := fun c b => Bd8 m c b
theorem hF2 (c : Dev nD) (w : Fin cfg2.W) : (dat2 (Bv7 m) c).arrAt w cfg2.N = Bv8 m c (Pipeline.arrRef spec2 w) :=
  (Bd8_arr m c w).symm
theorem hrest2 (c : Dev nD) : ∀ b, b ∉ Finset.univ.image (Pipeline.arrRef spec2) → Bv8 m c b = Bv7 m c b :=
  fun b hb => Bd8_of_ne m c b fun w e => hb (Finset.mem_image.mpr ⟨w, Finset.mem_univ _, e⟩)
/-- Input window 0's array is as the region found it. -/
theorem Bd8_in0 (c : Dev nD) : Bd8 m c (Proc.devRef .tc (Pipeline.arrRef spec2 0)) = Bd7 m c (Proc.devRef .tc (Pipeline.arrRef spec2 0)) :=
  (Bd8_arr m c 0).trans (((dat2 (Bv7 m) c).arrAt_in 0 rfl _).trans (A_eq2 (Bv7 m) c 0))
/-- Input window 1's array is as the region found it. -/
theorem Bd8_in1 (c : Dev nD) : Bd8 m c (Proc.devRef .tc (Pipeline.arrRef spec2 1)) = Bd7 m c (Proc.devRef .tc (Pipeline.arrRef spec2 1)) :=
  (Bd8_arr m c 1).trans (((dat2 (Bv7 m) c).arrAt_in 1 rfl _).trans (A_eq2 (Bv7 m) c 1))
/-- Input window 2's array is as the region found it. -/
theorem Bd8_in2 (c : Dev nD) : Bd8 m c (Proc.devRef .tc (Pipeline.arrRef spec2 2)) = Bd7 m c (Proc.devRef .tc (Pipeline.arrRef spec2 2)) :=
  (Bd8_arr m c 2).trans (((dat2 (Bv7 m) c).arrAt_in 2 rfl _).trans (A_eq2 (Bv7 m) c 2))
/-- Input window 3's array is as the region found it. -/
theorem Bd8_in3 (c : Dev nD) : Bd8 m c (Proc.devRef .tc (Pipeline.arrRef spec2 3)) = Bd7 m c (Proc.devRef .tc (Pipeline.arrRef spec2 3)) :=
  (Bd8_arr m c 3).trans (((dat2 (Bv7 m) c).arrAt_in 3 rfl _).trans (A_eq2 (Bv7 m) c 3))
/-- Input window 4's array is as the region found it. -/
theorem Bd8_in4 (c : Dev nD) : Bd8 m c (Proc.devRef .tc (Pipeline.arrRef spec2 4)) = Bd7 m c (Proc.devRef .tc (Pipeline.arrRef spec2 4)) :=
  (Bd8_arr m c 4).trans (((dat2 (Bv7 m) c).arrAt_in 4 rfl _).trans (A_eq2 (Bv7 m) c 4))
/-- Input window 5's array is as the region found it. -/
theorem Bd8_in5 (c : Dev nD) : Bd8 m c (Proc.devRef .tc (Pipeline.arrRef spec2 5)) = Bd7 m c (Proc.devRef .tc (Pipeline.arrRef spec2 5)) :=
  (Bd8_arr m c 5).trans (((dat2 (Bv7 m) c).arrAt_in 5 rfl _).trans (A_eq2 (Bv7 m) c 5))

/-- After the stretch `hostOps3`. -/
abbrev Bd9 (c : Dev nD) : Valuation τ sig (Elt F) := StableHlo.after hostOps3 (Bd8 m c)
/-- A buffer the stretch does not write keeps its contents. -/
theorem Bd9_keep (c : Dev nD) (r : Ref sig .tc) (hr : r ∉ hostOps3_W) : Bd9 m c (Proc.devRef .tc r) = Bd8 m c (Proc.devRef .tc r) :=
  StableHlo.after_of_writes_sub _ _ hostOps3_writes hr

/-- Region 3's entry contents read at the TensorCore's references. -/
abbrev Bv9 : (c : Dev nD) → (b : Ref sig .tc) → Buf (Elt F) ((c : Thread nD τ).loc b) := fun c b => Bd9 m c b
/-- At region 3's exit: its arrays at what the pipeline leaves, every other buffer as entered. -/
def Bd10 (c : Dev nD) : Valuation τ sig (Elt F) :=
  Pipeline.withArrays spec3 c (Bd9 m c) fun w => (dat3 (Bv9 m) c).arrAt w cfg3.N
theorem Bd10_arr (c : Dev nD) (w : Fin cfg3.W) :
    Bd10 m c (Proc.devRef .tc (Pipeline.arrRef spec3 w)) = (dat3 (Bv9 m) c).arrAt w cfg3.N := by
  unfold Bd10; exact Pipeline.withArrays_arr spec3 launch3.win.arr_inj c _ _ w
theorem Bd10_of_ne (c : Dev nD) (b : Ref sig .tc) (hb : ∀ w, Pipeline.arrRef spec3 w ≠ b) :
    Bd10 m c (Proc.devRef .tc b) = Bd9 m c (Proc.devRef .tc b) := by
  unfold Bd10; exact Pipeline.withArrays_of_ne spec3 c _ _ b hb
abbrev Bv10 : (c : Dev nD) → (b : Ref sig .tc) → Buf (Elt F) ((c : Thread nD τ).loc b) := fun c b => Bd10 m c b
theorem hF3 (c : Dev nD) (w : Fin cfg3.W) : (dat3 (Bv9 m) c).arrAt w cfg3.N = Bv10 m c (Pipeline.arrRef spec3 w) :=
  (Bd10_arr m c w).symm
theorem hrest3 (c : Dev nD) : ∀ b, b ∉ Finset.univ.image (Pipeline.arrRef spec3) → Bv10 m c b = Bv9 m c b :=
  fun b hb => Bd10_of_ne m c b fun w e => hb (Finset.mem_image.mpr ⟨w, Finset.mem_univ _, e⟩)
/-- Input window 0's array is as the region found it. -/
theorem Bd10_in0 (c : Dev nD) : Bd10 m c (Proc.devRef .tc (Pipeline.arrRef spec3 0)) = Bd9 m c (Proc.devRef .tc (Pipeline.arrRef spec3 0)) :=
  (Bd10_arr m c 0).trans (((dat3 (Bv9 m) c).arrAt_in 0 rfl _).trans (A_eq3 (Bv9 m) c 0))
/-- Input window 1's array is as the region found it. -/
theorem Bd10_in1 (c : Dev nD) : Bd10 m c (Proc.devRef .tc (Pipeline.arrRef spec3 1)) = Bd9 m c (Proc.devRef .tc (Pipeline.arrRef spec3 1)) :=
  (Bd10_arr m c 1).trans (((dat3 (Bv9 m) c).arrAt_in 1 rfl _).trans (A_eq3 (Bv9 m) c 1))

/-- After the stretch `hostOps4`. -/
abbrev Bd11 (c : Dev nD) : Valuation τ sig (Elt F) := StableHlo.after hostOps4 (Bd10 m c)
/-- A buffer the stretch does not write keeps its contents. -/
theorem Bd11_keep (c : Dev nD) (r : Ref sig .tc) (hr : r ∉ hostOps4_W) : Bd11 m c (Proc.devRef .tc r) = Bd10 m c (Proc.devRef .tc r) :=
  StableHlo.after_of_writes_sub _ _ hostOps4_writes hr

/-- Region 4's entry contents read at the TensorCore's references. -/
abbrev Bv11 : (c : Dev nD) → (b : Ref sig .tc) → Buf (Elt F) ((c : Thread nD τ).loc b) := fun c b => Bd11 m c b
/-- At region 4's exit: its arrays at what the pipeline leaves, every other buffer as entered. -/
def Bd12 (c : Dev nD) : Valuation τ sig (Elt F) :=
  Pipeline.withArrays spec4 c (Bd11 m c) fun w => (dat4 (Bv11 m) c).arrAt w cfg4.N
theorem Bd12_arr (c : Dev nD) (w : Fin cfg4.W) :
    Bd12 m c (Proc.devRef .tc (Pipeline.arrRef spec4 w)) = (dat4 (Bv11 m) c).arrAt w cfg4.N := by
  unfold Bd12; exact Pipeline.withArrays_arr spec4 launch4.win.arr_inj c _ _ w
theorem Bd12_of_ne (c : Dev nD) (b : Ref sig .tc) (hb : ∀ w, Pipeline.arrRef spec4 w ≠ b) :
    Bd12 m c (Proc.devRef .tc b) = Bd11 m c (Proc.devRef .tc b) := by
  unfold Bd12; exact Pipeline.withArrays_of_ne spec4 c _ _ b hb
abbrev Bv12 : (c : Dev nD) → (b : Ref sig .tc) → Buf (Elt F) ((c : Thread nD τ).loc b) := fun c b => Bd12 m c b
theorem hF4 (c : Dev nD) (w : Fin cfg4.W) : (dat4 (Bv11 m) c).arrAt w cfg4.N = Bv12 m c (Pipeline.arrRef spec4 w) :=
  (Bd12_arr m c w).symm
theorem hrest4 (c : Dev nD) : ∀ b, b ∉ Finset.univ.image (Pipeline.arrRef spec4) → Bv12 m c b = Bv11 m c b :=
  fun b hb => Bd12_of_ne m c b fun w e => hb (Finset.mem_image.mpr ⟨w, Finset.mem_univ _, e⟩)
/-- Input window 0's array is as the region found it. -/
theorem Bd12_in0 (c : Dev nD) : Bd12 m c (Proc.devRef .tc (Pipeline.arrRef spec4 0)) = Bd11 m c (Proc.devRef .tc (Pipeline.arrRef spec4 0)) :=
  (Bd12_arr m c 0).trans (((dat4 (Bv11 m) c).arrAt_in 0 rfl _).trans (A_eq4 (Bv11 m) c 0))
/-- Input window 1's array is as the region found it. -/
theorem Bd12_in1 (c : Dev nD) : Bd12 m c (Proc.devRef .tc (Pipeline.arrRef spec4 1)) = Bd11 m c (Proc.devRef .tc (Pipeline.arrRef spec4 1)) :=
  (Bd12_arr m c 1).trans (((dat4 (Bv11 m) c).arrAt_in 1 rfl _).trans (A_eq4 (Bv11 m) c 1))
/-- Input window 2's array is as the region found it. -/
theorem Bd12_in2 (c : Dev nD) : Bd12 m c (Proc.devRef .tc (Pipeline.arrRef spec4 2)) = Bd11 m c (Proc.devRef .tc (Pipeline.arrRef spec4 2)) :=
  (Bd12_arr m c 2).trans (((dat4 (Bv11 m) c).arrAt_in 2 rfl _).trans (A_eq4 (Bv11 m) c 2))
/-- Input window 3's array is as the region found it. -/
theorem Bd12_in3 (c : Dev nD) : Bd12 m c (Proc.devRef .tc (Pipeline.arrRef spec4 3)) = Bd11 m c (Proc.devRef .tc (Pipeline.arrRef spec4 3)) :=
  (Bd12_arr m c 3).trans (((dat4 (Bv11 m) c).arrAt_in 3 rfl _).trans (A_eq4 (Bv11 m) c 3))
/-- Input window 4's array is as the region found it. -/
theorem Bd12_in4 (c : Dev nD) : Bd12 m c (Proc.devRef .tc (Pipeline.arrRef spec4 4)) = Bd11 m c (Proc.devRef .tc (Pipeline.arrRef spec4 4)) :=
  (Bd12_arr m c 4).trans (((dat4 (Bv11 m) c).arrAt_in 4 rfl _).trans (A_eq4 (Bv11 m) c 4))
/-- Input window 5's array is as the region found it. -/
theorem Bd12_in5 (c : Dev nD) : Bd12 m c (Proc.devRef .tc (Pipeline.arrRef spec4 5)) = Bd11 m c (Proc.devRef .tc (Pipeline.arrRef spec4 5)) :=
  (Bd12_arr m c 5).trans (((dat4 (Bv11 m) c).arrAt_in 5 rfl _).trans (A_eq4 (Bv11 m) c 5))

/-- After the stretch `hostOps5`. -/
abbrev Bd13 (c : Dev nD) : Valuation τ sig (Elt F) := StableHlo.after hostOps5 (Bd12 m c)
/-- A buffer the stretch does not write keeps its contents. -/
theorem Bd13_keep (c : Dev nD) (r : Ref sig .tc) (hr : r ∉ hostOps5_W) : Bd13 m c (Proc.devRef .tc r) = Bd12 m c (Proc.devRef .tc r) :=
  StableHlo.after_of_writes_sub _ _ hostOps5_writes hr

/-- Region 5's entry contents read at the TensorCore's references. -/
abbrev Bv13 : (c : Dev nD) → (b : Ref sig .tc) → Buf (Elt F) ((c : Thread nD τ).loc b) := fun c b => Bd13 m c b
/-- At region 5's exit: its arrays at what the pipeline leaves, every other buffer as entered. -/
def Bd14 (c : Dev nD) : Valuation τ sig (Elt F) :=
  Pipeline.withArrays spec5 c (Bd13 m c) fun w => (dat5 (Bv13 m) c).arrAt w cfg5.N
theorem Bd14_arr (c : Dev nD) (w : Fin cfg5.W) :
    Bd14 m c (Proc.devRef .tc (Pipeline.arrRef spec5 w)) = (dat5 (Bv13 m) c).arrAt w cfg5.N := by
  unfold Bd14; exact Pipeline.withArrays_arr spec5 launch5.win.arr_inj c _ _ w
theorem Bd14_of_ne (c : Dev nD) (b : Ref sig .tc) (hb : ∀ w, Pipeline.arrRef spec5 w ≠ b) :
    Bd14 m c (Proc.devRef .tc b) = Bd13 m c (Proc.devRef .tc b) := by
  unfold Bd14; exact Pipeline.withArrays_of_ne spec5 c _ _ b hb
abbrev Bv14 : (c : Dev nD) → (b : Ref sig .tc) → Buf (Elt F) ((c : Thread nD τ).loc b) := fun c b => Bd14 m c b
theorem hF5 (c : Dev nD) (w : Fin cfg5.W) : (dat5 (Bv13 m) c).arrAt w cfg5.N = Bv14 m c (Pipeline.arrRef spec5 w) :=
  (Bd14_arr m c w).symm
theorem hrest5 (c : Dev nD) : ∀ b, b ∉ Finset.univ.image (Pipeline.arrRef spec5) → Bv14 m c b = Bv13 m c b :=
  fun b hb => Bd14_of_ne m c b fun w e => hb (Finset.mem_image.mpr ⟨w, Finset.mem_univ _, e⟩)
/-- Input window 0's array is as the region found it. -/
theorem Bd14_in0 (c : Dev nD) : Bd14 m c (Proc.devRef .tc (Pipeline.arrRef spec5 0)) = Bd13 m c (Proc.devRef .tc (Pipeline.arrRef spec5 0)) :=
  (Bd14_arr m c 0).trans (((dat5 (Bv13 m) c).arrAt_in 0 rfl _).trans (A_eq5 (Bv13 m) c 0))
/-- Input window 1's array is as the region found it. -/
theorem Bd14_in1 (c : Dev nD) : Bd14 m c (Proc.devRef .tc (Pipeline.arrRef spec5 1)) = Bd13 m c (Proc.devRef .tc (Pipeline.arrRef spec5 1)) :=
  (Bd14_arr m c 1).trans (((dat5 (Bv13 m) c).arrAt_in 1 rfl _).trans (A_eq5 (Bv13 m) c 1))

/-- After the stretch `hostOps6`. -/
abbrev Bd15 (c : Dev nD) : Valuation τ sig (Elt F) := StableHlo.after hostOps6 (Bd14 m c)
/-- A buffer the stretch does not write keeps its contents. -/
theorem Bd15_keep (c : Dev nD) (r : Ref sig .tc) (hr : r ∉ hostOps6_W) : Bd15 m c (Proc.devRef .tc r) = Bd14 m c (Proc.devRef .tc r) :=
  StableHlo.after_of_writes_sub _ _ hostOps6_writes hr

/-- Region 6's entry contents read at the TensorCore's references. -/
abbrev Bv15 : (c : Dev nD) → (b : Ref sig .tc) → Buf (Elt F) ((c : Thread nD τ).loc b) := fun c b => Bd15 m c b
/-- At region 6's exit: its arrays at what the pipeline leaves, every other buffer as entered. -/
def Bd16 (c : Dev nD) : Valuation τ sig (Elt F) :=
  Pipeline.withArrays spec6 c (Bd15 m c) fun w => (dat6 (Bv15 m) c).arrAt w cfg6.N
theorem Bd16_arr (c : Dev nD) (w : Fin cfg6.W) :
    Bd16 m c (Proc.devRef .tc (Pipeline.arrRef spec6 w)) = (dat6 (Bv15 m) c).arrAt w cfg6.N := by
  unfold Bd16; exact Pipeline.withArrays_arr spec6 launch6.win.arr_inj c _ _ w
theorem Bd16_of_ne (c : Dev nD) (b : Ref sig .tc) (hb : ∀ w, Pipeline.arrRef spec6 w ≠ b) :
    Bd16 m c (Proc.devRef .tc b) = Bd15 m c (Proc.devRef .tc b) := by
  unfold Bd16; exact Pipeline.withArrays_of_ne spec6 c _ _ b hb
abbrev Bv16 : (c : Dev nD) → (b : Ref sig .tc) → Buf (Elt F) ((c : Thread nD τ).loc b) := fun c b => Bd16 m c b
theorem hF6 (c : Dev nD) (w : Fin cfg6.W) : (dat6 (Bv15 m) c).arrAt w cfg6.N = Bv16 m c (Pipeline.arrRef spec6 w) :=
  (Bd16_arr m c w).symm
theorem hrest6 (c : Dev nD) : ∀ b, b ∉ Finset.univ.image (Pipeline.arrRef spec6) → Bv16 m c b = Bv15 m c b :=
  fun b hb => Bd16_of_ne m c b fun w e => hb (Finset.mem_image.mpr ⟨w, Finset.mem_univ _, e⟩)
/-- Input window 0's array is as the region found it. -/
theorem Bd16_in0 (c : Dev nD) : Bd16 m c (Proc.devRef .tc (Pipeline.arrRef spec6 0)) = Bd15 m c (Proc.devRef .tc (Pipeline.arrRef spec6 0)) :=
  (Bd16_arr m c 0).trans (((dat6 (Bv15 m) c).arrAt_in 0 rfl _).trans (A_eq6 (Bv15 m) c 0))
/-- Input window 1's array is as the region found it. -/
theorem Bd16_in1 (c : Dev nD) : Bd16 m c (Proc.devRef .tc (Pipeline.arrRef spec6 1)) = Bd15 m c (Proc.devRef .tc (Pipeline.arrRef spec6 1)) :=
  (Bd16_arr m c 1).trans (((dat6 (Bv15 m) c).arrAt_in 1 rfl _).trans (A_eq6 (Bv15 m) c 1))
/-- Input window 2's array is as the region found it. -/
theorem Bd16_in2 (c : Dev nD) : Bd16 m c (Proc.devRef .tc (Pipeline.arrRef spec6 2)) = Bd15 m c (Proc.devRef .tc (Pipeline.arrRef spec6 2)) :=
  (Bd16_arr m c 2).trans (((dat6 (Bv15 m) c).arrAt_in 2 rfl _).trans (A_eq6 (Bv15 m) c 2))
/-- Input window 3's array is as the region found it. -/
theorem Bd16_in3 (c : Dev nD) : Bd16 m c (Proc.devRef .tc (Pipeline.arrRef spec6 3)) = Bd15 m c (Proc.devRef .tc (Pipeline.arrRef spec6 3)) :=
  (Bd16_arr m c 3).trans (((dat6 (Bv15 m) c).arrAt_in 3 rfl _).trans (A_eq6 (Bv15 m) c 3))
/-- Input window 4's array is as the region found it. -/
theorem Bd16_in4 (c : Dev nD) : Bd16 m c (Proc.devRef .tc (Pipeline.arrRef spec6 4)) = Bd15 m c (Proc.devRef .tc (Pipeline.arrRef spec6 4)) :=
  (Bd16_arr m c 4).trans (((dat6 (Bv15 m) c).arrAt_in 4 rfl _).trans (A_eq6 (Bv15 m) c 4))
/-- Input window 5's array is as the region found it. -/
theorem Bd16_in5 (c : Dev nD) : Bd16 m c (Proc.devRef .tc (Pipeline.arrRef spec6 5)) = Bd15 m c (Proc.devRef .tc (Pipeline.arrRef spec6 5)) :=
  (Bd16_arr m c 5).trans (((dat6 (Bv15 m) c).arrAt_in 5 rfl _).trans (A_eq6 (Bv15 m) c 5))

/-- After the stretch `hostOps7`. -/
abbrev Bd17 (c : Dev nD) : Valuation τ sig (Elt F) := StableHlo.after hostOps7 (Bd16 m c)
/-- A buffer the stretch does not write keeps its contents. -/
theorem Bd17_keep (c : Dev nD) (r : Ref sig .tc) (hr : r ∉ hostOps7_W) : Bd17 m c (Proc.devRef .tc r) = Bd16 m c (Proc.devRef .tc r) :=
  StableHlo.after_of_writes_sub _ _ hostOps7_writes hr

/-- Region 7's entry contents read at the TensorCore's references. -/
abbrev Bv17 : (c : Dev nD) → (b : Ref sig .tc) → Buf (Elt F) ((c : Thread nD τ).loc b) := fun c b => Bd17 m c b
/-- At region 7's exit: its arrays at what the pipeline leaves, every other buffer as entered. -/
def Bd18 (c : Dev nD) : Valuation τ sig (Elt F) :=
  Pipeline.withArrays spec7 c (Bd17 m c) fun w => (dat7 (Bv17 m) c).arrAt w cfg7.N
theorem Bd18_arr (c : Dev nD) (w : Fin cfg7.W) :
    Bd18 m c (Proc.devRef .tc (Pipeline.arrRef spec7 w)) = (dat7 (Bv17 m) c).arrAt w cfg7.N := by
  unfold Bd18; exact Pipeline.withArrays_arr spec7 launch7.win.arr_inj c _ _ w
theorem Bd18_of_ne (c : Dev nD) (b : Ref sig .tc) (hb : ∀ w, Pipeline.arrRef spec7 w ≠ b) :
    Bd18 m c (Proc.devRef .tc b) = Bd17 m c (Proc.devRef .tc b) := by
  unfold Bd18; exact Pipeline.withArrays_of_ne spec7 c _ _ b hb
abbrev Bv18 : (c : Dev nD) → (b : Ref sig .tc) → Buf (Elt F) ((c : Thread nD τ).loc b) := fun c b => Bd18 m c b
theorem hF7 (c : Dev nD) (w : Fin cfg7.W) : (dat7 (Bv17 m) c).arrAt w cfg7.N = Bv18 m c (Pipeline.arrRef spec7 w) :=
  (Bd18_arr m c w).symm
theorem hrest7 (c : Dev nD) : ∀ b, b ∉ Finset.univ.image (Pipeline.arrRef spec7) → Bv18 m c b = Bv17 m c b :=
  fun b hb => Bd18_of_ne m c b fun w e => hb (Finset.mem_image.mpr ⟨w, Finset.mem_univ _, e⟩)
/-- Input window 0's array is as the region found it. -/
theorem Bd18_in0 (c : Dev nD) : Bd18 m c (Proc.devRef .tc (Pipeline.arrRef spec7 0)) = Bd17 m c (Proc.devRef .tc (Pipeline.arrRef spec7 0)) :=
  (Bd18_arr m c 0).trans (((dat7 (Bv17 m) c).arrAt_in 0 rfl _).trans (A_eq7 (Bv17 m) c 0))
/-- Input window 1's array is as the region found it. -/
theorem Bd18_in1 (c : Dev nD) : Bd18 m c (Proc.devRef .tc (Pipeline.arrRef spec7 1)) = Bd17 m c (Proc.devRef .tc (Pipeline.arrRef spec7 1)) :=
  (Bd18_arr m c 1).trans (((dat7 (Bv17 m) c).arrAt_in 1 rfl _).trans (A_eq7 (Bv17 m) c 1))
/-- Input window 2's array is as the region found it. -/
theorem Bd18_in2 (c : Dev nD) : Bd18 m c (Proc.devRef .tc (Pipeline.arrRef spec7 2)) = Bd17 m c (Proc.devRef .tc (Pipeline.arrRef spec7 2)) :=
  (Bd18_arr m c 2).trans (((dat7 (Bv17 m) c).arrAt_in 2 rfl _).trans (A_eq7 (Bv17 m) c 2))
/-- Input window 3's array is as the region found it. -/
theorem Bd18_in3 (c : Dev nD) : Bd18 m c (Proc.devRef .tc (Pipeline.arrRef spec7 3)) = Bd17 m c (Proc.devRef .tc (Pipeline.arrRef spec7 3)) :=
  (Bd18_arr m c 3).trans (((dat7 (Bv17 m) c).arrAt_in 3 rfl _).trans (A_eq7 (Bv17 m) c 3))
/-- Input window 4's array is as the region found it. -/
theorem Bd18_in4 (c : Dev nD) : Bd18 m c (Proc.devRef .tc (Pipeline.arrRef spec7 4)) = Bd17 m c (Proc.devRef .tc (Pipeline.arrRef spec7 4)) :=
  (Bd18_arr m c 4).trans (((dat7 (Bv17 m) c).arrAt_in 4 rfl _).trans (A_eq7 (Bv17 m) c 4))
/-- Input window 5's array is as the region found it. -/
theorem Bd18_in5 (c : Dev nD) : Bd18 m c (Proc.devRef .tc (Pipeline.arrRef spec7 5)) = Bd17 m c (Proc.devRef .tc (Pipeline.arrRef spec7 5)) :=
  (Bd18_arr m c 5).trans (((dat7 (Bv17 m) c).arrAt_in 5 rfl _).trans (A_eq7 (Bv17 m) c 5))
/-- Input window 6's array is as the region found it. -/
theorem Bd18_in6 (c : Dev nD) : Bd18 m c (Proc.devRef .tc (Pipeline.arrRef spec7 6)) = Bd17 m c (Proc.devRef .tc (Pipeline.arrRef spec7 6)) :=
  (Bd18_arr m c 6).trans (((dat7 (Bv17 m) c).arrAt_in 6 rfl _).trans (A_eq7 (Bv17 m) c 6))

/-! Every argument array, at every boundary, is what the launch memory held: no stretch writes one, and a region reads
    one through an input window or not at all. -/

theorem Bd0_main_arg0 (c : Dev nD) : Bd0 m c (Proc.devRef .tc main_arg0) = m ((c : Thread nD τ).loc main_arg0) := rfl
theorem Bd1_main_arg0 (c : Dev nD) : Bd1 m c (Proc.devRef .tc main_arg0) = m ((c : Thread nD τ).loc main_arg0) := (Bd1_keep m c main_arg0 (by decide)).trans (Bd0_main_arg0 m c)
theorem Bd2_main_arg0 (c : Dev nD) : Bd2 m c (Proc.devRef .tc main_arg0) = m ((c : Thread nD τ).loc main_arg0) := (Bd2_keep m c main_arg0 (by decide)).trans (Bd1_main_arg0 m c)
theorem Bd3_main_arg0 (c : Dev nD) : Bd3 m c (Proc.devRef .tc main_arg0) = m ((c : Thread nD τ).loc main_arg0) := (Bd3_keep m c main_arg0 (by decide)).trans (Bd2_main_arg0 m c)
theorem Bd4_main_arg0 (c : Dev nD) : Bd4 m c (Proc.devRef .tc main_arg0) = m ((c : Thread nD τ).loc main_arg0) := (Bd4_in0 m c).trans (Bd3_main_arg0 m c)
theorem Bd5_main_arg0 (c : Dev nD) : Bd5 m c (Proc.devRef .tc main_arg0) = m ((c : Thread nD τ).loc main_arg0) := (Bd5_keep m c main_arg0 (by decide)).trans (Bd4_main_arg0 m c)
theorem Bd6_main_arg0 (c : Dev nD) : Bd6 m c (Proc.devRef .tc main_arg0) = m ((c : Thread nD τ).loc main_arg0) := (Bd6_of_ne m c main_arg0 (by decide)).trans (Bd5_main_arg0 m c)
theorem Bd7_main_arg0 (c : Dev nD) : Bd7 m c (Proc.devRef .tc main_arg0) = m ((c : Thread nD τ).loc main_arg0) := (Bd7_keep m c main_arg0 (by decide)).trans (Bd6_main_arg0 m c)
theorem Bd8_main_arg0 (c : Dev nD) : Bd8 m c (Proc.devRef .tc main_arg0) = m ((c : Thread nD τ).loc main_arg0) := (Bd8_of_ne m c main_arg0 (by decide)).trans (Bd7_main_arg0 m c)
theorem Bd9_main_arg0 (c : Dev nD) : Bd9 m c (Proc.devRef .tc main_arg0) = m ((c : Thread nD τ).loc main_arg0) := (Bd9_keep m c main_arg0 (by decide)).trans (Bd8_main_arg0 m c)
theorem Bd10_main_arg0 (c : Dev nD) : Bd10 m c (Proc.devRef .tc main_arg0) = m ((c : Thread nD τ).loc main_arg0) := (Bd10_of_ne m c main_arg0 (by decide)).trans (Bd9_main_arg0 m c)
theorem Bd11_main_arg0 (c : Dev nD) : Bd11 m c (Proc.devRef .tc main_arg0) = m ((c : Thread nD τ).loc main_arg0) := (Bd11_keep m c main_arg0 (by decide)).trans (Bd10_main_arg0 m c)
theorem Bd12_main_arg0 (c : Dev nD) : Bd12 m c (Proc.devRef .tc main_arg0) = m ((c : Thread nD τ).loc main_arg0) := (Bd12_of_ne m c main_arg0 (by decide)).trans (Bd11_main_arg0 m c)
theorem Bd13_main_arg0 (c : Dev nD) : Bd13 m c (Proc.devRef .tc main_arg0) = m ((c : Thread nD τ).loc main_arg0) := (Bd13_keep m c main_arg0 (by decide)).trans (Bd12_main_arg0 m c)
theorem Bd14_main_arg0 (c : Dev nD) : Bd14 m c (Proc.devRef .tc main_arg0) = m ((c : Thread nD τ).loc main_arg0) := (Bd14_of_ne m c main_arg0 (by decide)).trans (Bd13_main_arg0 m c)
theorem Bd15_main_arg0 (c : Dev nD) : Bd15 m c (Proc.devRef .tc main_arg0) = m ((c : Thread nD τ).loc main_arg0) := (Bd15_keep m c main_arg0 (by decide)).trans (Bd14_main_arg0 m c)
theorem Bd16_main_arg0 (c : Dev nD) : Bd16 m c (Proc.devRef .tc main_arg0) = m ((c : Thread nD τ).loc main_arg0) := (Bd16_of_ne m c main_arg0 (by decide)).trans (Bd15_main_arg0 m c)
theorem Bd17_main_arg0 (c : Dev nD) : Bd17 m c (Proc.devRef .tc main_arg0) = m ((c : Thread nD τ).loc main_arg0) := (Bd17_keep m c main_arg0 (by decide)).trans (Bd16_main_arg0 m c)
theorem Bd18_main_arg0 (c : Dev nD) : Bd18 m c (Proc.devRef .tc main_arg0) = m ((c : Thread nD τ).loc main_arg0) := (Bd18_of_ne m c main_arg0 (by decide)).trans (Bd17_main_arg0 m c)

theorem Bd0_main_arg1 (c : Dev nD) : Bd0 m c (Proc.devRef .tc main_arg1) = m ((c : Thread nD τ).loc main_arg1) := rfl
theorem Bd1_main_arg1 (c : Dev nD) : Bd1 m c (Proc.devRef .tc main_arg1) = m ((c : Thread nD τ).loc main_arg1) := (Bd1_keep m c main_arg1 (by decide)).trans (Bd0_main_arg1 m c)
theorem Bd2_main_arg1 (c : Dev nD) : Bd2 m c (Proc.devRef .tc main_arg1) = m ((c : Thread nD τ).loc main_arg1) := (Bd2_keep m c main_arg1 (by decide)).trans (Bd1_main_arg1 m c)
theorem Bd3_main_arg1 (c : Dev nD) : Bd3 m c (Proc.devRef .tc main_arg1) = m ((c : Thread nD τ).loc main_arg1) := (Bd3_keep m c main_arg1 (by decide)).trans (Bd2_main_arg1 m c)
theorem Bd4_main_arg1 (c : Dev nD) : Bd4 m c (Proc.devRef .tc main_arg1) = m ((c : Thread nD τ).loc main_arg1) := (Bd4_of_ne m c main_arg1 (by decide)).trans (Bd3_main_arg1 m c)
theorem Bd5_main_arg1 (c : Dev nD) : Bd5 m c (Proc.devRef .tc main_arg1) = m ((c : Thread nD τ).loc main_arg1) := (Bd5_keep m c main_arg1 (by decide)).trans (Bd4_main_arg1 m c)
theorem Bd6_main_arg1 (c : Dev nD) : Bd6 m c (Proc.devRef .tc main_arg1) = m ((c : Thread nD τ).loc main_arg1) := (Bd6_of_ne m c main_arg1 (by decide)).trans (Bd5_main_arg1 m c)
theorem Bd7_main_arg1 (c : Dev nD) : Bd7 m c (Proc.devRef .tc main_arg1) = m ((c : Thread nD τ).loc main_arg1) := (Bd7_keep m c main_arg1 (by decide)).trans (Bd6_main_arg1 m c)
theorem Bd8_main_arg1 (c : Dev nD) : Bd8 m c (Proc.devRef .tc main_arg1) = m ((c : Thread nD τ).loc main_arg1) := (Bd8_of_ne m c main_arg1 (by decide)).trans (Bd7_main_arg1 m c)
theorem Bd9_main_arg1 (c : Dev nD) : Bd9 m c (Proc.devRef .tc main_arg1) = m ((c : Thread nD τ).loc main_arg1) := (Bd9_keep m c main_arg1 (by decide)).trans (Bd8_main_arg1 m c)
theorem Bd10_main_arg1 (c : Dev nD) : Bd10 m c (Proc.devRef .tc main_arg1) = m ((c : Thread nD τ).loc main_arg1) := (Bd10_of_ne m c main_arg1 (by decide)).trans (Bd9_main_arg1 m c)
theorem Bd11_main_arg1 (c : Dev nD) : Bd11 m c (Proc.devRef .tc main_arg1) = m ((c : Thread nD τ).loc main_arg1) := (Bd11_keep m c main_arg1 (by decide)).trans (Bd10_main_arg1 m c)
theorem Bd12_main_arg1 (c : Dev nD) : Bd12 m c (Proc.devRef .tc main_arg1) = m ((c : Thread nD τ).loc main_arg1) := (Bd12_of_ne m c main_arg1 (by decide)).trans (Bd11_main_arg1 m c)
theorem Bd13_main_arg1 (c : Dev nD) : Bd13 m c (Proc.devRef .tc main_arg1) = m ((c : Thread nD τ).loc main_arg1) := (Bd13_keep m c main_arg1 (by decide)).trans (Bd12_main_arg1 m c)
theorem Bd14_main_arg1 (c : Dev nD) : Bd14 m c (Proc.devRef .tc main_arg1) = m ((c : Thread nD τ).loc main_arg1) := (Bd14_of_ne m c main_arg1 (by decide)).trans (Bd13_main_arg1 m c)
theorem Bd15_main_arg1 (c : Dev nD) : Bd15 m c (Proc.devRef .tc main_arg1) = m ((c : Thread nD τ).loc main_arg1) := (Bd15_keep m c main_arg1 (by decide)).trans (Bd14_main_arg1 m c)
theorem Bd16_main_arg1 (c : Dev nD) : Bd16 m c (Proc.devRef .tc main_arg1) = m ((c : Thread nD τ).loc main_arg1) := (Bd16_of_ne m c main_arg1 (by decide)).trans (Bd15_main_arg1 m c)
theorem Bd17_main_arg1 (c : Dev nD) : Bd17 m c (Proc.devRef .tc main_arg1) = m ((c : Thread nD τ).loc main_arg1) := (Bd17_keep m c main_arg1 (by decide)).trans (Bd16_main_arg1 m c)
theorem Bd18_main_arg1 (c : Dev nD) : Bd18 m c (Proc.devRef .tc main_arg1) = m ((c : Thread nD τ).loc main_arg1) := (Bd18_of_ne m c main_arg1 (by decide)).trans (Bd17_main_arg1 m c)

theorem Bd0_main_arg2 (c : Dev nD) : Bd0 m c (Proc.devRef .tc main_arg2) = m ((c : Thread nD τ).loc main_arg2) := rfl
theorem Bd1_main_arg2 (c : Dev nD) : Bd1 m c (Proc.devRef .tc main_arg2) = m ((c : Thread nD τ).loc main_arg2) := (Bd1_keep m c main_arg2 (by decide)).trans (Bd0_main_arg2 m c)
theorem Bd2_main_arg2 (c : Dev nD) : Bd2 m c (Proc.devRef .tc main_arg2) = m ((c : Thread nD τ).loc main_arg2) := (Bd2_keep m c main_arg2 (by decide)).trans (Bd1_main_arg2 m c)
theorem Bd3_main_arg2 (c : Dev nD) : Bd3 m c (Proc.devRef .tc main_arg2) = m ((c : Thread nD τ).loc main_arg2) := (Bd3_keep m c main_arg2 (by decide)).trans (Bd2_main_arg2 m c)
theorem Bd4_main_arg2 (c : Dev nD) : Bd4 m c (Proc.devRef .tc main_arg2) = m ((c : Thread nD τ).loc main_arg2) := (Bd4_of_ne m c main_arg2 (by decide)).trans (Bd3_main_arg2 m c)
theorem Bd5_main_arg2 (c : Dev nD) : Bd5 m c (Proc.devRef .tc main_arg2) = m ((c : Thread nD τ).loc main_arg2) := (Bd5_keep m c main_arg2 (by decide)).trans (Bd4_main_arg2 m c)
theorem Bd6_main_arg2 (c : Dev nD) : Bd6 m c (Proc.devRef .tc main_arg2) = m ((c : Thread nD τ).loc main_arg2) := (Bd6_of_ne m c main_arg2 (by decide)).trans (Bd5_main_arg2 m c)
theorem Bd7_main_arg2 (c : Dev nD) : Bd7 m c (Proc.devRef .tc main_arg2) = m ((c : Thread nD τ).loc main_arg2) := (Bd7_keep m c main_arg2 (by decide)).trans (Bd6_main_arg2 m c)
theorem Bd8_main_arg2 (c : Dev nD) : Bd8 m c (Proc.devRef .tc main_arg2) = m ((c : Thread nD τ).loc main_arg2) := (Bd8_of_ne m c main_arg2 (by decide)).trans (Bd7_main_arg2 m c)
theorem Bd9_main_arg2 (c : Dev nD) : Bd9 m c (Proc.devRef .tc main_arg2) = m ((c : Thread nD τ).loc main_arg2) := (Bd9_keep m c main_arg2 (by decide)).trans (Bd8_main_arg2 m c)
theorem Bd10_main_arg2 (c : Dev nD) : Bd10 m c (Proc.devRef .tc main_arg2) = m ((c : Thread nD τ).loc main_arg2) := (Bd10_of_ne m c main_arg2 (by decide)).trans (Bd9_main_arg2 m c)
theorem Bd11_main_arg2 (c : Dev nD) : Bd11 m c (Proc.devRef .tc main_arg2) = m ((c : Thread nD τ).loc main_arg2) := (Bd11_keep m c main_arg2 (by decide)).trans (Bd10_main_arg2 m c)
theorem Bd12_main_arg2 (c : Dev nD) : Bd12 m c (Proc.devRef .tc main_arg2) = m ((c : Thread nD τ).loc main_arg2) := (Bd12_of_ne m c main_arg2 (by decide)).trans (Bd11_main_arg2 m c)
theorem Bd13_main_arg2 (c : Dev nD) : Bd13 m c (Proc.devRef .tc main_arg2) = m ((c : Thread nD τ).loc main_arg2) := (Bd13_keep m c main_arg2 (by decide)).trans (Bd12_main_arg2 m c)
theorem Bd14_main_arg2 (c : Dev nD) : Bd14 m c (Proc.devRef .tc main_arg2) = m ((c : Thread nD τ).loc main_arg2) := (Bd14_of_ne m c main_arg2 (by decide)).trans (Bd13_main_arg2 m c)
theorem Bd15_main_arg2 (c : Dev nD) : Bd15 m c (Proc.devRef .tc main_arg2) = m ((c : Thread nD τ).loc main_arg2) := (Bd15_keep m c main_arg2 (by decide)).trans (Bd14_main_arg2 m c)
theorem Bd16_main_arg2 (c : Dev nD) : Bd16 m c (Proc.devRef .tc main_arg2) = m ((c : Thread nD τ).loc main_arg2) := (Bd16_of_ne m c main_arg2 (by decide)).trans (Bd15_main_arg2 m c)
theorem Bd17_main_arg2 (c : Dev nD) : Bd17 m c (Proc.devRef .tc main_arg2) = m ((c : Thread nD τ).loc main_arg2) := (Bd17_keep m c main_arg2 (by decide)).trans (Bd16_main_arg2 m c)
theorem Bd18_main_arg2 (c : Dev nD) : Bd18 m c (Proc.devRef .tc main_arg2) = m ((c : Thread nD τ).loc main_arg2) := (Bd18_of_ne m c main_arg2 (by decide)).trans (Bd17_main_arg2 m c)

theorem Bd0_main_arg3 (c : Dev nD) : Bd0 m c (Proc.devRef .tc main_arg3) = m ((c : Thread nD τ).loc main_arg3) := rfl
theorem Bd1_main_arg3 (c : Dev nD) : Bd1 m c (Proc.devRef .tc main_arg3) = m ((c : Thread nD τ).loc main_arg3) := (Bd1_keep m c main_arg3 (by decide)).trans (Bd0_main_arg3 m c)
theorem Bd2_main_arg3 (c : Dev nD) : Bd2 m c (Proc.devRef .tc main_arg3) = m ((c : Thread nD τ).loc main_arg3) := (Bd2_keep m c main_arg3 (by decide)).trans (Bd1_main_arg3 m c)
theorem Bd3_main_arg3 (c : Dev nD) : Bd3 m c (Proc.devRef .tc main_arg3) = m ((c : Thread nD τ).loc main_arg3) := (Bd3_keep m c main_arg3 (by decide)).trans (Bd2_main_arg3 m c)
theorem Bd4_main_arg3 (c : Dev nD) : Bd4 m c (Proc.devRef .tc main_arg3) = m ((c : Thread nD τ).loc main_arg3) := (Bd4_of_ne m c main_arg3 (by decide)).trans (Bd3_main_arg3 m c)
theorem Bd5_main_arg3 (c : Dev nD) : Bd5 m c (Proc.devRef .tc main_arg3) = m ((c : Thread nD τ).loc main_arg3) := (Bd5_keep m c main_arg3 (by decide)).trans (Bd4_main_arg3 m c)
theorem Bd6_main_arg3 (c : Dev nD) : Bd6 m c (Proc.devRef .tc main_arg3) = m ((c : Thread nD τ).loc main_arg3) := (Bd6_of_ne m c main_arg3 (by decide)).trans (Bd5_main_arg3 m c)
theorem Bd7_main_arg3 (c : Dev nD) : Bd7 m c (Proc.devRef .tc main_arg3) = m ((c : Thread nD τ).loc main_arg3) := (Bd7_keep m c main_arg3 (by decide)).trans (Bd6_main_arg3 m c)
theorem Bd8_main_arg3 (c : Dev nD) : Bd8 m c (Proc.devRef .tc main_arg3) = m ((c : Thread nD τ).loc main_arg3) := (Bd8_of_ne m c main_arg3 (by decide)).trans (Bd7_main_arg3 m c)
theorem Bd9_main_arg3 (c : Dev nD) : Bd9 m c (Proc.devRef .tc main_arg3) = m ((c : Thread nD τ).loc main_arg3) := (Bd9_keep m c main_arg3 (by decide)).trans (Bd8_main_arg3 m c)
theorem Bd10_main_arg3 (c : Dev nD) : Bd10 m c (Proc.devRef .tc main_arg3) = m ((c : Thread nD τ).loc main_arg3) := (Bd10_of_ne m c main_arg3 (by decide)).trans (Bd9_main_arg3 m c)
theorem Bd11_main_arg3 (c : Dev nD) : Bd11 m c (Proc.devRef .tc main_arg3) = m ((c : Thread nD τ).loc main_arg3) := (Bd11_keep m c main_arg3 (by decide)).trans (Bd10_main_arg3 m c)
theorem Bd12_main_arg3 (c : Dev nD) : Bd12 m c (Proc.devRef .tc main_arg3) = m ((c : Thread nD τ).loc main_arg3) := (Bd12_of_ne m c main_arg3 (by decide)).trans (Bd11_main_arg3 m c)
theorem Bd13_main_arg3 (c : Dev nD) : Bd13 m c (Proc.devRef .tc main_arg3) = m ((c : Thread nD τ).loc main_arg3) := (Bd13_keep m c main_arg3 (by decide)).trans (Bd12_main_arg3 m c)
theorem Bd14_main_arg3 (c : Dev nD) : Bd14 m c (Proc.devRef .tc main_arg3) = m ((c : Thread nD τ).loc main_arg3) := (Bd14_of_ne m c main_arg3 (by decide)).trans (Bd13_main_arg3 m c)
theorem Bd15_main_arg3 (c : Dev nD) : Bd15 m c (Proc.devRef .tc main_arg3) = m ((c : Thread nD τ).loc main_arg3) := (Bd15_keep m c main_arg3 (by decide)).trans (Bd14_main_arg3 m c)
theorem Bd16_main_arg3 (c : Dev nD) : Bd16 m c (Proc.devRef .tc main_arg3) = m ((c : Thread nD τ).loc main_arg3) := (Bd16_of_ne m c main_arg3 (by decide)).trans (Bd15_main_arg3 m c)
theorem Bd17_main_arg3 (c : Dev nD) : Bd17 m c (Proc.devRef .tc main_arg3) = m ((c : Thread nD τ).loc main_arg3) := (Bd17_keep m c main_arg3 (by decide)).trans (Bd16_main_arg3 m c)
theorem Bd18_main_arg3 (c : Dev nD) : Bd18 m c (Proc.devRef .tc main_arg3) = m ((c : Thread nD τ).loc main_arg3) := (Bd18_of_ne m c main_arg3 (by decide)).trans (Bd17_main_arg3 m c)

theorem Bd0_main_arg4 (c : Dev nD) : Bd0 m c (Proc.devRef .tc main_arg4) = m ((c : Thread nD τ).loc main_arg4) := rfl
theorem Bd1_main_arg4 (c : Dev nD) : Bd1 m c (Proc.devRef .tc main_arg4) = m ((c : Thread nD τ).loc main_arg4) := (Bd1_keep m c main_arg4 (by decide)).trans (Bd0_main_arg4 m c)
theorem Bd2_main_arg4 (c : Dev nD) : Bd2 m c (Proc.devRef .tc main_arg4) = m ((c : Thread nD τ).loc main_arg4) := (Bd2_keep m c main_arg4 (by decide)).trans (Bd1_main_arg4 m c)
theorem Bd3_main_arg4 (c : Dev nD) : Bd3 m c (Proc.devRef .tc main_arg4) = m ((c : Thread nD τ).loc main_arg4) := (Bd3_keep m c main_arg4 (by decide)).trans (Bd2_main_arg4 m c)
theorem Bd4_main_arg4 (c : Dev nD) : Bd4 m c (Proc.devRef .tc main_arg4) = m ((c : Thread nD τ).loc main_arg4) := (Bd4_in1 m c).trans (Bd3_main_arg4 m c)
theorem Bd5_main_arg4 (c : Dev nD) : Bd5 m c (Proc.devRef .tc main_arg4) = m ((c : Thread nD τ).loc main_arg4) := (Bd5_keep m c main_arg4 (by decide)).trans (Bd4_main_arg4 m c)
theorem Bd6_main_arg4 (c : Dev nD) : Bd6 m c (Proc.devRef .tc main_arg4) = m ((c : Thread nD τ).loc main_arg4) := (Bd6_of_ne m c main_arg4 (by decide)).trans (Bd5_main_arg4 m c)
theorem Bd7_main_arg4 (c : Dev nD) : Bd7 m c (Proc.devRef .tc main_arg4) = m ((c : Thread nD τ).loc main_arg4) := (Bd7_keep m c main_arg4 (by decide)).trans (Bd6_main_arg4 m c)
theorem Bd8_main_arg4 (c : Dev nD) : Bd8 m c (Proc.devRef .tc main_arg4) = m ((c : Thread nD τ).loc main_arg4) := (Bd8_of_ne m c main_arg4 (by decide)).trans (Bd7_main_arg4 m c)
theorem Bd9_main_arg4 (c : Dev nD) : Bd9 m c (Proc.devRef .tc main_arg4) = m ((c : Thread nD τ).loc main_arg4) := (Bd9_keep m c main_arg4 (by decide)).trans (Bd8_main_arg4 m c)
theorem Bd10_main_arg4 (c : Dev nD) : Bd10 m c (Proc.devRef .tc main_arg4) = m ((c : Thread nD τ).loc main_arg4) := (Bd10_of_ne m c main_arg4 (by decide)).trans (Bd9_main_arg4 m c)
theorem Bd11_main_arg4 (c : Dev nD) : Bd11 m c (Proc.devRef .tc main_arg4) = m ((c : Thread nD τ).loc main_arg4) := (Bd11_keep m c main_arg4 (by decide)).trans (Bd10_main_arg4 m c)
theorem Bd12_main_arg4 (c : Dev nD) : Bd12 m c (Proc.devRef .tc main_arg4) = m ((c : Thread nD τ).loc main_arg4) := (Bd12_of_ne m c main_arg4 (by decide)).trans (Bd11_main_arg4 m c)
theorem Bd13_main_arg4 (c : Dev nD) : Bd13 m c (Proc.devRef .tc main_arg4) = m ((c : Thread nD τ).loc main_arg4) := (Bd13_keep m c main_arg4 (by decide)).trans (Bd12_main_arg4 m c)
theorem Bd14_main_arg4 (c : Dev nD) : Bd14 m c (Proc.devRef .tc main_arg4) = m ((c : Thread nD τ).loc main_arg4) := (Bd14_of_ne m c main_arg4 (by decide)).trans (Bd13_main_arg4 m c)
theorem Bd15_main_arg4 (c : Dev nD) : Bd15 m c (Proc.devRef .tc main_arg4) = m ((c : Thread nD τ).loc main_arg4) := (Bd15_keep m c main_arg4 (by decide)).trans (Bd14_main_arg4 m c)
theorem Bd16_main_arg4 (c : Dev nD) : Bd16 m c (Proc.devRef .tc main_arg4) = m ((c : Thread nD τ).loc main_arg4) := (Bd16_of_ne m c main_arg4 (by decide)).trans (Bd15_main_arg4 m c)
theorem Bd17_main_arg4 (c : Dev nD) : Bd17 m c (Proc.devRef .tc main_arg4) = m ((c : Thread nD τ).loc main_arg4) := (Bd17_keep m c main_arg4 (by decide)).trans (Bd16_main_arg4 m c)
theorem Bd18_main_arg4 (c : Dev nD) : Bd18 m c (Proc.devRef .tc main_arg4) = m ((c : Thread nD τ).loc main_arg4) := (Bd18_of_ne m c main_arg4 (by decide)).trans (Bd17_main_arg4 m c)

theorem Bd0_main_arg5 (c : Dev nD) : Bd0 m c (Proc.devRef .tc main_arg5) = m ((c : Thread nD τ).loc main_arg5) := rfl
theorem Bd1_main_arg5 (c : Dev nD) : Bd1 m c (Proc.devRef .tc main_arg5) = m ((c : Thread nD τ).loc main_arg5) := (Bd1_keep m c main_arg5 (by decide)).trans (Bd0_main_arg5 m c)
theorem Bd2_main_arg5 (c : Dev nD) : Bd2 m c (Proc.devRef .tc main_arg5) = m ((c : Thread nD τ).loc main_arg5) := (Bd2_keep m c main_arg5 (by decide)).trans (Bd1_main_arg5 m c)
theorem Bd3_main_arg5 (c : Dev nD) : Bd3 m c (Proc.devRef .tc main_arg5) = m ((c : Thread nD τ).loc main_arg5) := (Bd3_keep m c main_arg5 (by decide)).trans (Bd2_main_arg5 m c)
theorem Bd4_main_arg5 (c : Dev nD) : Bd4 m c (Proc.devRef .tc main_arg5) = m ((c : Thread nD τ).loc main_arg5) := (Bd4_of_ne m c main_arg5 (by decide)).trans (Bd3_main_arg5 m c)
theorem Bd5_main_arg5 (c : Dev nD) : Bd5 m c (Proc.devRef .tc main_arg5) = m ((c : Thread nD τ).loc main_arg5) := (Bd5_keep m c main_arg5 (by decide)).trans (Bd4_main_arg5 m c)
theorem Bd6_main_arg5 (c : Dev nD) : Bd6 m c (Proc.devRef .tc main_arg5) = m ((c : Thread nD τ).loc main_arg5) := (Bd6_of_ne m c main_arg5 (by decide)).trans (Bd5_main_arg5 m c)
theorem Bd7_main_arg5 (c : Dev nD) : Bd7 m c (Proc.devRef .tc main_arg5) = m ((c : Thread nD τ).loc main_arg5) := (Bd7_keep m c main_arg5 (by decide)).trans (Bd6_main_arg5 m c)
theorem Bd8_main_arg5 (c : Dev nD) : Bd8 m c (Proc.devRef .tc main_arg5) = m ((c : Thread nD τ).loc main_arg5) := (Bd8_of_ne m c main_arg5 (by decide)).trans (Bd7_main_arg5 m c)
theorem Bd9_main_arg5 (c : Dev nD) : Bd9 m c (Proc.devRef .tc main_arg5) = m ((c : Thread nD τ).loc main_arg5) := (Bd9_keep m c main_arg5 (by decide)).trans (Bd8_main_arg5 m c)
theorem Bd10_main_arg5 (c : Dev nD) : Bd10 m c (Proc.devRef .tc main_arg5) = m ((c : Thread nD τ).loc main_arg5) := (Bd10_of_ne m c main_arg5 (by decide)).trans (Bd9_main_arg5 m c)
theorem Bd11_main_arg5 (c : Dev nD) : Bd11 m c (Proc.devRef .tc main_arg5) = m ((c : Thread nD τ).loc main_arg5) := (Bd11_keep m c main_arg5 (by decide)).trans (Bd10_main_arg5 m c)
theorem Bd12_main_arg5 (c : Dev nD) : Bd12 m c (Proc.devRef .tc main_arg5) = m ((c : Thread nD τ).loc main_arg5) := (Bd12_of_ne m c main_arg5 (by decide)).trans (Bd11_main_arg5 m c)
theorem Bd13_main_arg5 (c : Dev nD) : Bd13 m c (Proc.devRef .tc main_arg5) = m ((c : Thread nD τ).loc main_arg5) := (Bd13_keep m c main_arg5 (by decide)).trans (Bd12_main_arg5 m c)
theorem Bd14_main_arg5 (c : Dev nD) : Bd14 m c (Proc.devRef .tc main_arg5) = m ((c : Thread nD τ).loc main_arg5) := (Bd14_of_ne m c main_arg5 (by decide)).trans (Bd13_main_arg5 m c)
theorem Bd15_main_arg5 (c : Dev nD) : Bd15 m c (Proc.devRef .tc main_arg5) = m ((c : Thread nD τ).loc main_arg5) := (Bd15_keep m c main_arg5 (by decide)).trans (Bd14_main_arg5 m c)
theorem Bd16_main_arg5 (c : Dev nD) : Bd16 m c (Proc.devRef .tc main_arg5) = m ((c : Thread nD τ).loc main_arg5) := (Bd16_of_ne m c main_arg5 (by decide)).trans (Bd15_main_arg5 m c)
theorem Bd17_main_arg5 (c : Dev nD) : Bd17 m c (Proc.devRef .tc main_arg5) = m ((c : Thread nD τ).loc main_arg5) := (Bd17_keep m c main_arg5 (by decide)).trans (Bd16_main_arg5 m c)
theorem Bd18_main_arg5 (c : Dev nD) : Bd18 m c (Proc.devRef .tc main_arg5) = m ((c : Thread nD τ).loc main_arg5) := (Bd18_of_ne m c main_arg5 (by decide)).trans (Bd17_main_arg5 m c)

theorem Bd0_main_arg6 (c : Dev nD) : Bd0 m c (Proc.devRef .tc main_arg6) = m ((c : Thread nD τ).loc main_arg6) := rfl
theorem Bd1_main_arg6 (c : Dev nD) : Bd1 m c (Proc.devRef .tc main_arg6) = m ((c : Thread nD τ).loc main_arg6) := (Bd1_keep m c main_arg6 (by decide)).trans (Bd0_main_arg6 m c)
theorem Bd2_main_arg6 (c : Dev nD) : Bd2 m c (Proc.devRef .tc main_arg6) = m ((c : Thread nD τ).loc main_arg6) := (Bd2_keep m c main_arg6 (by decide)).trans (Bd1_main_arg6 m c)
theorem Bd3_main_arg6 (c : Dev nD) : Bd3 m c (Proc.devRef .tc main_arg6) = m ((c : Thread nD τ).loc main_arg6) := (Bd3_keep m c main_arg6 (by decide)).trans (Bd2_main_arg6 m c)
theorem Bd4_main_arg6 (c : Dev nD) : Bd4 m c (Proc.devRef .tc main_arg6) = m ((c : Thread nD τ).loc main_arg6) := (Bd4_of_ne m c main_arg6 (by decide)).trans (Bd3_main_arg6 m c)
theorem Bd5_main_arg6 (c : Dev nD) : Bd5 m c (Proc.devRef .tc main_arg6) = m ((c : Thread nD τ).loc main_arg6) := (Bd5_keep m c main_arg6 (by decide)).trans (Bd4_main_arg6 m c)
theorem Bd6_main_arg6 (c : Dev nD) : Bd6 m c (Proc.devRef .tc main_arg6) = m ((c : Thread nD τ).loc main_arg6) := (Bd6_of_ne m c main_arg6 (by decide)).trans (Bd5_main_arg6 m c)
theorem Bd7_main_arg6 (c : Dev nD) : Bd7 m c (Proc.devRef .tc main_arg6) = m ((c : Thread nD τ).loc main_arg6) := (Bd7_keep m c main_arg6 (by decide)).trans (Bd6_main_arg6 m c)
theorem Bd8_main_arg6 (c : Dev nD) : Bd8 m c (Proc.devRef .tc main_arg6) = m ((c : Thread nD τ).loc main_arg6) := (Bd8_of_ne m c main_arg6 (by decide)).trans (Bd7_main_arg6 m c)
theorem Bd9_main_arg6 (c : Dev nD) : Bd9 m c (Proc.devRef .tc main_arg6) = m ((c : Thread nD τ).loc main_arg6) := (Bd9_keep m c main_arg6 (by decide)).trans (Bd8_main_arg6 m c)
theorem Bd10_main_arg6 (c : Dev nD) : Bd10 m c (Proc.devRef .tc main_arg6) = m ((c : Thread nD τ).loc main_arg6) := (Bd10_of_ne m c main_arg6 (by decide)).trans (Bd9_main_arg6 m c)
theorem Bd11_main_arg6 (c : Dev nD) : Bd11 m c (Proc.devRef .tc main_arg6) = m ((c : Thread nD τ).loc main_arg6) := (Bd11_keep m c main_arg6 (by decide)).trans (Bd10_main_arg6 m c)
theorem Bd12_main_arg6 (c : Dev nD) : Bd12 m c (Proc.devRef .tc main_arg6) = m ((c : Thread nD τ).loc main_arg6) := (Bd12_of_ne m c main_arg6 (by decide)).trans (Bd11_main_arg6 m c)
theorem Bd13_main_arg6 (c : Dev nD) : Bd13 m c (Proc.devRef .tc main_arg6) = m ((c : Thread nD τ).loc main_arg6) := (Bd13_keep m c main_arg6 (by decide)).trans (Bd12_main_arg6 m c)
theorem Bd14_main_arg6 (c : Dev nD) : Bd14 m c (Proc.devRef .tc main_arg6) = m ((c : Thread nD τ).loc main_arg6) := (Bd14_of_ne m c main_arg6 (by decide)).trans (Bd13_main_arg6 m c)
theorem Bd15_main_arg6 (c : Dev nD) : Bd15 m c (Proc.devRef .tc main_arg6) = m ((c : Thread nD τ).loc main_arg6) := (Bd15_keep m c main_arg6 (by decide)).trans (Bd14_main_arg6 m c)
theorem Bd16_main_arg6 (c : Dev nD) : Bd16 m c (Proc.devRef .tc main_arg6) = m ((c : Thread nD τ).loc main_arg6) := (Bd16_of_ne m c main_arg6 (by decide)).trans (Bd15_main_arg6 m c)
theorem Bd17_main_arg6 (c : Dev nD) : Bd17 m c (Proc.devRef .tc main_arg6) = m ((c : Thread nD τ).loc main_arg6) := (Bd17_keep m c main_arg6 (by decide)).trans (Bd16_main_arg6 m c)
theorem Bd18_main_arg6 (c : Dev nD) : Bd18 m c (Proc.devRef .tc main_arg6) = m ((c : Thread nD τ).loc main_arg6) := (Bd18_of_ne m c main_arg6 (by decide)).trans (Bd17_main_arg6 m c)

theorem Bd0_main_arg7 (c : Dev nD) : Bd0 m c (Proc.devRef .tc main_arg7) = m ((c : Thread nD τ).loc main_arg7) := rfl
theorem Bd1_main_arg7 (c : Dev nD) : Bd1 m c (Proc.devRef .tc main_arg7) = m ((c : Thread nD τ).loc main_arg7) := (Bd1_keep m c main_arg7 (by decide)).trans (Bd0_main_arg7 m c)
theorem Bd2_main_arg7 (c : Dev nD) : Bd2 m c (Proc.devRef .tc main_arg7) = m ((c : Thread nD τ).loc main_arg7) := (Bd2_keep m c main_arg7 (by decide)).trans (Bd1_main_arg7 m c)
theorem Bd3_main_arg7 (c : Dev nD) : Bd3 m c (Proc.devRef .tc main_arg7) = m ((c : Thread nD τ).loc main_arg7) := (Bd3_keep m c main_arg7 (by decide)).trans (Bd2_main_arg7 m c)
theorem Bd4_main_arg7 (c : Dev nD) : Bd4 m c (Proc.devRef .tc main_arg7) = m ((c : Thread nD τ).loc main_arg7) := (Bd4_of_ne m c main_arg7 (by decide)).trans (Bd3_main_arg7 m c)
theorem Bd5_main_arg7 (c : Dev nD) : Bd5 m c (Proc.devRef .tc main_arg7) = m ((c : Thread nD τ).loc main_arg7) := (Bd5_keep m c main_arg7 (by decide)).trans (Bd4_main_arg7 m c)
theorem Bd6_main_arg7 (c : Dev nD) : Bd6 m c (Proc.devRef .tc main_arg7) = m ((c : Thread nD τ).loc main_arg7) := (Bd6_of_ne m c main_arg7 (by decide)).trans (Bd5_main_arg7 m c)
theorem Bd7_main_arg7 (c : Dev nD) : Bd7 m c (Proc.devRef .tc main_arg7) = m ((c : Thread nD τ).loc main_arg7) := (Bd7_keep m c main_arg7 (by decide)).trans (Bd6_main_arg7 m c)
theorem Bd8_main_arg7 (c : Dev nD) : Bd8 m c (Proc.devRef .tc main_arg7) = m ((c : Thread nD τ).loc main_arg7) := (Bd8_of_ne m c main_arg7 (by decide)).trans (Bd7_main_arg7 m c)
theorem Bd9_main_arg7 (c : Dev nD) : Bd9 m c (Proc.devRef .tc main_arg7) = m ((c : Thread nD τ).loc main_arg7) := (Bd9_keep m c main_arg7 (by decide)).trans (Bd8_main_arg7 m c)
theorem Bd10_main_arg7 (c : Dev nD) : Bd10 m c (Proc.devRef .tc main_arg7) = m ((c : Thread nD τ).loc main_arg7) := (Bd10_of_ne m c main_arg7 (by decide)).trans (Bd9_main_arg7 m c)
theorem Bd11_main_arg7 (c : Dev nD) : Bd11 m c (Proc.devRef .tc main_arg7) = m ((c : Thread nD τ).loc main_arg7) := (Bd11_keep m c main_arg7 (by decide)).trans (Bd10_main_arg7 m c)
theorem Bd12_main_arg7 (c : Dev nD) : Bd12 m c (Proc.devRef .tc main_arg7) = m ((c : Thread nD τ).loc main_arg7) := (Bd12_of_ne m c main_arg7 (by decide)).trans (Bd11_main_arg7 m c)
theorem Bd13_main_arg7 (c : Dev nD) : Bd13 m c (Proc.devRef .tc main_arg7) = m ((c : Thread nD τ).loc main_arg7) := (Bd13_keep m c main_arg7 (by decide)).trans (Bd12_main_arg7 m c)
theorem Bd14_main_arg7 (c : Dev nD) : Bd14 m c (Proc.devRef .tc main_arg7) = m ((c : Thread nD τ).loc main_arg7) := (Bd14_of_ne m c main_arg7 (by decide)).trans (Bd13_main_arg7 m c)
theorem Bd15_main_arg7 (c : Dev nD) : Bd15 m c (Proc.devRef .tc main_arg7) = m ((c : Thread nD τ).loc main_arg7) := (Bd15_keep m c main_arg7 (by decide)).trans (Bd14_main_arg7 m c)
theorem Bd16_main_arg7 (c : Dev nD) : Bd16 m c (Proc.devRef .tc main_arg7) = m ((c : Thread nD τ).loc main_arg7) := (Bd16_of_ne m c main_arg7 (by decide)).trans (Bd15_main_arg7 m c)
theorem Bd17_main_arg7 (c : Dev nD) : Bd17 m c (Proc.devRef .tc main_arg7) = m ((c : Thread nD τ).loc main_arg7) := (Bd17_keep m c main_arg7 (by decide)).trans (Bd16_main_arg7 m c)
theorem Bd18_main_arg7 (c : Dev nD) : Bd18 m c (Proc.devRef .tc main_arg7) = m ((c : Thread nD τ).loc main_arg7) := (Bd18_of_ne m c main_arg7 (by decide)).trans (Bd17_main_arg7 m c)

theorem Bd0_main_arg8 (c : Dev nD) : Bd0 m c (Proc.devRef .tc main_arg8) = m ((c : Thread nD τ).loc main_arg8) := rfl
theorem Bd1_main_arg8 (c : Dev nD) : Bd1 m c (Proc.devRef .tc main_arg8) = m ((c : Thread nD τ).loc main_arg8) := (Bd1_keep m c main_arg8 (by decide)).trans (Bd0_main_arg8 m c)
theorem Bd2_main_arg8 (c : Dev nD) : Bd2 m c (Proc.devRef .tc main_arg8) = m ((c : Thread nD τ).loc main_arg8) := (Bd2_keep m c main_arg8 (by decide)).trans (Bd1_main_arg8 m c)
theorem Bd3_main_arg8 (c : Dev nD) : Bd3 m c (Proc.devRef .tc main_arg8) = m ((c : Thread nD τ).loc main_arg8) := (Bd3_keep m c main_arg8 (by decide)).trans (Bd2_main_arg8 m c)
theorem Bd4_main_arg8 (c : Dev nD) : Bd4 m c (Proc.devRef .tc main_arg8) = m ((c : Thread nD τ).loc main_arg8) := (Bd4_of_ne m c main_arg8 (by decide)).trans (Bd3_main_arg8 m c)
theorem Bd5_main_arg8 (c : Dev nD) : Bd5 m c (Proc.devRef .tc main_arg8) = m ((c : Thread nD τ).loc main_arg8) := (Bd5_keep m c main_arg8 (by decide)).trans (Bd4_main_arg8 m c)
theorem Bd6_main_arg8 (c : Dev nD) : Bd6 m c (Proc.devRef .tc main_arg8) = m ((c : Thread nD τ).loc main_arg8) := (Bd6_of_ne m c main_arg8 (by decide)).trans (Bd5_main_arg8 m c)
theorem Bd7_main_arg8 (c : Dev nD) : Bd7 m c (Proc.devRef .tc main_arg8) = m ((c : Thread nD τ).loc main_arg8) := (Bd7_keep m c main_arg8 (by decide)).trans (Bd6_main_arg8 m c)
theorem Bd8_main_arg8 (c : Dev nD) : Bd8 m c (Proc.devRef .tc main_arg8) = m ((c : Thread nD τ).loc main_arg8) := (Bd8_of_ne m c main_arg8 (by decide)).trans (Bd7_main_arg8 m c)
theorem Bd9_main_arg8 (c : Dev nD) : Bd9 m c (Proc.devRef .tc main_arg8) = m ((c : Thread nD τ).loc main_arg8) := (Bd9_keep m c main_arg8 (by decide)).trans (Bd8_main_arg8 m c)
theorem Bd10_main_arg8 (c : Dev nD) : Bd10 m c (Proc.devRef .tc main_arg8) = m ((c : Thread nD τ).loc main_arg8) := (Bd10_of_ne m c main_arg8 (by decide)).trans (Bd9_main_arg8 m c)
theorem Bd11_main_arg8 (c : Dev nD) : Bd11 m c (Proc.devRef .tc main_arg8) = m ((c : Thread nD τ).loc main_arg8) := (Bd11_keep m c main_arg8 (by decide)).trans (Bd10_main_arg8 m c)
theorem Bd12_main_arg8 (c : Dev nD) : Bd12 m c (Proc.devRef .tc main_arg8) = m ((c : Thread nD τ).loc main_arg8) := (Bd12_of_ne m c main_arg8 (by decide)).trans (Bd11_main_arg8 m c)
theorem Bd13_main_arg8 (c : Dev nD) : Bd13 m c (Proc.devRef .tc main_arg8) = m ((c : Thread nD τ).loc main_arg8) := (Bd13_keep m c main_arg8 (by decide)).trans (Bd12_main_arg8 m c)
theorem Bd14_main_arg8 (c : Dev nD) : Bd14 m c (Proc.devRef .tc main_arg8) = m ((c : Thread nD τ).loc main_arg8) := (Bd14_of_ne m c main_arg8 (by decide)).trans (Bd13_main_arg8 m c)
theorem Bd15_main_arg8 (c : Dev nD) : Bd15 m c (Proc.devRef .tc main_arg8) = m ((c : Thread nD τ).loc main_arg8) := (Bd15_keep m c main_arg8 (by decide)).trans (Bd14_main_arg8 m c)
theorem Bd16_main_arg8 (c : Dev nD) : Bd16 m c (Proc.devRef .tc main_arg8) = m ((c : Thread nD τ).loc main_arg8) := (Bd16_of_ne m c main_arg8 (by decide)).trans (Bd15_main_arg8 m c)
theorem Bd17_main_arg8 (c : Dev nD) : Bd17 m c (Proc.devRef .tc main_arg8) = m ((c : Thread nD τ).loc main_arg8) := (Bd17_keep m c main_arg8 (by decide)).trans (Bd16_main_arg8 m c)
theorem Bd18_main_arg8 (c : Dev nD) : Bd18 m c (Proc.devRef .tc main_arg8) = m ((c : Thread nD τ).loc main_arg8) := (Bd18_of_ne m c main_arg8 (by decide)).trans (Bd17_main_arg8 m c)

theorem Bd0_main_arg9 (c : Dev nD) : Bd0 m c (Proc.devRef .tc main_arg9) = m ((c : Thread nD τ).loc main_arg9) := rfl
theorem Bd1_main_arg9 (c : Dev nD) : Bd1 m c (Proc.devRef .tc main_arg9) = m ((c : Thread nD τ).loc main_arg9) := (Bd1_keep m c main_arg9 (by decide)).trans (Bd0_main_arg9 m c)
theorem Bd2_main_arg9 (c : Dev nD) : Bd2 m c (Proc.devRef .tc main_arg9) = m ((c : Thread nD τ).loc main_arg9) := (Bd2_keep m c main_arg9 (by decide)).trans (Bd1_main_arg9 m c)
theorem Bd3_main_arg9 (c : Dev nD) : Bd3 m c (Proc.devRef .tc main_arg9) = m ((c : Thread nD τ).loc main_arg9) := (Bd3_keep m c main_arg9 (by decide)).trans (Bd2_main_arg9 m c)
theorem Bd4_main_arg9 (c : Dev nD) : Bd4 m c (Proc.devRef .tc main_arg9) = m ((c : Thread nD τ).loc main_arg9) := (Bd4_of_ne m c main_arg9 (by decide)).trans (Bd3_main_arg9 m c)
theorem Bd5_main_arg9 (c : Dev nD) : Bd5 m c (Proc.devRef .tc main_arg9) = m ((c : Thread nD τ).loc main_arg9) := (Bd5_keep m c main_arg9 (by decide)).trans (Bd4_main_arg9 m c)
theorem Bd6_main_arg9 (c : Dev nD) : Bd6 m c (Proc.devRef .tc main_arg9) = m ((c : Thread nD τ).loc main_arg9) := (Bd6_of_ne m c main_arg9 (by decide)).trans (Bd5_main_arg9 m c)
theorem Bd7_main_arg9 (c : Dev nD) : Bd7 m c (Proc.devRef .tc main_arg9) = m ((c : Thread nD τ).loc main_arg9) := (Bd7_keep m c main_arg9 (by decide)).trans (Bd6_main_arg9 m c)
theorem Bd8_main_arg9 (c : Dev nD) : Bd8 m c (Proc.devRef .tc main_arg9) = m ((c : Thread nD τ).loc main_arg9) := (Bd8_of_ne m c main_arg9 (by decide)).trans (Bd7_main_arg9 m c)
theorem Bd9_main_arg9 (c : Dev nD) : Bd9 m c (Proc.devRef .tc main_arg9) = m ((c : Thread nD τ).loc main_arg9) := (Bd9_keep m c main_arg9 (by decide)).trans (Bd8_main_arg9 m c)
theorem Bd10_main_arg9 (c : Dev nD) : Bd10 m c (Proc.devRef .tc main_arg9) = m ((c : Thread nD τ).loc main_arg9) := (Bd10_of_ne m c main_arg9 (by decide)).trans (Bd9_main_arg9 m c)
theorem Bd11_main_arg9 (c : Dev nD) : Bd11 m c (Proc.devRef .tc main_arg9) = m ((c : Thread nD τ).loc main_arg9) := (Bd11_keep m c main_arg9 (by decide)).trans (Bd10_main_arg9 m c)
theorem Bd12_main_arg9 (c : Dev nD) : Bd12 m c (Proc.devRef .tc main_arg9) = m ((c : Thread nD τ).loc main_arg9) := (Bd12_of_ne m c main_arg9 (by decide)).trans (Bd11_main_arg9 m c)
theorem Bd13_main_arg9 (c : Dev nD) : Bd13 m c (Proc.devRef .tc main_arg9) = m ((c : Thread nD τ).loc main_arg9) := (Bd13_keep m c main_arg9 (by decide)).trans (Bd12_main_arg9 m c)
theorem Bd14_main_arg9 (c : Dev nD) : Bd14 m c (Proc.devRef .tc main_arg9) = m ((c : Thread nD τ).loc main_arg9) := (Bd14_of_ne m c main_arg9 (by decide)).trans (Bd13_main_arg9 m c)
theorem Bd15_main_arg9 (c : Dev nD) : Bd15 m c (Proc.devRef .tc main_arg9) = m ((c : Thread nD τ).loc main_arg9) := (Bd15_keep m c main_arg9 (by decide)).trans (Bd14_main_arg9 m c)
theorem Bd16_main_arg9 (c : Dev nD) : Bd16 m c (Proc.devRef .tc main_arg9) = m ((c : Thread nD τ).loc main_arg9) := (Bd16_of_ne m c main_arg9 (by decide)).trans (Bd15_main_arg9 m c)
theorem Bd17_main_arg9 (c : Dev nD) : Bd17 m c (Proc.devRef .tc main_arg9) = m ((c : Thread nD τ).loc main_arg9) := (Bd17_keep m c main_arg9 (by decide)).trans (Bd16_main_arg9 m c)
theorem Bd18_main_arg9 (c : Dev nD) : Bd18 m c (Proc.devRef .tc main_arg9) = m ((c : Thread nD τ).loc main_arg9) := (Bd18_of_ne m c main_arg9 (by decide)).trans (Bd17_main_arg9 m c)

theorem Bd0_main_arg10 (c : Dev nD) : Bd0 m c (Proc.devRef .tc main_arg10) = m ((c : Thread nD τ).loc main_arg10) := rfl
theorem Bd1_main_arg10 (c : Dev nD) : Bd1 m c (Proc.devRef .tc main_arg10) = m ((c : Thread nD τ).loc main_arg10) := (Bd1_keep m c main_arg10 (by decide)).trans (Bd0_main_arg10 m c)
theorem Bd2_main_arg10 (c : Dev nD) : Bd2 m c (Proc.devRef .tc main_arg10) = m ((c : Thread nD τ).loc main_arg10) := (Bd2_keep m c main_arg10 (by decide)).trans (Bd1_main_arg10 m c)
theorem Bd3_main_arg10 (c : Dev nD) : Bd3 m c (Proc.devRef .tc main_arg10) = m ((c : Thread nD τ).loc main_arg10) := (Bd3_keep m c main_arg10 (by decide)).trans (Bd2_main_arg10 m c)
theorem Bd4_main_arg10 (c : Dev nD) : Bd4 m c (Proc.devRef .tc main_arg10) = m ((c : Thread nD τ).loc main_arg10) := (Bd4_of_ne m c main_arg10 (by decide)).trans (Bd3_main_arg10 m c)
theorem Bd5_main_arg10 (c : Dev nD) : Bd5 m c (Proc.devRef .tc main_arg10) = m ((c : Thread nD τ).loc main_arg10) := (Bd5_keep m c main_arg10 (by decide)).trans (Bd4_main_arg10 m c)
theorem Bd6_main_arg10 (c : Dev nD) : Bd6 m c (Proc.devRef .tc main_arg10) = m ((c : Thread nD τ).loc main_arg10) := (Bd6_of_ne m c main_arg10 (by decide)).trans (Bd5_main_arg10 m c)
theorem Bd7_main_arg10 (c : Dev nD) : Bd7 m c (Proc.devRef .tc main_arg10) = m ((c : Thread nD τ).loc main_arg10) := (Bd7_keep m c main_arg10 (by decide)).trans (Bd6_main_arg10 m c)
theorem Bd8_main_arg10 (c : Dev nD) : Bd8 m c (Proc.devRef .tc main_arg10) = m ((c : Thread nD τ).loc main_arg10) := (Bd8_of_ne m c main_arg10 (by decide)).trans (Bd7_main_arg10 m c)
theorem Bd9_main_arg10 (c : Dev nD) : Bd9 m c (Proc.devRef .tc main_arg10) = m ((c : Thread nD τ).loc main_arg10) := (Bd9_keep m c main_arg10 (by decide)).trans (Bd8_main_arg10 m c)
theorem Bd10_main_arg10 (c : Dev nD) : Bd10 m c (Proc.devRef .tc main_arg10) = m ((c : Thread nD τ).loc main_arg10) := (Bd10_of_ne m c main_arg10 (by decide)).trans (Bd9_main_arg10 m c)
theorem Bd11_main_arg10 (c : Dev nD) : Bd11 m c (Proc.devRef .tc main_arg10) = m ((c : Thread nD τ).loc main_arg10) := (Bd11_keep m c main_arg10 (by decide)).trans (Bd10_main_arg10 m c)
theorem Bd12_main_arg10 (c : Dev nD) : Bd12 m c (Proc.devRef .tc main_arg10) = m ((c : Thread nD τ).loc main_arg10) := (Bd12_of_ne m c main_arg10 (by decide)).trans (Bd11_main_arg10 m c)
theorem Bd13_main_arg10 (c : Dev nD) : Bd13 m c (Proc.devRef .tc main_arg10) = m ((c : Thread nD τ).loc main_arg10) := (Bd13_keep m c main_arg10 (by decide)).trans (Bd12_main_arg10 m c)
theorem Bd14_main_arg10 (c : Dev nD) : Bd14 m c (Proc.devRef .tc main_arg10) = m ((c : Thread nD τ).loc main_arg10) := (Bd14_of_ne m c main_arg10 (by decide)).trans (Bd13_main_arg10 m c)
theorem Bd15_main_arg10 (c : Dev nD) : Bd15 m c (Proc.devRef .tc main_arg10) = m ((c : Thread nD τ).loc main_arg10) := (Bd15_keep m c main_arg10 (by decide)).trans (Bd14_main_arg10 m c)
theorem Bd16_main_arg10 (c : Dev nD) : Bd16 m c (Proc.devRef .tc main_arg10) = m ((c : Thread nD τ).loc main_arg10) := (Bd16_of_ne m c main_arg10 (by decide)).trans (Bd15_main_arg10 m c)
theorem Bd17_main_arg10 (c : Dev nD) : Bd17 m c (Proc.devRef .tc main_arg10) = m ((c : Thread nD τ).loc main_arg10) := (Bd17_keep m c main_arg10 (by decide)).trans (Bd16_main_arg10 m c)
theorem Bd18_main_arg10 (c : Dev nD) : Bd18 m c (Proc.devRef .tc main_arg10) = m ((c : Thread nD τ).loc main_arg10) := (Bd18_of_ne m c main_arg10 (by decide)).trans (Bd17_main_arg10 m c)

theorem Bd0_main_arg11 (c : Dev nD) : Bd0 m c (Proc.devRef .tc main_arg11) = m ((c : Thread nD τ).loc main_arg11) := rfl
theorem Bd1_main_arg11 (c : Dev nD) : Bd1 m c (Proc.devRef .tc main_arg11) = m ((c : Thread nD τ).loc main_arg11) := (Bd1_keep m c main_arg11 (by decide)).trans (Bd0_main_arg11 m c)
theorem Bd2_main_arg11 (c : Dev nD) : Bd2 m c (Proc.devRef .tc main_arg11) = m ((c : Thread nD τ).loc main_arg11) := (Bd2_keep m c main_arg11 (by decide)).trans (Bd1_main_arg11 m c)
theorem Bd3_main_arg11 (c : Dev nD) : Bd3 m c (Proc.devRef .tc main_arg11) = m ((c : Thread nD τ).loc main_arg11) := (Bd3_keep m c main_arg11 (by decide)).trans (Bd2_main_arg11 m c)
theorem Bd4_main_arg11 (c : Dev nD) : Bd4 m c (Proc.devRef .tc main_arg11) = m ((c : Thread nD τ).loc main_arg11) := (Bd4_of_ne m c main_arg11 (by decide)).trans (Bd3_main_arg11 m c)
theorem Bd5_main_arg11 (c : Dev nD) : Bd5 m c (Proc.devRef .tc main_arg11) = m ((c : Thread nD τ).loc main_arg11) := (Bd5_keep m c main_arg11 (by decide)).trans (Bd4_main_arg11 m c)
theorem Bd6_main_arg11 (c : Dev nD) : Bd6 m c (Proc.devRef .tc main_arg11) = m ((c : Thread nD τ).loc main_arg11) := (Bd6_of_ne m c main_arg11 (by decide)).trans (Bd5_main_arg11 m c)
theorem Bd7_main_arg11 (c : Dev nD) : Bd7 m c (Proc.devRef .tc main_arg11) = m ((c : Thread nD τ).loc main_arg11) := (Bd7_keep m c main_arg11 (by decide)).trans (Bd6_main_arg11 m c)
theorem Bd8_main_arg11 (c : Dev nD) : Bd8 m c (Proc.devRef .tc main_arg11) = m ((c : Thread nD τ).loc main_arg11) := (Bd8_of_ne m c main_arg11 (by decide)).trans (Bd7_main_arg11 m c)
theorem Bd9_main_arg11 (c : Dev nD) : Bd9 m c (Proc.devRef .tc main_arg11) = m ((c : Thread nD τ).loc main_arg11) := (Bd9_keep m c main_arg11 (by decide)).trans (Bd8_main_arg11 m c)
theorem Bd10_main_arg11 (c : Dev nD) : Bd10 m c (Proc.devRef .tc main_arg11) = m ((c : Thread nD τ).loc main_arg11) := (Bd10_of_ne m c main_arg11 (by decide)).trans (Bd9_main_arg11 m c)
theorem Bd11_main_arg11 (c : Dev nD) : Bd11 m c (Proc.devRef .tc main_arg11) = m ((c : Thread nD τ).loc main_arg11) := (Bd11_keep m c main_arg11 (by decide)).trans (Bd10_main_arg11 m c)
theorem Bd12_main_arg11 (c : Dev nD) : Bd12 m c (Proc.devRef .tc main_arg11) = m ((c : Thread nD τ).loc main_arg11) := (Bd12_of_ne m c main_arg11 (by decide)).trans (Bd11_main_arg11 m c)
theorem Bd13_main_arg11 (c : Dev nD) : Bd13 m c (Proc.devRef .tc main_arg11) = m ((c : Thread nD τ).loc main_arg11) := (Bd13_keep m c main_arg11 (by decide)).trans (Bd12_main_arg11 m c)
theorem Bd14_main_arg11 (c : Dev nD) : Bd14 m c (Proc.devRef .tc main_arg11) = m ((c : Thread nD τ).loc main_arg11) := (Bd14_of_ne m c main_arg11 (by decide)).trans (Bd13_main_arg11 m c)
theorem Bd15_main_arg11 (c : Dev nD) : Bd15 m c (Proc.devRef .tc main_arg11) = m ((c : Thread nD τ).loc main_arg11) := (Bd15_keep m c main_arg11 (by decide)).trans (Bd14_main_arg11 m c)
theorem Bd16_main_arg11 (c : Dev nD) : Bd16 m c (Proc.devRef .tc main_arg11) = m ((c : Thread nD τ).loc main_arg11) := (Bd16_of_ne m c main_arg11 (by decide)).trans (Bd15_main_arg11 m c)
theorem Bd17_main_arg11 (c : Dev nD) : Bd17 m c (Proc.devRef .tc main_arg11) = m ((c : Thread nD τ).loc main_arg11) := (Bd17_keep m c main_arg11 (by decide)).trans (Bd16_main_arg11 m c)
theorem Bd18_main_arg11 (c : Dev nD) : Bd18 m c (Proc.devRef .tc main_arg11) = m ((c : Thread nD τ).loc main_arg11) := (Bd18_of_ne m c main_arg11 (by decide)).trans (Bd17_main_arg11 m c)

theorem Bd0_main_arg12 (c : Dev nD) : Bd0 m c (Proc.devRef .tc main_arg12) = m ((c : Thread nD τ).loc main_arg12) := rfl
theorem Bd1_main_arg12 (c : Dev nD) : Bd1 m c (Proc.devRef .tc main_arg12) = m ((c : Thread nD τ).loc main_arg12) := (Bd1_keep m c main_arg12 (by decide)).trans (Bd0_main_arg12 m c)
theorem Bd2_main_arg12 (c : Dev nD) : Bd2 m c (Proc.devRef .tc main_arg12) = m ((c : Thread nD τ).loc main_arg12) := (Bd2_keep m c main_arg12 (by decide)).trans (Bd1_main_arg12 m c)
theorem Bd3_main_arg12 (c : Dev nD) : Bd3 m c (Proc.devRef .tc main_arg12) = m ((c : Thread nD τ).loc main_arg12) := (Bd3_keep m c main_arg12 (by decide)).trans (Bd2_main_arg12 m c)
theorem Bd4_main_arg12 (c : Dev nD) : Bd4 m c (Proc.devRef .tc main_arg12) = m ((c : Thread nD τ).loc main_arg12) := (Bd4_of_ne m c main_arg12 (by decide)).trans (Bd3_main_arg12 m c)
theorem Bd5_main_arg12 (c : Dev nD) : Bd5 m c (Proc.devRef .tc main_arg12) = m ((c : Thread nD τ).loc main_arg12) := (Bd5_keep m c main_arg12 (by decide)).trans (Bd4_main_arg12 m c)
theorem Bd6_main_arg12 (c : Dev nD) : Bd6 m c (Proc.devRef .tc main_arg12) = m ((c : Thread nD τ).loc main_arg12) := (Bd6_of_ne m c main_arg12 (by decide)).trans (Bd5_main_arg12 m c)
theorem Bd7_main_arg12 (c : Dev nD) : Bd7 m c (Proc.devRef .tc main_arg12) = m ((c : Thread nD τ).loc main_arg12) := (Bd7_keep m c main_arg12 (by decide)).trans (Bd6_main_arg12 m c)
theorem Bd8_main_arg12 (c : Dev nD) : Bd8 m c (Proc.devRef .tc main_arg12) = m ((c : Thread nD τ).loc main_arg12) := (Bd8_of_ne m c main_arg12 (by decide)).trans (Bd7_main_arg12 m c)
theorem Bd9_main_arg12 (c : Dev nD) : Bd9 m c (Proc.devRef .tc main_arg12) = m ((c : Thread nD τ).loc main_arg12) := (Bd9_keep m c main_arg12 (by decide)).trans (Bd8_main_arg12 m c)
theorem Bd10_main_arg12 (c : Dev nD) : Bd10 m c (Proc.devRef .tc main_arg12) = m ((c : Thread nD τ).loc main_arg12) := (Bd10_of_ne m c main_arg12 (by decide)).trans (Bd9_main_arg12 m c)
theorem Bd11_main_arg12 (c : Dev nD) : Bd11 m c (Proc.devRef .tc main_arg12) = m ((c : Thread nD τ).loc main_arg12) := (Bd11_keep m c main_arg12 (by decide)).trans (Bd10_main_arg12 m c)
theorem Bd12_main_arg12 (c : Dev nD) : Bd12 m c (Proc.devRef .tc main_arg12) = m ((c : Thread nD τ).loc main_arg12) := (Bd12_of_ne m c main_arg12 (by decide)).trans (Bd11_main_arg12 m c)
theorem Bd13_main_arg12 (c : Dev nD) : Bd13 m c (Proc.devRef .tc main_arg12) = m ((c : Thread nD τ).loc main_arg12) := (Bd13_keep m c main_arg12 (by decide)).trans (Bd12_main_arg12 m c)
theorem Bd14_main_arg12 (c : Dev nD) : Bd14 m c (Proc.devRef .tc main_arg12) = m ((c : Thread nD τ).loc main_arg12) := (Bd14_of_ne m c main_arg12 (by decide)).trans (Bd13_main_arg12 m c)
theorem Bd15_main_arg12 (c : Dev nD) : Bd15 m c (Proc.devRef .tc main_arg12) = m ((c : Thread nD τ).loc main_arg12) := (Bd15_keep m c main_arg12 (by decide)).trans (Bd14_main_arg12 m c)
theorem Bd16_main_arg12 (c : Dev nD) : Bd16 m c (Proc.devRef .tc main_arg12) = m ((c : Thread nD τ).loc main_arg12) := (Bd16_of_ne m c main_arg12 (by decide)).trans (Bd15_main_arg12 m c)
theorem Bd17_main_arg12 (c : Dev nD) : Bd17 m c (Proc.devRef .tc main_arg12) = m ((c : Thread nD τ).loc main_arg12) := (Bd17_keep m c main_arg12 (by decide)).trans (Bd16_main_arg12 m c)
theorem Bd18_main_arg12 (c : Dev nD) : Bd18 m c (Proc.devRef .tc main_arg12) = m ((c : Thread nD τ).loc main_arg12) := (Bd18_in1 m c).trans (Bd17_main_arg12 m c)

theorem Bd0_main_arg13 (c : Dev nD) : Bd0 m c (Proc.devRef .tc main_arg13) = m ((c : Thread nD τ).loc main_arg13) := rfl
theorem Bd1_main_arg13 (c : Dev nD) : Bd1 m c (Proc.devRef .tc main_arg13) = m ((c : Thread nD τ).loc main_arg13) := (Bd1_keep m c main_arg13 (by decide)).trans (Bd0_main_arg13 m c)
theorem Bd2_main_arg13 (c : Dev nD) : Bd2 m c (Proc.devRef .tc main_arg13) = m ((c : Thread nD τ).loc main_arg13) := (Bd2_keep m c main_arg13 (by decide)).trans (Bd1_main_arg13 m c)
theorem Bd3_main_arg13 (c : Dev nD) : Bd3 m c (Proc.devRef .tc main_arg13) = m ((c : Thread nD τ).loc main_arg13) := (Bd3_keep m c main_arg13 (by decide)).trans (Bd2_main_arg13 m c)
theorem Bd4_main_arg13 (c : Dev nD) : Bd4 m c (Proc.devRef .tc main_arg13) = m ((c : Thread nD τ).loc main_arg13) := (Bd4_of_ne m c main_arg13 (by decide)).trans (Bd3_main_arg13 m c)
theorem Bd5_main_arg13 (c : Dev nD) : Bd5 m c (Proc.devRef .tc main_arg13) = m ((c : Thread nD τ).loc main_arg13) := (Bd5_keep m c main_arg13 (by decide)).trans (Bd4_main_arg13 m c)
theorem Bd6_main_arg13 (c : Dev nD) : Bd6 m c (Proc.devRef .tc main_arg13) = m ((c : Thread nD τ).loc main_arg13) := (Bd6_of_ne m c main_arg13 (by decide)).trans (Bd5_main_arg13 m c)
theorem Bd7_main_arg13 (c : Dev nD) : Bd7 m c (Proc.devRef .tc main_arg13) = m ((c : Thread nD τ).loc main_arg13) := (Bd7_keep m c main_arg13 (by decide)).trans (Bd6_main_arg13 m c)
theorem Bd8_main_arg13 (c : Dev nD) : Bd8 m c (Proc.devRef .tc main_arg13) = m ((c : Thread nD τ).loc main_arg13) := (Bd8_of_ne m c main_arg13 (by decide)).trans (Bd7_main_arg13 m c)
theorem Bd9_main_arg13 (c : Dev nD) : Bd9 m c (Proc.devRef .tc main_arg13) = m ((c : Thread nD τ).loc main_arg13) := (Bd9_keep m c main_arg13 (by decide)).trans (Bd8_main_arg13 m c)
theorem Bd10_main_arg13 (c : Dev nD) : Bd10 m c (Proc.devRef .tc main_arg13) = m ((c : Thread nD τ).loc main_arg13) := (Bd10_of_ne m c main_arg13 (by decide)).trans (Bd9_main_arg13 m c)
theorem Bd11_main_arg13 (c : Dev nD) : Bd11 m c (Proc.devRef .tc main_arg13) = m ((c : Thread nD τ).loc main_arg13) := (Bd11_keep m c main_arg13 (by decide)).trans (Bd10_main_arg13 m c)
theorem Bd12_main_arg13 (c : Dev nD) : Bd12 m c (Proc.devRef .tc main_arg13) = m ((c : Thread nD τ).loc main_arg13) := (Bd12_of_ne m c main_arg13 (by decide)).trans (Bd11_main_arg13 m c)
theorem Bd13_main_arg13 (c : Dev nD) : Bd13 m c (Proc.devRef .tc main_arg13) = m ((c : Thread nD τ).loc main_arg13) := (Bd13_keep m c main_arg13 (by decide)).trans (Bd12_main_arg13 m c)
theorem Bd14_main_arg13 (c : Dev nD) : Bd14 m c (Proc.devRef .tc main_arg13) = m ((c : Thread nD τ).loc main_arg13) := (Bd14_of_ne m c main_arg13 (by decide)).trans (Bd13_main_arg13 m c)
theorem Bd15_main_arg13 (c : Dev nD) : Bd15 m c (Proc.devRef .tc main_arg13) = m ((c : Thread nD τ).loc main_arg13) := (Bd15_keep m c main_arg13 (by decide)).trans (Bd14_main_arg13 m c)
theorem Bd16_main_arg13 (c : Dev nD) : Bd16 m c (Proc.devRef .tc main_arg13) = m ((c : Thread nD τ).loc main_arg13) := (Bd16_of_ne m c main_arg13 (by decide)).trans (Bd15_main_arg13 m c)
theorem Bd17_main_arg13 (c : Dev nD) : Bd17 m c (Proc.devRef .tc main_arg13) = m ((c : Thread nD τ).loc main_arg13) := (Bd17_keep m c main_arg13 (by decide)).trans (Bd16_main_arg13 m c)
theorem Bd18_main_arg13 (c : Dev nD) : Bd18 m c (Proc.devRef .tc main_arg13) = m ((c : Thread nD τ).loc main_arg13) := (Bd18_of_ne m c main_arg13 (by decide)).trans (Bd17_main_arg13 m c)

theorem Bd0_main_arg14 (c : Dev nD) : Bd0 m c (Proc.devRef .tc main_arg14) = m ((c : Thread nD τ).loc main_arg14) := rfl
theorem Bd1_main_arg14 (c : Dev nD) : Bd1 m c (Proc.devRef .tc main_arg14) = m ((c : Thread nD τ).loc main_arg14) := (Bd1_keep m c main_arg14 (by decide)).trans (Bd0_main_arg14 m c)
theorem Bd2_main_arg14 (c : Dev nD) : Bd2 m c (Proc.devRef .tc main_arg14) = m ((c : Thread nD τ).loc main_arg14) := (Bd2_keep m c main_arg14 (by decide)).trans (Bd1_main_arg14 m c)
theorem Bd3_main_arg14 (c : Dev nD) : Bd3 m c (Proc.devRef .tc main_arg14) = m ((c : Thread nD τ).loc main_arg14) := (Bd3_keep m c main_arg14 (by decide)).trans (Bd2_main_arg14 m c)
theorem Bd4_main_arg14 (c : Dev nD) : Bd4 m c (Proc.devRef .tc main_arg14) = m ((c : Thread nD τ).loc main_arg14) := (Bd4_of_ne m c main_arg14 (by decide)).trans (Bd3_main_arg14 m c)
theorem Bd5_main_arg14 (c : Dev nD) : Bd5 m c (Proc.devRef .tc main_arg14) = m ((c : Thread nD τ).loc main_arg14) := (Bd5_keep m c main_arg14 (by decide)).trans (Bd4_main_arg14 m c)
theorem Bd6_main_arg14 (c : Dev nD) : Bd6 m c (Proc.devRef .tc main_arg14) = m ((c : Thread nD τ).loc main_arg14) := (Bd6_of_ne m c main_arg14 (by decide)).trans (Bd5_main_arg14 m c)
theorem Bd7_main_arg14 (c : Dev nD) : Bd7 m c (Proc.devRef .tc main_arg14) = m ((c : Thread nD τ).loc main_arg14) := (Bd7_keep m c main_arg14 (by decide)).trans (Bd6_main_arg14 m c)
theorem Bd8_main_arg14 (c : Dev nD) : Bd8 m c (Proc.devRef .tc main_arg14) = m ((c : Thread nD τ).loc main_arg14) := (Bd8_of_ne m c main_arg14 (by decide)).trans (Bd7_main_arg14 m c)
theorem Bd9_main_arg14 (c : Dev nD) : Bd9 m c (Proc.devRef .tc main_arg14) = m ((c : Thread nD τ).loc main_arg14) := (Bd9_keep m c main_arg14 (by decide)).trans (Bd8_main_arg14 m c)
theorem Bd10_main_arg14 (c : Dev nD) : Bd10 m c (Proc.devRef .tc main_arg14) = m ((c : Thread nD τ).loc main_arg14) := (Bd10_of_ne m c main_arg14 (by decide)).trans (Bd9_main_arg14 m c)
theorem Bd11_main_arg14 (c : Dev nD) : Bd11 m c (Proc.devRef .tc main_arg14) = m ((c : Thread nD τ).loc main_arg14) := (Bd11_keep m c main_arg14 (by decide)).trans (Bd10_main_arg14 m c)
theorem Bd12_main_arg14 (c : Dev nD) : Bd12 m c (Proc.devRef .tc main_arg14) = m ((c : Thread nD τ).loc main_arg14) := (Bd12_of_ne m c main_arg14 (by decide)).trans (Bd11_main_arg14 m c)
theorem Bd13_main_arg14 (c : Dev nD) : Bd13 m c (Proc.devRef .tc main_arg14) = m ((c : Thread nD τ).loc main_arg14) := (Bd13_keep m c main_arg14 (by decide)).trans (Bd12_main_arg14 m c)
theorem Bd14_main_arg14 (c : Dev nD) : Bd14 m c (Proc.devRef .tc main_arg14) = m ((c : Thread nD τ).loc main_arg14) := (Bd14_of_ne m c main_arg14 (by decide)).trans (Bd13_main_arg14 m c)
theorem Bd15_main_arg14 (c : Dev nD) : Bd15 m c (Proc.devRef .tc main_arg14) = m ((c : Thread nD τ).loc main_arg14) := (Bd15_keep m c main_arg14 (by decide)).trans (Bd14_main_arg14 m c)
theorem Bd16_main_arg14 (c : Dev nD) : Bd16 m c (Proc.devRef .tc main_arg14) = m ((c : Thread nD τ).loc main_arg14) := (Bd16_of_ne m c main_arg14 (by decide)).trans (Bd15_main_arg14 m c)
theorem Bd17_main_arg14 (c : Dev nD) : Bd17 m c (Proc.devRef .tc main_arg14) = m ((c : Thread nD τ).loc main_arg14) := (Bd17_keep m c main_arg14 (by decide)).trans (Bd16_main_arg14 m c)
theorem Bd18_main_arg14 (c : Dev nD) : Bd18 m c (Proc.devRef .tc main_arg14) = m ((c : Thread nD τ).loc main_arg14) := (Bd18_in3 m c).trans (Bd17_main_arg14 m c)

theorem Bd0_main_arg15 (c : Dev nD) : Bd0 m c (Proc.devRef .tc main_arg15) = m ((c : Thread nD τ).loc main_arg15) := rfl
theorem Bd1_main_arg15 (c : Dev nD) : Bd1 m c (Proc.devRef .tc main_arg15) = m ((c : Thread nD τ).loc main_arg15) := (Bd1_keep m c main_arg15 (by decide)).trans (Bd0_main_arg15 m c)
theorem Bd2_main_arg15 (c : Dev nD) : Bd2 m c (Proc.devRef .tc main_arg15) = m ((c : Thread nD τ).loc main_arg15) := (Bd2_keep m c main_arg15 (by decide)).trans (Bd1_main_arg15 m c)
theorem Bd3_main_arg15 (c : Dev nD) : Bd3 m c (Proc.devRef .tc main_arg15) = m ((c : Thread nD τ).loc main_arg15) := (Bd3_keep m c main_arg15 (by decide)).trans (Bd2_main_arg15 m c)
theorem Bd4_main_arg15 (c : Dev nD) : Bd4 m c (Proc.devRef .tc main_arg15) = m ((c : Thread nD τ).loc main_arg15) := (Bd4_of_ne m c main_arg15 (by decide)).trans (Bd3_main_arg15 m c)
theorem Bd5_main_arg15 (c : Dev nD) : Bd5 m c (Proc.devRef .tc main_arg15) = m ((c : Thread nD τ).loc main_arg15) := (Bd5_keep m c main_arg15 (by decide)).trans (Bd4_main_arg15 m c)
theorem Bd6_main_arg15 (c : Dev nD) : Bd6 m c (Proc.devRef .tc main_arg15) = m ((c : Thread nD τ).loc main_arg15) := (Bd6_of_ne m c main_arg15 (by decide)).trans (Bd5_main_arg15 m c)
theorem Bd7_main_arg15 (c : Dev nD) : Bd7 m c (Proc.devRef .tc main_arg15) = m ((c : Thread nD τ).loc main_arg15) := (Bd7_keep m c main_arg15 (by decide)).trans (Bd6_main_arg15 m c)
theorem Bd8_main_arg15 (c : Dev nD) : Bd8 m c (Proc.devRef .tc main_arg15) = m ((c : Thread nD τ).loc main_arg15) := (Bd8_of_ne m c main_arg15 (by decide)).trans (Bd7_main_arg15 m c)
theorem Bd9_main_arg15 (c : Dev nD) : Bd9 m c (Proc.devRef .tc main_arg15) = m ((c : Thread nD τ).loc main_arg15) := (Bd9_keep m c main_arg15 (by decide)).trans (Bd8_main_arg15 m c)
theorem Bd10_main_arg15 (c : Dev nD) : Bd10 m c (Proc.devRef .tc main_arg15) = m ((c : Thread nD τ).loc main_arg15) := (Bd10_of_ne m c main_arg15 (by decide)).trans (Bd9_main_arg15 m c)
theorem Bd11_main_arg15 (c : Dev nD) : Bd11 m c (Proc.devRef .tc main_arg15) = m ((c : Thread nD τ).loc main_arg15) := (Bd11_keep m c main_arg15 (by decide)).trans (Bd10_main_arg15 m c)
theorem Bd12_main_arg15 (c : Dev nD) : Bd12 m c (Proc.devRef .tc main_arg15) = m ((c : Thread nD τ).loc main_arg15) := (Bd12_of_ne m c main_arg15 (by decide)).trans (Bd11_main_arg15 m c)
theorem Bd13_main_arg15 (c : Dev nD) : Bd13 m c (Proc.devRef .tc main_arg15) = m ((c : Thread nD τ).loc main_arg15) := (Bd13_keep m c main_arg15 (by decide)).trans (Bd12_main_arg15 m c)
theorem Bd14_main_arg15 (c : Dev nD) : Bd14 m c (Proc.devRef .tc main_arg15) = m ((c : Thread nD τ).loc main_arg15) := (Bd14_of_ne m c main_arg15 (by decide)).trans (Bd13_main_arg15 m c)
theorem Bd15_main_arg15 (c : Dev nD) : Bd15 m c (Proc.devRef .tc main_arg15) = m ((c : Thread nD τ).loc main_arg15) := (Bd15_keep m c main_arg15 (by decide)).trans (Bd14_main_arg15 m c)
theorem Bd16_main_arg15 (c : Dev nD) : Bd16 m c (Proc.devRef .tc main_arg15) = m ((c : Thread nD τ).loc main_arg15) := (Bd16_of_ne m c main_arg15 (by decide)).trans (Bd15_main_arg15 m c)
theorem Bd17_main_arg15 (c : Dev nD) : Bd17 m c (Proc.devRef .tc main_arg15) = m ((c : Thread nD τ).loc main_arg15) := (Bd17_keep m c main_arg15 (by decide)).trans (Bd16_main_arg15 m c)
theorem Bd18_main_arg15 (c : Dev nD) : Bd18 m c (Proc.devRef .tc main_arg15) = m ((c : Thread nD τ).loc main_arg15) := (Bd18_of_ne m c main_arg15 (by decide)).trans (Bd17_main_arg15 m c)

theorem Bd0_main_arg16 (c : Dev nD) : Bd0 m c (Proc.devRef .tc main_arg16) = m ((c : Thread nD τ).loc main_arg16) := rfl
theorem Bd1_main_arg16 (c : Dev nD) : Bd1 m c (Proc.devRef .tc main_arg16) = m ((c : Thread nD τ).loc main_arg16) := (Bd1_keep m c main_arg16 (by decide)).trans (Bd0_main_arg16 m c)
theorem Bd2_main_arg16 (c : Dev nD) : Bd2 m c (Proc.devRef .tc main_arg16) = m ((c : Thread nD τ).loc main_arg16) := (Bd2_keep m c main_arg16 (by decide)).trans (Bd1_main_arg16 m c)
theorem Bd3_main_arg16 (c : Dev nD) : Bd3 m c (Proc.devRef .tc main_arg16) = m ((c : Thread nD τ).loc main_arg16) := (Bd3_keep m c main_arg16 (by decide)).trans (Bd2_main_arg16 m c)
theorem Bd4_main_arg16 (c : Dev nD) : Bd4 m c (Proc.devRef .tc main_arg16) = m ((c : Thread nD τ).loc main_arg16) := (Bd4_of_ne m c main_arg16 (by decide)).trans (Bd3_main_arg16 m c)
theorem Bd5_main_arg16 (c : Dev nD) : Bd5 m c (Proc.devRef .tc main_arg16) = m ((c : Thread nD τ).loc main_arg16) := (Bd5_keep m c main_arg16 (by decide)).trans (Bd4_main_arg16 m c)
theorem Bd6_main_arg16 (c : Dev nD) : Bd6 m c (Proc.devRef .tc main_arg16) = m ((c : Thread nD τ).loc main_arg16) := (Bd6_of_ne m c main_arg16 (by decide)).trans (Bd5_main_arg16 m c)
theorem Bd7_main_arg16 (c : Dev nD) : Bd7 m c (Proc.devRef .tc main_arg16) = m ((c : Thread nD τ).loc main_arg16) := (Bd7_keep m c main_arg16 (by decide)).trans (Bd6_main_arg16 m c)
theorem Bd8_main_arg16 (c : Dev nD) : Bd8 m c (Proc.devRef .tc main_arg16) = m ((c : Thread nD τ).loc main_arg16) := (Bd8_of_ne m c main_arg16 (by decide)).trans (Bd7_main_arg16 m c)
theorem Bd9_main_arg16 (c : Dev nD) : Bd9 m c (Proc.devRef .tc main_arg16) = m ((c : Thread nD τ).loc main_arg16) := (Bd9_keep m c main_arg16 (by decide)).trans (Bd8_main_arg16 m c)
theorem Bd10_main_arg16 (c : Dev nD) : Bd10 m c (Proc.devRef .tc main_arg16) = m ((c : Thread nD τ).loc main_arg16) := (Bd10_of_ne m c main_arg16 (by decide)).trans (Bd9_main_arg16 m c)
theorem Bd11_main_arg16 (c : Dev nD) : Bd11 m c (Proc.devRef .tc main_arg16) = m ((c : Thread nD τ).loc main_arg16) := (Bd11_keep m c main_arg16 (by decide)).trans (Bd10_main_arg16 m c)
theorem Bd12_main_arg16 (c : Dev nD) : Bd12 m c (Proc.devRef .tc main_arg16) = m ((c : Thread nD τ).loc main_arg16) := (Bd12_of_ne m c main_arg16 (by decide)).trans (Bd11_main_arg16 m c)
theorem Bd13_main_arg16 (c : Dev nD) : Bd13 m c (Proc.devRef .tc main_arg16) = m ((c : Thread nD τ).loc main_arg16) := (Bd13_keep m c main_arg16 (by decide)).trans (Bd12_main_arg16 m c)
theorem Bd14_main_arg16 (c : Dev nD) : Bd14 m c (Proc.devRef .tc main_arg16) = m ((c : Thread nD τ).loc main_arg16) := (Bd14_of_ne m c main_arg16 (by decide)).trans (Bd13_main_arg16 m c)
theorem Bd15_main_arg16 (c : Dev nD) : Bd15 m c (Proc.devRef .tc main_arg16) = m ((c : Thread nD τ).loc main_arg16) := (Bd15_keep m c main_arg16 (by decide)).trans (Bd14_main_arg16 m c)
theorem Bd16_main_arg16 (c : Dev nD) : Bd16 m c (Proc.devRef .tc main_arg16) = m ((c : Thread nD τ).loc main_arg16) := (Bd16_of_ne m c main_arg16 (by decide)).trans (Bd15_main_arg16 m c)
theorem Bd17_main_arg16 (c : Dev nD) : Bd17 m c (Proc.devRef .tc main_arg16) = m ((c : Thread nD τ).loc main_arg16) := (Bd17_keep m c main_arg16 (by decide)).trans (Bd16_main_arg16 m c)
theorem Bd18_main_arg16 (c : Dev nD) : Bd18 m c (Proc.devRef .tc main_arg16) = m ((c : Thread nD τ).loc main_arg16) := (Bd18_in5 m c).trans (Bd17_main_arg16 m c)

theorem Bd0_main_arg17 (c : Dev nD) : Bd0 m c (Proc.devRef .tc main_arg17) = m ((c : Thread nD τ).loc main_arg17) := rfl
theorem Bd1_main_arg17 (c : Dev nD) : Bd1 m c (Proc.devRef .tc main_arg17) = m ((c : Thread nD τ).loc main_arg17) := (Bd1_keep m c main_arg17 (by decide)).trans (Bd0_main_arg17 m c)
theorem Bd2_main_arg17 (c : Dev nD) : Bd2 m c (Proc.devRef .tc main_arg17) = m ((c : Thread nD τ).loc main_arg17) := (Bd2_keep m c main_arg17 (by decide)).trans (Bd1_main_arg17 m c)
theorem Bd3_main_arg17 (c : Dev nD) : Bd3 m c (Proc.devRef .tc main_arg17) = m ((c : Thread nD τ).loc main_arg17) := (Bd3_keep m c main_arg17 (by decide)).trans (Bd2_main_arg17 m c)
theorem Bd4_main_arg17 (c : Dev nD) : Bd4 m c (Proc.devRef .tc main_arg17) = m ((c : Thread nD τ).loc main_arg17) := (Bd4_of_ne m c main_arg17 (by decide)).trans (Bd3_main_arg17 m c)
theorem Bd5_main_arg17 (c : Dev nD) : Bd5 m c (Proc.devRef .tc main_arg17) = m ((c : Thread nD τ).loc main_arg17) := (Bd5_keep m c main_arg17 (by decide)).trans (Bd4_main_arg17 m c)
theorem Bd6_main_arg17 (c : Dev nD) : Bd6 m c (Proc.devRef .tc main_arg17) = m ((c : Thread nD τ).loc main_arg17) := (Bd6_of_ne m c main_arg17 (by decide)).trans (Bd5_main_arg17 m c)
theorem Bd7_main_arg17 (c : Dev nD) : Bd7 m c (Proc.devRef .tc main_arg17) = m ((c : Thread nD τ).loc main_arg17) := (Bd7_keep m c main_arg17 (by decide)).trans (Bd6_main_arg17 m c)
theorem Bd8_main_arg17 (c : Dev nD) : Bd8 m c (Proc.devRef .tc main_arg17) = m ((c : Thread nD τ).loc main_arg17) := (Bd8_of_ne m c main_arg17 (by decide)).trans (Bd7_main_arg17 m c)
theorem Bd9_main_arg17 (c : Dev nD) : Bd9 m c (Proc.devRef .tc main_arg17) = m ((c : Thread nD τ).loc main_arg17) := (Bd9_keep m c main_arg17 (by decide)).trans (Bd8_main_arg17 m c)
theorem Bd10_main_arg17 (c : Dev nD) : Bd10 m c (Proc.devRef .tc main_arg17) = m ((c : Thread nD τ).loc main_arg17) := (Bd10_of_ne m c main_arg17 (by decide)).trans (Bd9_main_arg17 m c)
theorem Bd11_main_arg17 (c : Dev nD) : Bd11 m c (Proc.devRef .tc main_arg17) = m ((c : Thread nD τ).loc main_arg17) := (Bd11_keep m c main_arg17 (by decide)).trans (Bd10_main_arg17 m c)
theorem Bd12_main_arg17 (c : Dev nD) : Bd12 m c (Proc.devRef .tc main_arg17) = m ((c : Thread nD τ).loc main_arg17) := (Bd12_of_ne m c main_arg17 (by decide)).trans (Bd11_main_arg17 m c)
theorem Bd13_main_arg17 (c : Dev nD) : Bd13 m c (Proc.devRef .tc main_arg17) = m ((c : Thread nD τ).loc main_arg17) := (Bd13_keep m c main_arg17 (by decide)).trans (Bd12_main_arg17 m c)
theorem Bd14_main_arg17 (c : Dev nD) : Bd14 m c (Proc.devRef .tc main_arg17) = m ((c : Thread nD τ).loc main_arg17) := (Bd14_of_ne m c main_arg17 (by decide)).trans (Bd13_main_arg17 m c)
theorem Bd15_main_arg17 (c : Dev nD) : Bd15 m c (Proc.devRef .tc main_arg17) = m ((c : Thread nD τ).loc main_arg17) := (Bd15_keep m c main_arg17 (by decide)).trans (Bd14_main_arg17 m c)
theorem Bd16_main_arg17 (c : Dev nD) : Bd16 m c (Proc.devRef .tc main_arg17) = m ((c : Thread nD τ).loc main_arg17) := (Bd16_of_ne m c main_arg17 (by decide)).trans (Bd15_main_arg17 m c)
theorem Bd17_main_arg17 (c : Dev nD) : Bd17 m c (Proc.devRef .tc main_arg17) = m ((c : Thread nD τ).loc main_arg17) := (Bd17_keep m c main_arg17 (by decide)).trans (Bd16_main_arg17 m c)
theorem Bd18_main_arg17 (c : Dev nD) : Bd18 m c (Proc.devRef .tc main_arg17) = m ((c : Thread nD τ).loc main_arg17) := (Bd18_of_ne m c main_arg17 (by decide)).trans (Bd17_main_arg17 m c)

/-! The edge lists with self loops (written by the first stretch) and the per-edge weights (written by the third) keep
    their contents up to the last aggregation: no later item writes them. -/
theorem Bd2_main_v3 (c : Dev nD) : Bd2 m c (Proc.devRef .tc main_v3) = Bd1 m c (Proc.devRef .tc main_v3) := Bd2_keep m c main_v3 (by decide)
theorem Bd3_main_v3 (c : Dev nD) : Bd3 m c (Proc.devRef .tc main_v3) = Bd1 m c (Proc.devRef .tc main_v3) := (Bd3_keep m c main_v3 (by decide)).trans (Bd2_main_v3 m c)
theorem Bd4_main_v3 (c : Dev nD) : Bd4 m c (Proc.devRef .tc main_v3) = Bd1 m c (Proc.devRef .tc main_v3) := (Bd4_of_ne m c main_v3 (by decide)).trans (Bd3_main_v3 m c)
theorem Bd5_main_v3 (c : Dev nD) : Bd5 m c (Proc.devRef .tc main_v3) = Bd1 m c (Proc.devRef .tc main_v3) := (Bd5_keep m c main_v3 (by decide)).trans (Bd4_main_v3 m c)
theorem Bd6_main_v3 (c : Dev nD) : Bd6 m c (Proc.devRef .tc main_v3) = Bd1 m c (Proc.devRef .tc main_v3) := (Bd6_of_ne m c main_v3 (by decide)).trans (Bd5_main_v3 m c)
theorem Bd7_main_v3 (c : Dev nD) : Bd7 m c (Proc.devRef .tc main_v3) = Bd1 m c (Proc.devRef .tc main_v3) := (Bd7_keep m c main_v3 (by decide)).trans (Bd6_main_v3 m c)
theorem Bd8_main_v3 (c : Dev nD) : Bd8 m c (Proc.devRef .tc main_v3) = Bd1 m c (Proc.devRef .tc main_v3) := (Bd8_of_ne m c main_v3 (by decide)).trans (Bd7_main_v3 m c)
theorem Bd9_main_v3 (c : Dev nD) : Bd9 m c (Proc.devRef .tc main_v3) = Bd1 m c (Proc.devRef .tc main_v3) := (Bd9_keep m c main_v3 (by decide)).trans (Bd8_main_v3 m c)
theorem Bd10_main_v3 (c : Dev nD) : Bd10 m c (Proc.devRef .tc main_v3) = Bd1 m c (Proc.devRef .tc main_v3) := (Bd10_of_ne m c main_v3 (by decide)).trans (Bd9_main_v3 m c)
theorem Bd11_main_v3 (c : Dev nD) : Bd11 m c (Proc.devRef .tc main_v3) = Bd1 m c (Proc.devRef .tc main_v3) := (Bd11_keep m c main_v3 (by decide)).trans (Bd10_main_v3 m c)
theorem Bd12_main_v3 (c : Dev nD) : Bd12 m c (Proc.devRef .tc main_v3) = Bd1 m c (Proc.devRef .tc main_v3) := (Bd12_of_ne m c main_v3 (by decide)).trans (Bd11_main_v3 m c)
theorem Bd13_main_v3 (c : Dev nD) : Bd13 m c (Proc.devRef .tc main_v3) = Bd1 m c (Proc.devRef .tc main_v3) := (Bd13_keep m c main_v3 (by decide)).trans (Bd12_main_v3 m c)
theorem Bd14_main_v3 (c : Dev nD) : Bd14 m c (Proc.devRef .tc main_v3) = Bd1 m c (Proc.devRef .tc main_v3) := (Bd14_of_ne m c main_v3 (by decide)).trans (Bd13_main_v3 m c)
theorem Bd2_main_v6 (c : Dev nD) : Bd2 m c (Proc.devRef .tc main_v6) = Bd1 m c (Proc.devRef .tc main_v6) := Bd2_keep m c main_v6 (by decide)
theorem Bd3_main_v6 (c : Dev nD) : Bd3 m c (Proc.devRef .tc main_v6) = Bd1 m c (Proc.devRef .tc main_v6) := (Bd3_keep m c main_v6 (by decide)).trans (Bd2_main_v6 m c)
theorem Bd4_main_v6 (c : Dev nD) : Bd4 m c (Proc.devRef .tc main_v6) = Bd1 m c (Proc.devRef .tc main_v6) := (Bd4_of_ne m c main_v6 (by decide)).trans (Bd3_main_v6 m c)
theorem Bd5_main_v6 (c : Dev nD) : Bd5 m c (Proc.devRef .tc main_v6) = Bd1 m c (Proc.devRef .tc main_v6) := (Bd5_keep m c main_v6 (by decide)).trans (Bd4_main_v6 m c)
theorem Bd6_main_v6 (c : Dev nD) : Bd6 m c (Proc.devRef .tc main_v6) = Bd1 m c (Proc.devRef .tc main_v6) := (Bd6_of_ne m c main_v6 (by decide)).trans (Bd5_main_v6 m c)
theorem Bd7_main_v6 (c : Dev nD) : Bd7 m c (Proc.devRef .tc main_v6) = Bd1 m c (Proc.devRef .tc main_v6) := (Bd7_keep m c main_v6 (by decide)).trans (Bd6_main_v6 m c)
theorem Bd8_main_v6 (c : Dev nD) : Bd8 m c (Proc.devRef .tc main_v6) = Bd1 m c (Proc.devRef .tc main_v6) := (Bd8_of_ne m c main_v6 (by decide)).trans (Bd7_main_v6 m c)
theorem Bd9_main_v6 (c : Dev nD) : Bd9 m c (Proc.devRef .tc main_v6) = Bd1 m c (Proc.devRef .tc main_v6) := (Bd9_keep m c main_v6 (by decide)).trans (Bd8_main_v6 m c)
theorem Bd10_main_v6 (c : Dev nD) : Bd10 m c (Proc.devRef .tc main_v6) = Bd1 m c (Proc.devRef .tc main_v6) := (Bd10_of_ne m c main_v6 (by decide)).trans (Bd9_main_v6 m c)
theorem Bd11_main_v6 (c : Dev nD) : Bd11 m c (Proc.devRef .tc main_v6) = Bd1 m c (Proc.devRef .tc main_v6) := (Bd11_keep m c main_v6 (by decide)).trans (Bd10_main_v6 m c)
theorem Bd12_main_v6 (c : Dev nD) : Bd12 m c (Proc.devRef .tc main_v6) = Bd1 m c (Proc.devRef .tc main_v6) := (Bd12_of_ne m c main_v6 (by decide)).trans (Bd11_main_v6 m c)
theorem Bd13_main_v6 (c : Dev nD) : Bd13 m c (Proc.devRef .tc main_v6) = Bd1 m c (Proc.devRef .tc main_v6) := (Bd13_keep m c main_v6 (by decide)).trans (Bd12_main_v6 m c)
theorem Bd14_main_v6 (c : Dev nD) : Bd14 m c (Proc.devRef .tc main_v6) = Bd1 m c (Proc.devRef .tc main_v6) := (Bd14_of_ne m c main_v6 (by decide)).trans (Bd13_main_v6 m c)
theorem Bd4_main_v29 (c : Dev nD) : Bd4 m c (Proc.devRef .tc main_v29) = Bd3 m c (Proc.devRef .tc main_v29) := Bd4_of_ne m c main_v29 (by decide)
theorem Bd5_main_v29 (c : Dev nD) : Bd5 m c (Proc.devRef .tc main_v29) = Bd3 m c (Proc.devRef .tc main_v29) := (Bd5_keep m c main_v29 (by decide)).trans (Bd4_main_v29 m c)
theorem Bd6_main_v29 (c : Dev nD) : Bd6 m c (Proc.devRef .tc main_v29) = Bd3 m c (Proc.devRef .tc main_v29) := (Bd6_of_ne m c main_v29 (by decide)).trans (Bd5_main_v29 m c)
theorem Bd7_main_v29 (c : Dev nD) : Bd7 m c (Proc.devRef .tc main_v29) = Bd3 m c (Proc.devRef .tc main_v29) := (Bd7_keep m c main_v29 (by decide)).trans (Bd6_main_v29 m c)
theorem Bd8_main_v29 (c : Dev nD) : Bd8 m c (Proc.devRef .tc main_v29) = Bd3 m c (Proc.devRef .tc main_v29) := (Bd8_of_ne m c main_v29 (by decide)).trans (Bd7_main_v29 m c)
theorem Bd9_main_v29 (c : Dev nD) : Bd9 m c (Proc.devRef .tc main_v29) = Bd3 m c (Proc.devRef .tc main_v29) := (Bd9_keep m c main_v29 (by decide)).trans (Bd8_main_v29 m c)
theorem Bd10_main_v29 (c : Dev nD) : Bd10 m c (Proc.devRef .tc main_v29) = Bd3 m c (Proc.devRef .tc main_v29) := (Bd10_of_ne m c main_v29 (by decide)).trans (Bd9_main_v29 m c)
theorem Bd11_main_v29 (c : Dev nD) : Bd11 m c (Proc.devRef .tc main_v29) = Bd3 m c (Proc.devRef .tc main_v29) := (Bd11_keep m c main_v29 (by decide)).trans (Bd10_main_v29 m c)
theorem Bd12_main_v29 (c : Dev nD) : Bd12 m c (Proc.devRef .tc main_v29) = Bd3 m c (Proc.devRef .tc main_v29) := (Bd12_of_ne m c main_v29 (by decide)).trans (Bd11_main_v29 m c)
theorem Bd13_main_v29 (c : Dev nD) : Bd13 m c (Proc.devRef .tc main_v29) = Bd3 m c (Proc.devRef .tc main_v29) := (Bd13_keep m c main_v29 (by decide)).trans (Bd12_main_v29 m c)
theorem Bd14_main_v29 (c : Dev nD) : Bd14 m c (Proc.devRef .tc main_v29) = Bd3 m c (Proc.devRef .tc main_v29) := (Bd14_of_ne m c main_v29 (by decide)).trans (Bd13_main_v29 m c)

end Cert.KernelIdeal.Frm

end
-- ==== Proof.KI.Run.lean ====
/-
  The launch of @main as 18 items — ten stretches of host operations and the eight regions — over the thread state
  "every unscoped buffer at the boundary's contents, the generator register at some state, nothing owed". Each region's
  arrays are split out of the unscoped buffers at its entry and put back at its exit contents; its body obligation is
  the region module's. The run ends with every unscoped buffer at the last boundary's contents, from which the frame
  (the arguments as launched) and the result array are read.
-/
import proofs.«137698_j16329465660189_1_alg».proof.Proof.KI.Walk

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No pipeline has a prefetched table. -/
abbrev admF : (p : Fin 8) → (pcfgs (F := F) p).Adm := fun p => (cfgs p).toPCfg_adm
/-- Every pipeline's proof data, each at its region's entry contents. -/
def pdatsF : (p : Fin 8) → (c : Dev nD) → Dat τ (Elt F) Unit ℕ (UR sig nD τ) ℕ (Pipeline.pin (pcfgs (F := F)) admF p) c
  | ⟨0, _⟩ => fun c => dat0 (Bv3 m) c
  | ⟨1, _⟩ => fun c => dat1 (Bv5 m) c
  | ⟨2, _⟩ => fun c => dat2 (Bv7 m) c
  | ⟨3, _⟩ => fun c => dat3 (Bv9 m) c
  | ⟨4, _⟩ => fun c => dat4 (Bv11 m) c
  | ⟨5, _⟩ => fun c => dat5 (Bv13 m) c
  | ⟨6, _⟩ => fun c => dat6 (Bv15 m) c
  | ⟨7, _⟩ => fun c => dat7 (Bv17 m) c
abbrev 𝒱F : Variants := Variants.none
abbrev LF : GSem nD τ sig → Finset Unit := fun _ => ∅
abbrev lvF : GSem nD τ sig → Unit → ℕ := fun _ _ => 0
/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)
/-- A host stretch as an item over the unscoped references from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TnF (c : Dev nD) : sProp 𝕄 := iprop(StableHlo.held (c : Thread nD τ) (Pipeline.ucRefs τ sig) (Bd18 m c) ∗ ∃ r, prngReg c r)

set_option backward.isDefEq.respectTransparency.types false in
/-- Region 0 over the thread state: entered from every unscoped buffer at boundary 3's contents, left at boundary 4's. -/
def reg0 : Pipeline.RegionSeg (pcfgs (F := F)) admF (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (Bv3 m) c).loose
  hwaits := Pipeline.hwaits_of_owed_zero _ _ _ _ LF lvF 0 fun _ _ => rfl
  pre c := iprop(StableHlo.held (c : Thread nD τ) (Pipeline.ucRefs τ sig) (Bd3 m c) ∗ Rst c)
  post c := iprop(StableHlo.held (c : Thread nD τ) (Pipeline.ucRefs τ sig) (Bd4 m c) ∗ Rst c)
  X c := iprop(∃ r, prngReg c r)
  Y c := iprop(∃ r, prngReg c r)
  Z c := Pipeline.unscopedRest (Ix := Unit) (Name := ℕ) (U := UR sig nD τ) (Lvl := ℕ) spec0 c (Bv3 m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (Bv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (Bv3 m c) (Bv4 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 5's contents, left at boundary 6's. -/
def reg1 : Pipeline.RegionSeg (pcfgs (F := F)) admF (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (Bv5 m) c).loose
  hwaits := Pipeline.hwaits_of_owed_zero _ _ _ _ LF lvF 1 fun _ _ => rfl
  pre c := iprop(StableHlo.held (c : Thread nD τ) (Pipeline.ucRefs τ sig) (Bd5 m c) ∗ Rst c)
  post c := iprop(StableHlo.held (c : Thread nD τ) (Pipeline.ucRefs τ sig) (Bd6 m c) ∗ Rst c)
  X c := iprop(∃ r, prngReg c r)
  Y c := iprop(∃ r, prngReg c r)
  Z c := Pipeline.unscopedRest (Ix := Unit) (Name := ℕ) (U := UR sig nD τ) (Lvl := ℕ) spec1 c (Bv5 m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (Bv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (Bv5 m c) (Bv6 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 7's contents, left at boundary 8's. -/
def reg2 : Pipeline.RegionSeg (pcfgs (F := F)) admF (pdatsF m) () defs₀ 𝒱F LF lvF 2 where
  win := launch2.win.to₀
  block_pos := launch2.block_pos
  stage_whole := launch2.stage_whole
  K := PEmpty
  osem k := k.elim
  ho := Pipeline.OwnSemFacts.none _
  hbody c := (body_obligation2 (Bv7 m) c).loose
  hwaits := Pipeline.hwaits_of_owed_zero _ _ _ _ LF lvF 2 fun _ _ => rfl
  pre c := iprop(StableHlo.held (c : Thread nD τ) (Pipeline.ucRefs τ sig) (Bd7 m c) ∗ Rst c)
  post c := iprop(StableHlo.held (c : Thread nD τ) (Pipeline.ucRefs τ sig) (Bd8 m c) ∗ Rst c)
  X c := iprop(∃ r, prngReg c r)
  Y c := iprop(∃ r, prngReg c r)
  Z c := Pipeline.unscopedRest (Ix := Unit) (Name := ℕ) (U := UR sig nD τ) (Lvl := ℕ) spec2 c (Bv7 m c)
  hentry c := by
    rw [Pipeline.ownSems0_none]
    have hsplit := Pipeline.arrays_of_unscopedBufs (p := 2) (pcfgs (F := F)) admF (pdatsF m) launch2.win launch2.arr_whole c
      ((pdatsF m 2 c).share_full fun _ => rfl) (Bv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m) ((pdatsF m 2 c).share_full fun _ => rfl)
      (Bv7 m c) (Bv8 m c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 9's contents, left at boundary 10's. -/
def reg3 : Pipeline.RegionSeg (pcfgs (F := F)) admF (pdatsF m) () defs₀ 𝒱F LF lvF 3 where
  win := launch3.win.to₀
  block_pos := launch3.block_pos
  stage_whole := launch3.stage_whole
  K := PEmpty
  osem k := k.elim
  ho := Pipeline.OwnSemFacts.none _
  hbody c := (body_obligation3 (Bv9 m) c).loose
  hwaits := Pipeline.hwaits_of_owed_zero _ _ _ _ LF lvF 3 fun _ _ => rfl
  pre c := iprop(StableHlo.held (c : Thread nD τ) (Pipeline.ucRefs τ sig) (Bd9 m c) ∗ Rst c)
  post c := iprop(StableHlo.held (c : Thread nD τ) (Pipeline.ucRefs τ sig) (Bd10 m c) ∗ Rst c)
  X c := iprop(∃ r, prngReg c r)
  Y c := iprop(∃ r, prngReg c r)
  Z c := Pipeline.unscopedRest (Ix := Unit) (Name := ℕ) (U := UR sig nD τ) (Lvl := ℕ) spec3 c (Bv9 m c)
  hentry c := by
    rw [Pipeline.ownSems0_none]
    have hsplit := Pipeline.arrays_of_unscopedBufs (p := 3) (pcfgs (F := F)) admF (pdatsF m) launch3.win launch3.arr_whole c
      ((pdatsF m 3 c).share_full fun _ => rfl) (Bv9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m) ((pdatsF m 3 c).share_full fun _ => rfl)
      (Bv9 m c) (Bv10 m c) ((pdatsF m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 11's contents, left at boundary 12's. -/
def reg4 : Pipeline.RegionSeg (pcfgs (F := F)) admF (pdatsF m) () defs₀ 𝒱F LF lvF 4 where
  win := launch4.win.to₀
  block_pos := launch4.block_pos
  stage_whole := launch4.stage_whole
  K := PEmpty
  osem k := k.elim
  ho := Pipeline.OwnSemFacts.none _
  hbody c := (body_obligation4 (Bv11 m) c).loose
  hwaits := Pipeline.hwaits_of_owed_zero _ _ _ _ LF lvF 4 fun _ _ => rfl
  pre c := iprop(StableHlo.held (c : Thread nD τ) (Pipeline.ucRefs τ sig) (Bd11 m c) ∗ Rst c)
  post c := iprop(StableHlo.held (c : Thread nD τ) (Pipeline.ucRefs τ sig) (Bd12 m c) ∗ Rst c)
  X c := iprop(∃ r, prngReg c r)
  Y c := iprop(∃ r, prngReg c r)
  Z c := Pipeline.unscopedRest (Ix := Unit) (Name := ℕ) (U := UR sig nD τ) (Lvl := ℕ) spec4 c (Bv11 m c)
  hentry c := by
    rw [Pipeline.ownSems0_none]
    have hsplit := Pipeline.arrays_of_unscopedBufs (p := 4) (pcfgs (F := F)) admF (pdatsF m) launch4.win launch4.arr_whole c
      ((pdatsF m 4 c).share_full fun _ => rfl) (Bv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admF (Ix := Unit) (Name := ℕ) (U := UR sig nD τ) (Lvl := ℕ)
      launch4.win launch4.arr_whole c (pdatsF m) ((pdatsF m 4 c).share_full fun _ => rfl)
      (Bv11 m c) (Bv12 m c) ((pdatsF m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 13's contents, left at boundary 14's. -/
def reg5 : Pipeline.RegionSeg (pcfgs (F := F)) admF (pdatsF m) () defs₀ 𝒱F LF lvF 5 where
  win := launch5.win.to₀
  block_pos := launch5.block_pos
  stage_whole := launch5.stage_whole
  K := PEmpty
  osem k := k.elim
  ho := Pipeline.OwnSemFacts.none _
  hbody c := (body_obligation5 (Bv13 m) c).loose
  hwaits := Pipeline.hwaits_of_owed_zero _ _ _ _ LF lvF 5 fun _ _ => rfl
  pre c := iprop(StableHlo.held (c : Thread nD τ) (Pipeline.ucRefs τ sig) (Bd13 m c) ∗ Rst c)
  post c := iprop(StableHlo.held (c : Thread nD τ) (Pipeline.ucRefs τ sig) (Bd14 m c) ∗ Rst c)
  X c := iprop(∃ r, prngReg c r)
  Y c := iprop(∃ r, prngReg c r)
  Z c := Pipeline.unscopedRest (Ix := Unit) (Name := ℕ) (U := UR sig nD τ) (Lvl := ℕ) spec5 c (Bv13 m c)
  hentry c := by
    rw [Pipeline.ownSems0_none]
    have hsplit := Pipeline.arrays_of_unscopedBufs (p := 5) (pcfgs (F := F)) admF (pdatsF m) launch5.win launch5.arr_whole c
      ((pdatsF m 5 c).share_full fun _ => rfl) (Bv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m) ((pdatsF m 5 c).share_full fun _ => rfl)
      (Bv13 m c) (Bv14 m c) ((pdatsF m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 15's contents, left at boundary 16's. -/
def reg6 : Pipeline.RegionSeg (pcfgs (F := F)) admF (pdatsF m) () defs₀ 𝒱F LF lvF 6 where
  win := launch6.win.to₀
  block_pos := launch6.block_pos
  stage_whole := launch6.stage_whole
  K := PEmpty
  osem k := k.elim
  ho := Pipeline.OwnSemFacts.none _
  hbody c := (body_obligation6 (Bv15 m) c).loose
  hwaits := Pipeline.hwaits_of_owed_zero _ _ _ _ LF lvF 6 fun _ _ => rfl
  pre c := iprop(StableHlo.held (c : Thread nD τ) (Pipeline.ucRefs τ sig) (Bd15 m c) ∗ Rst c)
  post c := iprop(StableHlo.held (c : Thread nD τ) (Pipeline.ucRefs τ sig) (Bd16 m c) ∗ Rst c)
  X c := iprop(∃ r, prngReg c r)
  Y c := iprop(∃ r, prngReg c r)
  Z c := Pipeline.unscopedRest (Ix := Unit) (Name := ℕ) (U := UR sig nD τ) (Lvl := ℕ) spec6 c (Bv15 m c)
  hentry c := by
    rw [Pipeline.ownSems0_none]
    have hsplit := Pipeline.arrays_of_unscopedBufs (p := 6) (pcfgs (F := F)) admF (pdatsF m) launch6.win launch6.arr_whole c
      ((pdatsF m 6 c).share_full fun _ => rfl) (Bv15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m) ((pdatsF m 6 c).share_full fun _ => rfl)
      (Bv15 m c) (Bv16 m c) ((pdatsF m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at boundary 17's contents, left at boundary 18's. -/
def reg7 : Pipeline.RegionSeg (pcfgs (F := F)) admF (pdatsF m) () defs₀ 𝒱F LF lvF 7 where
  win := launch7.win.to₀
  block_pos := launch7.block_pos
  stage_whole := launch7.stage_whole
  K := PEmpty
  osem k := k.elim
  ho := Pipeline.OwnSemFacts.none _
  hbody c := (body_obligation7 (Bv17 m) c).loose
  hwaits := Pipeline.hwaits_of_owed_zero _ _ _ _ LF lvF 7 fun _ _ => rfl
  pre c := iprop(StableHlo.held (c : Thread nD τ) (Pipeline.ucRefs τ sig) (Bd17 m c) ∗ Rst c)
  post c := iprop(TnF m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (Bv17 m c)
  hentry c := by
    rw [Pipeline.ownSems0_none]
    have hsplit := Pipeline.arrays_of_unscopedBufs (p := 7) (pcfgs (F := F)) admF (pdatsF m) launch7.win launch7.arr_whole c
      ((pdatsF m 7 c).share_full fun _ => rfl) (Bv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsF m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admF (Ix := Unit) (Name := ℕ) (U := UR sig nD τ) (Lvl := ℕ)
      launch7.win launch7.arr_whole c (pdatsF m) ((pdatsF m 7 c).share_full fun _ => rfl)
      (Bv17 m c) (Bv18 m c) ((pdatsF m 7 c).arrAt · cfg7.N) (hF7 m c) (hrest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's 18 items in order. -/
abbrev segsF : List (Pipeline.Seg (pcfgs (F := F)) admF (pdatsF m) () defs₀ 𝒱F LF lvF) :=
  [ .host (hsegF hostOps0 hostOps0_sub hostOps0_fresh (Bd0 m)),
    .host (hsegF hostOps0_1 hostOps0_1_sub hostOps0_1_fresh (Bd1 m)),
    .host (hsegF hostOps0_2 hostOps0_2_sub hostOps0_2_fresh (Bd2 m)),
    .region (reg0 m),
    .host (hsegF hostOps1 hostOps1_sub hostOps1_fresh (Bd4 m)),
    .region (reg1 m),
    .host (hsegF hostOps2 hostOps2_sub hostOps2_fresh (Bd6 m)),
    .region (reg2 m),
    .host (hsegF hostOps3 hostOps3_sub hostOps3_fresh (Bd8 m)),
    .region (reg3 m),
    .host (hsegF hostOps4 hostOps4_sub hostOps4_fresh (Bd10 m)),
    .region (reg4 m),
    .host (hsegF hostOps5 hostOps5_sub hostOps5_fresh (Bd12 m)),
    .region (reg5 m),
    .host (hsegF hostOps6 hostOps6_sub hostOps6_fresh (Bd14 m)),
    .region (reg6 m),
    .host (hsegF hostOps7 hostOps7_sub hostOps7_fresh (Bd16 m)),
    .region (reg7 m) ]
/-- @main is the run of the items. -/
theorem main_run (c : Dev nD) : main (F := F) c = Pipeline.Seg.run (segsF m) := (main_chain c).trans (by chain_rfl)

set_option backward.isDefEq.respectTransparency.types false in
/-- From any memory with zero counters every weakly fair execution of @main on the TensorCores terminates, nothing
    faulting, and the final state holds every unscoped buffer at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd18 m c b) :=
  Pipeline.θ_run_regions_kit (pcfgs (F := F)) admF (pdatsF m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rst c)) (Tₙ := TnF m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd18 m c b)
    (hfin := fun c s' => by
      iintro ⟨⟨Hh, -⟩, HSI⟩
      unfold StableHlo.held
      imodintro
      iapply (pointsTo_read_all (Pipeline.ucRefs τ sig) (fun b => (((c : Thread nD τ)).1, b)) (Bd18 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (Bd18_main_arg0 m c),
    (h c _ (mem_uc main_arg1 (by decide))).trans (Bd18_main_arg1 m c),
    (h c _ (mem_uc main_arg2 (by decide))).trans (Bd18_main_arg2 m c),
    (h c _ (mem_uc main_arg3 (by decide))).trans (Bd18_main_arg3 m c),
    (h c _ (mem_uc main_arg4 (by decide))).trans (Bd18_main_arg4 m c),
    (h c _ (mem_uc main_arg5 (by decide))).trans (Bd18_main_arg5 m c),
    (h c _ (mem_uc main_arg6 (by decide))).trans (Bd18_main_arg6 m c),
    (h c _ (mem_uc main_arg7 (by decide))).trans (Bd18_main_arg7 m c),
    (h c _ (mem_uc main_arg8 (by decide))).trans (Bd18_main_arg8 m c),
    (h c _ (mem_uc main_arg9 (by decide))).trans (Bd18_main_arg9 m c),
    (h c _ (mem_uc main_arg10 (by decide))).trans (Bd18_main_arg10 m c),
    (h c _ (mem_uc main_arg11 (by decide))).trans (Bd18_main_arg11 m c),
    (h c _ (mem_uc main_arg12 (by decide))).trans (Bd18_main_arg12 m c),
    (h c _ (mem_uc main_arg13 (by decide))).trans (Bd18_main_arg13 m c),
    (h c _ (mem_uc main_arg14 (by decide))).trans (Bd18_main_arg14 m c),
    (h c _ (mem_uc main_arg15 (by decide))).trans (Bd18_main_arg15 m c),
    (h c _ (mem_uc main_arg16 (by decide))).trans (Bd18_main_arg16 m c),
    (h c _ (mem_uc main_arg17 (by decide))).trans (Bd18_main_arg17 m c)⟩) (run m ρ)

end Cert.KernelIdeal.Frm

end
-- ==== Proof.Entry.lean ====
/-
  The four row-local formulas the network is built from, each the value of ONE output entry as a function of the
  entries of one input row and of the weights. Every entry of every stage of the network is one of these four,
  whichever way the rows are cut into blocks:

  * the embedding layer: a row of 64 features times a 64 × 128 weight matrix, plus a bias;
  * a convolution's dense map: a row of 128 features times a 128 × 128 weight matrix;
  * a normalisation followed by a rectifier: one entry, shifted by a bias and a mean, scaled by the reciprocal
    square root of a variance plus a small constant and by a gain, shifted again, and cut off below at zero;
  * the three-layer perceptron on a row of 288 pair features, down to one number.

  Sums are exact sums of extended reals, in the order of the index type; no product is re-associated.
-/
import Mathlib.Algebra.BigOperators.Fin
import Idealize.ShloMosaic.PureOps.Ideal
import Idealize.ShloMosaic.PureOps.Ideal.Laws

noncomputable section

open scoped BigOperators

namespace Cert.Entry

open Idealize.ShloMosaic

/-- Entry `q` of the embedding of one row: the row times column `q` of the weights, plus the bias at `q`. -/
def dense0At (xrow : Fin 64 → EReal) (W : Fin 64 → Fin 128 → EReal) (b : Fin 128 → EReal) (q : Fin 128) : EReal :=
  (∑ c, xrow c * W c q) + b q

/-- Entry `q` of a row of 128 features times a 128 × 128 weight matrix. -/
def mmAt (xrow : Fin 128 → EReal) (W : Fin 128 → Fin 128 → EReal) (q : Fin 128) : EReal :=
  ∑ c, xrow c * W c q

/-- One normalised and rectified entry: `max ((((a + b) - mean) * rsqrt (var + eps)) * gamma + beta) 0`, with the
    operations grouped exactly so. The small constant `eps` added to the variance is the single-precision number nearest
    to one hundred-thousandth, kept as its word. -/
def bnAt (a b var mean gamma beta : EReal) : EReal :=
  max ((((a + b) - mean) * Ideal.rsqrt (var + Ideal.ofBits .f32 0x3727C5AC#32)) * gamma + beta) 0

/-- The perceptron on one row of 288 features: two rectified dense layers (288 → 128 → 64) and a last dense layer
    down to one number. -/
def mlpAt (zrow : Fin 288 → EReal) (W1 : Fin 288 → Fin 128 → EReal) (b1 : Fin 128 → EReal)
    (W2 : Fin 128 → Fin 64 → EReal) (b2 : Fin 64 → EReal) (W3 : Fin 64 → Fin 1 → EReal) (b3 : EReal) : EReal :=
  (∑ c2, (max ((∑ c1, (max ((∑ c0, zrow c0 * W1 c0 c1) + b1 c1) 0) * W2 c1 c2) + b2 c2) 0) * W3 c2 0) + b3

/-- Each formula depends on its row only through the row's entries: two rows that agree entry by entry give the same
    value (the weights as functions). -/
theorem dense0At_congr {x x' : Fin 64 → EReal} (h : ∀ c, x c = x' c) (W : Fin 64 → Fin 128 → EReal) (b : Fin 128 → EReal)
    (q : Fin 128) : dense0At x W b q = dense0At x' W b q := by
  rw [funext h]

theorem mmAt_congr {x x' : Fin 128 → EReal} (h : ∀ c, x c = x' c) (W : Fin 128 → Fin 128 → EReal) (q : Fin 128) :
    mmAt x W q = mmAt x' W q := by
  rw [funext h]

theorem mlpAt_congr {z z' : Fin 288 → EReal} (h : ∀ c, z c = z' c) (W1 : Fin 288 → Fin 128 → EReal) (b1 : Fin 128 → EReal)
    (W2 : Fin 128 → Fin 64 → EReal) (b2 : Fin 64 → EReal) (W3 : Fin 64 → Fin 1 → EReal) (b3 : EReal) :
    mlpAt z W1 b1 W2 b2 W3 b3 = mlpAt z' W1 b1 W2 b2 W3 b3 := by
  rw [funext h]

end Cert.Entry

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.KI.Pay.lean ====
/-
  What each kernel body stores, entry by entry.

  Every body loads whole blocks, computes one block from them and stores it. Read at one entry of the stored block,
  each body is one of the four row-local formulas:

  * the embedding body at `(p, q)`: row `p` of its input block times column `q` of the weights, plus the bias at `q`;
  * a convolution's dense body at `(p, q)`: row `p` of its input block times column `q` of the weights;
  * a normalise-and-rectify body at `(p, q)`: the one entry `(p, q)` of its input block with the six numbers of
    column `q` of the parameter rows;
  * the perceptron body at `(p, 0)`: the three-layer perceptron of row `p` of its input block.

  Narrowing the operands of a matrix product to a shorter float format is the identity on extended reals, a matrix
  product accumulated into zero is the exact sum over the shared axis, a `1 × n` row spread down the rows reads its
  one row everywhere, and the zero a rectifier compares with is the extended real `0`.
-/
import Mathlib.Algebra.BigOperators.Fin
import Idealize.ShloMosaic.Lib.Pipeline.Value
import Idealize.ShloMosaic.Lib.ValueIdx
import Idealize.ShloMosaic.Lib.ValueLayout
import Idealize.ShloMosaic.PureOps.Ideal.Laws
import proofs.«137698_j16329465660189_1_alg».proof.Proof.Entry
import proofs.«137698_j16329465660189_1_alg».proof.Proof.LibTwoBlocks
import proofs.«137698_j16329465660189_1_alg».proof.Proof.Gen.KernelIdeal.Skeleton

noncomputable section

open scoped BigOperators

namespace Cert.KernelIdeal.PayAt

open Idealize.ShloMosaic Idealize.ShloMosaic.ValueIdx Cert.KernelIdeal Cert.KernelIdeal.Gen Cert.Lib.TwoBlocks

/-! ## The embedding body -/

/-- Entry `(p, q)` of the embedding body's block: row `p` of the input block through the embedding layer. -/
theorem k0_pay1_apply (x : Vec Ideal S5000x64 .f32) (w : Vec Ideal S64x128 .f32) (b : Vec Ideal S1x128 .f32)
    (p : Fin 5000) (q : Fin 128) :
    k0_pay1 (F := Ideal) x w b (ix2 p q)
      = Cert.Entry.dense0At (fun c => x (ix2 p c)) (fun c q => w (ix2 c q)) (fun q => b (ix2 0 q)) q := by
  unfold k0_pay1
  rw [addf_apply, shapeCast_self,
    plain_matmul_zero_apply dot_S5000x64_S64x128_S5000x128_1_0_0_1_n_n rfl none _ _ p q, broadcastTo_1b_ab_apply]
  rfl

/-! ## The dense bodies of the three convolutions -/

/-- Entry `(p, q)` of the first convolution's dense body: row `p` of the input block times column `q` of the weights. -/
theorem k1_pay1_apply (x : Vec Ideal S5000x128 .f32) (w : Vec Ideal S128x128 .f32) (p : Fin 5000) (q : Fin 128) :
    k1_pay1 (F := Ideal) x w (ix2 p q) = Cert.Entry.mmAt (fun c => x (ix2 p c)) (fun c q => w (ix2 c q)) q := by
  unfold k1_pay1
  rw [shapeCast_self, shapeCast_self,
    plain_matmul_zero_apply dot_S5000x128_S128x128_S5000x128_1_0_0_1_n_n rfl none _ _ p q]
  rfl

/-- The second convolution's dense body, the same term. -/
theorem k3_pay1_apply (x : Vec Ideal S5000x128 .f32) (w : Vec Ideal S128x128 .f32) (p : Fin 5000) (q : Fin 128) :
    k3_pay1 (F := Ideal) x w (ix2 p q) = Cert.Entry.mmAt (fun c => x (ix2 p c)) (fun c q => w (ix2 c q)) q := by
  unfold k3_pay1
  rw [shapeCast_self, shapeCast_self,
    plain_matmul_zero_apply dot_S5000x128_S128x128_S5000x128_1_0_0_1_n_n rfl none _ _ p q]
  rfl

/-- The third convolution's dense body, the same term. -/
theorem k5_pay1_apply (x : Vec Ideal S5000x128 .f32) (w : Vec Ideal S128x128 .f32) (p : Fin 5000) (q : Fin 128) :
    k5_pay1 (F := Ideal) x w (ix2 p q) = Cert.Entry.mmAt (fun c => x (ix2 p c)) (fun c q => w (ix2 c q)) q := by
  unfold k5_pay1
  rw [shapeCast_self, shapeCast_self,
    plain_matmul_zero_apply dot_S5000x128_S128x128_S5000x128_1_0_0_1_n_n rfl none _ _ p q]
  rfl

/-! ## The normalise-and-rectify bodies -/

/-- Entry `(p, q)` of the first normalise-and-rectify body: the input block's entry `(p, q)`, shifted by the bias and
    the mean at `q`, scaled by the reciprocal square root of the variance at `q` plus the small constant and by the gain
    at `q`, shifted by the offset at `q`, cut off below at zero. The five parameter rows are, in the body's order of
    arguments: bias, variance, mean, gain, offset. -/
theorem k2_pay1_apply (a : Vec Ideal S5000x128 .f32) (b var mean gamma beta : Vec Ideal S1x128 .f32)
    (p : Fin 5000) (q : Fin 128) :
    k2_pay1 (F := Ideal) a b var mean gamma beta (ix2 p q)
      = Cert.Entry.bnAt (a (ix2 p q)) (b (ix2 0 q)) (var (ix2 0 q)) (mean (ix2 0 q)) (gamma (ix2 0 q)) (beta (ix2 0 q)) := by
  unfold k2_pay1
  simp only [shapeCast_self]
  rw [maximumf_apply, addf_apply, mulf_apply, mulf_apply, subf_apply, addf_apply, broadcast_apply]
  simp only [broadcastTo_1b_ab_apply]
  unfold Cert.Entry.bnAt
  rw [← Ideal.ofBits_zero_f32]
  rfl

/-- The second normalise-and-rectify body, the same term. -/
theorem k4_pay1_apply (a : Vec Ideal S5000x128 .f32) (b var mean gamma beta : Vec Ideal S1x128 .f32)
    (p : Fin 5000) (q : Fin 128) :
    k4_pay1 (F := Ideal) a b var mean gamma beta (ix2 p q)
      = Cert.Entry.bnAt (a (ix2 p q)) (b (ix2 0 q)) (var (ix2 0 q)) (mean (ix2 0 q)) (gamma (ix2 0 q)) (beta (ix2 0 q)) := by
  unfold k4_pay1
  simp only [shapeCast_self]
  rw [maximumf_apply, addf_apply, mulf_apply, mulf_apply, subf_apply, addf_apply, broadcast_apply]
  simp only [broadcastTo_1b_ab_apply]
  unfold Cert.Entry.bnAt
  rw [← Ideal.ofBits_zero_f32]
  rfl

/-- The third normalise-and-rectify body, the same term. -/
theorem k6_pay1_apply (a : Vec Ideal S5000x128 .f32) (b var mean gamma beta : Vec Ideal S1x128 .f32)
    (p : Fin 5000) (q : Fin 128) :
    k6_pay1 (F := Ideal) a b var mean gamma beta (ix2 p q)
      = Cert.Entry.bnAt (a (ix2 p q)) (b (ix2 0 q)) (var (ix2 0 q)) (mean (ix2 0 q)) (gamma (ix2 0 q)) (beta (ix2 0 q)) := by
  unfold k6_pay1
  simp only [shapeCast_self]
  rw [maximumf_apply, addf_apply, mulf_apply, mulf_apply, subf_apply, addf_apply, broadcast_apply]
  simp only [broadcastTo_1b_ab_apply]
  unfold Cert.Entry.bnAt
  rw [← Ideal.ofBits_zero_f32]
  rfl

/-! ## The perceptron body -/

/-- Entry `(p, 0)` of the perceptron body's one-column block: the three-layer perceptron of row `p` of the input
    block. The last layer's sum is opened first, then under it the second layer's, then the first's; at each rectifier
    the zero word becomes the extended real `0`. -/
theorem k7_pay1_apply (z : Vec Ideal S4000x288 .f32) (w1 : Vec Ideal S288x128 .f32) (b1 : Vec Ideal S1x128 .f32)
    (w2 : Vec Ideal S128x64 .f32) (b2 : Vec Ideal S1x64 .f32) (w3 : Vec Ideal S64x1 .f32) (b3 : Vec Ideal S1x1 .f32)
    (p : Fin 4000) :
    k7_pay1 (F := Ideal) z w1 b1 w2 b2 w3 b3 (ix2 p 0)
      = Cert.Entry.mlpAt (fun c => z (ix2 p c)) (fun c q => w1 (ix2 c q)) (fun q => b1 (ix2 0 q))
          (fun c q => w2 (ix2 c q)) (fun q => b2 (ix2 0 q)) (fun c q => w3 (ix2 c q)) (b3 (ix2 0 0)) := by
  unfold k7_pay1
  simp only [shapeCast_self]
  unfold Cert.Entry.mlpAt
  rw [addf_apply, plain_matmul_zero_apply dot_S4000x64_S64x1_S4000x1_1_0_0_1_n_n rfl none _ _ p (0 : Fin 1),
    broadcastTo_1b_ab_apply]
  refine congrArg₂ (· + ·) (Finset.sum_congr rfl fun c2 _ => congrArg (· * _) ?_) rfl
  rw [truncf_apply, maximumf_apply, addf_apply,
    plain_matmul_zero_apply dot_S4000x128_S128x64_S4000x64_1_0_0_1_n_n rfl none _ _ p c2, broadcastTo_1b_ab_apply,
    broadcast_apply]
  refine congrArg₂ max (congrArg₂ (· + ·) (Finset.sum_congr rfl fun c1 _ => congrArg (· * _) ?_) rfl)
    Ideal.ofBits_zero_f32
  rw [truncf_apply, maximumf_apply, addf_apply,
    plain_matmul_zero_apply dot_S4000x288_S288x128_S4000x128_1_0_0_1_n_n rfl none _ _ p c1, broadcastTo_1b_ab_apply,
    broadcast_apply]
  exact congrArg₂ max rfl Ideal.ofBits_zero_f32

end Cert.KernelIdeal.PayAt

end
-- ==== Proof.Layers.lean ====
/-
  The four kinds of layer of the network as whole-array functions over the extended reals, each built row by row from
  the entry formulas: the embedding (a table times a matrix plus a bias row), a plain product of the node table with a
  layer's matrix, the entrywise normalisation (bias, running mean and variance, scale, shift, maximum with zero) whose
  per-feature parameters are 1×128 rows, and the three dense layers of the pair read-out. Row `r` of each result
  depends on row `r` of its first argument only.
-/
import proofs.«137698_j16329465660189_1_alg».proof.Proof.Entry
import proofs.«137698_j16329465660189_1_alg».proof.KernelIdeal
import Idealize.ShloMosaic.Lib.ValueIdx

noncomputable section

namespace Cert.Net

open Idealize.ShloMosaic Idealize.ShloMosaic.ValueIdx Cert.KernelIdeal

/-- Row `r`, column `q`: the inner product of row `r` of the table with column `q` of the matrix, plus the bias row's entry `q`. -/
def denseL (X : S50000x64.Idx → EReal) (W : S64x128.Idx → EReal) (B : S1x128.Idx → EReal) : S50000x128.Idx → EReal :=
  fun j => Cert.Entry.dense0At (fun c => X (ix2 (j 0) c)) (fun c q => W (ix2 c q)) (fun q => B (ix2 0 q)) (j 1)

/-- Row `r`, column `q`: the inner product of row `r` of the table with column `q` of the matrix. -/
def mmL (X : S50000x128.Idx → EReal) (W : S128x128.Idx → EReal) : S50000x128.Idx → EReal :=
  fun j => Cert.Entry.mmAt (fun c => X (ix2 (j 0) c)) (fun c q => W (ix2 c q)) (j 1)

/-- Entry (r, q): the normalisation of the table's entry by the q-th entries of the five parameter rows. -/
def bnL (A : S50000x128.Idx → EReal) (b var mean gamma beta : S1x128.Idx → EReal) : S50000x128.Idx → EReal :=
  fun j => Cert.Entry.bnAt (A j) (b (ix2 0 (j 1))) (var (ix2 0 (j 1))) (mean (ix2 0 (j 1))) (gamma (ix2 0 (j 1))) (beta (ix2 0 (j 1)))

/-- Row `r` (the one column): the three dense layers applied to row `r` of the joined pair table. -/
def mlpL (Z : S200000x288.Idx → EReal) (W1 : S288x128.Idx → EReal) (b1 : S1x128.Idx → EReal) (W2 : S128x64.Idx → EReal)
    (b2 : S1x64.Idx → EReal) (W3 : S64x1.Idx → EReal) (b3 : S1x1.Idx → EReal) : S200000x1.Idx → EReal :=
  fun j => Cert.Entry.mlpAt (fun c => Z (ix2 (j 0) c)) (fun c q => W1 (ix2 c q)) (fun q => b1 (ix2 0 q)) (fun c q => W2 (ix2 c q))
    (fun q => b2 (ix2 0 q)) (fun c q => W3 (ix2 c q)) (b3 (ix2 0 0))

end Cert.Net

end
-- ==== Proof.KI.Arr0.lean ====
/-
  What region 0 leaves in its output array, as one function of the arrays it reads: the embedding layer \`denseL\` of the atom table, the embedding matrix and the bias row.
  Point `t` of the grid writes back rows `t·R … t·R + R − 1` of that function (its block of the row-blocked table is
  those rows; every other window's block is its whole array), and the row blocks tile the array.
-/
import proofs.«137698_j16329465660189_1_alg».proof.Proof.KI.Region0
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the row-blocked input moves with the output's row block, every
    other window stays at block 0, and point `t`'s row block is block `t`. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- The matrix's window holds the whole matrix at every point. -/
theorem iblk0_1 (c : Dev nD) (t : Fin cfg0.N) : iblk0 V c 1 t = V c main_arg4 := by
  obtain ⟨-, -, e2, e3, -⟩ := idx0 t
  funext y
  show V c main_arg4 (((cfg0.win 1).blk t).view.emb y) = V c main_arg4 y
  refine congrArg _ ?_
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The bias row's window holds the whole row at every point. -/
theorem iblk0_2 (c : Dev nD) (t : Fin cfg0.N) : iblk0 V c 2 t = V c main_v30 := by
  obtain ⟨-, -, -, -, e4, e5, -⟩ := idx0 t
  funext y
  show V c main_v30 (((cfg0.win 2).blk t).view.emb y) = V c main_v30 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the layer's table. -/
theorem flushed0 (c : Dev nD) (t : Fin cfg0.N) :
    (dat0 V c).flushed 3 t = ((cfg0.win 3).blk t).view.read (Elt Ideal) (Cert.Net.denseL (V c main_arg0) (V c main_arg4) (V c main_v30)) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S64x128) hz0, View.ld_unit_zero (S := S1x128) hz0]
  rw [iblk0_1, iblk0_2]
  obtain ⟨e0, e1, -, -, -, -, e6, e7⟩ := idx0 t
  funext y
  obtain ⟨p, q, rfl⟩ : ∃ (p : Fin 5000) (q : Fin 128), y = ix2 p q := ⟨y 0, y 1, eq_ix2 y⟩
  show k0_pay1 (F := Ideal) (iblk0 V c 0 t) (V c main_arg4) (V c main_v30) (ix2 p q)
      = Cert.Net.denseL (V c main_arg0) (V c main_arg4) (V c main_v30) (((cfg0.win 3).blk t).view.emb (ix2 p q))
  refine (Cert.KernelIdeal.PayAt.k0_pay1_apply _ _ _ p q).trans ?_
  unfold Cert.Net.denseL
  have hq : ((cfg0.win 3).blk t).view.emb (ix2 p q) 1 = q :=
    Fin.ext (by show win0_3.index t (1 : Fin 2) * 128 + 1 * q.val = q.val; omega)
  show Cert.Entry.dense0At _ _ _ q = Cert.Entry.dense0At _ _ _ (((cfg0.win 3).blk t).view.emb (ix2 p q) 1)
  rw [hq]
  refine Cert.Entry.dense0At_congr (fun k => ?_) _ _ _
  show V c main_arg0 (((cfg0.win 0).blk t).view.emb (ix2 p k)) = V c main_arg0 (ix2 (((cfg0.win 3).blk t).view.emb (ix2 p q) 0) k)
  refine congrArg _ ?_
  funext a; apply Fin.ext
  match a with
  | ⟨0, _⟩ => show win0_0.index t (0 : Fin 2) * 5000 + 1 * p.val = win0_3.index t (0 : Fin 2) * 5000 + 1 * p.val; omega
  | ⟨1, _⟩ => show win0_0.index t (1 : Fin 2) * 64 + 1 * k.val = k.val; omega

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Every index of the array is in the block of the point its row falls in. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  refine ⟨t, flush0_3 t, ?_⟩
  obtain ⟨-, -, -, -, -, -, e6, e7⟩ := idx0 t
  have e7' : win0_3.index t (0 : Fin 2) = (i 0).val / 5000 := e7
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array after the region: the layer's table of the arrays the region read. -/
theorem arr0 (c : Dev nD) : (dat0 V c).arrAt 3 cfg0.N = Cert.Net.denseL (V c main_arg0) (V c main_arg4) (V c main_v30) :=
  (dat0 V c).arrAt_eq_of_cover 3 _ (fun t _ => flushed0 V c t) (cover0)

end Cert.KernelIdeal.Val

end
-- ==== Proof.KI.Arr1.lean ====
/-
  What region 1 leaves in its output array, as one function of the arrays it reads: the product \`mmL\` of the node table with the layer's matrix.
  Point `t` of the grid writes back rows `t·R … t·R + R − 1` of that function (its block of the row-blocked table is
  those rows; every other window's block is its whole array), and the row blocks tile the array.
-/
import proofs.«137698_j16329465660189_1_alg».proof.Proof.KI.Region1
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-blocked input moves with the output's row block, every
    other window stays at block 0, and point `t`'s row block is block `t`. -/
theorem idx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- Window 1 holds its whole array at every point. -/
theorem iblk1_1 (c : Dev nD) (t : Fin cfg1.N) : iblk1 V c 1 t = V c main_v33 := by
  obtain ⟨-, -, e0, e1, -, -⟩ := idx1 t
  funext y
  show V c main_v33 (((cfg1.win 1).blk t).view.emb y) = V c main_v33 y
  refine congrArg _ ?_
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What point `t` writes back is block `t` of the layer's table. -/
theorem flushed1 (c : Dev nD) (t : Fin cfg1.N) :
    (dat1 V c).flushed 2 t = ((cfg1.win 2).blk t).view.read (Elt Ideal) (Cert.Net.mmL (V c main_v31) (V c main_v33)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x128) hz1]
  rw [iblk1_1]
  obtain ⟨e0, e1, -, -, e6, e7⟩ := idx1 t
  funext y
  obtain ⟨p, q, rfl⟩ : ∃ (p : Fin 5000) (q : Fin 128), y = ix2 p q := ⟨y 0, y 1, eq_ix2 y⟩
  show k1_pay1 (F := Ideal) (iblk1 V c 0 t) (V c main_v33) (ix2 p q)
      = (Cert.Net.mmL (V c main_v31) (V c main_v33)) (((cfg1.win 2).blk t).view.emb (ix2 p q))
  have h0 : ∀ k : Fin 128, ((cfg1.win 0).blk t).view.emb (ix2 p k) = ix2 (((cfg1.win 2).blk t).view.emb (ix2 p q) 0) k := fun k => by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  refine (Cert.KernelIdeal.PayAt.k1_pay1_apply _ _ p q).trans ?_
  unfold Cert.Net.mmL
  have hq : ((cfg1.win 2).blk t).view.emb (ix2 p q) 1 = q :=
    Fin.ext (by show win1_2.index t (1 : Fin 2) * 128 + 1 * q.val = q.val; omega)
  show Cert.Entry.mmAt _ _ q = Cert.Entry.mmAt _ _ (((cfg1.win 2).blk t).view.emb (ix2 p q) 1)
  rw [hq]
  refine Cert.Entry.mmAt_congr (fun k => ?_) _ _
  show V c main_v31 (((cfg1.win 0).blk t).view.emb (ix2 p k)) = V c main_v31 (ix2 (((cfg1.win 2).blk t).view.emb (ix2 p q) 0) k)
  exact congrArg _ (h0 k)

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v34).slice (win1_2.rect t)).set ↔ _
  rw [View.set_slice_whole, Rect.mem_set_unit]
  exact Iff.rfl

/-- Every index of the array is in the block of the point its row falls in. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  refine ⟨t, flush1_2 t, ?_⟩
  obtain ⟨-, -, -, -, e6, e7⟩ := idx1 t
  have e7' : win1_2.index t (0 : Fin 2) = (i 0).val / 5000 := e7
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array after the region: the layer's table of the arrays the region read. -/
theorem arr1 (c : Dev nD) : (dat1 V c).arrAt 2 cfg1.N = Cert.Net.mmL (V c main_v31) (V c main_v33) :=
  (dat1 V c).arrAt_eq_of_cover 2 _ (fun t _ => flushed1 V c t) (cover1)

end Cert.KernelIdeal.Val

end
-- ==== Proof.KI.Arr2.lean ====
/-
  What region 2 leaves in its output array, as one function of the arrays it reads: the normalisation \`bnL\` of the aggregated table by the five parameter rows.
  Point `t` of the grid writes back rows `t·R … t·R + R − 1` of that function (its block of the row-blocked table is
  those rows; every other window's block is its whole array), and the row blocks tile the array.
-/
import proofs.«137698_j16329465660189_1_alg».proof.Proof.KI.Region2
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row-blocked input moves with the output's row block, every
    other window stays at block 0, and point `t`'s row block is block `t`. -/
theorem idx2 : ∀ t : Fin cfg2.N, win2_0.index t (0 : Fin 2) = win2_6.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (1 : Fin 2) = 0
    ∧ win2_6.index t (0 : Fin 2) = t.val :=
  (by decide +kernel : ∀ t : Fin grid2.N, _)

/-- Window 1 holds its whole array at every point. -/
theorem iblk2_1 (c : Dev nD) (t : Fin cfg2.N) : iblk2 V c 1 t = V c main_v58 := by
  obtain ⟨-, -, e0, e1, -, -, -, -, -, -, -, -, -, -⟩ := idx2 t
  funext y
  show V c main_v58 (((cfg2.win 1).blk t).view.emb y) = V c main_v58 y
  refine congrArg _ ?_
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2 holds its whole array at every point. -/
theorem iblk2_2 (c : Dev nD) (t : Fin cfg2.N) : iblk2 V c 2 t = V c main_v59 := by
  obtain ⟨-, -, -, -, e0, e1, -, -, -, -, -, -, -, -⟩ := idx2 t
  funext y
  show V c main_v59 (((cfg2.win 2).blk t).view.emb y) = V c main_v59 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 holds its whole array at every point. -/
theorem iblk2_3 (c : Dev nD) (t : Fin cfg2.N) : iblk2 V c 3 t = V c main_v60 := by
  obtain ⟨-, -, -, -, -, -, e0, e1, -, -, -, -, -, -⟩ := idx2 t
  funext y
  show V c main_v60 (((cfg2.win 3).blk t).view.emb y) = V c main_v60 y
  refine congrArg _ ?_
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4 holds its whole array at every point. -/
theorem iblk2_4 (c : Dev nD) (t : Fin cfg2.N) : iblk2 V c 4 t = V c main_v61 := by
  obtain ⟨-, -, -, -, -, -, -, -, e0, e1, -, -, -, -⟩ := idx2 t
  funext y
  show V c main_v61 (((cfg2.win 4).blk t).view.emb y) = V c main_v61 y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 holds its whole array at every point. -/
theorem iblk2_5 (c : Dev nD) (t : Fin cfg2.N) : iblk2 V c 5 t = V c main_v62 := by
  obtain ⟨-, -, -, -, -, -, -, -, -, -, e0, e1, -, -⟩ := idx2 t
  funext y
  show V c main_v62 (((cfg2.win 5).blk t).view.emb y) = V c main_v62 y
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- One entry of the normalisation: the entry formula of a value that is the table's entry at `j`, with the parameter
    rows read at `j`'s column, is the layer's entry at `j`. -/
theorem bn_point2 (A : S50000x128.Idx → EReal) (b var mean gamma beta : S1x128.Idx → EReal) (a : EReal) (j : S50000x128.Idx)
    (q : Fin 128) (hq : j 1 = q) (ha : a = A j) :
    Cert.Entry.bnAt a (b (ix2 0 q)) (var (ix2 0 q)) (mean (ix2 0 q)) (gamma (ix2 0 q)) (beta (ix2 0 q)) = Cert.Net.bnL A b var mean gamma beta j := by
  subst ha; subst hq; rfl

/-- What point `t` writes back is block `t` of the layer's table. -/
theorem flushed2 (c : Dev nD) (t : Fin cfg2.N) :
    (dat2 V c).flushed 6 t = ((cfg2.win 6).blk t).view.read (Elt Ideal) (Cert.Net.bnL (V c main_v47) (V c main_v58) (V c main_v62) (V c main_v61) (V c main_v59) (V c main_v60)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S1x128) hz2]
  rw [iblk2_1, iblk2_2, iblk2_3, iblk2_4, iblk2_5]
  obtain ⟨e0, e1, -, -, -, -, -, -, -, -, -, -, e6, e7⟩ := idx2 t
  funext y
  obtain ⟨p, q, rfl⟩ : ∃ (p : Fin 5000) (q : Fin 128), y = ix2 p q := ⟨y 0, y 1, eq_ix2 y⟩
  show k2_pay1 (F := Ideal) (iblk2 V c 0 t) (V c main_v58) (V c main_v62) (V c main_v61) (V c main_v59) (V c main_v60) (ix2 p q)
      = (Cert.Net.bnL (V c main_v47) (V c main_v58) (V c main_v62) (V c main_v61) (V c main_v59) (V c main_v60)) (((cfg2.win 6).blk t).view.emb (ix2 p q))
  have hq : ((cfg2.win 6).blk t).view.emb (ix2 p q) 1 = q :=
    Fin.ext (by show win2_6.index t (1 : Fin 2) * 128 + 1 * q.val = q.val; omega)
  have hemb : ((cfg2.win 0).blk t).view.emb (ix2 p q) = ((cfg2.win 6).blk t).view.emb (ix2 p q) := by
    funext a; apply Fin.ext
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * q.val = win2_6.index t (1 : Fin 2) * 128 + 1 * q.val; omega
  refine (Cert.KernelIdeal.PayAt.k2_pay1_apply _ _ _ _ _ _ p q).trans (bn_point2 _ _ _ _ _ _ _ _ q hq ?_)
  show V c main_v47 (((cfg2.win 0).blk t).view.emb (ix2 p q)) = V c main_v47 (((cfg2.win 6).blk t).view.emb (ix2 p q))
  exact congrArg _ hemb

/-- An index of the array is in point `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v63).slice (win2_6.rect t)).set ↔ _
  rw [View.set_slice_whole, Rect.mem_set_unit]
  exact Iff.rfl

/-- Every index of the array is in the block of the point its row falls in. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  refine ⟨t, flush2_6 t, ?_⟩
  obtain ⟨-, -, -, -, -, -, -, -, -, -, -, -, e6, e7⟩ := idx2 t
  have e7' : win2_6.index t (0 : Fin 2) = (i 0).val / 5000 := e7
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The array after the region: the layer's table of the arrays the region read. -/
theorem arr2 (c : Dev nD) : (dat2 V c).arrAt 6 cfg2.N = Cert.Net.bnL (V c main_v47) (V c main_v58) (V c main_v62) (V c main_v61) (V c main_v59) (V c main_v60) :=
  (dat2 V c).arrAt_eq_of_cover 6 _ (fun t _ => flushed2 V c t) (cover2)

end Cert.KernelIdeal.Val

end
-- ==== Proof.KI.Arr3.lean ====
/-
  What region 3 leaves in its output array, as one function of the arrays it reads: the product \`mmL\` of the node table with the layer's matrix.
  Point `t` of the grid writes back rows `t·R … t·R + R − 1` of that function (its block of the row-blocked table is
  those rows; every other window's block is its whole array), and the row blocks tile the array.
-/
import proofs.«137698_j16329465660189_1_alg».proof.Proof.KI.Region3
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the row-blocked input moves with the output's row block, every
    other window stays at block 0, and point `t`'s row block is block `t`. -/
theorem idx3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- Window 1 holds its whole array at every point. -/
theorem iblk3_1 (c : Dev nD) (t : Fin cfg3.N) : iblk3 V c 1 t = V c main_v65 := by
  obtain ⟨-, -, e0, e1, -, -⟩ := idx3 t
  funext y
  show V c main_v65 (((cfg3.win 1).blk t).view.emb y) = V c main_v65 y
  refine congrArg _ ?_
  funext a; apply Fin.ext
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- What point `t` writes back is block `t` of the layer's table. -/
theorem flushed3 (c : Dev nD) (t : Fin cfg3.N) :
    (dat3 V c).flushed 2 t = ((cfg3.win 2).blk t).view.read (Elt Ideal) (Cert.Net.mmL (V c main_v63) (V c main_v65)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  rw [iblk3_1]
  obtain ⟨e0, e1, -, -, e6, e7⟩ := idx3 t
  funext y
  obtain ⟨p, q, rfl⟩ : ∃ (p : Fin 5000) (q : Fin 128), y = ix2 p q := ⟨y 0, y 1, eq_ix2 y⟩
  show k3_pay1 (F := Ideal) (iblk3 V c 0 t) (V c main_v65) (ix2 p q)
      = (Cert.Net.mmL (V c main_v63) (V c main_v65)) (((cfg3.win 2).blk t).view.emb (ix2 p q))
  have h0 : ∀ k : Fin 128, ((cfg3.win 0).blk t).view.emb (ix2 p k) = ix2 (((cfg3.win 2).blk t).view.emb (ix2 p q) 0) k := fun k => by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  refine (Cert.KernelIdeal.PayAt.k3_pay1_apply _ _ p q).trans ?_
  unfold Cert.Net.mmL
  have hq : ((cfg3.win 2).blk t).view.emb (ix2 p q) 1 = q :=
    Fin.ext (by show win3_2.index t (1 : Fin 2) * 128 + 1 * q.val = q.val; omega)
  show Cert.Entry.mmAt _ _ q = Cert.Entry.mmAt _ _ (((cfg3.win 2).blk t).view.emb (ix2 p q) 1)
  rw [hq]
  refine Cert.Entry.mmAt_congr (fun k => ?_) _ _
  show V c main_v63 (((cfg3.win 0).blk t).view.emb (ix2 p k)) = V c main_v63 (ix2 (((cfg3.win 2).blk t).view.emb (ix2 p q) 0) k)
  exact congrArg _ (h0 k)

/-- An index of the array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- Every index of the array is in the block of the point its row falls in. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  refine ⟨t, flush3_2 t, ?_⟩
  obtain ⟨-, -, -, -, e6, e7⟩ := idx3 t
  have e7' : win3_2.index t (0 : Fin 2) = (i 0).val / 5000 := e7
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array after the region: the layer's table of the arrays the region read. -/
theorem arr3 (c : Dev nD) : (dat3 V c).arrAt 2 cfg3.N = Cert.Net.mmL (V c main_v63) (V c main_v65) :=
  (dat3 V c).arrAt_eq_of_cover 2 _ (fun t _ => flushed3 V c t) (cover3)

end Cert.KernelIdeal.Val

end
-- ==== Proof.KI.Arr4.lean ====
/-
  What region 4 leaves in its output array, as one function of the arrays it reads: the normalisation \`bnL\` of the aggregated table by the five parameter rows.
  Point `t` of the grid writes back rows `t·R … t·R + R − 1` of that function (its block of the row-blocked table is
  those rows; every other window's block is its whole array), and the row blocks tile the array.
-/
import proofs.«137698_j16329465660189_1_alg».proof.Proof.KI.Region4
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps, decided over the grid: the row-blocked input moves with the output's row block, every
    other window stays at block 0, and point `t`'s row block is block `t`. -/
theorem idx4 : ∀ t : Fin cfg4.N, win4_0.index t (0 : Fin 2) = win4_6.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (1 : Fin 2) = 0
    ∧ win4_6.index t (0 : Fin 2) = t.val :=
  (by decide +kernel : ∀ t : Fin grid4.N, _)

/-- Window 1 holds its whole array at every point. -/
theorem iblk4_1 (c : Dev nD) (t : Fin cfg4.N) : iblk4 V c 1 t = V c main_v90 := by
  obtain ⟨-, -, e0, e1, -, -, -, -, -, -, -, -, -, -⟩ := idx4 t
  funext y
  show V c main_v90 (((cfg4.win 1).blk t).view.emb y) = V c main_v90 y
  refine congrArg _ ?_
  funext a; apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- Window 2 holds its whole array at every point. -/
theorem iblk4_2 (c : Dev nD) (t : Fin cfg4.N) : iblk4 V c 2 t = V c main_v91 := by
  obtain ⟨-, -, -, -, e0, e1, -, -, -, -, -, -, -, -⟩ := idx4 t
  funext y
  show V c main_v91 (((cfg4.win 2).blk t).view.emb y) = V c main_v91 y
  refine congrArg _ ?_
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3 holds its whole array at every point. -/
theorem iblk4_3 (c : Dev nD) (t : Fin cfg4.N) : iblk4 V c 3 t = V c main_v92 := by
  obtain ⟨-, -, -, -, -, -, e0, e1, -, -, -, -, -, -⟩ := idx4 t
  funext y
  show V c main_v92 (((cfg4.win 3).blk t).view.emb y) = V c main_v92 y
  refine congrArg _ ?_
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 4 holds its whole array at every point. -/
theorem iblk4_4 (c : Dev nD) (t : Fin cfg4.N) : iblk4 V c 4 t = V c main_v93 := by
  obtain ⟨-, -, -, -, -, -, -, -, e0, e1, -, -, -, -⟩ := idx4 t
  funext y
  show V c main_v93 (((cfg4.win 4).blk t).view.emb y) = V c main_v93 y
  refine congrArg _ ?_
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5 holds its whole array at every point. -/
theorem iblk4_5 (c : Dev nD) (t : Fin cfg4.N) : iblk4 V c 5 t = V c main_v94 := by
  obtain ⟨-, -, -, -, -, -, -, -, -, -, e0, e1, -, -⟩ := idx4 t
  funext y
  show V c main_v94 (((cfg4.win 5).blk t).view.emb y) = V c main_v94 y
  refine congrArg _ ?_
  funext a; apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- One entry of the normalisation: the entry formula of a value that is the table's entry at `j`, with the parameter
    rows read at `j`'s column, is the layer's entry at `j`. -/
theorem bn_point4 (A : S50000x128.Idx → EReal) (b var mean gamma beta : S1x128.Idx → EReal) (a : EReal) (j : S50000x128.Idx)
    (q : Fin 128) (hq : j 1 = q) (ha : a = A j) :
    Cert.Entry.bnAt a (b (ix2 0 q)) (var (ix2 0 q)) (mean (ix2 0 q)) (gamma (ix2 0 q)) (beta (ix2 0 q)) = Cert.Net.bnL A b var mean gamma beta j := by
  subst ha; subst hq; rfl

/-- What point `t` writes back is block `t` of the layer's table. -/
theorem flushed4 (c : Dev nD) (t : Fin cfg4.N) :
    (dat4 V c).flushed 6 t = ((cfg4.win 6).blk t).view.read (Elt Ideal) (Cert.Net.bnL (V c main_v79) (V c main_v90) (V c main_v94) (V c main_v93) (V c main_v91) (V c main_v92)) := by
  show (cfg4.win 6).cut (grid4.coords t) ((dat4 V c).after 6 t) = _
  rw [after4_6]
  unfold out4_6
  rw [View.canon_unit_zero hz4]
  simp only [View.ld_unit_zero (S := S5000x128) hz4, View.ld_unit_zero (S := S1x128) hz4]
  rw [iblk4_1, iblk4_2, iblk4_3, iblk4_4, iblk4_5]
  obtain ⟨e0, e1, -, -, -, -, -, -, -, -, -, -, e6, e7⟩ := idx4 t
  funext y
  obtain ⟨p, q, rfl⟩ : ∃ (p : Fin 5000) (q : Fin 128), y = ix2 p q := ⟨y 0, y 1, eq_ix2 y⟩
  show k4_pay1 (F := Ideal) (iblk4 V c 0 t) (V c main_v90) (V c main_v94) (V c main_v93) (V c main_v91) (V c main_v92) (ix2 p q)
      = (Cert.Net.bnL (V c main_v79) (V c main_v90) (V c main_v94) (V c main_v93) (V c main_v91) (V c main_v92)) (((cfg4.win 6).blk t).view.emb (ix2 p q))
  have hq : ((cfg4.win 6).blk t).view.emb (ix2 p q) 1 = q :=
    Fin.ext (by show win4_6.index t (1 : Fin 2) * 128 + 1 * q.val = q.val; omega)
  have hemb : ((cfg4.win 0).blk t).view.emb (ix2 p q) = ((cfg4.win 6).blk t).view.emb (ix2 p q) := by
    funext a; apply Fin.ext
    match a with
    | ⟨0, _⟩ => show win4_0.index t (0 : Fin 2) * 5000 + 1 * p.val = win4_6.index t (0 : Fin 2) * 5000 + 1 * p.val; omega
    | ⟨1, _⟩ => show win4_0.index t (1 : Fin 2) * 128 + 1 * q.val = win4_6.index t (1 : Fin 2) * 128 + 1 * q.val; omega
  refine (Cert.KernelIdeal.PayAt.k4_pay1_apply _ _ _ _ _ _ p q).trans (bn_point4 _ _ _ _ _ _ _ _ q hq ?_)
  show V c main_v79 (((cfg4.win 0).blk t).view.emb (ix2 p q)) = V c main_v79 (((cfg4.win 6).blk t).view.emb (ix2 p q))
  exact congrArg _ hemb

/-- An index of the array is in point `t`'s block iff each coordinate is in the block's range on its axis. -/
theorem mem_blk4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v95).slice (win4_6.rect t)).set ↔ _
  rw [View.set_slice_whole, Rect.mem_set_unit]
  exact Iff.rfl

/-- Every index of the array is in the block of the point its row falls in. -/
theorem cover4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  refine ⟨t, flush4_6 t, ?_⟩
  obtain ⟨-, -, -, -, -, -, -, -, -, -, -, -, e6, e7⟩ := idx4 t
  have e7' : win4_6.index t (0 : Fin 2) = (i 0).val / 5000 := e7
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The array after the region: the layer's table of the arrays the region read. -/
theorem arr4 (c : Dev nD) : (dat4 V c).arrAt 6 cfg4.N = Cert.Net.bnL (V c main_v79) (V c main_v90) (V c main_v94) (V c main_v93) (V c main_v91) (V c main_v92) :=
  (dat4 V c).arrAt_eq_of_cover 6 _ (fun t _ => flushed4 V c t) (cover4)

end Cert.KernelIdeal.Val

end
-- ==== Proof.KI.Arr5.lean ====
/-
  What region 5 leaves in its output array, as one function of the arrays it reads: the product \`mmL\` of the node table with the layer's matrix.
  Point `t` of the grid writes back rows `t·R … t·R + R − 1` of that function (its block of the row-blocked table is
  those rows; every other window's block is its whole array), and the row blocks tile the array.
-/
import proofs.«137698_j16329465660189_1_alg».proof.Proof.KI.Region5
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: the row-blocked input moves with the output's row block, every
    other window stays at block 0, and point `t`'s row block is block `t`. -/
theorem idx5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) = t.val :=
  (by decide +kernel : ∀ t : Fin grid5.N, _)

/-- Window 1 holds its whole array at every point. -/
theorem iblk5_1 (c : Dev nD) (t : Fin cfg5.N) : iblk5 V c 1 t = V c main_v97 := by
  obtain ⟨-, -, e0, e1, -, -⟩ := idx5 t
  funext y
  show V c main_v97 (((cfg5.win 1).blk t).view.emb y) = V c main_v97 y
  refine congrArg _ ?_
  funext a; apply Fin.ext
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- What point `t` writes back is block `t` of the layer's table. -/
theorem flushed5 (c : Dev nD) (t : Fin cfg5.N) :
    (dat5 V c).flushed 2 t = ((cfg5.win 2).blk t).view.read (Elt Ideal) (Cert.Net.mmL (V c main_v95) (V c main_v97)) := by
  show (cfg5.win 2).cut (grid5.coords t) ((dat5 V c).after 2 t) = _
  rw [after5_2]
  unfold out5_2
  rw [View.canon_unit_zero hz5]
  simp only [View.ld_unit_zero (S := S5000x128) hz5, View.ld_unit_zero (S := S128x128) hz5]
  rw [iblk5_1]
  obtain ⟨e0, e1, -, -, e6, e7⟩ := idx5 t
  funext y
  obtain ⟨p, q, rfl⟩ : ∃ (p : Fin 5000) (q : Fin 128), y = ix2 p q := ⟨y 0, y 1, eq_ix2 y⟩
  show k5_pay1 (F := Ideal) (iblk5 V c 0 t) (V c main_v97) (ix2 p q)
      = (Cert.Net.mmL (V c main_v95) (V c main_v97)) (((cfg5.win 2).blk t).view.emb (ix2 p q))
  have h0 : ∀ k : Fin 128, ((cfg5.win 0).blk t).view.emb (ix2 p k) = ix2 (((cfg5.win 2).blk t).view.emb (ix2 p q) 0) k := fun k => by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * k.val = k.val; omega
  refine (Cert.KernelIdeal.PayAt.k5_pay1_apply _ _ p q).trans ?_
  unfold Cert.Net.mmL
  have hq : ((cfg5.win 2).blk t).view.emb (ix2 p q) 1 = q :=
    Fin.ext (by show win5_2.index t (1 : Fin 2) * 128 + 1 * q.val = q.val; omega)
  show Cert.Entry.mmAt _ _ q = Cert.Entry.mmAt _ _ (((cfg5.win 2).blk t).view.emb (ix2 p q) 1)
  rw [hq]
  refine Cert.Entry.mmAt_congr (fun k => ?_) _ _
  show V c main_v95 (((cfg5.win 0).blk t).view.emb (ix2 p k)) = V c main_v95 (ix2 (((cfg5.win 2).blk t).view.emb (ix2 p q) 0) k)
  exact congrArg _ (h0 k)

/-- An index of the array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v98).slice (win5_2.rect t)).set ↔ _
  rw [View.set_slice_whole, Rect.mem_set_unit]
  exact Iff.rfl

/-- Every index of the array is in the block of the point its row falls in. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  let t : Fin cfg5.N := ⟨(i 0).val / 5000, by show (i 0).val / 5000 < grid5.N; omega⟩
  refine ⟨t, flush5_2 t, ?_⟩
  obtain ⟨-, -, -, -, e6, e7⟩ := idx5 t
  have e7' : win5_2.index t (0 : Fin 2) = (i 0).val / 5000 := e7
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The array after the region: the layer's table of the arrays the region read. -/
theorem arr5 (c : Dev nD) : (dat5 V c).arrAt 2 cfg5.N = Cert.Net.mmL (V c main_v95) (V c main_v97) :=
  (dat5 V c).arrAt_eq_of_cover 2 _ (fun t _ => flushed5 V c t) (cover5)

end Cert.KernelIdeal.Val

end
-- ==== Proof.KI.Arr6.lean ====
/-
  What region 6 leaves in its output array, as one function of the arrays it reads: the normalisation \`bnL\` of the aggregated table by the five parameter rows.
  Point `t` of the grid writes back rows `t·R … t·R + R − 1` of that function (its block of the row-blocked table is
  those rows; every other window's block is its whole array), and the row blocks tile the array.
-/
import proofs.«137698_j16329465660189_1_alg».proof.Proof.KI.Region6
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the grid: the row-blocked input moves with the output's row block, every
    other window stays at block 0, and point `t`'s row block is block `t`. -/
theorem idx6 : ∀ t : Fin cfg6.N, win6_0.index t (0 : Fin 2) = win6_6.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (1 : Fin 2) = 0
    ∧ win6_6.index t (0 : Fin 2) = t.val :=
  (by decide +kernel : ∀ t : Fin grid6.N, _)

/-- Window 1 holds its whole array at every point. -/
theorem iblk6_1 (c : Dev nD) (t : Fin cfg6.N) : iblk6 V c 1 t = V c main_v122 := by
  obtain ⟨-, -, e0, e1, -, -, -, -, -, -, -, -, -, -⟩ := idx6 t
  funext y
  show V c main_v122 (((cfg6.win 1).blk t).view.emb y) = V c main_v122 y
  refine congrArg _ ?_
  funext a; apply Fin.ext
  match a with
  | ⟨0, _⟩ => show win6_1.index t (0 : Fin 2) * 1 + 1 * (y 0).val = (y 0).val; omega
  | ⟨1, _⟩ => show win6_1.index t (1 : Fin 2) * 128 + 1 * (y 1).val = (y 1).val; omega

/-- Window 2 holds its whole array at every point. -/
theorem iblk6_2 (c : Dev nD) (t : Fin cfg6.N) : iblk6 V c 2 t = V c main_v123 := by
  obtain ⟨-, -, -, -, e0, e1, -, -, -, -, -, -, -, -⟩ := idx6 t
  funext y
  show V c main_v123 (((cfg6.win 2).blk t).view.emb y) = V c main_v123 y
  refine congrArg _ ?_
  funext a; apply Fin.ext
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Window 3 holds its whole array at every point. -/
theorem iblk6_3 (c : Dev nD) (t : Fin cfg6.N) : iblk6 V c 3 t = V c main_v124 := by
  obtain ⟨-, -, -, -, -, -, e0, e1, -, -, -, -, -, -⟩ := idx6 t
  funext y
  show V c main_v124 (((cfg6.win 3).blk t).view.emb y) = V c main_v124 y
  refine congrArg _ ?_
  funext a; apply Fin.ext
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Window 4 holds its whole array at every point. -/
theorem iblk6_4 (c : Dev nD) (t : Fin cfg6.N) : iblk6 V c 4 t = V c main_v125 := by
  obtain ⟨-, -, -, -, -, -, -, -, e0, e1, -, -, -, -⟩ := idx6 t
  funext y
  show V c main_v125 (((cfg6.win 4).blk t).view.emb y) = V c main_v125 y
  refine congrArg _ ?_
  funext a; apply Fin.ext
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- Window 5 holds its whole array at every point. -/
theorem iblk6_5 (c : Dev nD) (t : Fin cfg6.N) : iblk6 V c 5 t = V c main_v126 := by
  obtain ⟨-, -, -, -, -, -, -, -, -, -, e0, e1, -, -⟩ := idx6 t
  funext y
  show V c main_v126 (((cfg6.win 5).blk t).view.emb y) = V c main_v126 y
  refine congrArg _ ?_
  funext a; apply Fin.ext
  match a with
  | ⟨0, _⟩ => show win6_5.index t (0 : Fin 2) * 1 + 1 * (y 0).val = (y 0).val; omega
  | ⟨1, _⟩ => show win6_5.index t (1 : Fin 2) * 128 + 1 * (y 1).val = (y 1).val; omega

/-- One entry of the normalisation: the entry formula of a value that is the table's entry at `j`, with the parameter
    rows read at `j`'s column, is the layer's entry at `j`. -/
theorem bn_point6 (A : S50000x128.Idx → EReal) (b var mean gamma beta : S1x128.Idx → EReal) (a : EReal) (j : S50000x128.Idx)
    (q : Fin 128) (hq : j 1 = q) (ha : a = A j) :
    Cert.Entry.bnAt a (b (ix2 0 q)) (var (ix2 0 q)) (mean (ix2 0 q)) (gamma (ix2 0 q)) (beta (ix2 0 q)) = Cert.Net.bnL A b var mean gamma beta j := by
  subst ha; subst hq; rfl

/-- What point `t` writes back is block `t` of the layer's table. -/
theorem flushed6 (c : Dev nD) (t : Fin cfg6.N) :
    (dat6 V c).flushed 6 t = ((cfg6.win 6).blk t).view.read (Elt Ideal) (Cert.Net.bnL (V c main_v111) (V c main_v122) (V c main_v126) (V c main_v125) (V c main_v123) (V c main_v124)) := by
  show (cfg6.win 6).cut (grid6.coords t) ((dat6 V c).after 6 t) = _
  rw [after6_6]
  unfold out6_6
  rw [View.canon_unit_zero hz6]
  simp only [View.ld_unit_zero (S := S5000x128) hz6, View.ld_unit_zero (S := S1x128) hz6]
  rw [iblk6_1, iblk6_2, iblk6_3, iblk6_4, iblk6_5]
  obtain ⟨e0, e1, -, -, -, -, -, -, -, -, -, -, e6, e7⟩ := idx6 t
  funext y
  obtain ⟨p, q, rfl⟩ : ∃ (p : Fin 5000) (q : Fin 128), y = ix2 p q := ⟨y 0, y 1, eq_ix2 y⟩
  show k6_pay1 (F := Ideal) (iblk6 V c 0 t) (V c main_v122) (V c main_v126) (V c main_v125) (V c main_v123) (V c main_v124) (ix2 p q)
      = (Cert.Net.bnL (V c main_v111) (V c main_v122) (V c main_v126) (V c main_v125) (V c main_v123) (V c main_v124)) (((cfg6.win 6).blk t).view.emb (ix2 p q))
  have hq : ((cfg6.win 6).blk t).view.emb (ix2 p q) 1 = q :=
    Fin.ext (by show win6_6.index t (1 : Fin 2) * 128 + 1 * q.val = q.val; omega)
  have hemb : ((cfg6.win 0).blk t).view.emb (ix2 p q) = ((cfg6.win 6).blk t).view.emb (ix2 p q) := by
    funext a; apply Fin.ext
    match a with
    | ⟨0, _⟩ => show win6_0.index t (0 : Fin 2) * 5000 + 1 * p.val = win6_6.index t (0 : Fin 2) * 5000 + 1 * p.val; omega
    | ⟨1, _⟩ => show win6_0.index t (1 : Fin 2) * 128 + 1 * q.val = win6_6.index t (1 : Fin 2) * 128 + 1 * q.val; omega
  refine (Cert.KernelIdeal.PayAt.k6_pay1_apply _ _ _ _ _ _ p q).trans (bn_point6 _ _ _ _ _ _ _ _ q hq ?_)
  show V c main_v111 (((cfg6.win 0).blk t).view.emb (ix2 p q)) = V c main_v111 (((cfg6.win 6).blk t).view.emb (ix2 p q))
  exact congrArg _ hemb

/-- An index of the array is in point `t`'s block iff each coordinate is in the block's range on its axis. -/
theorem mem_blk6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v127).slice (win6_6.rect t)).set ↔ _
  rw [View.set_slice_whole, Rect.mem_set_unit]
  exact Iff.rfl

/-- Every index of the array is in the block of the point its row falls in. -/
theorem cover6 (i : S50000x128.Idx) : ∃ t : Fin cfg6.N, (cfg6.win 6).flush t = true ∧ i ∈ ((cfg6.win 6).blk t).view.set := by
  have hi0 : (i 0).val < 50000 := (i 0).isLt
  have hi1 : (i 1).val < 128 := (i 1).isLt
  have hN : grid6.N = 10 := N_6
  let t : Fin cfg6.N := ⟨(i 0).val / 5000, by show (i 0).val / 5000 < grid6.N; omega⟩
  refine ⟨t, flush6_6 t, ?_⟩
  obtain ⟨-, -, -, -, -, -, -, -, -, -, -, -, e6, e7⟩ := idx6 t
  have e7' : win6_6.index t (0 : Fin 2) = (i 0).val / 5000 := e7
  rw [mem_blk6]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 128 ≤ (i 1).val ∧ (i 1).val < win6_6.index t (1 : Fin 2) * 128 + 128; omega

/-- The array after the region: the layer's table of the arrays the region read. -/
theorem arr6 (c : Dev nD) : (dat6 V c).arrAt 6 cfg6.N = Cert.Net.bnL (V c main_v111) (V c main_v122) (V c main_v126) (V c main_v125) (V c main_v123) (V c main_v124) :=
  (dat6 V c).arrAt_eq_of_cover 6 _ (fun t _ => flushed6 V c t) (cover6)

end Cert.KernelIdeal.Val

end
-- ==== Proof.KI.Arr7.lean ====
/-
  What region 7 leaves in its output array, as one function of the arrays it reads: the three dense layers \`mlpL\` of the joined pair table.
  Point `t` of the grid writes back rows `t·R … t·R + R − 1` of that function (its block of the row-blocked table is
  those rows; every other window's block is its whole array), and the row blocks tile the array.
-/
import proofs.«137698_j16329465660189_1_alg».proof.Proof.KI.Region7
import proofs.«137698_j16329465660189_1_alg».proof.Proof.KI.Pay
import proofs.«137698_j16329465660189_1_alg».proof.Proof.Layers
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The printed index maps, decided over the grid: the row-blocked input moves with the output's row block, every
    other window stays at block 0, and point `t`'s row block is block `t`. -/
theorem idx7 : ∀ t : Fin cfg7.N, win7_0.index t (0 : Fin 2) = win7_7.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (1 : Fin 2) = 0
    ∧ win7_7.index t (0 : Fin 2) = t.val :=
  (by decide +kernel : ∀ t : Fin grid7.N, _)

/-- Window 1 holds its whole array at every point. -/
theorem iblk7_1 (c : Dev nD) (t : Fin cfg7.N) : iblk7 V c 1 t = V c main_arg12 := by
  obtain ⟨-, -, e0, e1, -, -, -, -, -, -, -, -, -, -, -, -⟩ := idx7 t
  funext y
  show V c main_arg12 (((cfg7.win 1).blk t).view.emb y) = V c main_arg12 y
  refine congrArg _ ?_
  funext a; apply Fin.ext
  match a with
  | ⟨0, _⟩ => show win7_1.index t (0 : Fin 2) * 288 + 1 * (y 0).val = (y 0).val; omega
  | ⟨1, _⟩ => show win7_1.index t (1 : Fin 2) * 128 + 1 * (y 1).val = (y 1).val; omega

/-- Window 2 holds its whole array at every point. -/
theorem iblk7_2 (c : Dev nD) (t : Fin cfg7.N) : iblk7 V c 2 t = V c main_v147 := by
  obtain ⟨-, -, -, -, e0, e1, -, -, -, -, -, -, -, -, -, -⟩ := idx7 t
  funext y
  show V c main_v147 (((cfg7.win 2).blk t).view.emb y) = V c main_v147 y
  refine congrArg _ ?_
  funext a; apply Fin.ext
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- Window 3 holds its whole array at every point. -/
theorem iblk7_3 (c : Dev nD) (t : Fin cfg7.N) : iblk7 V c 3 t = V c main_arg14 := by
  obtain ⟨-, -, -, -, -, -, e0, e1, -, -, -, -, -, -, -, -⟩ := idx7 t
  funext y
  show V c main_arg14 (((cfg7.win 3).blk t).view.emb y) = V c main_arg14 y
  refine congrArg _ ?_
  funext a; apply Fin.ext
  match a with
  | ⟨0, _⟩ => show win7_3.index t (0 : Fin 2) * 128 + 1 * (y 0).val = (y 0).val; omega
  | ⟨1, _⟩ => show win7_3.index t (1 : Fin 2) * 64 + 1 * (y 1).val = (y 1).val; omega

/-- Window 4 holds its whole array at every point. -/
theorem iblk7_4 (c : Dev nD) (t : Fin cfg7.N) : iblk7 V c 4 t = V c main_v148 := by
  obtain ⟨-, -, -, -, -, -, -, -, e0, e1, -, -, -, -, -, -⟩ := idx7 t
  funext y
  show V c main_v148 (((cfg7.win 4).blk t).view.emb y) = V c main_v148 y
  refine congrArg _ ?_
  funext a; apply Fin.ext
  match a with
  | ⟨0, _⟩ => show win7_4.index t (0 : Fin 2) * 1 + 1 * (y 0).val = (y 0).val; omega
  | ⟨1, _⟩ => show win7_4.index t (1 : Fin 2) * 64 + 1 * (y 1).val = (y 1).val; omega

/-- Window 5 holds its whole array at every point. -/
theorem iblk7_5 (c : Dev nD) (t : Fin cfg7.N) : iblk7 V c 5 t = V c main_arg16 := by
  obtain ⟨-, -, -, -, -, -, -, -, -, -, e0, e1, -, -, -, -⟩ := idx7 t
  funext y
  show V c main_arg16 (((cfg7.win 5).blk t).view.emb y) = V c main_arg16 y
  refine congrArg _ ?_
  funext a; apply Fin.ext
  match a with
  | ⟨0, _⟩ => show win7_5.index t (0 : Fin 2) * 64 + 1 * (y 0).val = (y 0).val; omega
  | ⟨1, _⟩ => show win7_5.index t (1 : Fin 2) * 1 + 1 * (y 1).val = (y 1).val; omega

/-- Window 6 holds its whole array at every point. -/
theorem iblk7_6 (c : Dev nD) (t : Fin cfg7.N) : iblk7 V c 6 t = V c main_v149 := by
  obtain ⟨-, -, -, -, -, -, -, -, -, -, -, -, e0, e1, -, -⟩ := idx7 t
  funext y
  show V c main_v149 (((cfg7.win 6).blk t).view.emb y) = V c main_v149 y
  refine congrArg _ ?_
  funext a; apply Fin.ext
  match a with
  | ⟨0, _⟩ => show win7_6.index t (0 : Fin 2) * 1 + 1 * (y 0).val = (y 0).val; omega
  | ⟨1, _⟩ => show win7_6.index t (1 : Fin 2) * 1 + 1 * (y 1).val = (y 1).val; omega

/-- What point `t` writes back is block `t` of the layer's table. -/
theorem flushed7 (c : Dev nD) (t : Fin cfg7.N) :
    (dat7 V c).flushed 7 t = ((cfg7.win 7).blk t).view.read (Elt Ideal) (Cert.Net.mlpL (V c main_v146) (V c main_arg12) (V c main_v147) (V c main_arg14) (V c main_v148) (V c main_arg16) (V c main_v149)) := by
  show (cfg7.win 7).cut (grid7.coords t) ((dat7 V c).after 7 t) = _
  rw [after7_7]
  unfold out7_7
  rw [View.canon_unit_zero hz7]
  simp only [View.ld_unit_zero (S := S4000x288) hz7, View.ld_unit_zero (S := S288x128) hz7, View.ld_unit_zero (S := S1x128) hz7, View.ld_unit_zero (S := S128x64) hz7, View.ld_unit_zero (S := S1x64) hz7, View.ld_unit_zero (S := S64x1) hz7, View.ld_unit_zero (S := S1x1) hz7]
  rw [iblk7_1, iblk7_2, iblk7_3, iblk7_4, iblk7_5, iblk7_6]
  obtain ⟨e0, e1, -, -, -, -, -, -, -, -, -, -, -, -, e6, e7⟩ := idx7 t
  funext y
  obtain ⟨p, q, rfl⟩ : ∃ (p : Fin 4000) (q : Fin 1), y = ix2 p q := ⟨y 0, y 1, eq_ix2 y⟩
  obtain rfl : q = 0 := Subsingleton.elim _ _
  show k7_pay1 (F := Ideal) (iblk7 V c 0 t) (V c main_arg12) (V c main_v147) (V c main_arg14) (V c main_v148) (V c main_arg16) (V c main_v149) (ix2 p 0)
      = (Cert.Net.mlpL (V c main_v146) (V c main_arg12) (V c main_v147) (V c main_arg14) (V c main_v148) (V c main_arg16) (V c main_v149)) (((cfg7.win 7).blk t).view.emb (ix2 p 0))
  have h0 : ∀ k : Fin 288, ((cfg7.win 0).blk t).view.emb (ix2 p k) = ix2 (((cfg7.win 7).blk t).view.emb (ix2 p 0) 0) k := fun k => by
    funext a; apply Fin.ext
    match a with
    | ⟨0, _⟩ => show win7_0.index t (0 : Fin 2) * 4000 + 1 * p.val = win7_7.index t (0 : Fin 2) * 4000 + 1 * p.val; omega
    | ⟨1, _⟩ => show win7_0.index t (1 : Fin 2) * 288 + 1 * k.val = k.val; omega
  refine (Cert.KernelIdeal.PayAt.k7_pay1_apply _ _ _ _ _ _ _ p).trans ?_
  unfold Cert.Net.mlpL
  refine Cert.Entry.mlpAt_congr (fun k => ?_) _ _ _ _ _ _
  show V c main_v146 (((cfg7.win 0).blk t).view.emb (ix2 p k)) = V c main_v146 (ix2 (((cfg7.win 7).blk t).view.emb (ix2 p 0) 0) k)
  exact congrArg _ (h0 k)

/-- An index of the array is in point `t`'s block iff each coordinate is in the block's range on its axis. -/
theorem mem_blk7 (t : Fin cfg7.N) (i : S200000x1.Idx) :
    i ∈ ((cfg7.win 7).blk t).view.set ↔ ∀ a : Fin 2, win7_7.index t a * S4000x1.size a ≤ (i a).val ∧ (i a).val < win7_7.index t a * S4000x1.size a + S4000x1.size a := by
  show i ∈ ((View.whole main_v150).slice (win7_7.rect t)).set ↔ _
  rw [View.set_slice_whole, Rect.mem_set_unit]
  exact Iff.rfl

/-- Every index of the array is in the block of the point its row falls in. -/
theorem cover7 (i : S200000x1.Idx) : ∃ t : Fin cfg7.N, (cfg7.win 7).flush t = true ∧ i ∈ ((cfg7.win 7).blk t).view.set := by
  have hi0 : (i 0).val < 200000 := (i 0).isLt
  have hi1 : (i 1).val < 1 := (i 1).isLt
  have hN : grid7.N = 50 := N_7
  let t : Fin cfg7.N := ⟨(i 0).val / 4000, by show (i 0).val / 4000 < grid7.N; omega⟩
  refine ⟨t, flush7_7 t, ?_⟩
  obtain ⟨-, -, -, -, -, -, -, -, -, -, -, -, -, -, e6, e7⟩ := idx7 t
  have e7' : win7_7.index t (0 : Fin 2) = (i 0).val / 4000 := e7
  rw [mem_blk7]
  intro a
  match a with
  | ⟨0, _⟩ => show win7_7.index t (0 : Fin 2) * 4000 ≤ (i 0).val ∧ (i 0).val < win7_7.index t (0 : Fin 2) * 4000 + 4000; omega
  | ⟨1, _⟩ => show win7_7.index t (1 : Fin 2) * 1 ≤ (i 1).val ∧ (i 1).val < win7_7.index t (1 : Fin 2) * 1 + 1; omega

/-- The array after the region: the layer's table of the arrays the region read. -/
theorem arr7 (c : Dev nD) : (dat7 V c).arrAt 7 cfg7.N = Cert.Net.mlpL (V c main_v146) (V c main_arg12) (V c main_v147) (V c main_arg14) (V c main_v148) (V c main_arg16) (V c main_v149) :=
  (dat7 V c).arrAt_eq_of_cover 7 _ (fun t _ => flushed7 V c t) (cover7)

end Cert.KernelIdeal.Val

end
-- ==== Proof.NetOps.lean ====
/-
  The host arithmetic of the graph network, as pure functions of array CONTENTS at the ideal reading
  (a float an extended real, an index a 32-bit word): no memory and no references. Each function is the
  literal composition, in program order, of the operations one stretch of the kernel program's host code
  applies between two of its regions:

    * the edge lists with self loops (the two rows of the edge array, each followed by 0 … 49999);
    * the per-edge weight: the in-degree by a scatter-add of ones, its inverse square root where positive
      (zero elsewhere), gathered at both ends of every edge and multiplied;
    * the aggregation: the rows of a node array gathered at the edges' sources, scaled by the edge weight and
      scatter-added at the edges' targets into zeros;
    * slice i of a stacked weight array or of a stacked row array, the latter re-laid as a 1 × 128 row;
    * the pair features: the rows of the node array at the two ends of every pair and the pair's own
      features, side by side.

  An index is wrapped before a gather the way the program does it: a negative word has 50000 added.
-/
import proofs.«137698_j16329465660189_1_alg».proof.Proof.Gen.KernelIdeal
import Idealize.ShloMosaic.PureOps
import Idealize.ShloMosaic.PureOps.Ideal

noncomputable section

namespace Cert.Net

open Idealize.ShloMosaic Cert.KernelIdeal Cert.KernelIdeal.Gen

/-- Float contents of shape s at the ideal reading. -/
abbrev R (s : Shape) : Type := s.Idx → EReal
/-- Index (32-bit word) contents of shape s. -/
abbrev Z (s : Shape) : Type := s.Idx → BitVec 32

/-! ## The edge lists with self loops -/

/-- A vector of 600000 entries followed by one of 50000, as a function of the two pieces. -/
def joinE {α : Type} (a : S600000.Idx → α) (b : S50000.Idx → α) : S650000.Idx → α :=
  concatenate S650000 0 [⟨S600000, a⟩, ⟨S50000, b⟩] concatenates_S600000_S50000_S650000_d0

/-- The concatenation of the two pieces is that function of them (by definition). -/
theorem concat_joinE {α : Type} (a : S600000.Idx → α) (b : S50000.Idx → α)
    (h : Shape.Concatenates [S600000, S50000] S650000 0) :
    concatenate S650000 0 [⟨S600000, a⟩, ⟨S50000, b⟩] h = joinE a b := rfl

/-- Row 0 of the 2 × 600000 edge array as a vector, followed by 0 … 49999. -/
def rowOf (a1 : Z S2x600000) : Z S650000 :=
  joinE (shapeCast S600000 (extractStridedSlice S1x600000 ![0, 0] a1 slices_S2x600000_S1x600000_0_0) shapeCasts_S1x600000_S600000)
    (iotaInDim S50000 32 0)

/-- Row 1 of the edge array as a vector, followed by 0 … 49999. -/
def colOf (a1 : Z S2x600000) : Z S650000 :=
  joinE (shapeCast S600000 (extractStridedSlice S1x600000 ![1, 0] a1 slices_S2x600000_S1x600000_1_0) shapeCasts_S1x600000_S600000)
    (iotaInDim S50000 32 0)

/-! ## The edge weights -/

/-- A negative index word has 50000 added (650000 entries). -/
def wrapE (v : Z S650000) : Z S650000 :=
  select (cmpi .slt v (broadcastInDim S650000 ![] bcast_S_S650000 (constantI S_ 32 0#32)))
    (addi v (broadcastInDim S650000 ![] bcast_S_S650000 (constantI S_ 32 50000#32))) v

/-- The in-degree: ones scatter-added at the edges' targets into zeros. -/
def degOf (row : Z S650000) : R S50000 :=
  Host.scatterAdd (F := Ideal) (φ := .f32) scatter_S50000_S650000x1_S650000_n_0_0_1
    (broadcastInDim S50000 ![] bcast_S_S50000 (constant (F := Ideal) S_ .f32 0x00000000#32))
    (broadcastInDim S650000x1 ![0] bcast_S650000_S650000x1_0 row)
    (broadcastInDim S650000 ![] bcast_S_S650000 (constant (F := Ideal) S_ .f32 0x3F800000#32))

/-- The inverse square root of a degree vector where it is positive, zero elsewhere. -/
def dinvOfDeg (deg : R S50000) : R S50000 :=
  select (cmpf (F := Ideal) (φ := .f32) .ogt deg (broadcastInDim S50000 ![] bcast_S_S50000 (constant (F := Ideal) S_ .f32 0x00000000#32)))
    (Host.rsqrt (F := Ideal) (φ := .f32) deg)
    (broadcastInDim S50000 ![] bcast_S_S50000 (constant (F := Ideal) S_ .f32 0x00000000#32))

/-- The edge weight from the inverse-root degrees and the two edge lists. -/
def normOfRaw (dinv : R S50000) (row col : Z S650000) : R S650000 :=
  mulf (F := Ideal) (φ := .f32)
    (Host.gather gather_S50000_S650000x1_S650000_n_0_n_n_0_1_1 dinv (broadcastInDim S650000x1 ![0] bcast_S650000_S650000x1_0 (wrapE row)))
    (Host.gather gather_S50000_S650000x1_S650000_n_0_n_n_0_1_1 dinv (broadcastInDim S650000x1 ![0] bcast_S650000_S650000x1_0 (wrapE col)))

/-- The edge weight as a function of the edge array. -/
def normOf (a1 : Z S2x600000) : R S650000 :=
  normOfRaw (dinvOfDeg (degOf (rowOf a1))) (rowOf a1) (colOf a1)

/-! ## The aggregation -/

/-- Rows of h gathered at the wrapped sources, scaled by the edge weight, scatter-added at the targets into zeros. -/
def aggOfRaw (row col : Z S650000) (norm : R S650000) (h : R S50000x128) : R S50000x128 :=
  Host.scatterAdd (F := Ideal) (φ := .f32) scatter_S50000x128_S650000x1_S650000x128_1_0_0_1
    (broadcastInDim S50000x128 ![] bcast_S_S50000x128 (constant (F := Ideal) S_ .f32 0x00000000#32))
    (broadcastInDim S650000x1 ![0] bcast_S650000_S650000x1_0 row)
    (mulf (F := Ideal) (φ := .f32)
      (Host.gather gather_S50000x128_S650000x1_S650000x128_1_0_n_n_0_1_1128 h
        (broadcastInDim S650000x1 ![0] bcast_S650000_S650000x1_0 (wrapE col)))
      (broadcastInDim S650000x128 ![0, 1] bcast_S650000x1_S650000x128_0_1
        (broadcastInDim S650000x1 ![0] bcast_S650000_S650000x1_0 norm)))

/-- The aggregation as a function of the edge array and the node array. -/
def aggOf (a1 : Z S2x600000) (h : R S50000x128) : R S50000x128 :=
  aggOfRaw (rowOf a1) (colOf a1) (normOf a1) h

/-! ## Slices of the stacked parameters -/

/-- Slice i of the 3 × 128 × 128 stack as a 128 × 128 matrix. -/
def sliceW (i : Fin 3) (a6 : R S3x128x128) : R S128x128 :=
  match i with
  | 0 => shapeCast S128x128 (extractStridedSlice S1x128x128 ![0, 0, 0] a6 slices_S3x128x128_S1x128x128_0_0_0) shapeCasts_S1x128x128_S128x128
  | 1 => shapeCast S128x128 (extractStridedSlice S1x128x128 ![1, 0, 0] a6 slices_S3x128x128_S1x128x128_1_0_0) shapeCasts_S1x128x128_S128x128
  | 2 => shapeCast S128x128 (extractStridedSlice S1x128x128 ![2, 0, 0] a6 slices_S3x128x128_S1x128x128_2_0_0) shapeCasts_S1x128x128_S128x128

/-- Row i of a 3 × 128 stack: sliced, flattened to 128 entries, re-laid as a 1 × 128 row. -/
def rowOf3 (i : Fin 3) (a : R S3x128) : R S1x128 :=
  match i with
  | 0 => shapeCast S1x128 (shapeCast S128 (extractStridedSlice S1x128 ![0, 0] a slices_S3x128_S1x128_0_0) shapeCasts_S1x128_S128) shapeCasts_S128_S1x128
  | 1 => shapeCast S1x128 (shapeCast S128 (extractStridedSlice S1x128 ![1, 0] a slices_S3x128_S1x128_1_0) shapeCasts_S1x128_S128) shapeCasts_S128_S1x128
  | 2 => shapeCast S1x128 (shapeCast S128 (extractStridedSlice S1x128 ![2, 0] a slices_S3x128_S1x128_2_0) shapeCasts_S1x128_S128) shapeCasts_S128_S1x128

/-- A 128-vector as a 1 × 128 row. -/
def row128 (a : R S128) : R S1x128 := shapeCast S1x128 a shapeCasts_S128_S1x128
/-- A 64-vector as a 1 × 64 row. -/
def row64 (a : R S64) : R S1x64 := shapeCast S1x64 a shapeCasts_S64_S1x64
/-- A 1-vector as a 1 × 1 row. -/
def row1 (a : R S1) : R S1x1 := shapeCast S1x1 a shapeCasts_S1_S1x1

/-! ## The pair features -/

/-- A negative index word has 50000 added (200000 entries). -/
def wrapP (v : Z S200000) : Z S200000 :=
  select (cmpi .slt v (broadcastInDim S200000 ![] bcast_S_S200000 (constantI S_ 32 0#32)))
    (addi v (broadcastInDim S200000 ![] bcast_S_S200000 (constantI S_ 32 50000#32))) v

/-- Column 0 of the pair array as a vector. -/
def pairL (a2 : Z S200000x2) : Z S200000 :=
  shapeCast S200000 (extractStridedSlice S200000x1 ![0, 0] a2 slices_S200000x2_S200000x1_0_0) shapeCasts_S200000x1_S200000
/-- Column 1 of the pair array as a vector. -/
def pairR (a2 : Z S200000x2) : Z S200000 :=
  shapeCast S200000 (extractStridedSlice S200000x1 ![0, 1] a2 slices_S200000x2_S200000x1_0_1) shapeCasts_S200000x1_S200000

/-- The rows of x at the wrapped entries of an index vector. -/
def gatherP (x : R S50000x128) (v : Z S200000) : R S200000x128 :=
  Host.gather gather_S50000x128_S200000x1_S200000x128_1_0_n_n_0_1_1128 x
    (broadcastInDim S200000x1 ![0] bcast_S200000_S200000x1_0 (wrapP v))

/-- Three blocks of 128, 128 and 32 columns side by side, as a function of the three pieces. -/
def join3 {α : Type} (a b : S200000x128.Idx → α) (c : S200000x32.Idx → α) : S200000x288.Idx → α :=
  concatenate S200000x288 1 [⟨S200000x128, a⟩, ⟨S200000x128, b⟩, ⟨S200000x32, c⟩]
    concatenates_S200000x128_S200000x128_S200000x32_S200000x288_d1

/-- The concatenation of the three pieces is that function of them (by definition). -/
theorem concat_join3 {α : Type} (a b : S200000x128.Idx → α) (c : S200000x32.Idx → α)
    (h : Shape.Concatenates [S200000x128, S200000x128, S200000x32] S200000x288 1) :
    concatenate S200000x288 1 [⟨S200000x128, a⟩, ⟨S200000x128, b⟩, ⟨S200000x32, c⟩] h = join3 a b c := rfl

/-- The pair features: the node rows at both ends of every pair, then the pair's own features. -/
def pairCatRaw (x : R S50000x128) (a2 : Z S200000x2) (a3 : R S200000x32) : R S200000x288 :=
  join3 (gatherP x (pairL a2)) (gatherP x (pairR a2)) a3

end Cert.Net

end
-- ==== Proof.LibNary3.lean ====
/-
  A general lemma on a host operation of THREE operands, each of its own type (a `stablehlo.concatenate` of
  three tensors, printed `nary ![x, a, b] y (fun u => g (u 0) (u 1) (u 2))`): its result is `g` of the three
  operands' contents, each read at its own reference — so that a fold over a line of operations can go on
  rewriting the operands' contents, which it cannot do under the binder of the family `fun k => ![x, a, b] k`.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family `![x, a, b]` of three references whose function reads
    the family at its three entries: that function of the three operands' contents. -/
theorem nary3_result
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  nary_result _ _ _ hxs hy F

/-- The same, stated for `simp`: the result reference left out of the pattern's index. -/
theorem nary3_result'
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary3_result g hxs hy F

end Cert.LibNary3

end
-- ==== Proof.KI.Stretch.lean ====
/-
  What the kernel program's host arithmetic leaves in the arrays a region or a later stretch reads, for an ARBITRARY
  assignment of contents to the arrays before the stretch: each is the corresponding pure function of the contents of
  the arrays the stretch reads (the functions of the first module imported).

  A stretch is a straight line of whole-array operations, each writing one array of its own; the contents of one array
  after the line are computed by rewriting, once per operation, the result at the operation's own array to its function
  of its operands and any other array to what it held before. The three stretches before the first region run with
  nothing between them, so their lemmas are stated for the three in sequence; the edge weights, whose second stretch
  passes through a function of the program with typed arguments, are composed from one lemma per stretch.
-/
import proofs.«137698_j16329465660189_1_alg».proof.Proof.NetOps
import proofs.«137698_j16329465660189_1_alg».proof.Proof.LibNary3
import proofs.«137698_j16329465660189_1_alg».proof.Proof.Gen.KernelIdeal.Launch
import Idealize.ShloMosaic.Lib.StableHlo.Run

-- the type of a reference is read off a table of 250 entries
set_option maxRecDepth 8192
set_option maxHeartbeats 4000000

noncomputable section

namespace Cert.KernelIdeal.Stretch

open Idealize.ShloMosaic Idealize.ShloMosaic.StableHlo Cert.KernelIdeal Cert.KernelIdeal.Gen Cert.Net

/-- The contents a line of host operations leaves in one buffer, by ONE rewriting pass: each operation's result at its own
    buffer is its function of its operands' contents, any other buffer is unchanged; a concatenation is read as a function
    of its pieces so that the pass goes on inside them, and a three-operand operation at its operands' own references. -/
macro "host_results" : tactic =>
  `(tactic| (simp (disch := decide) only [after_cons, after_nil, Cert.Net.concat_joinE, Cert.Net.concat_join3,
      Cert.LibNary3.nary3_result',
      nullary_result', unary_result', binary_result', ternary_result', quaternary_result', reshape_result',
      nullary_result_ne', unary_result_ne', binary_result_ne', ternary_result_ne', quaternary_result_ne', reshape_result_ne',
      nary_result_ne']))

/-! ## Before the first region -/

/-- After the first stretch the target list is the edge array's row 0 with the self loops. -/
theorem s0_row (W : Valuation τ sig (Elt Ideal)) :
    StableHlo.after (hostOps0 (F := Ideal)) W (Proc.devRef .tc main_v3)
      = rowOf (W (Proc.devRef .tc main_arg1)) := by
  show StableHlo.after hostOps0 W (Proc.devRef .tc main_v3) = _
  dsimp only [hostOps0]; host_results <;> rfl

/-- After the first stretch the source list is the edge array's row 1 with the self loops. -/
theorem s0_col (W : Valuation τ sig (Elt Ideal)) :
    StableHlo.after (hostOps0 (F := Ideal)) W (Proc.devRef .tc main_v6)
      = colOf (W (Proc.devRef .tc main_arg1)) := by
  show StableHlo.after hostOps0 W (Proc.devRef .tc main_v6) = _
  dsimp only [hostOps0]; host_results <;> rfl

/-- After the first stretch: where the in-degree is positive. -/
theorem s0_pos (W : Valuation τ sig (Elt Ideal)) :
    StableHlo.after (hostOps0 (F := Ideal)) W (Proc.devRef .tc main_v12)
      = cmpf (F := Ideal) (φ := .f32) .ogt (degOf (rowOf (W (Proc.devRef .tc main_arg1))))
          (broadcastInDim S50000 ![] bcast_S_S50000 (constant (F := Ideal) S_ .f32 0x00000000#32)) := by
  show StableHlo.after hostOps0 W (Proc.devRef .tc main_v12) = _
  dsimp only [hostOps0]; host_results <;> rfl

/-- After the first stretch: the inverse square root of the in-degree. -/
theorem s0_rsqrt (W : Valuation τ sig (Elt Ideal)) :
    StableHlo.after (hostOps0 (F := Ideal)) W (Proc.devRef .tc main_v13)
      = Host.rsqrt (F := Ideal) (φ := .f32) (degOf (rowOf (W (Proc.devRef .tc main_arg1)))) := by
  show StableHlo.after hostOps0 W (Proc.devRef .tc main_v13) = _
  dsimp only [hostOps0]; host_results <;> rfl

/-- After the first stretch: the scalar zero the selection falls back to. -/
theorem s0_zero (W : Valuation τ sig (Elt Ideal)) :
    StableHlo.after (hostOps0 (F := Ideal)) W (Proc.devRef .tc main_cst_2) = constant (F := Ideal) S_ .f32 0x00000000#32 := by
  show StableHlo.after hostOps0 W (Proc.devRef .tc main_cst_2) = _
  dsimp only [hostOps0]; host_results <;> rfl

/-- The second stretch selects, entry by entry, between its two vectors and the spread scalar. -/
theorem s01_dinv (W : Valuation τ sig (Elt Ideal)) :
    StableHlo.after (hostOps0_1 (F := Ideal)) W (Proc.devRef .tc main_v14)
      = select (W (Proc.devRef .tc main_v12)) (W (Proc.devRef .tc main_v13))
          (broadcastInDim S50000 ![] bcast_S_S50000 (W (Proc.devRef .tc main_cst_2))) := by
  show StableHlo.after hostOps0_1 W (Proc.devRef .tc main_v14) = _
  dsimp only [hostOps0_1]; host_results <;> rfl

/-- The second stretch leaves the target list as it was. -/
theorem s01_row (W : Valuation τ sig (Elt Ideal)) :
    StableHlo.after (hostOps0_1 (F := Ideal)) W (Proc.devRef .tc main_v3) = W (Proc.devRef .tc main_v3) := by
  show StableHlo.after hostOps0_1 W (Proc.devRef .tc main_v3) = _
  dsimp only [hostOps0_1]; host_results

/-- The second stretch leaves the source list as it was. -/
theorem s01_col (W : Valuation τ sig (Elt Ideal)) :
    StableHlo.after (hostOps0_1 (F := Ideal)) W (Proc.devRef .tc main_v6) = W (Proc.devRef .tc main_v6) := by
  show StableHlo.after hostOps0_1 W (Proc.devRef .tc main_v6) = _
  dsimp only [hostOps0_1]; host_results

/-- The third stretch: the edge weights from the inverse-root degrees and the two lists it reads. -/
theorem s02_normRaw (W : Valuation τ sig (Elt Ideal)) :
    StableHlo.after (hostOps0_2 (F := Ideal)) W (Proc.devRef .tc main_v29)
      = normOfRaw (W (Proc.devRef .tc main_v14)) (W (Proc.devRef .tc main_v3)) (W (Proc.devRef .tc main_v6)) := by
  show StableHlo.after hostOps0_2 W (Proc.devRef .tc main_v29) = _
  dsimp only [hostOps0_2]; host_results <;> rfl

/-- After the three stretches before the first region: the edge weights. -/
theorem s02_norm (W : Valuation τ sig (Elt Ideal)) :
    StableHlo.after (hostOps0_2 (F := Ideal)) (StableHlo.after (hostOps0_1 (F := Ideal)) (StableHlo.after (hostOps0 (F := Ideal)) W)) (Proc.devRef .tc main_v29)
      = normOf (W (Proc.devRef .tc main_arg1)) := by
  rw [s02_normRaw, s01_dinv, s01_row, s01_col, s0_pos, s0_rsqrt, s0_zero, s0_row, s0_col]
  rfl

/-- After the three stretches before the first region: the target list. -/
theorem s02_row (W : Valuation τ sig (Elt Ideal)) :
    StableHlo.after (hostOps0_2 (F := Ideal)) (StableHlo.after (hostOps0_1 (F := Ideal)) (StableHlo.after (hostOps0 (F := Ideal)) W)) (Proc.devRef .tc main_v3)
      = rowOf (W (Proc.devRef .tc main_arg1)) := by
  show StableHlo.after hostOps0_2 (StableHlo.after hostOps0_1 (StableHlo.after hostOps0 W)) (Proc.devRef .tc main_v3) = _
  dsimp only [hostOps0, hostOps0_1, hostOps0_2]; host_results <;> rfl

/-- After the three stretches before the first region: the source list. -/
theorem s02_col (W : Valuation τ sig (Elt Ideal)) :
    StableHlo.after (hostOps0_2 (F := Ideal)) (StableHlo.after (hostOps0_1 (F := Ideal)) (StableHlo.after (hostOps0 (F := Ideal)) W)) (Proc.devRef .tc main_v6)
      = colOf (W (Proc.devRef .tc main_arg1)) := by
  show StableHlo.after hostOps0_2 (StableHlo.after hostOps0_1 (StableHlo.after hostOps0 W)) (Proc.devRef .tc main_v6) = _
  dsimp only [hostOps0, hostOps0_1, hostOps0_2]; host_results <;> rfl

/-- After the three stretches before the first region: the embedding bias as a row. -/
theorem s02_b (W : Valuation τ sig (Elt Ideal)) :
    StableHlo.after (hostOps0_2 (F := Ideal)) (StableHlo.after (hostOps0_1 (F := Ideal)) (StableHlo.after (hostOps0 (F := Ideal)) W)) (Proc.devRef .tc main_v30)
      = row128 (W (Proc.devRef .tc main_arg5)) := by
  show StableHlo.after hostOps0_2 (StableHlo.after hostOps0_1 (StableHlo.after hostOps0 W)) (Proc.devRef .tc main_v30) = _
  dsimp only [hostOps0, hostOps0_1, hostOps0_2]; host_results <;> rfl

/-! ## The weight slices -/

/-- Layer 0's weight matrix. -/
theorem s1_w (W : Valuation τ sig (Elt Ideal)) :
    StableHlo.after (hostOps1 (F := Ideal)) W (Proc.devRef .tc main_v33)
      = sliceW 0 (W (Proc.devRef .tc main_arg6)) := by
  show StableHlo.after hostOps1 W (Proc.devRef .tc main_v33) = _
  dsimp only [hostOps1]; host_results <;> rfl

/-- Layer 1's weight matrix. -/
theorem s3_w (W : Valuation τ sig (Elt Ideal)) :
    StableHlo.after (hostOps3 (F := Ideal)) W (Proc.devRef .tc main_v65)
      = sliceW 1 (W (Proc.devRef .tc main_arg6)) := by
  show StableHlo.after hostOps3 W (Proc.devRef .tc main_v65) = _
  dsimp only [hostOps3]; host_results <;> rfl

/-- Layer 2's weight matrix. -/
theorem s5_w (W : Valuation τ sig (Elt Ideal)) :
    StableHlo.after (hostOps5 (F := Ideal)) W (Proc.devRef .tc main_v97)
      = sliceW 2 (W (Proc.devRef .tc main_arg6)) := by
  show StableHlo.after hostOps5 W (Proc.devRef .tc main_v97) = _
  dsimp only [hostOps5]; host_results <;> rfl

/-! ## The aggregations and the normalisation rows -/

/-- Layer 0's aggregation, as a function of the buffers the stretch reads. -/
theorem s2_agg (W : Valuation τ sig (Elt Ideal)) :
    StableHlo.after (hostOps2 (F := Ideal)) W (Proc.devRef .tc main_v47)
      = aggOfRaw (W (Proc.devRef .tc main_v3)) (W (Proc.devRef .tc main_v6)) (W (Proc.devRef .tc main_v29)) (W (Proc.devRef .tc main_v34)) := by
  show StableHlo.after hostOps2 W (Proc.devRef .tc main_v47) = _
  dsimp only [hostOps2]; host_results <;> rfl

/-- Layer 0's b row. -/
theorem s2_b (W : Valuation τ sig (Elt Ideal)) :
    StableHlo.after (hostOps2 (F := Ideal)) W (Proc.devRef .tc main_v58)
      = rowOf3 0 (W (Proc.devRef .tc main_arg7)) := by
  show StableHlo.after hostOps2 W (Proc.devRef .tc main_v58) = _
  dsimp only [hostOps2]; host_results <;> rfl

/-- Layer 0's gamma row. -/
theorem s2_gamma (W : Valuation τ sig (Elt Ideal)) :
    StableHlo.after (hostOps2 (F := Ideal)) W (Proc.devRef .tc main_v59)
      = rowOf3 0 (W (Proc.devRef .tc main_arg8)) := by
  show StableHlo.after hostOps2 W (Proc.devRef .tc main_v59) = _
  dsimp only [hostOps2]; host_results <;> rfl

/-- Layer 0's beta row. -/
theorem s2_beta (W : Valuation τ sig (Elt Ideal)) :
    StableHlo.after (hostOps2 (F := Ideal)) W (Proc.devRef .tc main_v60)
      = rowOf3 0 (W (Proc.devRef .tc main_arg9)) := by
  show StableHlo.after hostOps2 W (Proc.devRef .tc main_v60) = _
  dsimp only [hostOps2]; host_results <;> rfl

/-- Layer 0's mean row. -/
theorem s2_mean (W : Valuation τ sig (Elt Ideal)) :
    StableHlo.after (hostOps2 (F := Ideal)) W (Proc.devRef .tc main_v61)
      = rowOf3 0 (W (Proc.devRef .tc main_arg10)) := by
  show StableHlo.after hostOps2 W (Proc.devRef .tc main_v61) = _
  dsimp only [hostOps2]; host_results <;> rfl

/-- Layer 0's var row. -/
theorem s2_var (W : Valuation τ sig (Elt Ideal)) :
    StableHlo.after (hostOps2 (F := Ideal)) W (Proc.devRef .tc main_v62)
      = rowOf3 0 (W (Proc.devRef .tc main_arg11)) := by
  show StableHlo.after hostOps2 W (Proc.devRef .tc main_v62) = _
  dsimp only [hostOps2]; host_results <;> rfl

/-- Layer 1's aggregation, as a function of the buffers the stretch reads. -/
theorem s4_agg (W : Valuation τ sig (Elt Ideal)) :
    StableHlo.after (hostOps4 (F := Ideal)) W (Proc.devRef .tc main_v79)
      = aggOfRaw (W (Proc.devRef .tc main_v3)) (W (Proc.devRef .tc main_v6)) (W (Proc.devRef .tc main_v29)) (W (Proc.devRef .tc main_v66)) := by
  show StableHlo.after hostOps4 W (Proc.devRef .tc main_v79) = _
  dsimp only [hostOps4]; host_results <;> rfl

/-- Layer 1's b row. -/
theorem s4_b (W : Valuation τ sig (Elt Ideal)) :
    StableHlo.after (hostOps4 (F := Ideal)) W (Proc.devRef .tc main_v90)
      = rowOf3 1 (W (Proc.devRef .tc main_arg7)) := by
  show StableHlo.after hostOps4 W (Proc.devRef .tc main_v90) = _
  dsimp only [hostOps4]; host_results <;> rfl

/-- Layer 1's gamma row. -/
theorem s4_gamma (W : Valuation τ sig (Elt Ideal)) :
    StableHlo.after (hostOps4 (F := Ideal)) W (Proc.devRef .tc main_v91)
      = rowOf3 1 (W (Proc.devRef .tc main_arg8)) := by
  show StableHlo.after hostOps4 W (Proc.devRef .tc main_v91) = _
  dsimp only [hostOps4]; host_results <;> rfl

/-- Layer 1's beta row. -/
theorem s4_beta (W : Valuation τ sig (Elt Ideal)) :
    StableHlo.after (hostOps4 (F := Ideal)) W (Proc.devRef .tc main_v92)
      = rowOf3 1 (W (Proc.devRef .tc main_arg9)) := by
  show StableHlo.after hostOps4 W (Proc.devRef .tc main_v92) = _
  dsimp only [hostOps4]; host_results <;> rfl

/-- Layer 1's mean row. -/
theorem s4_mean (W : Valuation τ sig (Elt Ideal)) :
    StableHlo.after (hostOps4 (F := Ideal)) W (Proc.devRef .tc main_v93)
      = rowOf3 1 (W (Proc.devRef .tc main_arg10)) := by
  show StableHlo.after hostOps4 W (Proc.devRef .tc main_v93) = _
  dsimp only [hostOps4]; host_results <;> rfl

/-- Layer 1's var row. -/
theorem s4_var (W : Valuation τ sig (Elt Ideal)) :
    StableHlo.after (hostOps4 (F := Ideal)) W (Proc.devRef .tc main_v94)
      = rowOf3 1 (W (Proc.devRef .tc main_arg11)) := by
  show StableHlo.after hostOps4 W (Proc.devRef .tc main_v94) = _
  dsimp only [hostOps4]; host_results <;> rfl

/-- Layer 2's aggregation, as a function of the buffers the stretch reads. -/
theorem s6_agg (W : Valuation τ sig (Elt Ideal)) :
    StableHlo.after (hostOps6 (F := Ideal)) W (Proc.devRef .tc main_v111)
      = aggOfRaw (W (Proc.devRef .tc main_v3)) (W (Proc.devRef .tc main_v6)) (W (Proc.devRef .tc main_v29)) (W (Proc.devRef .tc main_v98)) := by
  show StableHlo.after hostOps6 W (Proc.devRef .tc main_v111) = _
  dsimp only [hostOps6]; host_results <;> rfl

/-- Layer 2's b row. -/
theorem s6_b (W : Valuation τ sig (Elt Ideal)) :
    StableHlo.after (hostOps6 (F := Ideal)) W (Proc.devRef .tc main_v122)
      = rowOf3 2 (W (Proc.devRef .tc main_arg7)) := by
  show StableHlo.after hostOps6 W (Proc.devRef .tc main_v122) = _
  dsimp only [hostOps6]; host_results <;> rfl

/-- Layer 2's gamma row. -/
theorem s6_gamma (W : Valuation τ sig (Elt Ideal)) :
    StableHlo.after (hostOps6 (F := Ideal)) W (Proc.devRef .tc main_v123)
      = rowOf3 2 (W (Proc.devRef .tc main_arg8)) := by
  show StableHlo.after hostOps6 W (Proc.devRef .tc main_v123) = _
  dsimp only [hostOps6]; host_results <;> rfl

/-- Layer 2's beta row. -/
theorem s6_beta (W : Valuation τ sig (Elt Ideal)) :
    StableHlo.after (hostOps6 (F := Ideal)) W (Proc.devRef .tc main_v124)
      = rowOf3 2 (W (Proc.devRef .tc main_arg9)) := by
  show StableHlo.after hostOps6 W (Proc.devRef .tc main_v124) = _
  dsimp only [hostOps6]; host_results <;> rfl

/-- Layer 2's mean row. -/
theorem s6_mean (W : Valuation τ sig (Elt Ideal)) :
    StableHlo.after (hostOps6 (F := Ideal)) W (Proc.devRef .tc main_v125)
      = rowOf3 2 (W (Proc.devRef .tc main_arg10)) := by
  show StableHlo.after hostOps6 W (Proc.devRef .tc main_v125) = _
  dsimp only [hostOps6]; host_results <;> rfl

/-- Layer 2's var row. -/
theorem s6_var (W : Valuation τ sig (Elt Ideal)) :
    StableHlo.after (hostOps6 (F := Ideal)) W (Proc.devRef .tc main_v126)
      = rowOf3 2 (W (Proc.devRef .tc main_arg11)) := by
  show StableHlo.after hostOps6 W (Proc.devRef .tc main_v126) = _
  dsimp only [hostOps6]; host_results <;> rfl

/-! ## The pair features and the read-out's bias rows -/

/-- The pair features, as a function of the buffers the stretch reads. -/
theorem s7_z (W : Valuation τ sig (Elt Ideal)) :
    StableHlo.after (hostOps7 (F := Ideal)) W (Proc.devRef .tc main_v146)
      = pairCatRaw (W (Proc.devRef .tc main_v127)) (W (Proc.devRef .tc main_arg2)) (W (Proc.devRef .tc main_arg3)) := by
  show StableHlo.after hostOps7 W (Proc.devRef .tc main_v146) = _
  dsimp only [hostOps7]; host_results <;> rfl

/-- The first bias as a row. -/
theorem s7_b1 (W : Valuation τ sig (Elt Ideal)) :
    StableHlo.after (hostOps7 (F := Ideal)) W (Proc.devRef .tc main_v147)
      = row128 (W (Proc.devRef .tc main_arg13)) := by
  show StableHlo.after hostOps7 W (Proc.devRef .tc main_v147) = _
  dsimp only [hostOps7]; host_results <;> rfl

/-- The second bias as a row. -/
theorem s7_b2 (W : Valuation τ sig (Elt Ideal)) :
    StableHlo.after (hostOps7 (F := Ideal)) W (Proc.devRef .tc main_v148)
      = row64 (W (Proc.devRef .tc main_arg15)) := by
  show StableHlo.after hostOps7 W (Proc.devRef .tc main_v148) = _
  dsimp only [hostOps7]; host_results <;> rfl

/-- The third bias as a row. -/
theorem s7_b3 (W : Valuation τ sig (Elt Ideal)) :
    StableHlo.after (hostOps7 (F := Ideal)) W (Proc.devRef .tc main_v149)
      = row1 (W (Proc.devRef .tc main_arg17)) := by
  show StableHlo.after hostOps7 W (Proc.devRef .tc main_v149) = _
  dsimp only [hostOps7]; host_results <;> rfl

end Cert.KernelIdeal.Stretch
end
-- ==== Proof.Net.lean ====
/-
  The whole network as ONE pure function of its eighteen argument arrays, at the ideal reading:

    x₀ = atoms · embed_W + embed_b ;
    for i < 3 :  h = x · conv_W[i] ;  agg = the weighted sum of h's rows over every node's incoming edges ;
                 x = max (((agg + conv_b[i]) − mean[i]) · rsqrt (var[i] + ε) · gamma[i] + beta[i]) 0 ;
    z = x₃ at the two ends of every pair, then the pair's own features ;
    out = max (max (z · W₁ + b₁) 0 · W₂ + b₂) 0 · W₃ + b₃ .

  The arithmetic on whole arrays between the layers (the edge lists, the edge weights, the aggregation, the
  parameter slices, the pair features) is that of the first module imported; the layers are those of the second.
-/
import proofs.«137698_j16329465660189_1_alg».proof.Proof.NetOps
import proofs.«137698_j16329465660189_1_alg».proof.Proof.Layers

noncomputable section

namespace Cert.Net

open Idealize.ShloMosaic Cert.KernelIdeal

/-- The embedding of the atom features. -/
def x0Of (a0 : R S50000x64) (a4 : R S64x128) (a5 : R S128) : R S50000x128 :=
  denseL a0 a4 (row128 a5)

/-- Graph layer i applied to the node table x: the product with slice i of the weights, the aggregation over the
    edges, the normalisation with row i of the bias (a7), variance (a11), mean (a10), scale (a8) and shift (a9). -/
def layerOf (i : Fin 3) (a1 : Z S2x600000) (a6 : R S3x128x128) (a7 a8 a9 a10 a11 : R S3x128) (x : R S50000x128) :
    R S50000x128 :=
  bnL (aggOf a1 (mmL x (sliceW i a6))) (rowOf3 i a7) (rowOf3 i a11) (rowOf3 i a10) (rowOf3 i a8) (rowOf3 i a9)

/-- The node table after the embedding and the three graph layers. -/
def x3Of (a0 : R S50000x64) (a1 : Z S2x600000) (a4 : R S64x128) (a5 : R S128) (a6 : R S3x128x128)
    (a7 a8 a9 a10 a11 : R S3x128) : R S50000x128 :=
  layerOf 2 a1 a6 a7 a8 a9 a10 a11 (layerOf 1 a1 a6 a7 a8 a9 a10 a11 (layerOf 0 a1 a6 a7 a8 a9 a10 a11 (x0Of a0 a4 a5)))

/-- The network: the pair read-out of the final node table. -/
def Net (a0 : R S50000x64) (a1 : Z S2x600000) (a2 : Z S200000x2) (a3 : R S200000x32) (a4 : R S64x128) (a5 : R S128)
    (a6 : R S3x128x128) (a7 a8 a9 a10 a11 : R S3x128) (a12 : R S288x128) (a13 : R S128) (a14 : R S128x64) (a15 : R S64)
    (a16 : R S64x1) (a17 : R S1) : R S200000x1 :=
  mlpL (pairCatRaw (x3Of a0 a1 a4 a5 a6 a7 a8 a9 a10 a11) a2 a3) a12 (row128 a13) a14 (row64 a15) a16 (row1 a17)

end Cert.Net

end
-- ==== Proof.KI.Value.lean ====
/-
  The value of the program: the result array, at the last boundary, is the network `Cert.Net.Net` of the eighteen
  argument arrays as launched. Walking @main: each region leaves its layer's table of the arrays it read (the region's
  array lemma), each stretch of host operations leaves its functions of the buffers it read (the stretch lemmas), an
  argument array is at every boundary what the launch memory held, and the edge lists and edge weights written by the
  opening stretches are still there at each of the three aggregations.
-/
import proofs.«137698_j16329465660189_1_alg».proof.Proof.KI.Walk
import proofs.«137698_j16329465660189_1_alg».proof.Proof.KI.Arr0
import proofs.«137698_j16329465660189_1_alg».proof.Proof.KI.Arr1
import proofs.«137698_j16329465660189_1_alg».proof.Proof.KI.Arr2
import proofs.«137698_j16329465660189_1_alg».proof.Proof.KI.Arr3
import proofs.«137698_j16329465660189_1_alg».proof.Proof.KI.Arr4
import proofs.«137698_j16329465660189_1_alg».proof.Proof.KI.Arr5
import proofs.«137698_j16329465660189_1_alg».proof.Proof.KI.Arr6
import proofs.«137698_j16329465660189_1_alg».proof.Proof.KI.Arr7
import proofs.«137698_j16329465660189_1_alg».proof.Proof.KI.Stretch
import proofs.«137698_j16329465660189_1_alg».proof.Proof.Net

set_option maxRecDepth 16384
set_option maxHeartbeats 4000000

noncomputable section

namespace Cert.KernelIdeal.Val

open Cert.KernelIdeal Cert.KernelIdeal.Gen Cert.KernelIdeal.Frm Cert.KernelIdeal.Stretch Cert.Net
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-- After region 0: the embedding of the atom table. -/
theorem at4_x : Bd4 m c (Proc.devRef .tc main_v31) = x0Of (m ((c : Thread nD τ).loc main_arg0)) (m ((c : Thread nD τ).loc main_arg4)) (m ((c : Thread nD τ).loc main_arg5)) := by
  refine (Bd4_arr m c 3).trans ((arr0 (Bv3 m) c).trans ?_)
  show denseL (Bd3 m c (Proc.devRef .tc main_arg0)) (Bd3 m c (Proc.devRef .tc main_arg4)) (Bd3 m c (Proc.devRef .tc main_v30)) = denseL (m ((c : Thread nD τ).loc main_arg0)) (m ((c : Thread nD τ).loc main_arg4)) (row128 (m ((c : Thread nD τ).loc main_arg5)))
  rw [Bd3_main_arg0 m c, Bd3_main_arg4 m c, show Bd3 m c (Proc.devRef .tc main_v30) = row128 (Bd0 m c (Proc.devRef .tc main_arg5)) from s02_b (Bd0 m c)]

/-- After region 1: layer 0's product of the node table with its slice of the weights. -/
theorem at6_h : Bd6 m c (Proc.devRef .tc main_v34) = mmL (x0Of (m ((c : Thread nD τ).loc main_arg0)) (m ((c : Thread nD τ).loc main_arg4)) (m ((c : Thread nD τ).loc main_arg5))) (sliceW 0 (m ((c : Thread nD τ).loc main_arg6))) := by
  refine (Bd6_arr m c 2).trans ((arr1 (Bv5 m) c).trans ?_)
  show mmL (Bd5 m c (Proc.devRef .tc main_v31)) (Bd5 m c (Proc.devRef .tc main_v33)) = _
  rw [Bd5_keep m c main_v31 (by decide), at4_x m c, show Bd5 m c (Proc.devRef .tc main_v33) = sliceW 0 (Bd4 m c (Proc.devRef .tc main_arg6)) from s1_w (Bd4 m c), Bd4_main_arg6 m c]

/-- After the stretch that follows: the aggregation of that product over the edges. -/
theorem at7_agg : Bd7 m c (Proc.devRef .tc main_v47) = aggOf (m ((c : Thread nD τ).loc main_arg1)) (mmL (x0Of (m ((c : Thread nD τ).loc main_arg0)) (m ((c : Thread nD τ).loc main_arg4)) (m ((c : Thread nD τ).loc main_arg5))) (sliceW 0 (m ((c : Thread nD τ).loc main_arg6)))) := by
  show StableHlo.after (hostOps2 (F := Ideal)) (Bd6 m c) (Proc.devRef .tc main_v47) = _
  rw [s2_agg (Bd6 m c), Bd6_main_v3 m c, Bd6_main_v6 m c, Bd6_main_v29 m c, at6_h m c,
    show Bd1 m c (Proc.devRef .tc main_v3) = rowOf (Bd0 m c (Proc.devRef .tc main_arg1)) from s0_row (Bd0 m c),
    show Bd1 m c (Proc.devRef .tc main_v6) = colOf (Bd0 m c (Proc.devRef .tc main_arg1)) from s0_col (Bd0 m c),
    show Bd3 m c (Proc.devRef .tc main_v29) = normOf (Bd0 m c (Proc.devRef .tc main_arg1)) from s02_norm (Bd0 m c)]
  rfl
theorem at7_b : Bd7 m c (Proc.devRef .tc main_v58) = rowOf3 0 (m ((c : Thread nD τ).loc main_arg7)) :=
  (s2_b (Bd6 m c)).trans (congrArg (rowOf3 0) (Bd6_main_arg7 m c))
theorem at7_gamma : Bd7 m c (Proc.devRef .tc main_v59) = rowOf3 0 (m ((c : Thread nD τ).loc main_arg8)) :=
  (s2_gamma (Bd6 m c)).trans (congrArg (rowOf3 0) (Bd6_main_arg8 m c))
theorem at7_beta : Bd7 m c (Proc.devRef .tc main_v60) = rowOf3 0 (m ((c : Thread nD τ).loc main_arg9)) :=
  (s2_beta (Bd6 m c)).trans (congrArg (rowOf3 0) (Bd6_main_arg9 m c))
theorem at7_mean : Bd7 m c (Proc.devRef .tc main_v61) = rowOf3 0 (m ((c : Thread nD τ).loc main_arg10)) :=
  (s2_mean (Bd6 m c)).trans (congrArg (rowOf3 0) (Bd6_main_arg10 m c))
theorem at7_var : Bd7 m c (Proc.devRef .tc main_v62) = rowOf3 0 (m ((c : Thread nD τ).loc main_arg11)) :=
  (s2_var (Bd6 m c)).trans (congrArg (rowOf3 0) (Bd6_main_arg11 m c))

/-- After region 2: the node table after layer 0. -/
theorem at8_x : Bd8 m c (Proc.devRef .tc main_v63) = layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5))) := by
  refine (Bd8_arr m c 6).trans ((arr2 (Bv7 m) c).trans ?_)
  show bnL (Bd7 m c (Proc.devRef .tc main_v47)) (Bd7 m c (Proc.devRef .tc main_v58)) (Bd7 m c (Proc.devRef .tc main_v62)) (Bd7 m c (Proc.devRef .tc main_v61)) (Bd7 m c (Proc.devRef .tc main_v59)) (Bd7 m c (Proc.devRef .tc main_v60)) = _
  rw [at7_agg m c, at7_b m c, at7_var m c, at7_mean m c, at7_gamma m c, at7_beta m c]
  rfl

/-- After region 3: layer 1's product of the node table with its slice of the weights. -/
theorem at10_h : Bd10 m c (Proc.devRef .tc main_v66) = mmL (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5)))) (sliceW 1 (m ((c : Thread nD τ).loc main_arg6))) := by
  refine (Bd10_arr m c 2).trans ((arr3 (Bv9 m) c).trans ?_)
  show mmL (Bd9 m c (Proc.devRef .tc main_v63)) (Bd9 m c (Proc.devRef .tc main_v65)) = _
  rw [Bd9_keep m c main_v63 (by decide), at8_x m c, show Bd9 m c (Proc.devRef .tc main_v65) = sliceW 1 (Bd8 m c (Proc.devRef .tc main_arg6)) from s3_w (Bd8 m c), Bd8_main_arg6 m c]

/-- After the stretch that follows: the aggregation of that product over the edges. -/
theorem at11_agg : Bd11 m c (Proc.devRef .tc main_v79) = aggOf (m ((c : Thread nD τ).loc main_arg1)) (mmL (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5)))) (sliceW 1 (m ((c : Thread nD τ).loc main_arg6)))) := by
  show StableHlo.after (hostOps4 (F := Ideal)) (Bd10 m c) (Proc.devRef .tc main_v79) = _
  rw [s4_agg (Bd10 m c), Bd10_main_v3 m c, Bd10_main_v6 m c, Bd10_main_v29 m c, at10_h m c,
    show Bd1 m c (Proc.devRef .tc main_v3) = rowOf (Bd0 m c (Proc.devRef .tc main_arg1)) from s0_row (Bd0 m c),
    show Bd1 m c (Proc.devRef .tc main_v6) = colOf (Bd0 m c (Proc.devRef .tc main_arg1)) from s0_col (Bd0 m c),
    show Bd3 m c (Proc.devRef .tc main_v29) = normOf (Bd0 m c (Proc.devRef .tc main_arg1)) from s02_norm (Bd0 m c)]
  rfl
theorem at11_b : Bd11 m c (Proc.devRef .tc main_v90) = rowOf3 1 (m ((c : Thread nD τ).loc main_arg7)) :=
  (s4_b (Bd10 m c)).trans (congrArg (rowOf3 1) (Bd10_main_arg7 m c))
theorem at11_gamma : Bd11 m c (Proc.devRef .tc main_v91) = rowOf3 1 (m ((c : Thread nD τ).loc main_arg8)) :=
  (s4_gamma (Bd10 m c)).trans (congrArg (rowOf3 1) (Bd10_main_arg8 m c))
theorem at11_beta : Bd11 m c (Proc.devRef .tc main_v92) = rowOf3 1 (m ((c : Thread nD τ).loc main_arg9)) :=
  (s4_beta (Bd10 m c)).trans (congrArg (rowOf3 1) (Bd10_main_arg9 m c))
theorem at11_mean : Bd11 m c (Proc.devRef .tc main_v93) = rowOf3 1 (m ((c : Thread nD τ).loc main_arg10)) :=
  (s4_mean (Bd10 m c)).trans (congrArg (rowOf3 1) (Bd10_main_arg10 m c))
theorem at11_var : Bd11 m c (Proc.devRef .tc main_v94) = rowOf3 1 (m ((c : Thread nD τ).loc main_arg11)) :=
  (s4_var (Bd10 m c)).trans (congrArg (rowOf3 1) (Bd10_main_arg11 m c))

/-- After region 4: the node table after layer 1. -/
theorem at12_x : Bd12 m c (Proc.devRef .tc main_v95) = layerOf 1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5)))) := by
  refine (Bd12_arr m c 6).trans ((arr4 (Bv11 m) c).trans ?_)
  show bnL (Bd11 m c (Proc.devRef .tc main_v79)) (Bd11 m c (Proc.devRef .tc main_v90)) (Bd11 m c (Proc.devRef .tc main_v94)) (Bd11 m c (Proc.devRef .tc main_v93)) (Bd11 m c (Proc.devRef .tc main_v91)) (Bd11 m c (Proc.devRef .tc main_v92)) = _
  rw [at11_agg m c, at11_b m c, at11_var m c, at11_mean m c, at11_gamma m c, at11_beta m c]
  rfl

/-- After region 5: layer 2's product of the node table with its slice of the weights. -/
theorem at14_h : Bd14 m c (Proc.devRef .tc main_v98) = mmL (layerOf 1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5))))) (sliceW 2 (m ((c : Thread nD τ).loc main_arg6))) := by
  refine (Bd14_arr m c 2).trans ((arr5 (Bv13 m) c).trans ?_)
  show mmL (Bd13 m c (Proc.devRef .tc main_v95)) (Bd13 m c (Proc.devRef .tc main_v97)) = _
  rw [Bd13_keep m c main_v95 (by decide), at12_x m c, show Bd13 m c (Proc.devRef .tc main_v97) = sliceW 2 (Bd12 m c (Proc.devRef .tc main_arg6)) from s5_w (Bd12 m c), Bd12_main_arg6 m c]

/-- After the stretch that follows: the aggregation of that product over the edges. -/
theorem at15_agg : Bd15 m c (Proc.devRef .tc main_v111) = aggOf (m ((c : Thread nD τ).loc main_arg1)) (mmL (layerOf 1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5))))) (sliceW 2 (m ((c : Thread nD τ).loc main_arg6)))) := by
  show StableHlo.after (hostOps6 (F := Ideal)) (Bd14 m c) (Proc.devRef .tc main_v111) = _
  rw [s6_agg (Bd14 m c), Bd14_main_v3 m c, Bd14_main_v6 m c, Bd14_main_v29 m c, at14_h m c,
    show Bd1 m c (Proc.devRef .tc main_v3) = rowOf (Bd0 m c (Proc.devRef .tc main_arg1)) from s0_row (Bd0 m c),
    show Bd1 m c (Proc.devRef .tc main_v6) = colOf (Bd0 m c (Proc.devRef .tc main_arg1)) from s0_col (Bd0 m c),
    show Bd3 m c (Proc.devRef .tc main_v29) = normOf (Bd0 m c (Proc.devRef .tc main_arg1)) from s02_norm (Bd0 m c)]
  rfl
theorem at15_b : Bd15 m c (Proc.devRef .tc main_v122) = rowOf3 2 (m ((c : Thread nD τ).loc main_arg7)) :=
  (s6_b (Bd14 m c)).trans (congrArg (rowOf3 2) (Bd14_main_arg7 m c))
theorem at15_gamma : Bd15 m c (Proc.devRef .tc main_v123) = rowOf3 2 (m ((c : Thread nD τ).loc main_arg8)) :=
  (s6_gamma (Bd14 m c)).trans (congrArg (rowOf3 2) (Bd14_main_arg8 m c))
theorem at15_beta : Bd15 m c (Proc.devRef .tc main_v124) = rowOf3 2 (m ((c : Thread nD τ).loc main_arg9)) :=
  (s6_beta (Bd14 m c)).trans (congrArg (rowOf3 2) (Bd14_main_arg9 m c))
theorem at15_mean : Bd15 m c (Proc.devRef .tc main_v125) = rowOf3 2 (m ((c : Thread nD τ).loc main_arg10)) :=
  (s6_mean (Bd14 m c)).trans (congrArg (rowOf3 2) (Bd14_main_arg10 m c))
theorem at15_var : Bd15 m c (Proc.devRef .tc main_v126) = rowOf3 2 (m ((c : Thread nD τ).loc main_arg11)) :=
  (s6_var (Bd14 m c)).trans (congrArg (rowOf3 2) (Bd14_main_arg11 m c))

/-- After region 6: the node table after layer 2. -/
theorem at16_x : Bd16 m c (Proc.devRef .tc main_v127) = layerOf 2 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5))))) := by
  refine (Bd16_arr m c 6).trans ((arr6 (Bv15 m) c).trans ?_)
  show bnL (Bd15 m c (Proc.devRef .tc main_v111)) (Bd15 m c (Proc.devRef .tc main_v122)) (Bd15 m c (Proc.devRef .tc main_v126)) (Bd15 m c (Proc.devRef .tc main_v125)) (Bd15 m c (Proc.devRef .tc main_v123)) (Bd15 m c (Proc.devRef .tc main_v124)) = _
  rw [at15_agg m c, at15_b m c, at15_var m c, at15_mean m c, at15_gamma m c, at15_beta m c]
  rfl

/-- After the last stretch: the final node table's rows at the two ends of every pair, joined with the pair features. -/
theorem at17_z : Bd17 m c (Proc.devRef .tc main_v146) = pairCatRaw (layerOf 2 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 1 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (layerOf 0 (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (x0Of (m ((c : Thread nD τ).loc main_arg0)) (m ((c : Thread nD τ).loc main_arg4)) (m ((c : Thread nD τ).loc main_arg5)))))) (m ((c : Thread nD τ).loc main_arg2)) (m ((c : Thread nD τ).loc main_arg3)) := by
  show StableHlo.after (hostOps7 (F := Ideal)) (Bd16 m c) (Proc.devRef .tc main_v146) = _
  rw [s7_z (Bd16 m c), at16_x m c, Bd16_main_arg2 m c, Bd16_main_arg3 m c]
theorem at17_b1 : Bd17 m c (Proc.devRef .tc main_v147) = row128 (m ((c : Thread nD τ).loc main_arg13)) := (s7_b1 (Bd16 m c)).trans (congrArg row128 (Bd16_main_arg13 m c))
theorem at17_b2 : Bd17 m c (Proc.devRef .tc main_v148) = row64 (m ((c : Thread nD τ).loc main_arg15)) := (s7_b2 (Bd16 m c)).trans (congrArg row64 (Bd16_main_arg15 m c))
theorem at17_b3 : Bd17 m c (Proc.devRef .tc main_v149) = row1 (m ((c : Thread nD τ).loc main_arg17)) := (s7_b3 (Bd16 m c)).trans (congrArg row1 (Bd16_main_arg17 m c))

/-- THE RESULT: at the last boundary the result array is the network of the arguments as launched. -/
theorem result : Bd18 m c (Proc.devRef .tc main_v150) = Net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (Bd18_arr m c 7).trans ((arr7 (Bv17 m) c).trans ?_)
  show mlpL (Bd17 m c (Proc.devRef .tc main_v146)) (Bd17 m c (Proc.devRef .tc main_arg12)) (Bd17 m c (Proc.devRef .tc main_v147)) (Bd17 m c (Proc.devRef .tc main_arg14)) (Bd17 m c (Proc.devRef .tc main_v148)) (Bd17 m c (Proc.devRef .tc main_arg16)) (Bd17 m c (Proc.devRef .tc main_v149)) = _
  rw [at17_z m c, at17_b1 m c, at17_b2 m c, at17_b3 m c, Bd17_main_arg12 m c, Bd17_main_arg14 m c, Bd17_main_arg16 m c]
  rfl

end Cert.KernelIdeal.Val

end
-- ==== Proof.RI.RefJoin.lean ====
/-
  Concatenations of the reference program as functions of their pieces.

  A concatenation is applied to a LIST of pieces, each piece paired with its shape; a rewrite cannot go inside
  such a dependent pair.  Naming the concatenation of two vectors (600000 and 50000 entries) and the side-by-side
  join of three matrices (128, 128 and 32 columns) as functions of the pieces, each by definition, makes the pieces
  ordinary arguments.
-/
import proofs.«137698_j16329465660189_1_alg».proof.Proof.Gen.ReferenceIdeal
import Idealize.ShloMosaic.PureOps

noncomputable section

namespace Cert.ReferenceIdeal.RefJoin

open Idealize.ShloMosaic Cert.ReferenceIdeal Cert.ReferenceIdeal.Gen

/-- A vector of 600000 entries followed by one of 50000, as a function of the two pieces. -/
def joinE {α : Type} (a : S600000.Idx → α) (b : S50000.Idx → α) : S650000.Idx → α :=
  concatenate S650000 0 [⟨S600000, a⟩, ⟨S50000, b⟩] concatenates_S600000_S50000_S650000_d0

/-- The concatenation of the two pieces is that function of them (by definition). -/
theorem concat_joinE {α : Type} (a : S600000.Idx → α) (b : S50000.Idx → α)
    (h : Shape.Concatenates [S600000, S50000] S650000 0) :
    concatenate S650000 0 [⟨S600000, a⟩, ⟨S50000, b⟩] h = joinE a b := rfl

/-- Three blocks of 128, 128 and 32 columns side by side, as a function of the three pieces. -/
def join3 {α : Type} (a b : S200000x128.Idx → α) (c : S200000x32.Idx → α) : S200000x288.Idx → α :=
  concatenate S200000x288 1 [⟨S200000x128, a⟩, ⟨S200000x128, b⟩, ⟨S200000x32, c⟩]
    concatenates_S200000x128_S200000x128_S200000x32_S200000x288_d1

/-- The concatenation of the three pieces is that function of them (by definition). -/
theorem concat_join3 {α : Type} (a b : S200000x128.Idx → α) (c : S200000x32.Idx → α)
    (h : Shape.Concatenates [S200000x128, S200000x128, S200000x32] S200000x288 1) :
    concatenate S200000x288 1 [⟨S200000x128, a⟩, ⟨S200000x128, b⟩, ⟨S200000x32, c⟩] h = join3 a b c := rfl

end Cert.ReferenceIdeal.RefJoin

end
-- ==== Proof.RI.HostLayers.lean ====
/-
  The reference network's dense stages read at one entry.

  Each stage of the reference program that is not a gather or a scatter is an entrywise or a row-by-row
  operation: its value at an entry (r, q) depends only on row r of its input and on the weights.  This file
  states these dependences as the four row-local formulas: the embedding (a row of 64 features times a 64 × 128
  matrix plus a bias), a convolution's dense map (a row of 128 features times a 128 × 128 matrix), the
  normalisation followed by the rectifier (entrywise), and the three-layer perceptron on a row of 288 features.
  The broadcasts of the bias, mean, variance, gain and shift vectors down the rows read the vector at the
  entry's column; the contraction of a matrix product runs over the columns of the row, in the order of the index
  type.
-/
import Mathlib.Algebra.BigOperators.Fin
import proofs.«137698_j16329465660189_1_alg».proof.Proof.RI.ReadP
import proofs.«137698_j16329465660189_1_alg».proof.Proof.Entry

noncomputable section

open scoped BigOperators

namespace Cert.ReferenceIdeal.HostLayers

open Cert.ReferenceIdeal Cert.ReferenceIdeal.Gen Cert.ReferenceIdeal.ReadP Idealize.ShloMosaic Idealize.ShloMosaic.ValueIdx Cert.Entry

/-- A matrix index with coordinates `a` and `b` is `ix2 a b`. -/
theorem idx2_eq {n0 n1 : ℕ} (f : (⟨2, ![n0, n1]⟩ : Shape).Idx) (a : Fin n0) (b : Fin n1) (h0 : f 0 = a) (h1 : f 1 = b) :
    f = ix2 a b := by
  funext d
  match d with
  | ⟨0, _⟩ => exact h0
  | ⟨1, _⟩ => exact h1

/-- A vector index with coordinate `a` is `ix1 a`. -/
theorem idx1_eq {n : ℕ} (f : (⟨1, ![n]⟩ : Shape).Idx) (a : Fin n) (h0 : f 0 = a) : f = ix1 a := by
  funext d
  match d with
  | ⟨0, _⟩ => exact h0

/-- A rank-3 index with coordinates `a`, `b`, `c` is `ix3 a b c`. -/
theorem idx3_eq {n0 n1 n2 : ℕ} (f : (⟨3, ![n0, n1, n2]⟩ : Shape).Idx) (a : Fin n0) (b : Fin n1) (c : Fin n2)
    (h0 : f 0 = a) (h1 : f 1 = b) (h2 : f 2 = c) : f = ix3 a b c := by
  funext d
  match d with
  | ⟨0, _⟩ => exact h0
  | ⟨1, _⟩ => exact h1
  | ⟨2, _⟩ => exact h2

/-! ## The embedding layer -/

/-- Entry (r, q) of the embedding `atom · embed_W + embed_b`: row r of the features times column q of the weights,
    plus the bias at q. -/
theorem x0_entry (a0 : (⟨S50000x64, .f32⟩ : BufTy).Contents (Elt Ideal)) (a4 : (⟨S64x128, .f32⟩ : BufTy).Contents (Elt Ideal)) (a5 : (⟨S128, .f32⟩ : BufTy).Contents (Elt Ideal)) (r : Fin 50000) (q : Fin 128) :
    val_main_v18 (F := Ideal) a0 a4 a5 (ix2 r q)
      = dense0At (fun c => a0 (ix2 r c)) (fun c q' => a4 (ix2 c q')) (fun q' => a5 (ix1 q')) q := by
  have hl : ∀ k, lidx_main_v15 (ix2 r q) k = ix2 r k := fun k => idx2_eq _ _ _ rfl rfl
  have hr : ∀ k, ridx_main_v15 (ix2 r q) k = ix2 k q := fun k => idx2_eq _ _ _ rfl rfl
  have hb : idx_main_v16 (idx_main_v17 (ix2 r q)) = ix1 q := idx1_eq _ _ rfl
  rw [val_main_v18_apply, val_main_v15_apply, val_main_v17_apply, val_main_v16_apply, hb, Ideal.addf_def]
  unfold dense0At
  refine congrArg (fun s : EReal => s + a5 (ix1 q)) ?_
  exact Finset.sum_congr rfl fun k _ => by rw [hl k, hr k]

/-! ## Convolution layer 1 -/

/-- Entry (r, q) of layer 1's dense map `x · conv_W[0]`: row r of the layer's input times column q of the weight
    slice. -/
theorem h1_entry (a0 : (⟨S50000x64, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (r : Fin 50000) (q : Fin 128) :
    val_main_v23 (F := Ideal) a0 a4 a5 a6 (ix2 r q)
      = mmAt (fun c => val_main_v18 (F := Ideal) a0 a4 a5 (ix2 r c)) (fun c q' => val_main_v20 (F := Ideal) a6 (ix2 c q')) q := by
  have hl : ∀ k, lidx_main_v23 (ix2 r q) k = ix2 r k := fun k => idx2_eq _ _ _ rfl rfl
  have hr : ∀ k, ridx_main_v23 (ix2 r q) k = ix2 k q := fun k => idx2_eq _ _ _ rfl rfl
  rw [val_main_v23_apply]
  unfold mmAt
  exact Finset.sum_congr rfl fun k _ => by rw [hl k, hr k]

/-- Entry (r, q) of layer 1's normalisation and rectifier, from the aggregated entry and the five vectors at q:
    `max ((((agg + b) - mean) * rsqrt (var + eps)) * gamma + beta) 0`. -/
theorem bn1_entry (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (r : Fin 50000) (q : Fin 128) :
    val_main_v78 (F := Ideal) a0 a1 a4 a5 a6 a7 a8 a9 a10 a11 (ix2 r q)
      = bnAt (val_main_v51 (F := Ideal) a0 a1 a4 a5 a6 (ix2 r q)) (val_main_v22 (F := Ideal) a7 (ix1 q)) (val_main_v61 (F := Ideal) a11 (ix1 q))
          (val_main_v56 (F := Ideal) a10 (ix1 q)) (val_main_v69 (F := Ideal) a8 (ix1 q)) (val_main_v74 (F := Ideal) a9 (ix1 q)) := by
  have hb : idx_main_v52 (idx_main_v53 (ix2 r q)) = ix1 q := idx1_eq _ _ rfl
  have hm : idx_main_v57 (idx_main_v58 (ix2 r q)) = ix1 q := idx1_eq _ _ rfl
  have hv : idx_main_v65 (idx_main_v66 (ix2 r q)) = ix1 q := idx1_eq _ _ rfl
  have hg : idx_main_v70 (idx_main_v71 (ix2 r q)) = ix1 q := idx1_eq _ _ rfl
  have ht : idx_main_v75 (idx_main_v76 (ix2 r q)) = ix1 q := idx1_eq _ _ rfl
  rw [val_main_v78_apply, val_main_v77_apply, val_main_v72_apply, val_main_v67_apply, val_main_v59_apply,
    val_main_v54_apply, val_main_v53_apply, val_main_v52_apply, hb, val_main_v58_apply, val_main_v57_apply, hm,
    val_main_v66_apply, val_main_v65_apply, hv, val_main_v64_apply, val_main_v63_apply, val_main_v62_apply,
    val_main_cst_9_apply, val_main_v71_apply, val_main_v70_apply, hg, val_main_v76_apply, val_main_v75_apply, ht,
    val_main_call1_v0_apply, val_main_call1_cst_apply]
  simp only [Ideal.addf_def, Ideal.subf_def, Ideal.mulf_def, Ideal.maximumf_def, Ideal.hostUnary_rsqrt_def, Ideal.ofBits_def,
    Ideal.ofBits_zero_f32]
  rfl

/-! ## Convolution layer 2 -/

/-- Entry (r, q) of layer 2's dense map `x · conv_W[1]`: row r of the layer's input times column q of the weight
    slice. -/
theorem h2_entry (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (r : Fin 50000) (q : Fin 128) :
    val_main_v83 (F := Ideal) a0 a1 a4 a5 a6 a7 a8 a9 a10 a11 (ix2 r q)
      = mmAt (fun c => val_main_v78 (F := Ideal) a0 a1 a4 a5 a6 a7 a8 a9 a10 a11 (ix2 r c)) (fun c q' => val_main_v80 (F := Ideal) a6 (ix2 c q')) q := by
  have hl : ∀ k, lidx_main_v83 (ix2 r q) k = ix2 r k := fun k => idx2_eq _ _ _ rfl rfl
  have hr : ∀ k, ridx_main_v83 (ix2 r q) k = ix2 k q := fun k => idx2_eq _ _ _ rfl rfl
  rw [val_main_v83_apply]
  unfold mmAt
  exact Finset.sum_congr rfl fun k _ => by rw [hl k, hr k]

/-- Entry (r, q) of layer 2's normalisation and rectifier, from the aggregated entry and the five vectors at q:
    `max ((((agg + b) - mean) * rsqrt (var + eps)) * gamma + beta) 0`. -/
theorem bn2_entry (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (r : Fin 50000) (q : Fin 128) :
    val_main_v138 (F := Ideal) a0 a1 a4 a5 a6 a7 a8 a9 a10 a11 (ix2 r q)
      = bnAt (val_main_v111 (F := Ideal) a0 a1 a4 a5 a6 a7 a8 a9 a10 a11 (ix2 r q)) (val_main_v82 (F := Ideal) a7 (ix1 q)) (val_main_v121 (F := Ideal) a11 (ix1 q))
          (val_main_v116 (F := Ideal) a10 (ix1 q)) (val_main_v129 (F := Ideal) a8 (ix1 q)) (val_main_v134 (F := Ideal) a9 (ix1 q)) := by
  have hb : idx_main_v112 (idx_main_v113 (ix2 r q)) = ix1 q := idx1_eq _ _ rfl
  have hm : idx_main_v117 (idx_main_v118 (ix2 r q)) = ix1 q := idx1_eq _ _ rfl
  have hv : idx_main_v125 (idx_main_v126 (ix2 r q)) = ix1 q := idx1_eq _ _ rfl
  have hg : idx_main_v130 (idx_main_v131 (ix2 r q)) = ix1 q := idx1_eq _ _ rfl
  have ht : idx_main_v135 (idx_main_v136 (ix2 r q)) = ix1 q := idx1_eq _ _ rfl
  rw [val_main_v138_apply, val_main_v137_apply, val_main_v132_apply, val_main_v127_apply, val_main_v119_apply,
    val_main_v114_apply, val_main_v113_apply, val_main_v112_apply, hb, val_main_v118_apply, val_main_v117_apply, hm,
    val_main_v126_apply, val_main_v125_apply, hv, val_main_v124_apply, val_main_v123_apply, val_main_v122_apply,
    val_main_cst_17_apply, val_main_v131_apply, val_main_v130_apply, hg, val_main_v136_apply, val_main_v135_apply, ht,
    val_main_call2_v0_apply, val_main_call2_cst_apply]
  simp only [Ideal.addf_def, Ideal.subf_def, Ideal.mulf_def, Ideal.maximumf_def, Ideal.hostUnary_rsqrt_def, Ideal.ofBits_def,
    Ideal.ofBits_zero_f32]
  rfl

/-! ## Convolution layer 3 -/

/-- Entry (r, q) of layer 3's dense map `x · conv_W[2]`: row r of the layer's input times column q of the weight
    slice. -/
theorem h3_entry (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (r : Fin 50000) (q : Fin 128) :
    val_main_v143 (F := Ideal) a0 a1 a4 a5 a6 a7 a8 a9 a10 a11 (ix2 r q)
      = mmAt (fun c => val_main_v138 (F := Ideal) a0 a1 a4 a5 a6 a7 a8 a9 a10 a11 (ix2 r c)) (fun c q' => val_main_v140 (F := Ideal) a6 (ix2 c q')) q := by
  have hl : ∀ k, lidx_main_v143 (ix2 r q) k = ix2 r k := fun k => idx2_eq _ _ _ rfl rfl
  have hr : ∀ k, ridx_main_v143 (ix2 r q) k = ix2 k q := fun k => idx2_eq _ _ _ rfl rfl
  rw [val_main_v143_apply]
  unfold mmAt
  exact Finset.sum_congr rfl fun k _ => by rw [hl k, hr k]

/-- Entry (r, q) of layer 3's normalisation and rectifier, from the aggregated entry and the five vectors at q:
    `max ((((agg + b) - mean) * rsqrt (var + eps)) * gamma + beta) 0`. -/
theorem bn3_entry (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (r : Fin 50000) (q : Fin 128) :
    val_main_v198 (F := Ideal) a0 a1 a4 a5 a6 a7 a8 a9 a10 a11 (ix2 r q)
      = bnAt (val_main_v171 (F := Ideal) a0 a1 a4 a5 a6 a7 a8 a9 a10 a11 (ix2 r q)) (val_main_v142 (F := Ideal) a7 (ix1 q)) (val_main_v181 (F := Ideal) a11 (ix1 q))
          (val_main_v176 (F := Ideal) a10 (ix1 q)) (val_main_v189 (F := Ideal) a8 (ix1 q)) (val_main_v194 (F := Ideal) a9 (ix1 q)) := by
  have hb : idx_main_v172 (idx_main_v173 (ix2 r q)) = ix1 q := idx1_eq _ _ rfl
  have hm : idx_main_v177 (idx_main_v178 (ix2 r q)) = ix1 q := idx1_eq _ _ rfl
  have hv : idx_main_v185 (idx_main_v186 (ix2 r q)) = ix1 q := idx1_eq _ _ rfl
  have hg : idx_main_v190 (idx_main_v191 (ix2 r q)) = ix1 q := idx1_eq _ _ rfl
  have ht : idx_main_v195 (idx_main_v196 (ix2 r q)) = ix1 q := idx1_eq _ _ rfl
  rw [val_main_v198_apply, val_main_v197_apply, val_main_v192_apply, val_main_v187_apply, val_main_v179_apply,
    val_main_v174_apply, val_main_v173_apply, val_main_v172_apply, hb, val_main_v178_apply, val_main_v177_apply, hm,
    val_main_v186_apply, val_main_v185_apply, hv, val_main_v184_apply, val_main_v183_apply, val_main_v182_apply,
    val_main_cst_25_apply, val_main_v191_apply, val_main_v190_apply, hg, val_main_v196_apply, val_main_v195_apply, ht,
    val_main_call3_v0_apply, val_main_call3_cst_apply]
  simp only [Ideal.addf_def, Ideal.subf_def, Ideal.mulf_def, Ideal.maximumf_def, Ideal.hostUnary_rsqrt_def, Ideal.ofBits_def,
    Ideal.ofBits_zero_f32]
  rfl

/-! ## The pair perceptron -/

/-- Entry (p, c) of the perceptron's first rectified layer: row p of the pair features times column c of `mlp_W1`,
    plus the bias, cut off below at zero. -/
theorem mlp1_entry (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (a12 : (⟨S288x128, .f32⟩ : BufTy).Contents (Elt Ideal)) (a13 : (⟨S128, .f32⟩ : BufTy).Contents (Elt Ideal)) (p : Fin 200000) (c : Fin 128) :
    val_main_v222 (F := Ideal) a0 a1 a2 a3 a4 a5 a6 a7 a8 a9 a10 a11 a12 a13 (ix2 p c)
      = max ((∑ c0, val_main_v217 (F := Ideal) a0 a1 a2 a3 a4 a5 a6 a7 a8 a9 a10 a11 (ix2 p c0) * a12 (ix2 c0 c)) + a13 (ix1 c)) 0 := by
  have hl : ∀ k, lidx_main_v218 (ix2 p c) k = ix2 p k := fun k => idx2_eq _ _ _ rfl rfl
  have hr : ∀ k, ridx_main_v218 (ix2 p c) k = ix2 k c := fun k => idx2_eq _ _ _ rfl rfl
  have hb : idx_main_v219 (idx_main_v220 (ix2 p c)) = ix1 c := idx1_eq _ _ rfl
  rw [val_main_v222_apply, val_main_v221_apply, val_main_v218_apply, val_main_v220_apply, val_main_v219_apply, hb,
    val_main_call4_v0_apply, val_main_call4_cst_apply, Ideal.maximumf_def, Ideal.addf_def, Ideal.ofBits_def, Ideal.ofBits_zero_f32]
  refine congrArg (fun s : EReal => max (s + a13 (ix1 c)) 0) ?_
  exact Finset.sum_congr rfl fun k _ => by rw [hl k, hr k]

/-- Entry (p, c) of the perceptron's second rectified layer. -/
theorem mlp2_entry (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (a12 : (⟨S288x128, .f32⟩ : BufTy).Contents (Elt Ideal)) (a13 : (⟨S128, .f32⟩ : BufTy).Contents (Elt Ideal)) (a14 : (⟨S128x64, .f32⟩ : BufTy).Contents (Elt Ideal)) (a15 : (⟨S64, .f32⟩ : BufTy).Contents (Elt Ideal)) (p : Fin 200000) (c : Fin 64) :
    val_main_v227 (F := Ideal) a0 a1 a2 a3 a4 a5 a6 a7 a8 a9 a10 a11 a12 a13 a14 a15 (ix2 p c)
      = max ((∑ c1, val_main_v222 (F := Ideal) a0 a1 a2 a3 a4 a5 a6 a7 a8 a9 a10 a11 a12 a13 (ix2 p c1) * a14 (ix2 c1 c)) + a15 (ix1 c)) 0 := by
  have hl : ∀ k, lidx_main_v223 (ix2 p c) k = ix2 p k := fun k => idx2_eq _ _ _ rfl rfl
  have hr : ∀ k, ridx_main_v223 (ix2 p c) k = ix2 k c := fun k => idx2_eq _ _ _ rfl rfl
  have hb : idx_main_v224 (idx_main_v225 (ix2 p c)) = ix1 c := idx1_eq _ _ rfl
  rw [val_main_v227_apply, val_main_v226_apply, val_main_v223_apply, val_main_v225_apply, val_main_v224_apply, hb,
    val_main_call5_v0_apply, val_main_call5_cst_apply, Ideal.maximumf_def, Ideal.addf_def, Ideal.ofBits_def, Ideal.ofBits_zero_f32]
  refine congrArg (fun s : EReal => max (s + a15 (ix1 c)) 0) ?_
  exact Finset.sum_congr rfl fun k _ => by rw [hl k, hr k]

/-- Entry (p, 0) of the perceptron's last layer. -/
theorem mlp3_entry (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (a12 : (⟨S288x128, .f32⟩ : BufTy).Contents (Elt Ideal)) (a13 : (⟨S128, .f32⟩ : BufTy).Contents (Elt Ideal)) (a14 : (⟨S128x64, .f32⟩ : BufTy).Contents (Elt Ideal)) (a15 : (⟨S64, .f32⟩ : BufTy).Contents (Elt Ideal)) (a16 : (⟨S64x1, .f32⟩ : BufTy).Contents (Elt Ideal)) (a17 : (⟨S1, .f32⟩ : BufTy).Contents (Elt Ideal)) (p : Fin 200000) :
    val_main_v231 (F := Ideal) a0 a1 a2 a3 a4 a5 a6 a7 a8 a9 a10 a11 a12 a13 a14 a15 a16 a17 (ix2 p 0)
      = (∑ c2, val_main_v227 (F := Ideal) a0 a1 a2 a3 a4 a5 a6 a7 a8 a9 a10 a11 a12 a13 a14 a15 (ix2 p c2) * a16 (ix2 c2 0)) + a17 (ix1 0) := by
  have hl : ∀ k, lidx_main_v228 (ix2 p (0 : Fin 1)) k = ix2 p k := fun k => idx2_eq _ _ _ rfl rfl
  have hr : ∀ k, ridx_main_v228 (ix2 p (0 : Fin 1)) k = ix2 k 0 := fun k => idx2_eq _ _ _ rfl rfl
  have hb : idx_main_v229 (idx_main_v230 (ix2 p (0 : Fin 1))) = ix1 0 := idx1_eq _ _ rfl
  rw [val_main_v231_apply, val_main_v228_apply, val_main_v230_apply, val_main_v229_apply, hb, Ideal.addf_def]
  refine congrArg (fun s : EReal => s + a17 (ix1 0)) ?_
  exact Finset.sum_congr rfl fun k _ => by rw [hl k, hr k]

/-- Entry (p, 0) of the reference's result: the perceptron of row p of the concatenated pair features. -/
theorem out_entry (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (a12 : (⟨S288x128, .f32⟩ : BufTy).Contents (Elt Ideal)) (a13 : (⟨S128, .f32⟩ : BufTy).Contents (Elt Ideal)) (a14 : (⟨S128x64, .f32⟩ : BufTy).Contents (Elt Ideal)) (a15 : (⟨S64, .f32⟩ : BufTy).Contents (Elt Ideal)) (a16 : (⟨S64x1, .f32⟩ : BufTy).Contents (Elt Ideal)) (a17 : (⟨S1, .f32⟩ : BufTy).Contents (Elt Ideal)) (p : Fin 200000) :
    val_main_v231 (F := Ideal) a0 a1 a2 a3 a4 a5 a6 a7 a8 a9 a10 a11 a12 a13 a14 a15 a16 a17 (ix2 p 0)
      = mlpAt (fun c => val_main_v217 (F := Ideal) a0 a1 a2 a3 a4 a5 a6 a7 a8 a9 a10 a11 (ix2 p c)) (fun c q => a12 (ix2 c q)) (fun q => a13 (ix1 q))
          (fun c q => a14 (ix2 c q)) (fun q => a15 (ix1 q)) (fun c q => a16 (ix2 c q)) (a17 (ix1 0)) := by
  rw [mlp3_entry]
  unfold mlpAt
  simp only [mlp2_entry, mlp1_entry]

end Cert.ReferenceIdeal.HostLayers

end
-- ==== Proof.RI.RefOps.lean ====
/-
  The reference network's index stretches are the network's own.

  The reference program builds its edge lists, its edge weights, its aggregations, its parameter slices and its
  pair features by the same host operations, with the same dimension records, as the pure functions of the
  network do.  Each statement below is therefore true by unfolding both sides: no gather or scatter is opened.
  The reference recomputes the edge weights once per layer; the three computations are the same term.
-/
import proofs.«137698_j16329465660189_1_alg».proof.Proof.RI.ReadP
import proofs.«137698_j16329465660189_1_alg».proof.Proof.NetOps

noncomputable section

namespace Cert.ReferenceIdeal.RefOps

open Cert.ReferenceIdeal Cert.ReferenceIdeal.Gen Cert.ReferenceIdeal.ReadP Idealize.ShloMosaic

/-! ## The edge lists and the edge weights -/

theorem row_eq (a1 : (⟨S2x600000, .i32⟩ : BufTy).Contents (Elt Ideal)) : val_main_v3 (F := Ideal) a1 = Cert.Net.rowOf a1 := rfl

theorem col_eq (a1 : (⟨S2x600000, .i32⟩ : BufTy).Contents (Elt Ideal)) : val_main_v6 (F := Ideal) a1 = Cert.Net.colOf a1 := rfl

theorem deg_eq (a1 : (⟨S2x600000, .i32⟩ : BufTy).Contents (Elt Ideal)) : val_main_v10 (F := Ideal) a1 = Cert.Net.degOf (Cert.Net.rowOf a1) := rfl

theorem dinv_eq (a1 : (⟨S2x600000, .i32⟩ : BufTy).Contents (Elt Ideal)) : val_main_v14 (F := Ideal) a1 = Cert.Net.dinvOfDeg (Cert.Net.degOf (Cert.Net.rowOf a1)) := rfl

/-- The edge weights computed before the first, second and third aggregation are all the network's. -/
theorem norm1_eq (a1 : (⟨S2x600000, .i32⟩ : BufTy).Contents (Elt Ideal)) : val_main_v38 (F := Ideal) a1 = Cert.Net.normOf a1 := rfl

theorem norm2_eq (a1 : (⟨S2x600000, .i32⟩ : BufTy).Contents (Elt Ideal)) : val_main_v98 (F := Ideal) a1 = Cert.Net.normOf a1 := rfl

theorem norm3_eq (a1 : (⟨S2x600000, .i32⟩ : BufTy).Contents (Elt Ideal)) : val_main_v158 (F := Ideal) a1 = Cert.Net.normOf a1 := rfl

/-! ## The aggregations -/

theorem agg1_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) :
    val_main_v51 (F := Ideal) a0 a1 a4 a5 a6 = Cert.Net.aggOf a1 (val_main_v23 (F := Ideal) a0 a4 a5 a6) := rfl

theorem agg2_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v111 (F := Ideal) a0 a1 a4 a5 a6 a7 a8 a9 a10 a11 = Cert.Net.aggOf a1 (val_main_v83 (F := Ideal) a0 a1 a4 a5 a6 a7 a8 a9 a10 a11) := rfl

theorem agg3_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v171 (F := Ideal) a0 a1 a4 a5 a6 a7 a8 a9 a10 a11 = Cert.Net.aggOf a1 (val_main_v143 (F := Ideal) a0 a1 a4 a5 a6 a7 a8 a9 a10 a11) := rfl

/-! ## The parameter slices -/

theorem w1_eq (a6 : (⟨S3x128x128, .f32⟩ : BufTy).Contents (Elt Ideal)) : val_main_v20 (F := Ideal) a6 = Cert.Net.sliceW 0 a6 := rfl

theorem w2_eq (a6 : (⟨S3x128x128, .f32⟩ : BufTy).Contents (Elt Ideal)) : val_main_v80 (F := Ideal) a6 = Cert.Net.sliceW 1 a6 := rfl

theorem w3_eq (a6 : (⟨S3x128x128, .f32⟩ : BufTy).Contents (Elt Ideal)) : val_main_v140 (F := Ideal) a6 = Cert.Net.sliceW 2 a6 := rfl

/-! ## The pair features -/

theorem z_eq (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v217 (F := Ideal) a0 a1 a2 a3 a4 a5 a6 a7 a8 a9 a10 a11 = Cert.Net.pairCatRaw (val_main_v198 (F := Ideal) a0 a1 a4 a5 a6 a7 a8 a9 a10 a11) a2 a3 := rfl

end Cert.ReferenceIdeal.RefOps

end
-- ==== Proof.RI.RefLayers.lean ====
/-
  The reference network's dense stages are the network's layers.

  The four kinds of layer of the network are defined row by row from the entry formulas, with the per-feature
  parameters given as 1 × n rows.  The reference program spreads the same parameters from vectors; a vector
  re-laid as a 1 × n row has the vector's entry q at (0, q).  With that, each dense stage of the reference, as a
  whole array, is the corresponding layer applied to the previous stage.
-/
import proofs.«137698_j16329465660189_1_alg».proof.Proof.RI.HostLayers
import proofs.«137698_j16329465660189_1_alg».proof.Proof.RI.RefOps
import proofs.«137698_j16329465660189_1_alg».proof.Proof.Layers

noncomputable section

open scoped BigOperators

namespace Cert.ReferenceIdeal.RefLayers

open Cert.ReferenceIdeal Cert.ReferenceIdeal.Gen Cert.ReferenceIdeal.ReadP Idealize.ShloMosaic Idealize.ShloMosaic.ValueIdx Cert.Entry
open Cert.ReferenceIdeal.HostLayers

/-- A vector of n entries re-laid as a 1 × n row has the vector's entry q at (0, q). -/
theorem row_cast_apply {n : ℕ} {α : Type} (v : (⟨1, ![n]⟩ : Shape).Idx → α)
    (h : (⟨1, ![n]⟩ : Shape).ShapeCasts ⟨2, ![1, n]⟩) (q : Fin n) :
    shapeCast ⟨2, ![1, n]⟩ v h (ix2 0 q) = v (ix1 q) :=
  shapeCast_apply v h (ix2 0 q) (ix1 q) (by
    rw [Shape.rowMajor_val_one, Shape.rowMajor_val_two]
    show q.val = 0 * n + q.val
    omega)

theorem row128_apply (a5 : (⟨S128, .f32⟩ : BufTy).Contents (Elt Ideal)) (q : Fin 128) : Cert.Net.row128 a5 (ix2 0 q) = a5 (ix1 q) :=
  row_cast_apply a5 _ q

theorem row64_apply (a15 : (⟨S64, .f32⟩ : BufTy).Contents (Elt Ideal)) (q : Fin 64) : Cert.Net.row64 a15 (ix2 0 q) = a15 (ix1 q) :=
  row_cast_apply a15 _ q

theorem row1_apply (a17 : (⟨S1, .f32⟩ : BufTy).Contents (Elt Ideal)) (q : Fin 1) : Cert.Net.row1 a17 (ix2 0 q) = a17 (ix1 q) :=
  row_cast_apply a17 _ q

/-- Every index of a matrix is `ix2` of its coordinates. -/
theorem exists_ix2 {n0 n1 : ℕ} (j : (⟨2, ![n0, n1]⟩ : Shape).Idx) : ∃ r q, j = ix2 r q := ⟨j 0, j 1, eq_ix2 j⟩

/-! ## The embedding -/

theorem x0_eq (a0 : (⟨S50000x64, .f32⟩ : BufTy).Contents (Elt Ideal)) (a4 : (⟨S64x128, .f32⟩ : BufTy).Contents (Elt Ideal)) (a5 : (⟨S128, .f32⟩ : BufTy).Contents (Elt Ideal)) :
    val_main_v18 (F := Ideal) a0 a4 a5 = Cert.Net.denseL a0 a4 (Cert.Net.row128 a5) := by
  funext j
  obtain ⟨r, q, rfl⟩ := exists_ix2 j
  rw [x0_entry]
  show dense0At _ _ _ q = dense0At _ _ (fun q' => Cert.Net.row128 a5 (ix2 0 q')) q
  simp only [row128_apply]

/-! ## Layer 1 -/

theorem b1_row (a7 : (⟨S3x128, .f32⟩ : BufTy).Contents (Elt Ideal)) (q : Fin 128) :
    Cert.Net.rowOf3 0 a7 (ix2 0 q) = val_main_v22 (F := Ideal) a7 (ix1 q) :=
  row_cast_apply (val_main_v22 (F := Ideal) a7) _ q

theorem v1_row (a11 : (⟨S3x128, .f32⟩ : BufTy).Contents (Elt Ideal)) (q : Fin 128) :
    Cert.Net.rowOf3 0 a11 (ix2 0 q) = val_main_v61 (F := Ideal) a11 (ix1 q) :=
  row_cast_apply (val_main_v61 (F := Ideal) a11) _ q

theorem m1_row (a10 : (⟨S3x128, .f32⟩ : BufTy).Contents (Elt Ideal)) (q : Fin 128) :
    Cert.Net.rowOf3 0 a10 (ix2 0 q) = val_main_v56 (F := Ideal) a10 (ix1 q) :=
  row_cast_apply (val_main_v56 (F := Ideal) a10) _ q

theorem g1_row (a8 : (⟨S3x128, .f32⟩ : BufTy).Contents (Elt Ideal)) (q : Fin 128) :
    Cert.Net.rowOf3 0 a8 (ix2 0 q) = val_main_v69 (F := Ideal) a8 (ix1 q) :=
  row_cast_apply (val_main_v69 (F := Ideal) a8) _ q

theorem t1_row (a9 : (⟨S3x128, .f32⟩ : BufTy).Contents (Elt Ideal)) (q : Fin 128) :
    Cert.Net.rowOf3 0 a9 (ix2 0 q) = val_main_v74 (F := Ideal) a9 (ix1 q) :=
  row_cast_apply (val_main_v74 (F := Ideal) a9) _ q

theorem h1_eq (a0 : (⟨S50000x64, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) :
    val_main_v23 (F := Ideal) a0 a4 a5 a6 = Cert.Net.mmL (val_main_v18 (F := Ideal) a0 a4 a5) (Cert.Net.sliceW 0 a6) := by
  funext j
  obtain ⟨r, q, rfl⟩ := exists_ix2 j
  rw [h1_entry]
  rfl

theorem bn1_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v78 (F := Ideal) a0 a1 a4 a5 a6 a7 a8 a9 a10 a11 = Cert.Net.bnL (val_main_v51 (F := Ideal) a0 a1 a4 a5 a6) (Cert.Net.rowOf3 0 a7) (Cert.Net.rowOf3 0 a11)
      (Cert.Net.rowOf3 0 a10) (Cert.Net.rowOf3 0 a8) (Cert.Net.rowOf3 0 a9) := by
  funext j
  obtain ⟨r, q, rfl⟩ := exists_ix2 j
  rw [bn1_entry]
  show bnAt _ _ _ _ _ _ = bnAt _ (Cert.Net.rowOf3 0 a7 (ix2 0 q)) (Cert.Net.rowOf3 0 a11 (ix2 0 q))
    (Cert.Net.rowOf3 0 a10 (ix2 0 q)) (Cert.Net.rowOf3 0 a8 (ix2 0 q)) (Cert.Net.rowOf3 0 a9 (ix2 0 q))
  rw [b1_row, v1_row, m1_row, g1_row, t1_row]

/-! ## Layer 2 -/

theorem b2_row (a7 : (⟨S3x128, .f32⟩ : BufTy).Contents (Elt Ideal)) (q : Fin 128) :
    Cert.Net.rowOf3 1 a7 (ix2 0 q) = val_main_v82 (F := Ideal) a7 (ix1 q) :=
  row_cast_apply (val_main_v82 (F := Ideal) a7) _ q

theorem v2_row (a11 : (⟨S3x128, .f32⟩ : BufTy).Contents (Elt Ideal)) (q : Fin 128) :
    Cert.Net.rowOf3 1 a11 (ix2 0 q) = val_main_v121 (F := Ideal) a11 (ix1 q) :=
  row_cast_apply (val_main_v121 (F := Ideal) a11) _ q

theorem m2_row (a10 : (⟨S3x128, .f32⟩ : BufTy).Contents (Elt Ideal)) (q : Fin 128) :
    Cert.Net.rowOf3 1 a10 (ix2 0 q) = val_main_v116 (F := Ideal) a10 (ix1 q) :=
  row_cast_apply (val_main_v116 (F := Ideal) a10) _ q

theorem g2_row (a8 : (⟨S3x128, .f32⟩ : BufTy).Contents (Elt Ideal)) (q : Fin 128) :
    Cert.Net.rowOf3 1 a8 (ix2 0 q) = val_main_v129 (F := Ideal) a8 (ix1 q) :=
  row_cast_apply (val_main_v129 (F := Ideal) a8) _ q

theorem t2_row (a9 : (⟨S3x128, .f32⟩ : BufTy).Contents (Elt Ideal)) (q : Fin 128) :
    Cert.Net.rowOf3 1 a9 (ix2 0 q) = val_main_v134 (F := Ideal) a9 (ix1 q) :=
  row_cast_apply (val_main_v134 (F := Ideal) a9) _ q

theorem h2_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v83 (F := Ideal) a0 a1 a4 a5 a6 a7 a8 a9 a10 a11 = Cert.Net.mmL (val_main_v78 (F := Ideal) a0 a1 a4 a5 a6 a7 a8 a9 a10 a11) (Cert.Net.sliceW 1 a6) := by
  funext j
  obtain ⟨r, q, rfl⟩ := exists_ix2 j
  rw [h2_entry]
  rfl

theorem bn2_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v138 (F := Ideal) a0 a1 a4 a5 a6 a7 a8 a9 a10 a11 = Cert.Net.bnL (val_main_v111 (F := Ideal) a0 a1 a4 a5 a6 a7 a8 a9 a10 a11) (Cert.Net.rowOf3 1 a7) (Cert.Net.rowOf3 1 a11)
      (Cert.Net.rowOf3 1 a10) (Cert.Net.rowOf3 1 a8) (Cert.Net.rowOf3 1 a9) := by
  funext j
  obtain ⟨r, q, rfl⟩ := exists_ix2 j
  rw [bn2_entry]
  show bnAt _ _ _ _ _ _ = bnAt _ (Cert.Net.rowOf3 1 a7 (ix2 0 q)) (Cert.Net.rowOf3 1 a11 (ix2 0 q))
    (Cert.Net.rowOf3 1 a10 (ix2 0 q)) (Cert.Net.rowOf3 1 a8 (ix2 0 q)) (Cert.Net.rowOf3 1 a9 (ix2 0 q))
  rw [b2_row, v2_row, m2_row, g2_row, t2_row]

/-! ## Layer 3 -/

theorem b3_row (a7 : (⟨S3x128, .f32⟩ : BufTy).Contents (Elt Ideal)) (q : Fin 128) :
    Cert.Net.rowOf3 2 a7 (ix2 0 q) = val_main_v142 (F := Ideal) a7 (ix1 q) :=
  row_cast_apply (val_main_v142 (F := Ideal) a7) _ q

theorem v3_row (a11 : (⟨S3x128, .f32⟩ : BufTy).Contents (Elt Ideal)) (q : Fin 128) :
    Cert.Net.rowOf3 2 a11 (ix2 0 q) = val_main_v181 (F := Ideal) a11 (ix1 q) :=
  row_cast_apply (val_main_v181 (F := Ideal) a11) _ q

theorem m3_row (a10 : (⟨S3x128, .f32⟩ : BufTy).Contents (Elt Ideal)) (q : Fin 128) :
    Cert.Net.rowOf3 2 a10 (ix2 0 q) = val_main_v176 (F := Ideal) a10 (ix1 q) :=
  row_cast_apply (val_main_v176 (F := Ideal) a10) _ q

theorem g3_row (a8 : (⟨S3x128, .f32⟩ : BufTy).Contents (Elt Ideal)) (q : Fin 128) :
    Cert.Net.rowOf3 2 a8 (ix2 0 q) = val_main_v189 (F := Ideal) a8 (ix1 q) :=
  row_cast_apply (val_main_v189 (F := Ideal) a8) _ q

theorem t3_row (a9 : (⟨S3x128, .f32⟩ : BufTy).Contents (Elt Ideal)) (q : Fin 128) :
    Cert.Net.rowOf3 2 a9 (ix2 0 q) = val_main_v194 (F := Ideal) a9 (ix1 q) :=
  row_cast_apply (val_main_v194 (F := Ideal) a9) _ q

theorem h3_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v143 (F := Ideal) a0 a1 a4 a5 a6 a7 a8 a9 a10 a11 = Cert.Net.mmL (val_main_v138 (F := Ideal) a0 a1 a4 a5 a6 a7 a8 a9 a10 a11) (Cert.Net.sliceW 2 a6) := by
  funext j
  obtain ⟨r, q, rfl⟩ := exists_ix2 j
  rw [h3_entry]
  rfl

theorem bn3_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v198 (F := Ideal) a0 a1 a4 a5 a6 a7 a8 a9 a10 a11 = Cert.Net.bnL (val_main_v171 (F := Ideal) a0 a1 a4 a5 a6 a7 a8 a9 a10 a11) (Cert.Net.rowOf3 2 a7) (Cert.Net.rowOf3 2 a11)
      (Cert.Net.rowOf3 2 a10) (Cert.Net.rowOf3 2 a8) (Cert.Net.rowOf3 2 a9) := by
  funext j
  obtain ⟨r, q, rfl⟩ := exists_ix2 j
  rw [bn3_entry]
  show bnAt _ _ _ _ _ _ = bnAt _ (Cert.Net.rowOf3 2 a7 (ix2 0 q)) (Cert.Net.rowOf3 2 a11 (ix2 0 q))
    (Cert.Net.rowOf3 2 a10 (ix2 0 q)) (Cert.Net.rowOf3 2 a8 (ix2 0 q)) (Cert.Net.rowOf3 2 a9 (ix2 0 q))
  rw [b3_row, v3_row, m3_row, g3_row, t3_row]

/-! ## The pair perceptron -/

theorem out_eq (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (a12 : (⟨S288x128, .f32⟩ : BufTy).Contents (Elt Ideal)) (a13 : (⟨S128, .f32⟩ : BufTy).Contents (Elt Ideal)) (a14 : (⟨S128x64, .f32⟩ : BufTy).Contents (Elt Ideal)) (a15 : (⟨S64, .f32⟩ : BufTy).Contents (Elt Ideal)) (a16 : (⟨S64x1, .f32⟩ : BufTy).Contents (Elt Ideal)) (a17 : (⟨S1, .f32⟩ : BufTy).Contents (Elt Ideal)) :
    val_main_v231 (F := Ideal) a0 a1 a2 a3 a4 a5 a6 a7 a8 a9 a10 a11 a12 a13 a14 a15 a16 a17
      = Cert.Net.mlpL (val_main_v217 (F := Ideal) a0 a1 a2 a3 a4 a5 a6 a7 a8 a9 a10 a11) a12 (Cert.Net.row128 a13) a14 (Cert.Net.row64 a15) a16 (Cert.Net.row1 a17) := by
  funext j
  obtain ⟨p, z, rfl⟩ := exists_ix2 j
  obtain rfl : z = 0 := Subsingleton.elim _ _
  rw [out_entry]
  show mlpAt _ _ _ _ _ _ _ = mlpAt _ _ (fun q => Cert.Net.row128 a13 (ix2 0 q)) _ (fun q => Cert.Net.row64 a15 (ix2 0 q)) _
    (Cert.Net.row1 a17 (ix2 0 0))
  simp only [row128_apply, row64_apply, row1_apply]

end Cert.ReferenceIdeal.RefLayers

end
-- ==== Proof.RI.RefNet.lean ====
/-
  The reference program computes the network.

  The reference's result, as a function of its eighteen argument arrays, is the network: its dense stages are the
  network's layers applied to the previous stage, its index stretches are the network's own, and the composition
  is the same.  With the run of the reference program (every weakly fair execution terminates with the result
  buffer at the composed term of the arguments, the arguments unchanged) this gives the run in the form the
  certificate uses: the result buffer holds the network of the arguments' launch contents.
-/
import proofs.«137698_j16329465660189_1_alg».proof.Proof.RI.RefRun
import proofs.«137698_j16329465660189_1_alg».proof.Proof.RI.RefLayers
import proofs.«137698_j16329465660189_1_alg».proof.Proof.Net

noncomputable section

namespace Cert.ReferenceIdeal.RefNet

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RefLayers Cert.ReferenceIdeal.RefOps

/-! ## The node table, layer by layer -/

theorem x1_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v78 (F := Ideal) a0 a1 a4 a5 a6 a7 a8 a9 a10 a11 = Cert.Net.layerOf 0 a1 a6 a7 a8 a9 a10 a11 (Cert.Net.x0Of a0 a4 a5) := by
  unfold Cert.Net.layerOf Cert.Net.x0Of
  rw [bn1_eq, agg1_eq, h1_eq, x0_eq]

theorem x2_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v138 (F := Ideal) a0 a1 a4 a5 a6 a7 a8 a9 a10 a11 = Cert.Net.layerOf 1 a1 a6 a7 a8 a9 a10 a11 (val_main_v78 (F := Ideal) a0 a1 a4 a5 a6 a7 a8 a9 a10 a11) := by
  unfold Cert.Net.layerOf
  rw [bn2_eq, agg2_eq, h2_eq]

theorem x3_eq' (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v198 (F := Ideal) a0 a1 a4 a5 a6 a7 a8 a9 a10 a11 = Cert.Net.layerOf 2 a1 a6 a7 a8 a9 a10 a11 (val_main_v138 (F := Ideal) a0 a1 a4 a5 a6 a7 a8 a9 a10 a11) := by
  unfold Cert.Net.layerOf
  rw [bn3_eq, agg3_eq, h3_eq]

theorem x3_eq (a0 : (⟨S50000x64, .f32⟩ : BufTy).Contents (Elt Ideal)) (a1 : (⟨S2x600000, .i32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) :
    val_main_v198 (F := Ideal) a0 a1 a4 a5 a6 a7 a8 a9 a10 a11 = Cert.Net.x3Of a0 a1 a4 a5 a6 a7 a8 a9 a10 a11 := by
  unfold Cert.Net.x3Of
  rw [x3_eq', x2_eq, x1_eq]

/-! ## The result -/

/-- The reference's result as a function of its eighteen arguments is the network. -/
theorem ref_eq_net (a0 : (⟨S50000x64, .f32⟩ : BufTy).Contents (Elt Ideal)) (a1 : (⟨S2x600000, .i32⟩ : BufTy).Contents (Elt Ideal)) (a2 : (⟨S200000x2, .i32⟩ : BufTy).Contents (Elt Ideal)) (a3 : (⟨S200000x32, .f32⟩ : BufTy).Contents (Elt Ideal)) (a4 : (⟨S64x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x128, .f32⟩ : BufTy).Contents (Elt Ideal)) (a9 : (⟨S3x128, .f32⟩ : BufTy).Contents (Elt Ideal)) (a10 : (⟨S3x128, .f32⟩ : BufTy).Contents (Elt Ideal)) (a11 : (⟨S3x128, .f32⟩ : BufTy).Contents (Elt Ideal)) (a12 : (⟨S288x128, .f32⟩ : BufTy).Contents (Elt Ideal)) (a13 : (⟨S128, .f32⟩ : BufTy).Contents (Elt Ideal)) (a14 : (⟨S128x64, .f32⟩ : BufTy).Contents (Elt Ideal)) (a15 : (⟨S64, .f32⟩ : BufTy).Contents (Elt Ideal)) (a16 : (⟨S64x1, .f32⟩ : BufTy).Contents (Elt Ideal)) (a17 : (⟨S1, .f32⟩ : BufTy).Contents (Elt Ideal)) :
    val_main_v231 (F := Ideal) a0 a1 a2 a3 a4 a5 a6 a7 a8 a9 a10 a11 a12 a13 a14 a15 a16 a17 = Cert.Net.Net a0 a1 a2 a3 a4 a5 a6 a7 a8 a9 a10 a11 a12 a13 a14 a15 a16 a17 := by
  unfold Cert.Net.Net
  rw [out_eq, z_eq, x3_eq]

section Run

variable {F : FTy → Type} [FloatOps F]

/-- The run's composed term of the arguments, named `res_main_v231`, is the last stage applied to the arguments'
    contents. -/
theorem val_main_v231_eq (m : (ℓ : Loc nD τ sig) → Buf (Elt F) ℓ) (c : Dev nD) :
    Cert.ReferenceIdeal.ValueP.res_main_v231 m c = val_main_v231 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.ValueP.res_main_v231; rfl

end Run

/-- The named result term of the run is the network of the arguments' launch contents. -/
theorem res_eq_net (m : (ℓ : Loc nD τ sig) → Buf (Elt Ideal) ℓ) (c : Dev nD) :
    Cert.ReferenceIdeal.ValueP.res_main_v231 (F := Ideal) m c = Cert.Net.Net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (val_main_v231_eq (F := Ideal) m c).trans (ref_eq_net _ _ _ _ _ _ _ _ _ _ _ _ _ _ _ _ _ _)

/-- On every device, from any memory with zero counters: every weakly fair execution of the reference program
    terminates with the result buffer at the network of the arguments' launch contents and the arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v231) = Cert.Net.Net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨((h c).1).trans (res_eq_net m c), (h c).2⟩)
    (Cert.ReferenceIdeal.ValueP.run (F := Ideal) m ρ)

end Cert.ReferenceIdeal.RefNet

end
-- ==== Proof.Claims.lean ====
/-
  The five claims, assembled from the runs of the three programs.

  * Each program runs to its end from any memory and leaves its eighteen argument arrays as launched: for the
    kernel's program (at both readings) this is read off the last boundary of its run, region by region and host
    stretch by host stretch; for the reference it is the second half of its run's statement.
  * The ideal reading rewrote no operation, so there is nothing to preserve.
  * At the ideal reading both programs leave the same result array, the network applied to the arguments: the
    kernel's run ends with the network of ITS arguments in its result buffer, the reference's run with the network
    of its own, and the two sets of arguments are equal by hypothesis.
-/
import proofs.«137698_j16329465660189_1_alg».proof.Defs
import proofs.«137698_j16329465660189_1_alg».proof.Proof.Gen.Kernel
import proofs.«137698_j16329465660189_1_alg».proof.Proof.Gen.KernelIdeal
import proofs.«137698_j16329465660189_1_alg».proof.Proof.Gen.ReferenceIdeal
import proofs.«137698_j16329465660189_1_alg».proof.Proof.Gen.Pre_finite_inputs
import proofs.«137698_j16329465660189_1_alg».proof.Proof.K.Run
import proofs.«137698_j16329465660189_1_alg».proof.Proof.KI.Run
import proofs.«137698_j16329465660189_1_alg».proof.Proof.KI.Value
import proofs.«137698_j16329465660189_1_alg».proof.Proof.RI.RefNet

noncomputable section

open Idealize.ShloMosaic Idealize.ShloMosaic.TcCoe Idealize.SL.Sem

namespace Cert.Proof.Claims

/-- The network of the eighteen argument arrays a memory of the kernel's program holds on device `c`: what both
    programs leave in their result array. -/
abbrev netOf (m : (ℓ : Loc Cert.KernelIdeal.nD Cert.KernelIdeal.τ Cert.KernelIdeal.sig) → Buf (Elt Ideal) ℓ)
    (c : Dev Cert.KernelIdeal.nD) :=
  Cert.Net.Net (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))

/-- The kernel's program, at the bit-exact reading, runs to its end and leaves its argument arrays as launched. -/
theorem frame_k : Cert.frame_Kernel := fun m ρ _ => Cert.Kernel.Frm.frame m ρ

/-- So does its ideal reading. -/
theorem frame_ki : Cert.frame_KernelIdeal := fun m ρ _ => Cert.KernelIdeal.Frm.frame m ρ

/-- So does the reference: its run gives the result array and the unchanged arguments together; the frame is the
    second part. -/
theorem frame_ri : Cert.frame_ReferenceIdeal := fun m ρ _ =>
  (θ_run Cert.ReferenceIdeal.defs _ _).mono (fun _ h c => (h c).2) (Cert.ReferenceIdeal.RefNet.run_net m ρ)

/-- The ideal reading rewrote no operation of the kernel's program: nothing to preserve. -/
theorem preserves : Cert.preserves_Kernel_KernelIdeal := trivial

/-- From memories that agree on the eighteen arguments both programs run to their ends, leave their arguments as
    launched, and leave the SAME result array: the network of the arguments. The kernel's side reads the last
    boundary of its run at the result buffer and at each argument buffer; the reference's side is its run, with its
    arguments replaced by the kernel's, equal by hypothesis. -/
theorem algebraic : Cert.algebraic_KernelIdeal_ReferenceIdeal := by
  intro m ρ m' ρ' _ hagree
  refine ⟨fun c => netOf m c, ?_, ?_⟩
  · exact (θ_run Cert.KernelIdeal.defs _ _).mono (fun r h c =>
      ⟨(h c _ (Cert.KernelIdeal.Frm.mem_uc Cert.KernelIdeal.main_v150 (by decide))).trans (Cert.KernelIdeal.Val.result m c),
      (h c _ (Cert.KernelIdeal.Frm.mem_uc Cert.KernelIdeal.main_arg0 (by decide))).trans (Cert.KernelIdeal.Frm.Bd18_main_arg0 m c),
      (h c _ (Cert.KernelIdeal.Frm.mem_uc Cert.KernelIdeal.main_arg1 (by decide))).trans (Cert.KernelIdeal.Frm.Bd18_main_arg1 m c),
      (h c _ (Cert.KernelIdeal.Frm.mem_uc Cert.KernelIdeal.main_arg2 (by decide))).trans (Cert.KernelIdeal.Frm.Bd18_main_arg2 m c),
      (h c _ (Cert.KernelIdeal.Frm.mem_uc Cert.KernelIdeal.main_arg3 (by decide))).trans (Cert.KernelIdeal.Frm.Bd18_main_arg3 m c),
      (h c _ (Cert.KernelIdeal.Frm.mem_uc Cert.KernelIdeal.main_arg4 (by decide))).trans (Cert.KernelIdeal.Frm.Bd18_main_arg4 m c),
      (h c _ (Cert.KernelIdeal.Frm.mem_uc Cert.KernelIdeal.main_arg5 (by decide))).trans (Cert.KernelIdeal.Frm.Bd18_main_arg5 m c),
      (h c _ (Cert.KernelIdeal.Frm.mem_uc Cert.KernelIdeal.main_arg6 (by decide))).trans (Cert.KernelIdeal.Frm.Bd18_main_arg6 m c),
      (h c _ (Cert.KernelIdeal.Frm.mem_uc Cert.KernelIdeal.main_arg7 (by decide))).trans (Cert.KernelIdeal.Frm.Bd18_main_arg7 m c),
      (h c _ (Cert.KernelIdeal.Frm.mem_uc Cert.KernelIdeal.main_arg8 (by decide))).trans (Cert.KernelIdeal.Frm.Bd18_main_arg8 m c),
      (h c _ (Cert.KernelIdeal.Frm.mem_uc Cert.KernelIdeal.main_arg9 (by decide))).trans (Cert.KernelIdeal.Frm.Bd18_main_arg9 m c),
      (h c _ (Cert.KernelIdeal.Frm.mem_uc Cert.KernelIdeal.main_arg10 (by decide))).trans (Cert.KernelIdeal.Frm.Bd18_main_arg10 m c),
      (h c _ (Cert.KernelIdeal.Frm.mem_uc Cert.KernelIdeal.main_arg11 (by decide))).trans (Cert.KernelIdeal.Frm.Bd18_main_arg11 m c),
      (h c _ (Cert.KernelIdeal.Frm.mem_uc Cert.KernelIdeal.main_arg12 (by decide))).trans (Cert.KernelIdeal.Frm.Bd18_main_arg12 m c),
      (h c _ (Cert.KernelIdeal.Frm.mem_uc Cert.KernelIdeal.main_arg13 (by decide))).trans (Cert.KernelIdeal.Frm.Bd18_main_arg13 m c),
      (h c _ (Cert.KernelIdeal.Frm.mem_uc Cert.KernelIdeal.main_arg14 (by decide))).trans (Cert.KernelIdeal.Frm.Bd18_main_arg14 m c),
      (h c _ (Cert.KernelIdeal.Frm.mem_uc Cert.KernelIdeal.main_arg15 (by decide))).trans (Cert.KernelIdeal.Frm.Bd18_main_arg15 m c),
      (h c _ (Cert.KernelIdeal.Frm.mem_uc Cert.KernelIdeal.main_arg16 (by decide))).trans (Cert.KernelIdeal.Frm.Bd18_main_arg16 m c),
      (h c _ (Cert.KernelIdeal.Frm.mem_uc Cert.KernelIdeal.main_arg17 (by decide))).trans (Cert.KernelIdeal.Frm.Bd18_main_arg17 m c)⟩) (Cert.KernelIdeal.Frm.run m ρ)
  · refine (θ_run Cert.ReferenceIdeal.defs _ _).mono (fun r h c => ⟨(h c).1.trans ?_, (h c).2⟩)
      (Cert.ReferenceIdeal.RefNet.run_net m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

end Cert.Proof.Claims

end
-- ==== Proof.lean ====
/-
  The certificate of a three-layer graph convolution network with a pair read-out, computed by eight kernel regions
  with host arithmetic between them, against the same network written as whole-array host operations.

  THE NETWORK. From an atom table (50000 × 64), an edge array, a pair array with pair features, and the weights:

    x₀ = atoms · embed_W + embed_b ;
    for i < 3 :  h = x · conv_W[i] ;  agg = for every node, the sum over its incoming edges (self loops added) of the
                 source's row of h times the edge's weight (the product of the inverse square roots of the two ends'
                 in-degrees) ;
                 x = max (((agg + conv_b[i]) − mean[i]) · rsqrt (var[i] + ε) · gamma[i] + beta[i]) 0 ;
    z = the rows of x₃ at the two ends of every pair, then the pair's own features (200000 × 288) ;
    out = max (max (z · W₁ + b₁) 0 · W₂ + b₂) 0 · W₃ + b₃   (200000 × 1).

  WHAT IS CLAIMED. Each of the three programs (the kernel's at the bit-exact reading, the kernel's at the ideal
  reading, the reference at the ideal reading) runs to its end from any memory and leaves its eighteen argument
  arrays as launched. At the ideal reading — a float an extended real, every operation exact, a change of float
  format the identity, a matrix product the exact sum over the shared axis — the kernel's program and the reference,
  started from equal arguments, end with equal result arrays. The ideal reading rewrote no operation of the kernel's
  program, so the fourth claim is trivial.

  WHY IT IS TRUE. At the ideal reading both programs are the same composition of the same functions; the kernel's
  program only cuts the row-local stages into blocks of rows. The embedding, each layer's dense map, each layer's
  normalisation with its rectifier, and the read-out perceptron are ROW-LOCAL: row r of the result depends on row r
  of the input and on the weights only, so a block of rows of the result is the stage applied to the same block of
  rows of the input, and blocks that tile the rows give the whole result. The stages that are not row-local (the
  edge lists, the edge weights, the aggregation over edges, the slices of the stacked weights, the pair features)
  are host operations in both programs, the same operations with the same dimension records. No sum is reordered
  and no product re-associated.

  HOW THE PROOF IS CUT.
  * The entry formulas: the four row-local stages as functions of one input row (one entry, for the normalisation)
    and the weights. The layers: the same four as whole-array functions, defined row by row from the entry formulas.
    The host arithmetic between the layers as pure functions of array contents, and the network as their composition.
  * The kernel's program, region by region: the blocks a region's windows hold at a grid point, and that its body
    stores, in one whole-block store, its arithmetic applied to the loaded blocks. Each body's arithmetic read at one
    entry is an entry formula. Hence what a region leaves in its output array: point t of its grid writes rows
    t·R … t·R + R − 1 of the layer of the arrays the region reads, and the row blocks tile the array.
  * The boundary walk: the contents of every unscoped buffer at each of the 19 boundaries between the items of the
    kernel's main function, as a fold from the launch memory. A host stretch applies its operations; a region changes
    its one output array and nothing else. Each argument array is, at the last boundary, what the launch memory held.
  * The run: the launch as 18 items, ten host stretches and the eight regions, over the thread state "every unscoped
    buffer at the boundary's contents"; it ends with every unscoped buffer at the last boundary's contents. The frame
    is read off at the argument buffers (at any float reading), the value at the result buffer.
  * The value: walking the boundaries, each region leaves its layer of what it read, each host stretch its functions
    of what it read, and the edge lists and edge weights written by the opening stretches are still there at each of
    the three aggregations; the result buffer at the last boundary is the network of the launch arguments.
  * The reference: its run ends with the result buffer at the composed term of its host operations and the arguments
    unchanged; each of its dense stages, read at an entry, is an entry formula of the previous stage's row, so as a
    whole array it is the network's layer; its index stretches are the network's own terms; the composition is the
    network.
  * The claims: the three frames and the equality of the two result arrays, from the two runs and the hypothesis
    that the arguments agree.
-/
import proofs.«137698_j16329465660189_1_alg».proof.Defs
import proofs.«137698_j16329465660189_1_alg».proof.Proof.Gen.Kernel
import proofs.«137698_j16329465660189_1_alg».proof.Proof.Gen.KernelIdeal
import proofs.«137698_j16329465660189_1_alg».proof.Proof.Gen.ReferenceIdeal
import proofs.«137698_j16329465660189_1_alg».proof.Proof.Gen.Pre_finite_inputs
import proofs.«137698_j16329465660189_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
